-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "hit_d1_plus_d2" .f32 0x3F666CF4#32 ((123708798743 / 137438953472 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x50 : Shape := ⟨2, ![16384, 50]⟩
abbrev S_ : Shape := ⟨0, ![]⟩

class Facts : Prop where
  bcast_S_S16384x50 : S_.BroadcastsInDim S16384x50 (![] : Fin 0 → Fin S16384x50.rank)
  reducesTo_S16384x50_S_d0_1 : S16384x50.ReducesTo [0, 1] S_
  h_S_ : 0 < S_.numel

variable [Facts]

def fn {F : FTy → Type} [FloatOps F] (main_arg0 : IVec S16384x50 32) : IVec S_ 1 :=
  let main_c : IVec S_ 32 := constantI S_ 32 0#32
  let main_v0 : IVec S16384x50 32 := broadcastInDim S16384x50 ![] bcast_S_S16384x50 main_c
  let main_v1 : IVec S16384x50 1 := cmpi .sge main_arg0 main_v0
  let main_c_0 : IVec S_ 32 := constantI S_ 32 999#32
  let main_v2 : IVec S16384x50 32 := broadcastInDim S16384x50 ![] bcast_S_S16384x50 main_c_0
  let main_v3 : IVec S16384x50 1 := cmpi .sle main_arg0 main_v2
  let main_v4 : IVec S16384x50 1 := andi main_v1 main_v3
  let main_c_1 : IVec S_ 1 := constantI S_ 1 1#1
  let main_v5 : IVec S_ 1 := (fun x v => Host.reduce IntOp.andi x v reducesTo_S16384x50_S_d0_1 h_S_) main_v4 main_c_1
  main_v5
-- ==== Kernel.lean ====
abbrev S16384x50 : Shape := ⟨2, ![16384, 50]⟩
abbrev S50x16384 : Shape := ⟨2, ![50, 16384]⟩
abbrev S1000x16384 : Shape := ⟨2, ![1000, 16384]⟩
abbrev S18x128 : Shape := ⟨2, ![18, 128]⟩
abbrev S1000x128 : Shape := ⟨2, ![1000, 128]⟩
abbrev S16 : Shape := ⟨1, ![16]⟩
abbrev S1x16 : Shape := ⟨2, ![1, 16]⟩
abbrev S_ : Shape := ⟨0, ![]⟩
abbrev S16x128 : Shape := ⟨2, ![16, 128]⟩
abbrev S16384x1000 : Shape := ⟨2, ![16384, 1000]⟩

abbrev nBuf : Table → Nat
  | .hbm => 4
  | .local .scVector .vmem => 2
  | _ => 0

abbrev bufTy : (tb : Table) → Fin (nBuf tb) → BufTy
  | .hbm, ⟨0, _⟩ => ⟨S16384x50, .i32⟩
  | .hbm, ⟨1, _⟩ => ⟨S50x16384, .i32⟩
  | .hbm, ⟨2, _⟩ => ⟨S1000x16384, .f32⟩
  | .hbm, ⟨3, _⟩ => ⟨S16384x1000, .f32⟩
  | .local .scVector .vmem, ⟨0, _⟩ => ⟨S18x128, .i32⟩
  | .local .scVector .vmem, ⟨1, _⟩ => ⟨S1000x128, .f32⟩
  | _, _ => ⟨S16384x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_2 : BitVec 32 := 0#32
  let c1000_i32 : BitVec 32 := 1000#32
  let v21 : BitVec 32 := Scalar.addi c0_i32_2 c1000_i32
  let c1_i32 : BitVec 32 := 1#32
  ⟨c0_i32_2, v21, c1_i32⟩
@[reducible] def k0_t2_loop : Scf.Loop 32 :=
  let c0_i32_113 : BitVec 32 := 0#32
  let c8_i32 : BitVec 32 := 8#32
  let v73 : BitVec 32 := Scalar.addi c0_i32_113 c8_i32
  let c1_i32_114 : BitVec 32 := 1#32
  ⟨c0_i32_113, v73, c1_i32_114⟩
def k0_off1 (k0_t1 : Fin k0_t1_loop.trips) (k0_t2 : Fin k0_t2_loop.trips) : Fin 2 → Nat :=
  let c0_i32_2 : BitVec 32 := 0#32
  let c1_i32 : BitVec 32 := 1#32
  let arg6 : BitVec 32 := Scf.iv c0_i32_2 c1_i32 k0_t1
  let v76 : Index := Scalar.indexCast arg6
  let c0_i32_113 : BitVec 32 := 0#32
  let c1_i32_114 : BitVec 32 := 1#32
  let arg8 : BitVec 32 := Scf.iv c0_i32_113 c1_i32_114 k0_t2
  let c16_i32_117 : BitVec 32 := 16#32
  let v75 : BitVec 32 := Scalar.muli arg8 c16_i32_117
  let v77 : Index := Scalar.indexCast v75
  ![v76.toNat, v77.toNat]
def k0_off2 (i : grid0.Coords) : Fin 2 → Nat :=
  let c0_i32_114_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v23 : BitVec 32 := Scalar.muli v1 c512_i32
  let c0_i32_4 : BitVec 32 := 0#32
  let v24 : BitVec 32 := Scalar.addi v23 c0_i32_4
  ![0, v24.toNat]
@[reducible] def k0_t3_loop : Scf.Loop 32 :=
  let c0_i32_6 : BitVec 32 := 0#32
  let c16_i32_7 : BitVec 32 := 16#32
  let v25 : BitVec 32 := Scalar.addi c0_i32_6 c16_i32_7
  let c1_i32_8 : BitVec 32 := 1#32
  ⟨c0_i32_6, v25, c1_i32_8⟩
def k0_off3 (k0_t3 : Fin k0_t3_loop.trips) : Fin 2 → Nat :=
  let c0_i32_6 : BitVec 32 := 0#32
  let c1_i32_8 : BitVec 32 := 1#32
  let arg6 : BitVec 32 := Scf.iv c0_i32_6 c1_i32_8 k0_t3
  let v73 : Index := Scalar.indexCast arg6
  let c0 : Index := 0#32
  ![v73.toNat, 0]
def k0_off4 (k0_t3 : Fin k0_t3_loop.trips) : Fin 2 → Nat :=
  let c0_i32_6 : BitVec 32 := 0#32
  let c1_i32_8 : BitVec 32 := 1#32
  let arg6 : BitVec 32 := Scf.iv c0_i32_6 c1_i32_8 k0_t3
  let v75 : Index := Scalar.indexCast arg6
  let c16 : Index := 16#32
  ![v75.toNat, 16]
def k0_off5 (k0_t3 : Fin k0_t3_loop.trips) : Fin 2 → Nat :=
  let c0_i32_6 : BitVec 32 := 0#32
  let c1_i32_8 : BitVec 32 := 1#32
  let arg6 : BitVec 32 := Scf.iv c0_i32_6 c1_i32_8 k0_t3
  let v77 : Index := Scalar.indexCast arg6
  let c32 : Index := 32#32
  ![v77.toNat, 32]
def k0_off6 (k0_t3 : Fin k0_t3_loop.trips) : Fin 2 → Nat :=
  let c0_i32_6 : BitVec 32 := 0#32
  let c1_i32_8 : BitVec 32 := 1#32
  let arg6 : BitVec 32 := Scf.iv c0_i32_6 c1_i32_8 k0_t3
  let v79 : Index := Scalar.indexCast arg6
  let c48 : Index := 48#32
  ![v79.toNat, 48]
def k0_off7 (k0_t3 : Fin k0_t3_loop.trips) : Fin 2 → Nat :=
  let c0_i32_6 : BitVec 32 := 0#32
  let c1_i32_8 : BitVec 32 := 1#32
  let arg6 : BitVec 32 := Scf.iv c0_i32_6 c1_i32_8 k0_t3
  let v81 : Index := Scalar.indexCast arg6
  let c64 : Index := 64#32
  ![v81.toNat, 64]
def k0_off8 (k0_t3 : Fin k0_t3_loop.trips) : Fin 2 → Nat :=
  let c0_i32_6 : BitVec 32 := 0#32
  let c1_i32_8 : BitVec 32 := 1#32
  let arg6 : BitVec 32 := Scf.iv c0_i32_6 c1_i32_8 k0_t3
  let v83 : Index := Scalar.indexCast arg6
  let c80 : Index := 80#32
  ![v83.toNat, 80]
def k0_off9 (k0_t3 : Fin k0_t3_loop.trips) : Fin 2 → Nat :=
  let c0_i32_6 : BitVec 32 := 0#32
  let c1_i32_8 : BitVec 32 := 1#32
  let arg6 : BitVec 32 := Scf.iv c0_i32_6 c1_i32_8 k0_t3
  let v85 : Index := Scalar.indexCast arg6
  let c96 : Index := 96#32
  ![v85.toNat, 96]
def k0_off10 (k0_t3 : Fin k0_t3_loop.trips) : Fin 2 → Nat :=
  let c0_i32_6 : BitVec 32 := 0#32
  let c1_i32_8 : BitVec 32 := 1#32
  let arg6 : BitVec 32 := Scf.iv c0_i32_6 c1_i32_8 k0_t3
  let v87 : Index := Scalar.indexCast arg6
  let c112 : Index := 112#32
  ![v87.toNat, 112]

def k0_chk1 (v6 : IVec S16 32) (v74 : IVec S16 32) : Prop :=
  (∀ a x, ((![v74, v6] : Fin 2 → IVec S16 32) a x).toNat < S1000x128.size a)
instance k0_chk1.dec : ∀ (v6 : IVec S16 32) (v74 : IVec S16 32), Decidable (k0_chk1 v6 v74) := fun v6 v74 => decidable_of_iff' _ (Iff.of_eq (k0_chk1.eq_1 v6 v74))
theorem k0_idx1_inb : ∀ (v6 : IVec S16 32) (v74 : IVec S16 32) (k0_hw1 : k0_chk1 v6 v74), ∀ a x, ((![v74, v6] : Fin 2 → IVec S16 32) a x).toNat < S1000x128.size a := fun v6 v74 k0_hw1 => k0_hw1

def k0_chk2 (v8 : IVec S16 32) (v76 : IVec S16 32) : Prop :=
  (∀ a x, ((![v76, v8] : Fin 2 → IVec S16 32) a x).toNat < S1000x128.size a)
instance k0_chk2.dec : ∀ (v8 : IVec S16 32) (v76 : IVec S16 32), Decidable (k0_chk2 v8 v76) := fun v8 v76 => decidable_of_iff' _ (Iff.of_eq (k0_chk2.eq_1 v8 v76))
theorem k0_idx2_inb : ∀ (v8 : IVec S16 32) (v76 : IVec S16 32) (k0_hw2 : k0_chk2 v8 v76), ∀ a x, ((![v76, v8] : Fin 2 → IVec S16 32) a x).toNat < S1000x128.size a := fun v8 v76 k0_hw2 => k0_hw2

def k0_chk3 (v10 : IVec S16 32) (v78 : IVec S16 32) : Prop :=
  (∀ a x, ((![v78, v10] : Fin 2 → IVec S16 32) a x).toNat < S1000x128.size a)
instance k0_chk3.dec : ∀ (v10 : IVec S16 32) (v78 : IVec S16 32), Decidable (k0_chk3 v10 v78) := fun v10 v78 => decidable_of_iff' _ (Iff.of_eq (k0_chk3.eq_1 v10 v78))
theorem k0_idx3_inb : ∀ (v10 : IVec S16 32) (v78 : IVec S16 32) (k0_hw3 : k0_chk3 v10 v78), ∀ a x, ((![v78, v10] : Fin 2 → IVec S16 32) a x).toNat < S1000x128.size a := fun v10 v78 k0_hw3 => k0_hw3

def k0_chk4 (v12 : IVec S16 32) (v80 : IVec S16 32) : Prop :=
  (∀ a x, ((![v80, v12] : Fin 2 → IVec S16 32) a x).toNat < S1000x128.size a)
instance k0_chk4.dec : ∀ (v12 : IVec S16 32) (v80 : IVec S16 32), Decidable (k0_chk4 v12 v80) := fun v12 v80 => decidable_of_iff' _ (Iff.of_eq (k0_chk4.eq_1 v12 v80))
theorem k0_idx4_inb : ∀ (v12 : IVec S16 32) (v80 : IVec S16 32) (k0_hw4 : k0_chk4 v12 v80), ∀ a x, ((![v80, v12] : Fin 2 → IVec S16 32) a x).toNat < S1000x128.size a := fun v12 v80 k0_hw4 => k0_hw4

def k0_chk5 (v14 : IVec S16 32) (v82 : IVec S16 32) : Prop :=
  (∀ a x, ((![v82, v14] : Fin 2 → IVec S16 32) a x).toNat < S1000x128.size a)
instance k0_chk5.dec : ∀ (v14 : IVec S16 32) (v82 : IVec S16 32), Decidable (k0_chk5 v14 v82) := fun v14 v82 => decidable_of_iff' _ (Iff.of_eq (k0_chk5.eq_1 v14 v82))
theorem k0_idx5_inb : ∀ (v14 : IVec S16 32) (v82 : IVec S16 32) (k0_hw5 : k0_chk5 v14 v82), ∀ a x, ((![v82, v14] : Fin 2 → IVec S16 32) a x).toNat < S1000x128.size a := fun v14 v82 k0_hw5 => k0_hw5

def k0_chk6 (v16 : IVec S16 32) (v84 : IVec S16 32) : Prop :=
  (∀ a x, ((![v84, v16] : Fin 2 → IVec S16 32) a x).toNat < S1000x128.size a)
instance k0_chk6.dec : ∀ (v16 : IVec S16 32) (v84 : IVec S16 32), Decidable (k0_chk6 v16 v84) := fun v16 v84 => decidable_of_iff' _ (Iff.of_eq (k0_chk6.eq_1 v16 v84))
theorem k0_idx6_inb : ∀ (v16 : IVec S16 32) (v84 : IVec S16 32) (k0_hw6 : k0_chk6 v16 v84), ∀ a x, ((![v84, v16] : Fin 2 → IVec S16 32) a x).toNat < S1000x128.size a := fun v16 v84 k0_hw6 => k0_hw6

def k0_chk7 (v18 : IVec S16 32) (v86 : IVec S16 32) : Prop :=
  (∀ a x, ((![v86, v18] : Fin 2 → IVec S16 32) a x).toNat < S1000x128.size a)
instance k0_chk7.dec : ∀ (v18 : IVec S16 32) (v86 : IVec S16 32), Decidable (k0_chk7 v18 v86) := fun v18 v86 => decidable_of_iff' _ (Iff.of_eq (k0_chk7.eq_1 v18 v86))
theorem k0_idx7_inb : ∀ (v18 : IVec S16 32) (v86 : IVec S16 32) (k0_hw7 : k0_chk7 v18 v86), ∀ a x, ((![v86, v18] : Fin 2 → IVec S16 32) a x).toNat < S1000x128.size a := fun v18 v86 k0_hw7 => k0_hw7

def k0_chk8 (v20 : IVec S16 32) (v88 : IVec S16 32) : Prop :=
  (∀ a x, ((![v88, v20] : Fin 2 → IVec S16 32) a x).toNat < S1000x128.size a)
instance k0_chk8.dec : ∀ (v20 : IVec S16 32) (v88 : IVec S16 32), Decidable (k0_chk8 v20 v88) := fun v20 v88 => decidable_of_iff' _ (Iff.of_eq (k0_chk8.eq_1 v20 v88))
theorem k0_idx8_inb : ∀ (v20 : IVec S16 32) (v88 : IVec S16 32) (k0_hw8 : k0_chk8 v20 v88), ∀ a x, ((![v88, v20] : Fin 2 → IVec S16 32) a x).toNat < S1000x128.size a := fun v20 v88 k0_hw8 => k0_hw8
def k0_off11 (i : grid0.Coords) (c0_i32_4 : BitVec 32) : Fin 2 → Nat :=
  let c16_i32_114_r1 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v23 : BitVec 32 := Scalar.muli v1 c512_i32
  let v24 : BitVec 32 := Scalar.addi v23 c0_i32_4
  ![16, v24.toNat]
@[reducible] def k0_t4_loop : Scf.Loop 32 :=
  let c0_i32_11 : BitVec 32 := 0#32
  let c16_i32_12 : BitVec 32 := 16#32
  let v27 : BitVec 32 := Scalar.addi c0_i32_11 c16_i32_12
  let c1_i32_13 : BitVec 32 := 1#32
  ⟨c0_i32_11, v27, c1_i32_13⟩
def k0_off12 (k0_t4 : Fin k0_t4_loop.trips) : Fin 2 → Nat :=
  let c0_i32_11 : BitVec 32 := 0#32
  let c1_i32_13 : BitVec 32 := 1#32
  let arg6 : BitVec 32 := Scf.iv c0_i32_11 c1_i32_13 k0_t4
  let v73 : Index := Scalar.indexCast arg6
  let c0 : Index := 0#32
  ![v73.toNat, 0]
def k0_off13 (k0_t4 : Fin k0_t4_loop.trips) : Fin 2 → Nat :=
  let c0_i32_11 : BitVec 32 := 0#32
  let c1_i32_13 : BitVec 32 := 1#32
  let arg6 : BitVec 32 := Scf.iv c0_i32_11 c1_i32_13 k0_t4
  let v75 : Index := Scalar.indexCast arg6
  let c16 : Index := 16#32
  ![v75.toNat, 16]
def k0_off14 (k0_t4 : Fin k0_t4_loop.trips) : Fin 2 → Nat :=
  let c0_i32_11 : BitVec 32 := 0#32
  let c1_i32_13 : BitVec 32 := 1#32
  let arg6 : BitVec 32 := Scf.iv c0_i32_11 c1_i32_13 k0_t4
  let v77 : Index := Scalar.indexCast arg6
  let c32 : Index := 32#32
  ![v77.toNat, 32]
def k0_off15 (k0_t4 : Fin k0_t4_loop.trips) : Fin 2 → Nat :=
  let c0_i32_11 : BitVec 32 := 0#32
  let c1_i32_13 : BitVec 32 := 1#32
  let arg6 : BitVec 32 := Scf.iv c0_i32_11 c1_i32_13 k0_t4
  let v79 : Index := Scalar.indexCast arg6
  let c48 : Index := 48#32
  ![v79.toNat, 48]
def k0_off16 (k0_t4 : Fin k0_t4_loop.trips) : Fin 2 → Nat :=
  let c0_i32_11 : BitVec 32 := 0#32
  let c1_i32_13 : BitVec 32 := 1#32
  let arg6 : BitVec 32 := Scf.iv c0_i32_11 c1_i32_13 k0_t4
  let v81 : Index := Scalar.indexCast arg6
  let c64 : Index := 64#32
  ![v81.toNat, 64]
def k0_off17 (k0_t4 : Fin k0_t4_loop.trips) : Fin 2 → Nat :=
  let c0_i32_11 : BitVec 32 := 0#32
  let c1_i32_13 : BitVec 32 := 1#32
  let arg6 : BitVec 32 := Scf.iv c0_i32_11 c1_i32_13 k0_t4
  let v83 : Index := Scalar.indexCast arg6
  let c80 : Index := 80#32
  ![v83.toNat, 80]
def k0_off18 (k0_t4 : Fin k0_t4_loop.trips) : Fin 2 → Nat :=
  let c0_i32_11 : BitVec 32 := 0#32
  let c1_i32_13 : BitVec 32 := 1#32
  let arg6 : BitVec 32 := Scf.iv c0_i32_11 c1_i32_13 k0_t4
  let v85 : Index := Scalar.indexCast arg6
  let c96 : Index := 96#32
  ![v85.toNat, 96]
def k0_off19 (k0_t4 : Fin k0_t4_loop.trips) : Fin 2 → Nat :=
  let c0_i32_11 : BitVec 32 := 0#32
  let c1_i32_13 : BitVec 32 := 1#32
  let arg6 : BitVec 32 := Scf.iv c0_i32_11 c1_i32_13 k0_t4
  let v87 : Index := Scalar.indexCast arg6
  let c112 : Index := 112#32
  ![v87.toNat, 112]

def k0_chk9 (v6 : IVec S16 32) (v74 : IVec S16 32) : Prop :=
  (∀ a x, ((![v74, v6] : Fin 2 → IVec S16 32) a x).toNat < S1000x128.size a)
instance k0_chk9.dec : ∀ (v6 : IVec S16 32) (v74 : IVec S16 32), Decidable (k0_chk9 v6 v74) := fun v6 v74 => decidable_of_iff' _ (Iff.of_eq (k0_chk9.eq_1 v6 v74))
theorem k0_idx9_inb : ∀ (v6 : IVec S16 32) (v74 : IVec S16 32) (k0_hw9 : k0_chk9 v6 v74), ∀ a x, ((![v74, v6] : Fin 2 → IVec S16 32) a x).toNat < S1000x128.size a := fun v6 v74 k0_hw9 => k0_hw9

def k0_chk10 (v8 : IVec S16 32) (v76 : IVec S16 32) : Prop :=
  (∀ a x, ((![v76, v8] : Fin 2 → IVec S16 32) a x).toNat < S1000x128.size a)
instance k0_chk10.dec : ∀ (v8 : IVec S16 32) (v76 : IVec S16 32), Decidable (k0_chk10 v8 v76) := fun v8 v76 => decidable_of_iff' _ (Iff.of_eq (k0_chk10.eq_1 v8 v76))
theorem k0_idx10_inb : ∀ (v8 : IVec S16 32) (v76 : IVec S16 32) (k0_hw10 : k0_chk10 v8 v76), ∀ a x, ((![v76, v8] : Fin 2 → IVec S16 32) a x).toNat < S1000x128.size a := fun v8 v76 k0_hw10 => k0_hw10

def k0_chk11 (v10 : IVec S16 32) (v78 : IVec S16 32) : Prop :=
  (∀ a x, ((![v78, v10] : Fin 2 → IVec S16 32) a x).toNat < S1000x128.size a)
instance k0_chk11.dec : ∀ (v10 : IVec S16 32) (v78 : IVec S16 32), Decidable (k0_chk11 v10 v78) := fun v10 v78 => decidable_of_iff' _ (Iff.of_eq (k0_chk11.eq_1 v10 v78))
theorem k0_idx11_inb : ∀ (v10 : IVec S16 32) (v78 : IVec S16 32) (k0_hw11 : k0_chk11 v10 v78), ∀ a x, ((![v78, v10] : Fin 2 → IVec S16 32) a x).toNat < S1000x128.size a := fun v10 v78 k0_hw11 => k0_hw11

def k0_chk12 (v12 : IVec S16 32) (v80 : IVec S16 32) : Prop :=
  (∀ a x, ((![v80, v12] : Fin 2 → IVec S16 32) a x).toNat < S1000x128.size a)
instance k0_chk12.dec : ∀ (v12 : IVec S16 32) (v80 : IVec S16 32), Decidable (k0_chk12 v12 v80) := fun v12 v80 => decidable_of_iff' _ (Iff.of_eq (k0_chk12.eq_1 v12 v80))
theorem k0_idx12_inb : ∀ (v12 : IVec S16 32) (v80 : IVec S16 32) (k0_hw12 : k0_chk12 v12 v80), ∀ a x, ((![v80, v12] : Fin 2 → IVec S16 32) a x).toNat < S1000x128.size a := fun v12 v80 k0_hw12 => k0_hw12

def k0_chk13 (v14 : IVec S16 32) (v82 : IVec S16 32) : Prop :=
  (∀ a x, ((![v82, v14] : Fin 2 → IVec S16 32) a x).toNat < S1000x128.size a)
instance k0_chk13.dec : ∀ (v14 : IVec S16 32) (v82 : IVec S16 32), Decidable (k0_chk13 v14 v82) := fun v14 v82 => decidable_of_iff' _ (Iff.of_eq (k0_chk13.eq_1 v14 v82))
theorem k0_idx13_inb : ∀ (v14 : IVec S16 32) (v82 : IVec S16 32) (k0_hw13 : k0_chk13 v14 v82), ∀ a x, ((![v82, v14] : Fin 2 → IVec S16 32) a x).toNat < S1000x128.size a := fun v14 v82 k0_hw13 => k0_hw13

def k0_chk14 (v16 : IVec S16 32) (v84 : IVec S16 32) : Prop :=
  (∀ a x, ((![v84, v16] : Fin 2 → IVec S16 32) a x).toNat < S1000x128.size a)
instance k0_chk14.dec : ∀ (v16 : IVec S16 32) (v84 : IVec S16 32), Decidable (k0_chk14 v16 v84) := fun v16 v84 => decidable_of_iff' _ (Iff.of_eq (k0_chk14.eq_1 v16 v84))
theorem k0_idx14_inb : ∀ (v16 : IVec S16 32) (v84 : IVec S16 32) (k0_hw14 : k0_chk14 v16 v84), ∀ a x, ((![v84, v16] : Fin 2 → IVec S16 32) a x).toNat < S1000x128.size a := fun v16 v84 k0_hw14 => k0_hw14

def k0_chk15 (v18 : IVec S16 32) (v86 : IVec S16 32) : Prop :=
  (∀ a x, ((![v86, v18] : Fin 2 → IVec S16 32) a x).toNat < S1000x128.size a)
instance k0_chk15.dec : ∀ (v18 : IVec S16 32) (v86 : IVec S16 32), Decidable (k0_chk15 v18 v86) := fun v18 v86 => decidable_of_iff' _ (Iff.of_eq (k0_chk15.eq_1 v18 v86))
theorem k0_idx15_inb : ∀ (v18 : IVec S16 32) (v86 : IVec S16 32) (k0_hw15 : k0_chk15 v18 v86), ∀ a x, ((![v86, v18] : Fin 2 → IVec S16 32) a x).toNat < S1000x128.size a := fun v18 v86 k0_hw15 => k0_hw15

def k0_chk16 (v20 : IVec S16 32) (v88 : IVec S16 32) : Prop :=
  (∀ a x, ((![v88, v20] : Fin 2 → IVec S16 32) a x).toNat < S1000x128.size a)
instance k0_chk16.dec : ∀ (v20 : IVec S16 32) (v88 : IVec S16 32), Decidable (k0_chk16 v20 v88) := fun v20 v88 => decidable_of_iff' _ (Iff.of_eq (k0_chk16.eq_1 v20 v88))
theorem k0_idx16_inb : ∀ (v20 : IVec S16 32) (v88 : IVec S16 32) (k0_hw16 : k0_chk16 v20 v88), ∀ a x, ((![v88, v20] : Fin 2 → IVec S16 32) a x).toNat < S1000x128.size a := fun v20 v88 k0_hw16 => k0_hw16
def k0_off20 (i : grid0.Coords) (c0_i32_4 : BitVec 32) : Fin 2 → Nat :=
  let c32_i32_114_r2 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v23 : BitVec 32 := Scalar.muli v1 c512_i32
  let v24 : BitVec 32 := Scalar.addi v23 c0_i32_4
  ![32, v24.toNat]
@[reducible] def k0_t5_loop : Scf.Loop 32 :=
  let c0_i32_16 : BitVec 32 := 0#32
  let c18_i32 : BitVec 32 := 18#32
  let v29 : BitVec 32 := Scalar.addi c0_i32_16 c18_i32
  let c1_i32_17 : BitVec 32 := 1#32
  ⟨c0_i32_16, v29, c1_i32_17⟩
def k0_off21 (k0_t5 : Fin k0_t5_loop.trips) : Fin 2 → Nat :=
  let c0_i32_16 : BitVec 32 := 0#32
  let c1_i32_17 : BitVec 32 := 1#32
  let arg6 : BitVec 32 := Scf.iv c0_i32_16 c1_i32_17 k0_t5
  let v73 : Index := Scalar.indexCast arg6
  let c0 : Index := 0#32
  ![v73.toNat, 0]
def k0_off22 (k0_t5 : Fin k0_t5_loop.trips) : Fin 2 → Nat :=
  let c0_i32_16 : BitVec 32 := 0#32
  let c1_i32_17 : BitVec 32 := 1#32
  let arg6 : BitVec 32 := Scf.iv c0_i32_16 c1_i32_17 k0_t5
  let v75 : Index := Scalar.indexCast arg6
  let c16 : Index := 16#32
  ![v75.toNat, 16]
def k0_off23 (k0_t5 : Fin k0_t5_loop.trips) : Fin 2 → Nat :=
  let c0_i32_16 : BitVec 32 := 0#32
  let c1_i32_17 : BitVec 32 := 1#32
  let arg6 : BitVec 32 := Scf.iv c0_i32_16 c1_i32_17 k0_t5
  let v77 : Index := Scalar.indexCast arg6
  let c32 : Index := 32#32
  ![v77.toNat, 32]
def k0_off24 (k0_t5 : Fin k0_t5_loop.trips) : Fin 2 → Nat :=
  let c0_i32_16 : BitVec 32 := 0#32
  let c1_i32_17 : BitVec 32 := 1#32
  let arg6 : BitVec 32 := Scf.iv c0_i32_16 c1_i32_17 k0_t5
  let v79 : Index := Scalar.indexCast arg6
  let c48 : Index := 48#32
  ![v79.toNat, 48]
def k0_off25 (k0_t5 : Fin k0_t5_loop.trips) : Fin 2 → Nat :=
  let c0_i32_16 : BitVec 32 := 0#32
  let c1_i32_17 : BitVec 32 := 1#32
  let arg6 : BitVec 32 := Scf.iv c0_i32_16 c1_i32_17 k0_t5
  let v81 : Index := Scalar.indexCast arg6
  let c64 : Index := 64#32
  ![v81.toNat, 64]
def k0_off26 (k0_t5 : Fin k0_t5_loop.trips) : Fin 2 → Nat :=
  let c0_i32_16 : BitVec 32 := 0#32
  let c1_i32_17 : BitVec 32 := 1#32
  let arg6 : BitVec 32 := Scf.iv c0_i32_16 c1_i32_17 k0_t5
  let v83 : Index := Scalar.indexCast arg6
  let c80 : Index := 80#32
  ![v83.toNat, 80]
def k0_off27 (k0_t5 : Fin k0_t5_loop.trips) : Fin 2 → Nat :=
  let c0_i32_16 : BitVec 32 := 0#32
  let c1_i32_17 : BitVec 32 := 1#32
  let arg6 : BitVec 32 := Scf.iv c0_i32_16 c1_i32_17 k0_t5
  let v85 : Index := Scalar.indexCast arg6
  let c96 : Index := 96#32
  ![v85.toNat, 96]
def k0_off28 (k0_t5 : Fin k0_t5_loop.trips) : Fin 2 → Nat :=
  let c0_i32_16 : BitVec 32 := 0#32
  let c1_i32_17 : BitVec 32 := 1#32
  let arg6 : BitVec 32 := Scf.iv c0_i32_16 c1_i32_17 k0_t5
  let v87 : Index := Scalar.indexCast arg6
  let c112 : Index := 112#32
  ![v87.toNat, 112]

def k0_chk17 (v6 : IVec S16 32) (v74 : IVec S16 32) : Prop :=
  (∀ a x, ((![v74, v6] : Fin 2 → IVec S16 32) a x).toNat < S1000x128.size a)
instance k0_chk17.dec : ∀ (v6 : IVec S16 32) (v74 : IVec S16 32), Decidable (k0_chk17 v6 v74) := fun v6 v74 => decidable_of_iff' _ (Iff.of_eq (k0_chk17.eq_1 v6 v74))
theorem k0_idx17_inb : ∀ (v6 : IVec S16 32) (v74 : IVec S16 32) (k0_hw17 : k0_chk17 v6 v74), ∀ a x, ((![v74, v6] : Fin 2 → IVec S16 32) a x).toNat < S1000x128.size a := fun v6 v74 k0_hw17 => k0_hw17

def k0_chk18 (v8 : IVec S16 32) (v76 : IVec S16 32) : Prop :=
  (∀ a x, ((![v76, v8] : Fin 2 → IVec S16 32) a x).toNat < S1000x128.size a)
instance k0_chk18.dec : ∀ (v8 : IVec S16 32) (v76 : IVec S16 32), Decidable (k0_chk18 v8 v76) := fun v8 v76 => decidable_of_iff' _ (Iff.of_eq (k0_chk18.eq_1 v8 v76))
theorem k0_idx18_inb : ∀ (v8 : IVec S16 32) (v76 : IVec S16 32) (k0_hw18 : k0_chk18 v8 v76), ∀ a x, ((![v76, v8] : Fin 2 → IVec S16 32) a x).toNat < S1000x128.size a := fun v8 v76 k0_hw18 => k0_hw18

def k0_chk19 (v10 : IVec S16 32) (v78 : IVec S16 32) : Prop :=
  (∀ a x, ((![v78, v10] : Fin 2 → IVec S16 32) a x).toNat < S1000x128.size a)
instance k0_chk19.dec : ∀ (v10 : IVec S16 32) (v78 : IVec S16 32), Decidable (k0_chk19 v10 v78) := fun v10 v78 => decidable_of_iff' _ (Iff.of_eq (k0_chk19.eq_1 v10 v78))
theorem k0_idx19_inb : ∀ (v10 : IVec S16 32) (v78 : IVec S16 32) (k0_hw19 : k0_chk19 v10 v78), ∀ a x, ((![v78, v10] : Fin 2 → IVec S16 32) a x).toNat < S1000x128.size a := fun v10 v78 k0_hw19 => k0_hw19

def k0_chk20 (v12 : IVec S16 32) (v80 : IVec S16 32) : Prop :=
  (∀ a x, ((![v80, v12] : Fin 2 → IVec S16 32) a x).toNat < S1000x128.size a)
instance k0_chk20.dec : ∀ (v12 : IVec S16 32) (v80 : IVec S16 32), Decidable (k0_chk20 v12 v80) := fun v12 v80 => decidable_of_iff' _ (Iff.of_eq (k0_chk20.eq_1 v12 v80))
theorem k0_idx20_inb : ∀ (v12 : IVec S16 32) (v80 : IVec S16 32) (k0_hw20 : k0_chk20 v12 v80), ∀ a x, ((![v80, v12] : Fin 2 → IVec S16 32) a x).toNat < S1000x128.size a := fun v12 v80 k0_hw20 => k0_hw20

def k0_chk21 (v14 : IVec S16 32) (v82 : IVec S16 32) : Prop :=
  (∀ a x, ((![v82, v14] : Fin 2 → IVec S16 32) a x).toNat < S1000x128.size a)
instance k0_chk21.dec : ∀ (v14 : IVec S16 32) (v82 : IVec S16 32), Decidable (k0_chk21 v14 v82) := fun v14 v82 => decidable_of_iff' _ (Iff.of_eq (k0_chk21.eq_1 v14 v82))
theorem k0_idx21_inb : ∀ (v14 : IVec S16 32) (v82 : IVec S16 32) (k0_hw21 : k0_chk21 v14 v82), ∀ a x, ((![v82, v14] : Fin 2 → IVec S16 32) a x).toNat < S1000x128.size a := fun v14 v82 k0_hw21 => k0_hw21

def k0_chk22 (v16 : IVec S16 32) (v84 : IVec S16 32) : Prop :=
  (∀ a x, ((![v84, v16] : Fin 2 → IVec S16 32) a x).toNat < S1000x128.size a)
instance k0_chk22.dec : ∀ (v16 : IVec S16 32) (v84 : IVec S16 32), Decidable (k0_chk22 v16 v84) := fun v16 v84 => decidable_of_iff' _ (Iff.of_eq (k0_chk22.eq_1 v16 v84))
theorem k0_idx22_inb : ∀ (v16 : IVec S16 32) (v84 : IVec S16 32) (k0_hw22 : k0_chk22 v16 v84), ∀ a x, ((![v84, v16] : Fin 2 → IVec S16 32) a x).toNat < S1000x128.size a := fun v16 v84 k0_hw22 => k0_hw22

def k0_chk23 (v18 : IVec S16 32) (v86 : IVec S16 32) : Prop :=
  (∀ a x, ((![v86, v18] : Fin 2 → IVec S16 32) a x).toNat < S1000x128.size a)
instance k0_chk23.dec : ∀ (v18 : IVec S16 32) (v86 : IVec S16 32), Decidable (k0_chk23 v18 v86) := fun v18 v86 => decidable_of_iff' _ (Iff.of_eq (k0_chk23.eq_1 v18 v86))
theorem k0_idx23_inb : ∀ (v18 : IVec S16 32) (v86 : IVec S16 32) (k0_hw23 : k0_chk23 v18 v86), ∀ a x, ((![v86, v18] : Fin 2 → IVec S16 32) a x).toNat < S1000x128.size a := fun v18 v86 k0_hw23 => k0_hw23

def k0_chk24 (v20 : IVec S16 32) (v88 : IVec S16 32) : Prop :=
  (∀ a x, ((![v88, v20] : Fin 2 → IVec S16 32) a x).toNat < S1000x128.size a)
instance k0_chk24.dec : ∀ (v20 : IVec S16 32) (v88 : IVec S16 32), Decidable (k0_chk24 v20 v88) := fun v20 v88 => decidable_of_iff' _ (Iff.of_eq (k0_chk24.eq_1 v20 v88))
theorem k0_idx24_inb : ∀ (v20 : IVec S16 32) (v88 : IVec S16 32) (k0_hw24 : k0_chk24 v20 v88), ∀ a x, ((![v88, v20] : Fin 2 → IVec S16 32) a x).toNat < S1000x128.size a := fun v20 v88 k0_hw24 => k0_hw24
def k0_off29 (i : grid0.Coords) (c0_i32_4 : BitVec 32) : Fin 2 → Nat :=
  let c0_i32_112_r3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v23 : BitVec 32 := Scalar.muli v1 c512_i32
  let v24 : BitVec 32 := Scalar.addi v23 c0_i32_4
  ![0, v24.toNat]
@[reducible] def k0_t6_loop : Scf.Loop 32 :=
  let c0_i32_20 : BitVec 32 := 0#32
  let c18_i32_21 : BitVec 32 := 18#32
  let v31 : BitVec 32 := Scalar.addi c0_i32_20 c18_i32_21
  let c1_i32_22 : BitVec 32 := 1#32
  ⟨c0_i32_20, v31, c1_i32_22⟩
def k0_off30 (k0_t6 : Fin k0_t6_loop.trips) : Fin 2 → Nat :=
  let c0_i32_20 : BitVec 32 := 0#32
  let c1_i32_22 : BitVec 32 := 1#32
  let arg6 : BitVec 32 := Scf.iv c0_i32_20 c1_i32_22 k0_t6
  let v73 : Index := Scalar.indexCast arg6
  let c0 : Index := 0#32
  ![v73.toNat, 0]
def k0_off31 (k0_t6 : Fin k0_t6_loop.trips) : Fin 2 → Nat :=
  let c0_i32_20 : BitVec 32 := 0#32
  let c1_i32_22 : BitVec 32 := 1#32
  let arg6 : BitVec 32 := Scf.iv c0_i32_20 c1_i32_22 k0_t6
  let v75 : Index := Scalar.indexCast arg6
  let c16 : Index := 16#32
  ![v75.toNat, 16]
def k0_off32 (k0_t6 : Fin k0_t6_loop.trips) : Fin 2 → Nat :=
  let c0_i32_20 : BitVec 32 := 0#32
  let c1_i32_22 : BitVec 32 := 1#32
  let arg6 : BitVec 32 := Scf.iv c0_i32_20 c1_i32_22 k0_t6
  let v77 : Index := Scalar.indexCast arg6
  let c32 : Index := 32#32
  ![v77.toNat, 32]
def k0_off33 (k0_t6 : Fin k0_t6_loop.trips) : Fin 2 → Nat :=
  let c0_i32_20 : BitVec 32 := 0#32
  let c1_i32_22 : BitVec 32 := 1#32
  let arg6 : BitVec 32 := Scf.iv c0_i32_20 c1_i32_22 k0_t6
  let v79 : Index := Scalar.indexCast arg6
  let c48 : Index := 48#32
  ![v79.toNat, 48]
def k0_off34 (k0_t6 : Fin k0_t6_loop.trips) : Fin 2 → Nat :=
  let c0_i32_20 : BitVec 32 := 0#32
  let c1_i32_22 : BitVec 32 := 1#32
  let arg6 : BitVec 32 := Scf.iv c0_i32_20 c1_i32_22 k0_t6
  let v81 : Index := Scalar.indexCast arg6
  let c64 : Index := 64#32
  ![v81.toNat, 64]
def k0_off35 (k0_t6 : Fin k0_t6_loop.trips) : Fin 2 → Nat :=
  let c0_i32_20 : BitVec 32 := 0#32
  let c1_i32_22 : BitVec 32 := 1#32
  let arg6 : BitVec 32 := Scf.iv c0_i32_20 c1_i32_22 k0_t6
  let v83 : Index := Scalar.indexCast arg6
  let c80 : Index := 80#32
  ![v83.toNat, 80]
def k0_off36 (k0_t6 : Fin k0_t6_loop.trips) : Fin 2 → Nat :=
  let c0_i32_20 : BitVec 32 := 0#32
  let c1_i32_22 : BitVec 32 := 1#32
  let arg6 : BitVec 32 := Scf.iv c0_i32_20 c1_i32_22 k0_t6
  let v85 : Index := Scalar.indexCast arg6
  let c96 : Index := 96#32
  ![v85.toNat, 96]
def k0_off37 (k0_t6 : Fin k0_t6_loop.trips) : Fin 2 → Nat :=
  let c0_i32_20 : BitVec 32 := 0#32
  let c1_i32_22 : BitVec 32 := 1#32
  let arg6 : BitVec 32 := Scf.iv c0_i32_20 c1_i32_22 k0_t6
  let v87 : Index := Scalar.indexCast arg6
  let c112 : Index := 112#32
  ![v87.toNat, 112]

def k0_chk25 (v6 : IVec S16 32) (v74 : IVec S16 32) : Prop :=
  (∀ a x, ((![v74, v6] : Fin 2 → IVec S16 32) a x).toNat < S1000x128.size a)
instance k0_chk25.dec : ∀ (v6 : IVec S16 32) (v74 : IVec S16 32), Decidable (k0_chk25 v6 v74) := fun v6 v74 => decidable_of_iff' _ (Iff.of_eq (k0_chk25.eq_1 v6 v74))
theorem k0_idx25_inb : ∀ (v6 : IVec S16 32) (v74 : IVec S16 32) (k0_hw25 : k0_chk25 v6 v74), ∀ a x, ((![v74, v6] : Fin 2 → IVec S16 32) a x).toNat < S1000x128.size a := fun v6 v74 k0_hw25 => k0_hw25

def k0_chk26 (v8 : IVec S16 32) (v76 : IVec S16 32) : Prop :=
  (∀ a x, ((![v76, v8] : Fin 2 → IVec S16 32) a x).toNat < S1000x128.size a)
instance k0_chk26.dec : ∀ (v8 : IVec S16 32) (v76 : IVec S16 32), Decidable (k0_chk26 v8 v76) := fun v8 v76 => decidable_of_iff' _ (Iff.of_eq (k0_chk26.eq_1 v8 v76))
theorem k0_idx26_inb : ∀ (v8 : IVec S16 32) (v76 : IVec S16 32) (k0_hw26 : k0_chk26 v8 v76), ∀ a x, ((![v76, v8] : Fin 2 → IVec S16 32) a x).toNat < S1000x128.size a := fun v8 v76 k0_hw26 => k0_hw26

def k0_chk27 (v10 : IVec S16 32) (v78 : IVec S16 32) : Prop :=
  (∀ a x, ((![v78, v10] : Fin 2 → IVec S16 32) a x).toNat < S1000x128.size a)
instance k0_chk27.dec : ∀ (v10 : IVec S16 32) (v78 : IVec S16 32), Decidable (k0_chk27 v10 v78) := fun v10 v78 => decidable_of_iff' _ (Iff.of_eq (k0_chk27.eq_1 v10 v78))
theorem k0_idx27_inb : ∀ (v10 : IVec S16 32) (v78 : IVec S16 32) (k0_hw27 : k0_chk27 v10 v78), ∀ a x, ((![v78, v10] : Fin 2 → IVec S16 32) a x).toNat < S1000x128.size a := fun v10 v78 k0_hw27 => k0_hw27

def k0_chk28 (v12 : IVec S16 32) (v80 : IVec S16 32) : Prop :=
  (∀ a x, ((![v80, v12] : Fin 2 → IVec S16 32) a x).toNat < S1000x128.size a)
instance k0_chk28.dec : ∀ (v12 : IVec S16 32) (v80 : IVec S16 32), Decidable (k0_chk28 v12 v80) := fun v12 v80 => decidable_of_iff' _ (Iff.of_eq (k0_chk28.eq_1 v12 v80))
theorem k0_idx28_inb : ∀ (v12 : IVec S16 32) (v80 : IVec S16 32) (k0_hw28 : k0_chk28 v12 v80), ∀ a x, ((![v80, v12] : Fin 2 → IVec S16 32) a x).toNat < S1000x128.size a := fun v12 v80 k0_hw28 => k0_hw28

def k0_chk29 (v14 : IVec S16 32) (v82 : IVec S16 32) : Prop :=
  (∀ a x, ((![v82, v14] : Fin 2 → IVec S16 32) a x).toNat < S1000x128.size a)
instance k0_chk29.dec : ∀ (v14 : IVec S16 32) (v82 : IVec S16 32), Decidable (k0_chk29 v14 v82) := fun v14 v82 => decidable_of_iff' _ (Iff.of_eq (k0_chk29.eq_1 v14 v82))
theorem k0_idx29_inb : ∀ (v14 : IVec S16 32) (v82 : IVec S16 32) (k0_hw29 : k0_chk29 v14 v82), ∀ a x, ((![v82, v14] : Fin 2 → IVec S16 32) a x).toNat < S1000x128.size a := fun v14 v82 k0_hw29 => k0_hw29

def k0_chk30 (v16 : IVec S16 32) (v84 : IVec S16 32) : Prop :=
  (∀ a x, ((![v84, v16] : Fin 2 → IVec S16 32) a x).toNat < S1000x128.size a)
instance k0_chk30.dec : ∀ (v16 : IVec S16 32) (v84 : IVec S16 32), Decidable (k0_chk30 v16 v84) := fun v16 v84 => decidable_of_iff' _ (Iff.of_eq (k0_chk30.eq_1 v16 v84))
theorem k0_idx30_inb : ∀ (v16 : IVec S16 32) (v84 : IVec S16 32) (k0_hw30 : k0_chk30 v16 v84), ∀ a x, ((![v84, v16] : Fin 2 → IVec S16 32) a x).toNat < S1000x128.size a := fun v16 v84 k0_hw30 => k0_hw30

def k0_chk31 (v18 : IVec S16 32) (v86 : IVec S16 32) : Prop :=
  (∀ a x, ((![v86, v18] : Fin 2 → IVec S16 32) a x).toNat < S1000x128.size a)
instance k0_chk31.dec : ∀ (v18 : IVec S16 32) (v86 : IVec S16 32), Decidable (k0_chk31 v18 v86) := fun v18 v86 => decidable_of_iff' _ (Iff.of_eq (k0_chk31.eq_1 v18 v86))
theorem k0_idx31_inb : ∀ (v18 : IVec S16 32) (v86 : IVec S16 32) (k0_hw31 : k0_chk31 v18 v86), ∀ a x, ((![v86, v18] : Fin 2 → IVec S16 32) a x).toNat < S1000x128.size a := fun v18 v86 k0_hw31 => k0_hw31

def k0_chk32 (v20 : IVec S16 32) (v88 : IVec S16 32) : Prop :=
  (∀ a x, ((![v88, v20] : Fin 2 → IVec S16 32) a x).toNat < S1000x128.size a)
instance k0_chk32.dec : ∀ (v20 : IVec S16 32) (v88 : IVec S16 32), Decidable (k0_chk32 v20 v88) := fun v20 v88 => decidable_of_iff' _ (Iff.of_eq (k0_chk32.eq_1 v20 v88))
theorem k0_idx32_inb : ∀ (v20 : IVec S16 32) (v88 : IVec S16 32) (k0_hw32 : k0_chk32 v20 v88), ∀ a x, ((![v88, v20] : Fin 2 → IVec S16 32) a x).toNat < S1000x128.size a := fun v20 v88 k0_hw32 => k0_hw32
def k0_off38 (i : grid0.Coords) (c0_i32_4 : BitVec 32) : Fin 2 → Nat :=
  let c0_i32_114_r4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v23 : BitVec 32 := Scalar.muli v1 c512_i32
  let v24 : BitVec 32 := Scalar.addi v23 c0_i32_4
  ![0, v24.toNat]
@[reducible] def k0_t7_loop : Scf.Loop 32 :=
  let c0_i32_25 : BitVec 32 := 0#32
  let c16_i32_26 : BitVec 32 := 16#32
  let v33 : BitVec 32 := Scalar.addi c0_i32_25 c16_i32_26
  let c1_i32_27 : BitVec 32 := 1#32
  ⟨c0_i32_25, v33, c1_i32_27⟩
def k0_off39 (k0_t7 : Fin k0_t7_loop.trips) : Fin 2 → Nat :=
  let c0_i32_25 : BitVec 32 := 0#32
  let c1_i32_27 : BitVec 32 := 1#32
  let arg6 : BitVec 32 := Scf.iv c0_i32_25 c1_i32_27 k0_t7
  let v73 : Index := Scalar.indexCast arg6
  let c0 : Index := 0#32
  ![v73.toNat, 0]
def k0_off40 (k0_t7 : Fin k0_t7_loop.trips) : Fin 2 → Nat :=
  let c0_i32_25 : BitVec 32 := 0#32
  let c1_i32_27 : BitVec 32 := 1#32
  let arg6 : BitVec 32 := Scf.iv c0_i32_25 c1_i32_27 k0_t7
  let v75 : Index := Scalar.indexCast arg6
  let c16 : Index := 16#32
  ![v75.toNat, 16]
def k0_off41 (k0_t7 : Fin k0_t7_loop.trips) : Fin 2 → Nat :=
  let c0_i32_25 : BitVec 32 := 0#32
  let c1_i32_27 : BitVec 32 := 1#32
  let arg6 : BitVec 32 := Scf.iv c0_i32_25 c1_i32_27 k0_t7
  let v77 : Index := Scalar.indexCast arg6
  let c32 : Index := 32#32
  ![v77.toNat, 32]
def k0_off42 (k0_t7 : Fin k0_t7_loop.trips) : Fin 2 → Nat :=
  let c0_i32_25 : BitVec 32 := 0#32
  let c1_i32_27 : BitVec 32 := 1#32
  let arg6 : BitVec 32 := Scf.iv c0_i32_25 c1_i32_27 k0_t7
  let v79 : Index := Scalar.indexCast arg6
  let c48 : Index := 48#32
  ![v79.toNat, 48]
def k0_off43 (k0_t7 : Fin k0_t7_loop.trips) : Fin 2 → Nat :=
  let c0_i32_25 : BitVec 32 := 0#32
  let c1_i32_27 : BitVec 32 := 1#32
  let arg6 : BitVec 32 := Scf.iv c0_i32_25 c1_i32_27 k0_t7
  let v81 : Index := Scalar.indexCast arg6
  let c64 : Index := 64#32
  ![v81.toNat, 64]
def k0_off44 (k0_t7 : Fin k0_t7_loop.trips) : Fin 2 → Nat :=
  let c0_i32_25 : BitVec 32 := 0#32
  let c1_i32_27 : BitVec 32 := 1#32
  let arg6 : BitVec 32 := Scf.iv c0_i32_25 c1_i32_27 k0_t7
  let v83 : Index := Scalar.indexCast arg6
  let c80 : Index := 80#32
  ![v83.toNat, 80]
def k0_off45 (k0_t7 : Fin k0_t7_loop.trips) : Fin 2 → Nat :=
  let c0_i32_25 : BitVec 32 := 0#32
  let c1_i32_27 : BitVec 32 := 1#32
  let arg6 : BitVec 32 := Scf.iv c0_i32_25 c1_i32_27 k0_t7
  let v85 : Index := Scalar.indexCast arg6
  let c96 : Index := 96#32
  ![v85.toNat, 96]
def k0_off46 (k0_t7 : Fin k0_t7_loop.trips) : Fin 2 → Nat :=
  let c0_i32_25 : BitVec 32 := 0#32
  let c1_i32_27 : BitVec 32 := 1#32
  let arg6 : BitVec 32 := Scf.iv c0_i32_25 c1_i32_27 k0_t7
  let v87 : Index := Scalar.indexCast arg6
  let c112 : Index := 112#32
  ![v87.toNat, 112]

def k0_chk33 (v6 : IVec S16 32) (v74 : IVec S16 32) : Prop :=
  (∀ a x, ((![v74, v6] : Fin 2 → IVec S16 32) a x).toNat < S1000x128.size a)
instance k0_chk33.dec : ∀ (v6 : IVec S16 32) (v74 : IVec S16 32), Decidable (k0_chk33 v6 v74) := fun v6 v74 => decidable_of_iff' _ (Iff.of_eq (k0_chk33.eq_1 v6 v74))
theorem k0_idx33_inb : ∀ (v6 : IVec S16 32) (v74 : IVec S16 32) (k0_hw33 : k0_chk33 v6 v74), ∀ a x, ((![v74, v6] : Fin 2 → IVec S16 32) a x).toNat < S1000x128.size a := fun v6 v74 k0_hw33 => k0_hw33

def k0_chk34 (v8 : IVec S16 32) (v76 : IVec S16 32) : Prop :=
  (∀ a x, ((![v76, v8] : Fin 2 → IVec S16 32) a x).toNat < S1000x128.size a)
instance k0_chk34.dec : ∀ (v8 : IVec S16 32) (v76 : IVec S16 32), Decidable (k0_chk34 v8 v76) := fun v8 v76 => decidable_of_iff' _ (Iff.of_eq (k0_chk34.eq_1 v8 v76))
theorem k0_idx34_inb : ∀ (v8 : IVec S16 32) (v76 : IVec S16 32) (k0_hw34 : k0_chk34 v8 v76), ∀ a x, ((![v76, v8] : Fin 2 → IVec S16 32) a x).toNat < S1000x128.size a := fun v8 v76 k0_hw34 => k0_hw34

def k0_chk35 (v10 : IVec S16 32) (v78 : IVec S16 32) : Prop :=
  (∀ a x, ((![v78, v10] : Fin 2 → IVec S16 32) a x).toNat < S1000x128.size a)
instance k0_chk35.dec : ∀ (v10 : IVec S16 32) (v78 : IVec S16 32), Decidable (k0_chk35 v10 v78) := fun v10 v78 => decidable_of_iff' _ (Iff.of_eq (k0_chk35.eq_1 v10 v78))
theorem k0_idx35_inb : ∀ (v10 : IVec S16 32) (v78 : IVec S16 32) (k0_hw35 : k0_chk35 v10 v78), ∀ a x, ((![v78, v10] : Fin 2 → IVec S16 32) a x).toNat < S1000x128.size a := fun v10 v78 k0_hw35 => k0_hw35

def k0_chk36 (v12 : IVec S16 32) (v80 : IVec S16 32) : Prop :=
  (∀ a x, ((![v80, v12] : Fin 2 → IVec S16 32) a x).toNat < S1000x128.size a)
instance k0_chk36.dec : ∀ (v12 : IVec S16 32) (v80 : IVec S16 32), Decidable (k0_chk36 v12 v80) := fun v12 v80 => decidable_of_iff' _ (Iff.of_eq (k0_chk36.eq_1 v12 v80))
theorem k0_idx36_inb : ∀ (v12 : IVec S16 32) (v80 : IVec S16 32) (k0_hw36 : k0_chk36 v12 v80), ∀ a x, ((![v80, v12] : Fin 2 → IVec S16 32) a x).toNat < S1000x128.size a := fun v12 v80 k0_hw36 => k0_hw36

def k0_chk37 (v14 : IVec S16 32) (v82 : IVec S16 32) : Prop :=
  (∀ a x, ((![v82, v14] : Fin 2 → IVec S16 32) a x).toNat < S1000x128.size a)
instance k0_chk37.dec : ∀ (v14 : IVec S16 32) (v82 : IVec S16 32), Decidable (k0_chk37 v14 v82) := fun v14 v82 => decidable_of_iff' _ (Iff.of_eq (k0_chk37.eq_1 v14 v82))
theorem k0_idx37_inb : ∀ (v14 : IVec S16 32) (v82 : IVec S16 32) (k0_hw37 : k0_chk37 v14 v82), ∀ a x, ((![v82, v14] : Fin 2 → IVec S16 32) a x).toNat < S1000x128.size a := fun v14 v82 k0_hw37 => k0_hw37

def k0_chk38 (v16 : IVec S16 32) (v84 : IVec S16 32) : Prop :=
  (∀ a x, ((![v84, v16] : Fin 2 → IVec S16 32) a x).toNat < S1000x128.size a)
instance k0_chk38.dec : ∀ (v16 : IVec S16 32) (v84 : IVec S16 32), Decidable (k0_chk38 v16 v84) := fun v16 v84 => decidable_of_iff' _ (Iff.of_eq (k0_chk38.eq_1 v16 v84))
theorem k0_idx38_inb : ∀ (v16 : IVec S16 32) (v84 : IVec S16 32) (k0_hw38 : k0_chk38 v16 v84), ∀ a x, ((![v84, v16] : Fin 2 → IVec S16 32) a x).toNat < S1000x128.size a := fun v16 v84 k0_hw38 => k0_hw38

def k0_chk39 (v18 : IVec S16 32) (v86 : IVec S16 32) : Prop :=
  (∀ a x, ((![v86, v18] : Fin 2 → IVec S16 32) a x).toNat < S1000x128.size a)
instance k0_chk39.dec : ∀ (v18 : IVec S16 32) (v86 : IVec S16 32), Decidable (k0_chk39 v18 v86) := fun v18 v86 => decidable_of_iff' _ (Iff.of_eq (k0_chk39.eq_1 v18 v86))
theorem k0_idx39_inb : ∀ (v18 : IVec S16 32) (v86 : IVec S16 32) (k0_hw39 : k0_chk39 v18 v86), ∀ a x, ((![v86, v18] : Fin 2 → IVec S16 32) a x).toNat < S1000x128.size a := fun v18 v86 k0_hw39 => k0_hw39

def k0_chk40 (v20 : IVec S16 32) (v88 : IVec S16 32) : Prop :=
  (∀ a x, ((![v88, v20] : Fin 2 → IVec S16 32) a x).toNat < S1000x128.size a)
instance k0_chk40.dec : ∀ (v20 : IVec S16 32) (v88 : IVec S16 32), Decidable (k0_chk40 v20 v88) := fun v20 v88 => decidable_of_iff' _ (Iff.of_eq (k0_chk40.eq_1 v20 v88))
theorem k0_idx40_inb : ∀ (v20 : IVec S16 32) (v88 : IVec S16 32) (k0_hw40 : k0_chk40 v20 v88), ∀ a x, ((![v88, v20] : Fin 2 → IVec S16 32) a x).toNat < S1000x128.size a := fun v20 v88 k0_hw40 => k0_hw40
@[reducible] def k0_t8_loop : Scf.Loop 32 :=
  let c0_i32_30 : BitVec 32 := 0#32
  let c16_i32_31 : BitVec 32 := 16#32
  let v35 : BitVec 32 := Scalar.addi c0_i32_30 c16_i32_31
  let c1_i32_32 : BitVec 32 := 1#32
  ⟨c0_i32_30, v35, c1_i32_32⟩
def k0_off47 (k0_t8 : Fin k0_t8_loop.trips) : Fin 2 → Nat :=
  let c0_i32_30 : BitVec 32 := 0#32
  let c1_i32_32 : BitVec 32 := 1#32
  let arg6 : BitVec 32 := Scf.iv c0_i32_30 c1_i32_32 k0_t8
  let v73 : Index := Scalar.indexCast arg6
  let c0 : Index := 0#32
  ![v73.toNat, 0]
def k0_off48 (k0_t8 : Fin k0_t8_loop.trips) : Fin 2 → Nat :=
  let c0_i32_30 : BitVec 32 := 0#32
  let c1_i32_32 : BitVec 32 := 1#32
  let arg6 : BitVec 32 := Scf.iv c0_i32_30 c1_i32_32 k0_t8
  let v75 : Index := Scalar.indexCast arg6
  let c16 : Index := 16#32
  ![v75.toNat, 16]
def k0_off49 (k0_t8 : Fin k0_t8_loop.trips) : Fin 2 → Nat :=
  let c0_i32_30 : BitVec 32 := 0#32
  let c1_i32_32 : BitVec 32 := 1#32
  let arg6 : BitVec 32 := Scf.iv c0_i32_30 c1_i32_32 k0_t8
  let v77 : Index := Scalar.indexCast arg6
  let c32 : Index := 32#32
  ![v77.toNat, 32]
def k0_off50 (k0_t8 : Fin k0_t8_loop.trips) : Fin 2 → Nat :=
  let c0_i32_30 : BitVec 32 := 0#32
  let c1_i32_32 : BitVec 32 := 1#32
  let arg6 : BitVec 32 := Scf.iv c0_i32_30 c1_i32_32 k0_t8
  let v79 : Index := Scalar.indexCast arg6
  let c48 : Index := 48#32
  ![v79.toNat, 48]
def k0_off51 (k0_t8 : Fin k0_t8_loop.trips) : Fin 2 → Nat :=
  let c0_i32_30 : BitVec 32 := 0#32
  let c1_i32_32 : BitVec 32 := 1#32
  let arg6 : BitVec 32 := Scf.iv c0_i32_30 c1_i32_32 k0_t8
  let v81 : Index := Scalar.indexCast arg6
  let c64 : Index := 64#32
  ![v81.toNat, 64]
def k0_off52 (k0_t8 : Fin k0_t8_loop.trips) : Fin 2 → Nat :=
  let c0_i32_30 : BitVec 32 := 0#32
  let c1_i32_32 : BitVec 32 := 1#32
  let arg6 : BitVec 32 := Scf.iv c0_i32_30 c1_i32_32 k0_t8
  let v83 : Index := Scalar.indexCast arg6
  let c80 : Index := 80#32
  ![v83.toNat, 80]
def k0_off53 (k0_t8 : Fin k0_t8_loop.trips) : Fin 2 → Nat :=
  let c0_i32_30 : BitVec 32 := 0#32
  let c1_i32_32 : BitVec 32 := 1#32
  let arg6 : BitVec 32 := Scf.iv c0_i32_30 c1_i32_32 k0_t8
  let v85 : Index := Scalar.indexCast arg6
  let c96 : Index := 96#32
  ![v85.toNat, 96]
def k0_off54 (k0_t8 : Fin k0_t8_loop.trips) : Fin 2 → Nat :=
  let c0_i32_30 : BitVec 32 := 0#32
  let c1_i32_32 : BitVec 32 := 1#32
  let arg6 : BitVec 32 := Scf.iv c0_i32_30 c1_i32_32 k0_t8
  let v87 : Index := Scalar.indexCast arg6
  let c112 : Index := 112#32
  ![v87.toNat, 112]

def k0_chk41 (v6 : IVec S16 32) (v74 : IVec S16 32) : Prop :=
  (∀ a x, ((![v74, v6] : Fin 2 → IVec S16 32) a x).toNat < S1000x128.size a)
instance k0_chk41.dec : ∀ (v6 : IVec S16 32) (v74 : IVec S16 32), Decidable (k0_chk41 v6 v74) := fun v6 v74 => decidable_of_iff' _ (Iff.of_eq (k0_chk41.eq_1 v6 v74))
theorem k0_idx41_inb : ∀ (v6 : IVec S16 32) (v74 : IVec S16 32) (k0_hw41 : k0_chk41 v6 v74), ∀ a x, ((![v74, v6] : Fin 2 → IVec S16 32) a x).toNat < S1000x128.size a := fun v6 v74 k0_hw41 => k0_hw41

def k0_chk42 (v8 : IVec S16 32) (v76 : IVec S16 32) : Prop :=
  (∀ a x, ((![v76, v8] : Fin 2 → IVec S16 32) a x).toNat < S1000x128.size a)
instance k0_chk42.dec : ∀ (v8 : IVec S16 32) (v76 : IVec S16 32), Decidable (k0_chk42 v8 v76) := fun v8 v76 => decidable_of_iff' _ (Iff.of_eq (k0_chk42.eq_1 v8 v76))
theorem k0_idx42_inb : ∀ (v8 : IVec S16 32) (v76 : IVec S16 32) (k0_hw42 : k0_chk42 v8 v76), ∀ a x, ((![v76, v8] : Fin 2 → IVec S16 32) a x).toNat < S1000x128.size a := fun v8 v76 k0_hw42 => k0_hw42

def k0_chk43 (v10 : IVec S16 32) (v78 : IVec S16 32) : Prop :=
  (∀ a x, ((![v78, v10] : Fin 2 → IVec S16 32) a x).toNat < S1000x128.size a)
instance k0_chk43.dec : ∀ (v10 : IVec S16 32) (v78 : IVec S16 32), Decidable (k0_chk43 v10 v78) := fun v10 v78 => decidable_of_iff' _ (Iff.of_eq (k0_chk43.eq_1 v10 v78))
theorem k0_idx43_inb : ∀ (v10 : IVec S16 32) (v78 : IVec S16 32) (k0_hw43 : k0_chk43 v10 v78), ∀ a x, ((![v78, v10] : Fin 2 → IVec S16 32) a x).toNat < S1000x128.size a := fun v10 v78 k0_hw43 => k0_hw43

def k0_chk44 (v12 : IVec S16 32) (v80 : IVec S16 32) : Prop :=
  (∀ a x, ((![v80, v12] : Fin 2 → IVec S16 32) a x).toNat < S1000x128.size a)
instance k0_chk44.dec : ∀ (v12 : IVec S16 32) (v80 : IVec S16 32), Decidable (k0_chk44 v12 v80) := fun v12 v80 => decidable_of_iff' _ (Iff.of_eq (k0_chk44.eq_1 v12 v80))
theorem k0_idx44_inb : ∀ (v12 : IVec S16 32) (v80 : IVec S16 32) (k0_hw44 : k0_chk44 v12 v80), ∀ a x, ((![v80, v12] : Fin 2 → IVec S16 32) a x).toNat < S1000x128.size a := fun v12 v80 k0_hw44 => k0_hw44

def k0_chk45 (v14 : IVec S16 32) (v82 : IVec S16 32) : Prop :=
  (∀ a x, ((![v82, v14] : Fin 2 → IVec S16 32) a x).toNat < S1000x128.size a)
instance k0_chk45.dec : ∀ (v14 : IVec S16 32) (v82 : IVec S16 32), Decidable (k0_chk45 v14 v82) := fun v14 v82 => decidable_of_iff' _ (Iff.of_eq (k0_chk45.eq_1 v14 v82))
theorem k0_idx45_inb : ∀ (v14 : IVec S16 32) (v82 : IVec S16 32) (k0_hw45 : k0_chk45 v14 v82), ∀ a x, ((![v82, v14] : Fin 2 → IVec S16 32) a x).toNat < S1000x128.size a := fun v14 v82 k0_hw45 => k0_hw45

def k0_chk46 (v16 : IVec S16 32) (v84 : IVec S16 32) : Prop :=
  (∀ a x, ((![v84, v16] : Fin 2 → IVec S16 32) a x).toNat < S1000x128.size a)
instance k0_chk46.dec : ∀ (v16 : IVec S16 32) (v84 : IVec S16 32), Decidable (k0_chk46 v16 v84) := fun v16 v84 => decidable_of_iff' _ (Iff.of_eq (k0_chk46.eq_1 v16 v84))
theorem k0_idx46_inb : ∀ (v16 : IVec S16 32) (v84 : IVec S16 32) (k0_hw46 : k0_chk46 v16 v84), ∀ a x, ((![v84, v16] : Fin 2 → IVec S16 32) a x).toNat < S1000x128.size a := fun v16 v84 k0_hw46 => k0_hw46

def k0_chk47 (v18 : IVec S16 32) (v86 : IVec S16 32) : Prop :=
  (∀ a x, ((![v86, v18] : Fin 2 → IVec S16 32) a x).toNat < S1000x128.size a)
instance k0_chk47.dec : ∀ (v18 : IVec S16 32) (v86 : IVec S16 32), Decidable (k0_chk47 v18 v86) := fun v18 v86 => decidable_of_iff' _ (Iff.of_eq (k0_chk47.eq_1 v18 v86))
theorem k0_idx47_inb : ∀ (v18 : IVec S16 32) (v86 : IVec S16 32) (k0_hw47 : k0_chk47 v18 v86), ∀ a x, ((![v86, v18] : Fin 2 → IVec S16 32) a x).toNat < S1000x128.size a := fun v18 v86 k0_hw47 => k0_hw47

def k0_chk48 (v20 : IVec S16 32) (v88 : IVec S16 32) : Prop :=
  (∀ a x, ((![v88, v20] : Fin 2 → IVec S16 32) a x).toNat < S1000x128.size a)
instance k0_chk48.dec : ∀ (v20 : IVec S16 32) (v88 : IVec S16 32), Decidable (k0_chk48 v20 v88) := fun v20 v88 => decidable_of_iff' _ (Iff.of_eq (k0_chk48.eq_1 v20 v88))
theorem k0_idx48_inb : ∀ (v20 : IVec S16 32) (v88 : IVec S16 32) (k0_hw48 : k0_chk48 v20 v88), ∀ a x, ((![v88, v20] : Fin 2 → IVec S16 32) a x).toNat < S1000x128.size a := fun v20 v88 k0_hw48 => k0_hw48
@[reducible] def k0_t9_loop : Scf.Loop 32 :=
  let c0_i32_36 : BitVec 32 := 0#32
  let c16_i32_37 : BitVec 32 := 16#32
  let v39 : BitVec 32 := Scalar.addi c0_i32_36 c16_i32_37
  let c1_i32_38 : BitVec 32 := 1#32
  ⟨c0_i32_36, v39, c1_i32_38⟩
def k0_off55 (k0_t9 : Fin k0_t9_loop.trips) : Fin 2 → Nat :=
  let c0_i32_36 : BitVec 32 := 0#32
  let c1_i32_38 : BitVec 32 := 1#32
  let arg6 : BitVec 32 := Scf.iv c0_i32_36 c1_i32_38 k0_t9
  let v73 : Index := Scalar.indexCast arg6
  let c0 : Index := 0#32
  ![v73.toNat, 0]
def k0_off56 (k0_t9 : Fin k0_t9_loop.trips) : Fin 2 → Nat :=
  let c0_i32_36 : BitVec 32 := 0#32
  let c1_i32_38 : BitVec 32 := 1#32
  let arg6 : BitVec 32 := Scf.iv c0_i32_36 c1_i32_38 k0_t9
  let v75 : Index := Scalar.indexCast arg6
  let c16 : Index := 16#32
  ![v75.toNat, 16]
def k0_off57 (k0_t9 : Fin k0_t9_loop.trips) : Fin 2 → Nat :=
  let c0_i32_36 : BitVec 32 := 0#32
  let c1_i32_38 : BitVec 32 := 1#32
  let arg6 : BitVec 32 := Scf.iv c0_i32_36 c1_i32_38 k0_t9
  let v77 : Index := Scalar.indexCast arg6
  let c32 : Index := 32#32
  ![v77.toNat, 32]
def k0_off58 (k0_t9 : Fin k0_t9_loop.trips) : Fin 2 → Nat :=
  let c0_i32_36 : BitVec 32 := 0#32
  let c1_i32_38 : BitVec 32 := 1#32
  let arg6 : BitVec 32 := Scf.iv c0_i32_36 c1_i32_38 k0_t9
  let v79 : Index := Scalar.indexCast arg6
  let c48 : Index := 48#32
  ![v79.toNat, 48]
def k0_off59 (k0_t9 : Fin k0_t9_loop.trips) : Fin 2 → Nat :=
  let c0_i32_36 : BitVec 32 := 0#32
  let c1_i32_38 : BitVec 32 := 1#32
  let arg6 : BitVec 32 := Scf.iv c0_i32_36 c1_i32_38 k0_t9
  let v81 : Index := Scalar.indexCast arg6
  let c64 : Index := 64#32
  ![v81.toNat, 64]
def k0_off60 (k0_t9 : Fin k0_t9_loop.trips) : Fin 2 → Nat :=
  let c0_i32_36 : BitVec 32 := 0#32
  let c1_i32_38 : BitVec 32 := 1#32
  let arg6 : BitVec 32 := Scf.iv c0_i32_36 c1_i32_38 k0_t9
  let v83 : Index := Scalar.indexCast arg6
  let c80 : Index := 80#32
  ![v83.toNat, 80]
def k0_off61 (k0_t9 : Fin k0_t9_loop.trips) : Fin 2 → Nat :=
  let c0_i32_36 : BitVec 32 := 0#32
  let c1_i32_38 : BitVec 32 := 1#32
  let arg6 : BitVec 32 := Scf.iv c0_i32_36 c1_i32_38 k0_t9
  let v85 : Index := Scalar.indexCast arg6
  let c96 : Index := 96#32
  ![v85.toNat, 96]
def k0_off62 (k0_t9 : Fin k0_t9_loop.trips) : Fin 2 → Nat :=
  let c0_i32_36 : BitVec 32 := 0#32
  let c1_i32_38 : BitVec 32 := 1#32
  let arg6 : BitVec 32 := Scf.iv c0_i32_36 c1_i32_38 k0_t9
  let v87 : Index := Scalar.indexCast arg6
  let c112 : Index := 112#32
  ![v87.toNat, 112]

def k0_chk49 (v6 : IVec S16 32) (v74 : IVec S16 32) : Prop :=
  (∀ a x, ((![v74, v6] : Fin 2 → IVec S16 32) a x).toNat < S1000x128.size a)
instance k0_chk49.dec : ∀ (v6 : IVec S16 32) (v74 : IVec S16 32), Decidable (k0_chk49 v6 v74) := fun v6 v74 => decidable_of_iff' _ (Iff.of_eq (k0_chk49.eq_1 v6 v74))
theorem k0_idx49_inb : ∀ (v6 : IVec S16 32) (v74 : IVec S16 32) (k0_hw49 : k0_chk49 v6 v74), ∀ a x, ((![v74, v6] : Fin 2 → IVec S16 32) a x).toNat < S1000x128.size a := fun v6 v74 k0_hw49 => k0_hw49

def k0_chk50 (v8 : IVec S16 32) (v76 : IVec S16 32) : Prop :=
  (∀ a x, ((![v76, v8] : Fin 2 → IVec S16 32) a x).toNat < S1000x128.size a)
instance k0_chk50.dec : ∀ (v8 : IVec S16 32) (v76 : IVec S16 32), Decidable (k0_chk50 v8 v76) := fun v8 v76 => decidable_of_iff' _ (Iff.of_eq (k0_chk50.eq_1 v8 v76))
theorem k0_idx50_inb : ∀ (v8 : IVec S16 32) (v76 : IVec S16 32) (k0_hw50 : k0_chk50 v8 v76), ∀ a x, ((![v76, v8] : Fin 2 → IVec S16 32) a x).toNat < S1000x128.size a := fun v8 v76 k0_hw50 => k0_hw50

def k0_chk51 (v10 : IVec S16 32) (v78 : IVec S16 32) : Prop :=
  (∀ a x, ((![v78, v10] : Fin 2 → IVec S16 32) a x).toNat < S1000x128.size a)
instance k0_chk51.dec : ∀ (v10 : IVec S16 32) (v78 : IVec S16 32), Decidable (k0_chk51 v10 v78) := fun v10 v78 => decidable_of_iff' _ (Iff.of_eq (k0_chk51.eq_1 v10 v78))
theorem k0_idx51_inb : ∀ (v10 : IVec S16 32) (v78 : IVec S16 32) (k0_hw51 : k0_chk51 v10 v78), ∀ a x, ((![v78, v10] : Fin 2 → IVec S16 32) a x).toNat < S1000x128.size a := fun v10 v78 k0_hw51 => k0_hw51

def k0_chk52 (v12 : IVec S16 32) (v80 : IVec S16 32) : Prop :=
  (∀ a x, ((![v80, v12] : Fin 2 → IVec S16 32) a x).toNat < S1000x128.size a)
instance k0_chk52.dec : ∀ (v12 : IVec S16 32) (v80 : IVec S16 32), Decidable (k0_chk52 v12 v80) := fun v12 v80 => decidable_of_iff' _ (Iff.of_eq (k0_chk52.eq_1 v12 v80))
theorem k0_idx52_inb : ∀ (v12 : IVec S16 32) (v80 : IVec S16 32) (k0_hw52 : k0_chk52 v12 v80), ∀ a x, ((![v80, v12] : Fin 2 → IVec S16 32) a x).toNat < S1000x128.size a := fun v12 v80 k0_hw52 => k0_hw52

def k0_chk53 (v14 : IVec S16 32) (v82 : IVec S16 32) : Prop :=
  (∀ a x, ((![v82, v14] : Fin 2 → IVec S16 32) a x).toNat < S1000x128.size a)
instance k0_chk53.dec : ∀ (v14 : IVec S16 32) (v82 : IVec S16 32), Decidable (k0_chk53 v14 v82) := fun v14 v82 => decidable_of_iff' _ (Iff.of_eq (k0_chk53.eq_1 v14 v82))
theorem k0_idx53_inb : ∀ (v14 : IVec S16 32) (v82 : IVec S16 32) (k0_hw53 : k0_chk53 v14 v82), ∀ a x, ((![v82, v14] : Fin 2 → IVec S16 32) a x).toNat < S1000x128.size a := fun v14 v82 k0_hw53 => k0_hw53

def k0_chk54 (v16 : IVec S16 32) (v84 : IVec S16 32) : Prop :=
  (∀ a x, ((![v84, v16] : Fin 2 → IVec S16 32) a x).toNat < S1000x128.size a)
instance k0_chk54.dec : ∀ (v16 : IVec S16 32) (v84 : IVec S16 32), Decidable (k0_chk54 v16 v84) := fun v16 v84 => decidable_of_iff' _ (Iff.of_eq (k0_chk54.eq_1 v16 v84))
theorem k0_idx54_inb : ∀ (v16 : IVec S16 32) (v84 : IVec S16 32) (k0_hw54 : k0_chk54 v16 v84), ∀ a x, ((![v84, v16] : Fin 2 → IVec S16 32) a x).toNat < S1000x128.size a := fun v16 v84 k0_hw54 => k0_hw54

def k0_chk55 (v18 : IVec S16 32) (v86 : IVec S16 32) : Prop :=
  (∀ a x, ((![v86, v18] : Fin 2 → IVec S16 32) a x).toNat < S1000x128.size a)
instance k0_chk55.dec : ∀ (v18 : IVec S16 32) (v86 : IVec S16 32), Decidable (k0_chk55 v18 v86) := fun v18 v86 => decidable_of_iff' _ (Iff.of_eq (k0_chk55.eq_1 v18 v86))
theorem k0_idx55_inb : ∀ (v18 : IVec S16 32) (v86 : IVec S16 32) (k0_hw55 : k0_chk55 v18 v86), ∀ a x, ((![v86, v18] : Fin 2 → IVec S16 32) a x).toNat < S1000x128.size a := fun v18 v86 k0_hw55 => k0_hw55

def k0_chk56 (v20 : IVec S16 32) (v88 : IVec S16 32) : Prop :=
  (∀ a x, ((![v88, v20] : Fin 2 → IVec S16 32) a x).toNat < S1000x128.size a)
instance k0_chk56.dec : ∀ (v20 : IVec S16 32) (v88 : IVec S16 32), Decidable (k0_chk56 v20 v88) := fun v20 v88 => decidable_of_iff' _ (Iff.of_eq (k0_chk56.eq_1 v20 v88))
theorem k0_idx56_inb : ∀ (v20 : IVec S16 32) (v88 : IVec S16 32) (k0_hw56 : k0_chk56 v20 v88), ∀ a x, ((![v88, v20] : Fin 2 → IVec S16 32) a x).toNat < S1000x128.size a := fun v20 v88 k0_hw56 => k0_hw56
@[reducible] def k0_t10_loop : Scf.Loop 32 :=
  let c0_i32_41 : BitVec 32 := 0#32
  let c16_i32_42 : BitVec 32 := 16#32
  let v41 : BitVec 32 := Scalar.addi c0_i32_41 c16_i32_42
  let c1_i32_43 : BitVec 32 := 1#32
  ⟨c0_i32_41, v41, c1_i32_43⟩
def k0_off63 (k0_t10 : Fin k0_t10_loop.trips) : Fin 2 → Nat :=
  let c0_i32_41 : BitVec 32 := 0#32
  let c1_i32_43 : BitVec 32 := 1#32
  let arg6 : BitVec 32 := Scf.iv c0_i32_41 c1_i32_43 k0_t10
  let v73 : Index := Scalar.indexCast arg6
  let c0 : Index := 0#32
  ![v73.toNat, 0]
def k0_off64 (k0_t10 : Fin k0_t10_loop.trips) : Fin 2 → Nat :=
  let c0_i32_41 : BitVec 32 := 0#32
  let c1_i32_43 : BitVec 32 := 1#32
  let arg6 : BitVec 32 := Scf.iv c0_i32_41 c1_i32_43 k0_t10
  let v75 : Index := Scalar.indexCast arg6
  let c16 : Index := 16#32
  ![v75.toNat, 16]
def k0_off65 (k0_t10 : Fin k0_t10_loop.trips) : Fin 2 → Nat :=
  let c0_i32_41 : BitVec 32 := 0#32
  let c1_i32_43 : BitVec 32 := 1#32
  let arg6 : BitVec 32 := Scf.iv c0_i32_41 c1_i32_43 k0_t10
  let v77 : Index := Scalar.indexCast arg6
  let c32 : Index := 32#32
  ![v77.toNat, 32]
def k0_off66 (k0_t10 : Fin k0_t10_loop.trips) : Fin 2 → Nat :=
  let c0_i32_41 : BitVec 32 := 0#32
  let c1_i32_43 : BitVec 32 := 1#32
  let arg6 : BitVec 32 := Scf.iv c0_i32_41 c1_i32_43 k0_t10
  let v79 : Index := Scalar.indexCast arg6
  let c48 : Index := 48#32
  ![v79.toNat, 48]
def k0_off67 (k0_t10 : Fin k0_t10_loop.trips) : Fin 2 → Nat :=
  let c0_i32_41 : BitVec 32 := 0#32
  let c1_i32_43 : BitVec 32 := 1#32
  let arg6 : BitVec 32 := Scf.iv c0_i32_41 c1_i32_43 k0_t10
  let v81 : Index := Scalar.indexCast arg6
  let c64 : Index := 64#32
  ![v81.toNat, 64]
def k0_off68 (k0_t10 : Fin k0_t10_loop.trips) : Fin 2 → Nat :=
  let c0_i32_41 : BitVec 32 := 0#32
  let c1_i32_43 : BitVec 32 := 1#32
  let arg6 : BitVec 32 := Scf.iv c0_i32_41 c1_i32_43 k0_t10
  let v83 : Index := Scalar.indexCast arg6
  let c80 : Index := 80#32
  ![v83.toNat, 80]
def k0_off69 (k0_t10 : Fin k0_t10_loop.trips) : Fin 2 → Nat :=
  let c0_i32_41 : BitVec 32 := 0#32
  let c1_i32_43 : BitVec 32 := 1#32
  let arg6 : BitVec 32 := Scf.iv c0_i32_41 c1_i32_43 k0_t10
  let v85 : Index := Scalar.indexCast arg6
  let c96 : Index := 96#32
  ![v85.toNat, 96]
def k0_off70 (k0_t10 : Fin k0_t10_loop.trips) : Fin 2 → Nat :=
  let c0_i32_41 : BitVec 32 := 0#32
  let c1_i32_43 : BitVec 32 := 1#32
  let arg6 : BitVec 32 := Scf.iv c0_i32_41 c1_i32_43 k0_t10
  let v87 : Index := Scalar.indexCast arg6
  let c112 : Index := 112#32
  ![v87.toNat, 112]

def k0_chk57 (v6 : IVec S16 32) (v74 : IVec S16 32) : Prop :=
  (∀ a x, ((![v74, v6] : Fin 2 → IVec S16 32) a x).toNat < S1000x128.size a)
instance k0_chk57.dec : ∀ (v6 : IVec S16 32) (v74 : IVec S16 32), Decidable (k0_chk57 v6 v74) := fun v6 v74 => decidable_of_iff' _ (Iff.of_eq (k0_chk57.eq_1 v6 v74))
theorem k0_idx57_inb : ∀ (v6 : IVec S16 32) (v74 : IVec S16 32) (k0_hw57 : k0_chk57 v6 v74), ∀ a x, ((![v74, v6] : Fin 2 → IVec S16 32) a x).toNat < S1000x128.size a := fun v6 v74 k0_hw57 => k0_hw57

def k0_chk58 (v8 : IVec S16 32) (v76 : IVec S16 32) : Prop :=
  (∀ a x, ((![v76, v8] : Fin 2 → IVec S16 32) a x).toNat < S1000x128.size a)
instance k0_chk58.dec : ∀ (v8 : IVec S16 32) (v76 : IVec S16 32), Decidable (k0_chk58 v8 v76) := fun v8 v76 => decidable_of_iff' _ (Iff.of_eq (k0_chk58.eq_1 v8 v76))
theorem k0_idx58_inb : ∀ (v8 : IVec S16 32) (v76 : IVec S16 32) (k0_hw58 : k0_chk58 v8 v76), ∀ a x, ((![v76, v8] : Fin 2 → IVec S16 32) a x).toNat < S1000x128.size a := fun v8 v76 k0_hw58 => k0_hw58

def k0_chk59 (v10 : IVec S16 32) (v78 : IVec S16 32) : Prop :=
  (∀ a x, ((![v78, v10] : Fin 2 → IVec S16 32) a x).toNat < S1000x128.size a)
instance k0_chk59.dec : ∀ (v10 : IVec S16 32) (v78 : IVec S16 32), Decidable (k0_chk59 v10 v78) := fun v10 v78 => decidable_of_iff' _ (Iff.of_eq (k0_chk59.eq_1 v10 v78))
theorem k0_idx59_inb : ∀ (v10 : IVec S16 32) (v78 : IVec S16 32) (k0_hw59 : k0_chk59 v10 v78), ∀ a x, ((![v78, v10] : Fin 2 → IVec S16 32) a x).toNat < S1000x128.size a := fun v10 v78 k0_hw59 => k0_hw59

def k0_chk60 (v12 : IVec S16 32) (v80 : IVec S16 32) : Prop :=
  (∀ a x, ((![v80, v12] : Fin 2 → IVec S16 32) a x).toNat < S1000x128.size a)
instance k0_chk60.dec : ∀ (v12 : IVec S16 32) (v80 : IVec S16 32), Decidable (k0_chk60 v12 v80) := fun v12 v80 => decidable_of_iff' _ (Iff.of_eq (k0_chk60.eq_1 v12 v80))
theorem k0_idx60_inb : ∀ (v12 : IVec S16 32) (v80 : IVec S16 32) (k0_hw60 : k0_chk60 v12 v80), ∀ a x, ((![v80, v12] : Fin 2 → IVec S16 32) a x).toNat < S1000x128.size a := fun v12 v80 k0_hw60 => k0_hw60

def k0_chk61 (v14 : IVec S16 32) (v82 : IVec S16 32) : Prop :=
  (∀ a x, ((![v82, v14] : Fin 2 → IVec S16 32) a x).toNat < S1000x128.size a)
instance k0_chk61.dec : ∀ (v14 : IVec S16 32) (v82 : IVec S16 32), Decidable (k0_chk61 v14 v82) := fun v14 v82 => decidable_of_iff' _ (Iff.of_eq (k0_chk61.eq_1 v14 v82))
theorem k0_idx61_inb : ∀ (v14 : IVec S16 32) (v82 : IVec S16 32) (k0_hw61 : k0_chk61 v14 v82), ∀ a x, ((![v82, v14] : Fin 2 → IVec S16 32) a x).toNat < S1000x128.size a := fun v14 v82 k0_hw61 => k0_hw61

def k0_chk62 (v16 : IVec S16 32) (v84 : IVec S16 32) : Prop :=
  (∀ a x, ((![v84, v16] : Fin 2 → IVec S16 32) a x).toNat < S1000x128.size a)
instance k0_chk62.dec : ∀ (v16 : IVec S16 32) (v84 : IVec S16 32), Decidable (k0_chk62 v16 v84) := fun v16 v84 => decidable_of_iff' _ (Iff.of_eq (k0_chk62.eq_1 v16 v84))
theorem k0_idx62_inb : ∀ (v16 : IVec S16 32) (v84 : IVec S16 32) (k0_hw62 : k0_chk62 v16 v84), ∀ a x, ((![v84, v16] : Fin 2 → IVec S16 32) a x).toNat < S1000x128.size a := fun v16 v84 k0_hw62 => k0_hw62

def k0_chk63 (v18 : IVec S16 32) (v86 : IVec S16 32) : Prop :=
  (∀ a x, ((![v86, v18] : Fin 2 → IVec S16 32) a x).toNat < S1000x128.size a)
instance k0_chk63.dec : ∀ (v18 : IVec S16 32) (v86 : IVec S16 32), Decidable (k0_chk63 v18 v86) := fun v18 v86 => decidable_of_iff' _ (Iff.of_eq (k0_chk63.eq_1 v18 v86))
theorem k0_idx63_inb : ∀ (v18 : IVec S16 32) (v86 : IVec S16 32) (k0_hw63 : k0_chk63 v18 v86), ∀ a x, ((![v86, v18] : Fin 2 → IVec S16 32) a x).toNat < S1000x128.size a := fun v18 v86 k0_hw63 => k0_hw63

def k0_chk64 (v20 : IVec S16 32) (v88 : IVec S16 32) : Prop :=
  (∀ a x, ((![v88, v20] : Fin 2 → IVec S16 32) a x).toNat < S1000x128.size a)
instance k0_chk64.dec : ∀ (v20 : IVec S16 32) (v88 : IVec S16 32), Decidable (k0_chk64 v20 v88) := fun v20 v88 => decidable_of_iff' _ (Iff.of_eq (k0_chk64.eq_1 v20 v88))
theorem k0_idx64_inb : ∀ (v20 : IVec S16 32) (v88 : IVec S16 32) (k0_hw64 : k0_chk64 v20 v88), ∀ a x, ((![v88, v20] : Fin 2 → IVec S16 32) a x).toNat < S1000x128.size a := fun v20 v88 k0_hw64 => k0_hw64
@[reducible] def k0_t11_loop : Scf.Loop 32 :=
  let c0_i32_46 : BitVec 32 := 0#32
  let c18_i32_47 : BitVec 32 := 18#32
  let v43 : BitVec 32 := Scalar.addi c0_i32_46 c18_i32_47
  let c1_i32_48 : BitVec 32 := 1#32
  ⟨c0_i32_46, v43, c1_i32_48⟩
def k0_off71 (k0_t11 : Fin k0_t11_loop.trips) : Fin 2 → Nat :=
  let c0_i32_46 : BitVec 32 := 0#32
  let c1_i32_48 : BitVec 32 := 1#32
  let arg6 : BitVec 32 := Scf.iv c0_i32_46 c1_i32_48 k0_t11
  let v73 : Index := Scalar.indexCast arg6
  let c0 : Index := 0#32
  ![v73.toNat, 0]
def k0_off72 (k0_t11 : Fin k0_t11_loop.trips) : Fin 2 → Nat :=
  let c0_i32_46 : BitVec 32 := 0#32
  let c1_i32_48 : BitVec 32 := 1#32
  let arg6 : BitVec 32 := Scf.iv c0_i32_46 c1_i32_48 k0_t11
  let v75 : Index := Scalar.indexCast arg6
  let c16 : Index := 16#32
  ![v75.toNat, 16]
def k0_off73 (k0_t11 : Fin k0_t11_loop.trips) : Fin 2 → Nat :=
  let c0_i32_46 : BitVec 32 := 0#32
  let c1_i32_48 : BitVec 32 := 1#32
  let arg6 : BitVec 32 := Scf.iv c0_i32_46 c1_i32_48 k0_t11
  let v77 : Index := Scalar.indexCast arg6
  let c32 : Index := 32#32
  ![v77.toNat, 32]
def k0_off74 (k0_t11 : Fin k0_t11_loop.trips) : Fin 2 → Nat :=
  let c0_i32_46 : BitVec 32 := 0#32
  let c1_i32_48 : BitVec 32 := 1#32
  let arg6 : BitVec 32 := Scf.iv c0_i32_46 c1_i32_48 k0_t11
  let v79 : Index := Scalar.indexCast arg6
  let c48 : Index := 48#32
  ![v79.toNat, 48]
def k0_off75 (k0_t11 : Fin k0_t11_loop.trips) : Fin 2 → Nat :=
  let c0_i32_46 : BitVec 32 := 0#32
  let c1_i32_48 : BitVec 32 := 1#32
  let arg6 : BitVec 32 := Scf.iv c0_i32_46 c1_i32_48 k0_t11
  let v81 : Index := Scalar.indexCast arg6
  let c64 : Index := 64#32
  ![v81.toNat, 64]
def k0_off76 (k0_t11 : Fin k0_t11_loop.trips) : Fin 2 → Nat :=
  let c0_i32_46 : BitVec 32 := 0#32
  let c1_i32_48 : BitVec 32 := 1#32
  let arg6 : BitVec 32 := Scf.iv c0_i32_46 c1_i32_48 k0_t11
  let v83 : Index := Scalar.indexCast arg6
  let c80 : Index := 80#32
  ![v83.toNat, 80]
def k0_off77 (k0_t11 : Fin k0_t11_loop.trips) : Fin 2 → Nat :=
  let c0_i32_46 : BitVec 32 := 0#32
  let c1_i32_48 : BitVec 32 := 1#32
  let arg6 : BitVec 32 := Scf.iv c0_i32_46 c1_i32_48 k0_t11
  let v85 : Index := Scalar.indexCast arg6
  let c96 : Index := 96#32
  ![v85.toNat, 96]
def k0_off78 (k0_t11 : Fin k0_t11_loop.trips) : Fin 2 → Nat :=
  let c0_i32_46 : BitVec 32 := 0#32
  let c1_i32_48 : BitVec 32 := 1#32
  let arg6 : BitVec 32 := Scf.iv c0_i32_46 c1_i32_48 k0_t11
  let v87 : Index := Scalar.indexCast arg6
  let c112 : Index := 112#32
  ![v87.toNat, 112]

def k0_chk65 (v6 : IVec S16 32) (v74 : IVec S16 32) : Prop :=
  (∀ a x, ((![v74, v6] : Fin 2 → IVec S16 32) a x).toNat < S1000x128.size a)
instance k0_chk65.dec : ∀ (v6 : IVec S16 32) (v74 : IVec S16 32), Decidable (k0_chk65 v6 v74) := fun v6 v74 => decidable_of_iff' _ (Iff.of_eq (k0_chk65.eq_1 v6 v74))
theorem k0_idx65_inb : ∀ (v6 : IVec S16 32) (v74 : IVec S16 32) (k0_hw65 : k0_chk65 v6 v74), ∀ a x, ((![v74, v6] : Fin 2 → IVec S16 32) a x).toNat < S1000x128.size a := fun v6 v74 k0_hw65 => k0_hw65

def k0_chk66 (v8 : IVec S16 32) (v76 : IVec S16 32) : Prop :=
  (∀ a x, ((![v76, v8] : Fin 2 → IVec S16 32) a x).toNat < S1000x128.size a)
instance k0_chk66.dec : ∀ (v8 : IVec S16 32) (v76 : IVec S16 32), Decidable (k0_chk66 v8 v76) := fun v8 v76 => decidable_of_iff' _ (Iff.of_eq (k0_chk66.eq_1 v8 v76))
theorem k0_idx66_inb : ∀ (v8 : IVec S16 32) (v76 : IVec S16 32) (k0_hw66 : k0_chk66 v8 v76), ∀ a x, ((![v76, v8] : Fin 2 → IVec S16 32) a x).toNat < S1000x128.size a := fun v8 v76 k0_hw66 => k0_hw66

def k0_chk67 (v10 : IVec S16 32) (v78 : IVec S16 32) : Prop :=
  (∀ a x, ((![v78, v10] : Fin 2 → IVec S16 32) a x).toNat < S1000x128.size a)
instance k0_chk67.dec : ∀ (v10 : IVec S16 32) (v78 : IVec S16 32), Decidable (k0_chk67 v10 v78) := fun v10 v78 => decidable_of_iff' _ (Iff.of_eq (k0_chk67.eq_1 v10 v78))
theorem k0_idx67_inb : ∀ (v10 : IVec S16 32) (v78 : IVec S16 32) (k0_hw67 : k0_chk67 v10 v78), ∀ a x, ((![v78, v10] : Fin 2 → IVec S16 32) a x).toNat < S1000x128.size a := fun v10 v78 k0_hw67 => k0_hw67

def k0_chk68 (v12 : IVec S16 32) (v80 : IVec S16 32) : Prop :=
  (∀ a x, ((![v80, v12] : Fin 2 → IVec S16 32) a x).toNat < S1000x128.size a)
instance k0_chk68.dec : ∀ (v12 : IVec S16 32) (v80 : IVec S16 32), Decidable (k0_chk68 v12 v80) := fun v12 v80 => decidable_of_iff' _ (Iff.of_eq (k0_chk68.eq_1 v12 v80))
theorem k0_idx68_inb : ∀ (v12 : IVec S16 32) (v80 : IVec S16 32) (k0_hw68 : k0_chk68 v12 v80), ∀ a x, ((![v80, v12] : Fin 2 → IVec S16 32) a x).toNat < S1000x128.size a := fun v12 v80 k0_hw68 => k0_hw68

def k0_chk69 (v14 : IVec S16 32) (v82 : IVec S16 32) : Prop :=
  (∀ a x, ((![v82, v14] : Fin 2 → IVec S16 32) a x).toNat < S1000x128.size a)
instance k0_chk69.dec : ∀ (v14 : IVec S16 32) (v82 : IVec S16 32), Decidable (k0_chk69 v14 v82) := fun v14 v82 => decidable_of_iff' _ (Iff.of_eq (k0_chk69.eq_1 v14 v82))
theorem k0_idx69_inb : ∀ (v14 : IVec S16 32) (v82 : IVec S16 32) (k0_hw69 : k0_chk69 v14 v82), ∀ a x, ((![v82, v14] : Fin 2 → IVec S16 32) a x).toNat < S1000x128.size a := fun v14 v82 k0_hw69 => k0_hw69

def k0_chk70 (v16 : IVec S16 32) (v84 : IVec S16 32) : Prop :=
  (∀ a x, ((![v84, v16] : Fin 2 → IVec S16 32) a x).toNat < S1000x128.size a)
instance k0_chk70.dec : ∀ (v16 : IVec S16 32) (v84 : IVec S16 32), Decidable (k0_chk70 v16 v84) := fun v16 v84 => decidable_of_iff' _ (Iff.of_eq (k0_chk70.eq_1 v16 v84))
theorem k0_idx70_inb : ∀ (v16 : IVec S16 32) (v84 : IVec S16 32) (k0_hw70 : k0_chk70 v16 v84), ∀ a x, ((![v84, v16] : Fin 2 → IVec S16 32) a x).toNat < S1000x128.size a := fun v16 v84 k0_hw70 => k0_hw70

def k0_chk71 (v18 : IVec S16 32) (v86 : IVec S16 32) : Prop :=
  (∀ a x, ((![v86, v18] : Fin 2 → IVec S16 32) a x).toNat < S1000x128.size a)
instance k0_chk71.dec : ∀ (v18 : IVec S16 32) (v86 : IVec S16 32), Decidable (k0_chk71 v18 v86) := fun v18 v86 => decidable_of_iff' _ (Iff.of_eq (k0_chk71.eq_1 v18 v86))
theorem k0_idx71_inb : ∀ (v18 : IVec S16 32) (v86 : IVec S16 32) (k0_hw71 : k0_chk71 v18 v86), ∀ a x, ((![v86, v18] : Fin 2 → IVec S16 32) a x).toNat < S1000x128.size a := fun v18 v86 k0_hw71 => k0_hw71

def k0_chk72 (v20 : IVec S16 32) (v88 : IVec S16 32) : Prop :=
  (∀ a x, ((![v88, v20] : Fin 2 → IVec S16 32) a x).toNat < S1000x128.size a)
instance k0_chk72.dec : ∀ (v20 : IVec S16 32) (v88 : IVec S16 32), Decidable (k0_chk72 v20 v88) := fun v20 v88 => decidable_of_iff' _ (Iff.of_eq (k0_chk72.eq_1 v20 v88))
theorem k0_idx72_inb : ∀ (v20 : IVec S16 32) (v88 : IVec S16 32) (k0_hw72 : k0_chk72 v20 v88), ∀ a x, ((![v88, v20] : Fin 2 → IVec S16 32) a x).toNat < S1000x128.size a := fun v20 v88 k0_hw72 => k0_hw72
@[reducible] def k0_t12_loop : Scf.Loop 32 :=
  let c0_i32_51 : BitVec 32 := 0#32
  let c18_i32_52 : BitVec 32 := 18#32
  let v45 : BitVec 32 := Scalar.addi c0_i32_51 c18_i32_52
  let c1_i32_53 : BitVec 32 := 1#32
  ⟨c0_i32_51, v45, c1_i32_53⟩
def k0_off79 (k0_t12 : Fin k0_t12_loop.trips) : Fin 2 → Nat :=
  let c0_i32_51 : BitVec 32 := 0#32
  let c1_i32_53 : BitVec 32 := 1#32
  let arg6 : BitVec 32 := Scf.iv c0_i32_51 c1_i32_53 k0_t12
  let v73 : Index := Scalar.indexCast arg6
  let c0 : Index := 0#32
  ![v73.toNat, 0]
def k0_off80 (k0_t12 : Fin k0_t12_loop.trips) : Fin 2 → Nat :=
  let c0_i32_51 : BitVec 32 := 0#32
  let c1_i32_53 : BitVec 32 := 1#32
  let arg6 : BitVec 32 := Scf.iv c0_i32_51 c1_i32_53 k0_t12
  let v75 : Index := Scalar.indexCast arg6
  let c16 : Index := 16#32
  ![v75.toNat, 16]
def k0_off81 (k0_t12 : Fin k0_t12_loop.trips) : Fin 2 → Nat :=
  let c0_i32_51 : BitVec 32 := 0#32
  let c1_i32_53 : BitVec 32 := 1#32
  let arg6 : BitVec 32 := Scf.iv c0_i32_51 c1_i32_53 k0_t12
  let v77 : Index := Scalar.indexCast arg6
  let c32 : Index := 32#32
  ![v77.toNat, 32]
def k0_off82 (k0_t12 : Fin k0_t12_loop.trips) : Fin 2 → Nat :=
  let c0_i32_51 : BitVec 32 := 0#32
  let c1_i32_53 : BitVec 32 := 1#32
  let arg6 : BitVec 32 := Scf.iv c0_i32_51 c1_i32_53 k0_t12
  let v79 : Index := Scalar.indexCast arg6
  let c48 : Index := 48#32
  ![v79.toNat, 48]
def k0_off83 (k0_t12 : Fin k0_t12_loop.trips) : Fin 2 → Nat :=
  let c0_i32_51 : BitVec 32 := 0#32
  let c1_i32_53 : BitVec 32 := 1#32
  let arg6 : BitVec 32 := Scf.iv c0_i32_51 c1_i32_53 k0_t12
  let v81 : Index := Scalar.indexCast arg6
  let c64 : Index := 64#32
  ![v81.toNat, 64]
def k0_off84 (k0_t12 : Fin k0_t12_loop.trips) : Fin 2 → Nat :=
  let c0_i32_51 : BitVec 32 := 0#32
  let c1_i32_53 : BitVec 32 := 1#32
  let arg6 : BitVec 32 := Scf.iv c0_i32_51 c1_i32_53 k0_t12
  let v83 : Index := Scalar.indexCast arg6
  let c80 : Index := 80#32
  ![v83.toNat, 80]
def k0_off85 (k0_t12 : Fin k0_t12_loop.trips) : Fin 2 → Nat :=
  let c0_i32_51 : BitVec 32 := 0#32
  let c1_i32_53 : BitVec 32 := 1#32
  let arg6 : BitVec 32 := Scf.iv c0_i32_51 c1_i32_53 k0_t12
  let v85 : Index := Scalar.indexCast arg6
  let c96 : Index := 96#32
  ![v85.toNat, 96]
def k0_off86 (k0_t12 : Fin k0_t12_loop.trips) : Fin 2 → Nat :=
  let c0_i32_51 : BitVec 32 := 0#32
  let c1_i32_53 : BitVec 32 := 1#32
  let arg6 : BitVec 32 := Scf.iv c0_i32_51 c1_i32_53 k0_t12
  let v87 : Index := Scalar.indexCast arg6
  let c112 : Index := 112#32
  ![v87.toNat, 112]

def k0_chk73 (v6 : IVec S16 32) (v74 : IVec S16 32) : Prop :=
  (∀ a x, ((![v74, v6] : Fin 2 → IVec S16 32) a x).toNat < S1000x128.size a)
instance k0_chk73.dec : ∀ (v6 : IVec S16 32) (v74 : IVec S16 32), Decidable (k0_chk73 v6 v74) := fun v6 v74 => decidable_of_iff' _ (Iff.of_eq (k0_chk73.eq_1 v6 v74))
theorem k0_idx73_inb : ∀ (v6 : IVec S16 32) (v74 : IVec S16 32) (k0_hw73 : k0_chk73 v6 v74), ∀ a x, ((![v74, v6] : Fin 2 → IVec S16 32) a x).toNat < S1000x128.size a := fun v6 v74 k0_hw73 => k0_hw73

def k0_chk74 (v8 : IVec S16 32) (v76 : IVec S16 32) : Prop :=
  (∀ a x, ((![v76, v8] : Fin 2 → IVec S16 32) a x).toNat < S1000x128.size a)
instance k0_chk74.dec : ∀ (v8 : IVec S16 32) (v76 : IVec S16 32), Decidable (k0_chk74 v8 v76) := fun v8 v76 => decidable_of_iff' _ (Iff.of_eq (k0_chk74.eq_1 v8 v76))
theorem k0_idx74_inb : ∀ (v8 : IVec S16 32) (v76 : IVec S16 32) (k0_hw74 : k0_chk74 v8 v76), ∀ a x, ((![v76, v8] : Fin 2 → IVec S16 32) a x).toNat < S1000x128.size a := fun v8 v76 k0_hw74 => k0_hw74

def k0_chk75 (v10 : IVec S16 32) (v78 : IVec S16 32) : Prop :=
  (∀ a x, ((![v78, v10] : Fin 2 → IVec S16 32) a x).toNat < S1000x128.size a)
instance k0_chk75.dec : ∀ (v10 : IVec S16 32) (v78 : IVec S16 32), Decidable (k0_chk75 v10 v78) := fun v10 v78 => decidable_of_iff' _ (Iff.of_eq (k0_chk75.eq_1 v10 v78))
theorem k0_idx75_inb : ∀ (v10 : IVec S16 32) (v78 : IVec S16 32) (k0_hw75 : k0_chk75 v10 v78), ∀ a x, ((![v78, v10] : Fin 2 → IVec S16 32) a x).toNat < S1000x128.size a := fun v10 v78 k0_hw75 => k0_hw75

def k0_chk76 (v12 : IVec S16 32) (v80 : IVec S16 32) : Prop :=
  (∀ a x, ((![v80, v12] : Fin 2 → IVec S16 32) a x).toNat < S1000x128.size a)
instance k0_chk76.dec : ∀ (v12 : IVec S16 32) (v80 : IVec S16 32), Decidable (k0_chk76 v12 v80) := fun v12 v80 => decidable_of_iff' _ (Iff.of_eq (k0_chk76.eq_1 v12 v80))
theorem k0_idx76_inb : ∀ (v12 : IVec S16 32) (v80 : IVec S16 32) (k0_hw76 : k0_chk76 v12 v80), ∀ a x, ((![v80, v12] : Fin 2 → IVec S16 32) a x).toNat < S1000x128.size a := fun v12 v80 k0_hw76 => k0_hw76

def k0_chk77 (v14 : IVec S16 32) (v82 : IVec S16 32) : Prop :=
  (∀ a x, ((![v82, v14] : Fin 2 → IVec S16 32) a x).toNat < S1000x128.size a)
instance k0_chk77.dec : ∀ (v14 : IVec S16 32) (v82 : IVec S16 32), Decidable (k0_chk77 v14 v82) := fun v14 v82 => decidable_of_iff' _ (Iff.of_eq (k0_chk77.eq_1 v14 v82))
theorem k0_idx77_inb : ∀ (v14 : IVec S16 32) (v82 : IVec S16 32) (k0_hw77 : k0_chk77 v14 v82), ∀ a x, ((![v82, v14] : Fin 2 → IVec S16 32) a x).toNat < S1000x128.size a := fun v14 v82 k0_hw77 => k0_hw77

def k0_chk78 (v16 : IVec S16 32) (v84 : IVec S16 32) : Prop :=
  (∀ a x, ((![v84, v16] : Fin 2 → IVec S16 32) a x).toNat < S1000x128.size a)
instance k0_chk78.dec : ∀ (v16 : IVec S16 32) (v84 : IVec S16 32), Decidable (k0_chk78 v16 v84) := fun v16 v84 => decidable_of_iff' _ (Iff.of_eq (k0_chk78.eq_1 v16 v84))
theorem k0_idx78_inb : ∀ (v16 : IVec S16 32) (v84 : IVec S16 32) (k0_hw78 : k0_chk78 v16 v84), ∀ a x, ((![v84, v16] : Fin 2 → IVec S16 32) a x).toNat < S1000x128.size a := fun v16 v84 k0_hw78 => k0_hw78

def k0_chk79 (v18 : IVec S16 32) (v86 : IVec S16 32) : Prop :=
  (∀ a x, ((![v86, v18] : Fin 2 → IVec S16 32) a x).toNat < S1000x128.size a)
instance k0_chk79.dec : ∀ (v18 : IVec S16 32) (v86 : IVec S16 32), Decidable (k0_chk79 v18 v86) := fun v18 v86 => decidable_of_iff' _ (Iff.of_eq (k0_chk79.eq_1 v18 v86))
theorem k0_idx79_inb : ∀ (v18 : IVec S16 32) (v86 : IVec S16 32) (k0_hw79 : k0_chk79 v18 v86), ∀ a x, ((![v86, v18] : Fin 2 → IVec S16 32) a x).toNat < S1000x128.size a := fun v18 v86 k0_hw79 => k0_hw79

def k0_chk80 (v20 : IVec S16 32) (v88 : IVec S16 32) : Prop :=
  (∀ a x, ((![v88, v20] : Fin 2 → IVec S16 32) a x).toNat < S1000x128.size a)
instance k0_chk80.dec : ∀ (v20 : IVec S16 32) (v88 : IVec S16 32), Decidable (k0_chk80 v20 v88) := fun v20 v88 => decidable_of_iff' _ (Iff.of_eq (k0_chk80.eq_1 v20 v88))
theorem k0_idx80_inb : ∀ (v20 : IVec S16 32) (v88 : IVec S16 32) (k0_hw80 : k0_chk80 v20 v88), ∀ a x, ((![v88, v20] : Fin 2 → IVec S16 32) a x).toNat < S1000x128.size a := fun v20 v88 k0_hw80 => k0_hw80
@[reducible] def k0_t13_loop : Scf.Loop 32 :=
  let c0_i32_56 : BitVec 32 := 0#32
  let c16_i32_57 : BitVec 32 := 16#32
  let v47 : BitVec 32 := Scalar.addi c0_i32_56 c16_i32_57
  let c1_i32_58 : BitVec 32 := 1#32
  ⟨c0_i32_56, v47, c1_i32_58⟩
def k0_off87 (k0_t13 : Fin k0_t13_loop.trips) : Fin 2 → Nat :=
  let c0_i32_56 : BitVec 32 := 0#32
  let c1_i32_58 : BitVec 32 := 1#32
  let arg6 : BitVec 32 := Scf.iv c0_i32_56 c1_i32_58 k0_t13
  let v73 : Index := Scalar.indexCast arg6
  let c0 : Index := 0#32
  ![v73.toNat, 0]
def k0_off88 (k0_t13 : Fin k0_t13_loop.trips) : Fin 2 → Nat :=
  let c0_i32_56 : BitVec 32 := 0#32
  let c1_i32_58 : BitVec 32 := 1#32
  let arg6 : BitVec 32 := Scf.iv c0_i32_56 c1_i32_58 k0_t13
  let v75 : Index := Scalar.indexCast arg6
  let c16 : Index := 16#32
  ![v75.toNat, 16]
def k0_off89 (k0_t13 : Fin k0_t13_loop.trips) : Fin 2 → Nat :=
  let c0_i32_56 : BitVec 32 := 0#32
  let c1_i32_58 : BitVec 32 := 1#32
  let arg6 : BitVec 32 := Scf.iv c0_i32_56 c1_i32_58 k0_t13
  let v77 : Index := Scalar.indexCast arg6
  let c32 : Index := 32#32
  ![v77.toNat, 32]
def k0_off90 (k0_t13 : Fin k0_t13_loop.trips) : Fin 2 → Nat :=
  let c0_i32_56 : BitVec 32 := 0#32
  let c1_i32_58 : BitVec 32 := 1#32
  let arg6 : BitVec 32 := Scf.iv c0_i32_56 c1_i32_58 k0_t13
  let v79 : Index := Scalar.indexCast arg6
  let c48 : Index := 48#32
  ![v79.toNat, 48]
def k0_off91 (k0_t13 : Fin k0_t13_loop.trips) : Fin 2 → Nat :=
  let c0_i32_56 : BitVec 32 := 0#32
  let c1_i32_58 : BitVec 32 := 1#32
  let arg6 : BitVec 32 := Scf.iv c0_i32_56 c1_i32_58 k0_t13
  let v81 : Index := Scalar.indexCast arg6
  let c64 : Index := 64#32
  ![v81.toNat, 64]
def k0_off92 (k0_t13 : Fin k0_t13_loop.trips) : Fin 2 → Nat :=
  let c0_i32_56 : BitVec 32 := 0#32
  let c1_i32_58 : BitVec 32 := 1#32
  let arg6 : BitVec 32 := Scf.iv c0_i32_56 c1_i32_58 k0_t13
  let v83 : Index := Scalar.indexCast arg6
  let c80 : Index := 80#32
  ![v83.toNat, 80]
def k0_off93 (k0_t13 : Fin k0_t13_loop.trips) : Fin 2 → Nat :=
  let c0_i32_56 : BitVec 32 := 0#32
  let c1_i32_58 : BitVec 32 := 1#32
  let arg6 : BitVec 32 := Scf.iv c0_i32_56 c1_i32_58 k0_t13
  let v85 : Index := Scalar.indexCast arg6
  let c96 : Index := 96#32
  ![v85.toNat, 96]
def k0_off94 (k0_t13 : Fin k0_t13_loop.trips) : Fin 2 → Nat :=
  let c0_i32_56 : BitVec 32 := 0#32
  let c1_i32_58 : BitVec 32 := 1#32
  let arg6 : BitVec 32 := Scf.iv c0_i32_56 c1_i32_58 k0_t13
  let v87 : Index := Scalar.indexCast arg6
  let c112 : Index := 112#32
  ![v87.toNat, 112]

def k0_chk81 (v6 : IVec S16 32) (v74 : IVec S16 32) : Prop :=
  (∀ a x, ((![v74, v6] : Fin 2 → IVec S16 32) a x).toNat < S1000x128.size a)
instance k0_chk81.dec : ∀ (v6 : IVec S16 32) (v74 : IVec S16 32), Decidable (k0_chk81 v6 v74) := fun v6 v74 => decidable_of_iff' _ (Iff.of_eq (k0_chk81.eq_1 v6 v74))
theorem k0_idx81_inb : ∀ (v6 : IVec S16 32) (v74 : IVec S16 32) (k0_hw81 : k0_chk81 v6 v74), ∀ a x, ((![v74, v6] : Fin 2 → IVec S16 32) a x).toNat < S1000x128.size a := fun v6 v74 k0_hw81 => k0_hw81

def k0_chk82 (v8 : IVec S16 32) (v76 : IVec S16 32) : Prop :=
  (∀ a x, ((![v76, v8] : Fin 2 → IVec S16 32) a x).toNat < S1000x128.size a)
instance k0_chk82.dec : ∀ (v8 : IVec S16 32) (v76 : IVec S16 32), Decidable (k0_chk82 v8 v76) := fun v8 v76 => decidable_of_iff' _ (Iff.of_eq (k0_chk82.eq_1 v8 v76))
theorem k0_idx82_inb : ∀ (v8 : IVec S16 32) (v76 : IVec S16 32) (k0_hw82 : k0_chk82 v8 v76), ∀ a x, ((![v76, v8] : Fin 2 → IVec S16 32) a x).toNat < S1000x128.size a := fun v8 v76 k0_hw82 => k0_hw82

def k0_chk83 (v10 : IVec S16 32) (v78 : IVec S16 32) : Prop :=
  (∀ a x, ((![v78, v10] : Fin 2 → IVec S16 32) a x).toNat < S1000x128.size a)
instance k0_chk83.dec : ∀ (v10 : IVec S16 32) (v78 : IVec S16 32), Decidable (k0_chk83 v10 v78) := fun v10 v78 => decidable_of_iff' _ (Iff.of_eq (k0_chk83.eq_1 v10 v78))
theorem k0_idx83_inb : ∀ (v10 : IVec S16 32) (v78 : IVec S16 32) (k0_hw83 : k0_chk83 v10 v78), ∀ a x, ((![v78, v10] : Fin 2 → IVec S16 32) a x).toNat < S1000x128.size a := fun v10 v78 k0_hw83 => k0_hw83

def k0_chk84 (v12 : IVec S16 32) (v80 : IVec S16 32) : Prop :=
  (∀ a x, ((![v80, v12] : Fin 2 → IVec S16 32) a x).toNat < S1000x128.size a)
instance k0_chk84.dec : ∀ (v12 : IVec S16 32) (v80 : IVec S16 32), Decidable (k0_chk84 v12 v80) := fun v12 v80 => decidable_of_iff' _ (Iff.of_eq (k0_chk84.eq_1 v12 v80))
theorem k0_idx84_inb : ∀ (v12 : IVec S16 32) (v80 : IVec S16 32) (k0_hw84 : k0_chk84 v12 v80), ∀ a x, ((![v80, v12] : Fin 2 → IVec S16 32) a x).toNat < S1000x128.size a := fun v12 v80 k0_hw84 => k0_hw84

def k0_chk85 (v14 : IVec S16 32) (v82 : IVec S16 32) : Prop :=
  (∀ a x, ((![v82, v14] : Fin 2 → IVec S16 32) a x).toNat < S1000x128.size a)
instance k0_chk85.dec : ∀ (v14 : IVec S16 32) (v82 : IVec S16 32), Decidable (k0_chk85 v14 v82) := fun v14 v82 => decidable_of_iff' _ (Iff.of_eq (k0_chk85.eq_1 v14 v82))
theorem k0_idx85_inb : ∀ (v14 : IVec S16 32) (v82 : IVec S16 32) (k0_hw85 : k0_chk85 v14 v82), ∀ a x, ((![v82, v14] : Fin 2 → IVec S16 32) a x).toNat < S1000x128.size a := fun v14 v82 k0_hw85 => k0_hw85

def k0_chk86 (v16 : IVec S16 32) (v84 : IVec S16 32) : Prop :=
  (∀ a x, ((![v84, v16] : Fin 2 → IVec S16 32) a x).toNat < S1000x128.size a)
instance k0_chk86.dec : ∀ (v16 : IVec S16 32) (v84 : IVec S16 32), Decidable (k0_chk86 v16 v84) := fun v16 v84 => decidable_of_iff' _ (Iff.of_eq (k0_chk86.eq_1 v16 v84))
theorem k0_idx86_inb : ∀ (v16 : IVec S16 32) (v84 : IVec S16 32) (k0_hw86 : k0_chk86 v16 v84), ∀ a x, ((![v84, v16] : Fin 2 → IVec S16 32) a x).toNat < S1000x128.size a := fun v16 v84 k0_hw86 => k0_hw86

def k0_chk87 (v18 : IVec S16 32) (v86 : IVec S16 32) : Prop :=
  (∀ a x, ((![v86, v18] : Fin 2 → IVec S16 32) a x).toNat < S1000x128.size a)
instance k0_chk87.dec : ∀ (v18 : IVec S16 32) (v86 : IVec S16 32), Decidable (k0_chk87 v18 v86) := fun v18 v86 => decidable_of_iff' _ (Iff.of_eq (k0_chk87.eq_1 v18 v86))
theorem k0_idx87_inb : ∀ (v18 : IVec S16 32) (v86 : IVec S16 32) (k0_hw87 : k0_chk87 v18 v86), ∀ a x, ((![v86, v18] : Fin 2 → IVec S16 32) a x).toNat < S1000x128.size a := fun v18 v86 k0_hw87 => k0_hw87

def k0_chk88 (v20 : IVec S16 32) (v88 : IVec S16 32) : Prop :=
  (∀ a x, ((![v88, v20] : Fin 2 → IVec S16 32) a x).toNat < S1000x128.size a)
instance k0_chk88.dec : ∀ (v20 : IVec S16 32) (v88 : IVec S16 32), Decidable (k0_chk88 v20 v88) := fun v20 v88 => decidable_of_iff' _ (Iff.of_eq (k0_chk88.eq_1 v20 v88))
theorem k0_idx88_inb : ∀ (v20 : IVec S16 32) (v88 : IVec S16 32) (k0_hw88 : k0_chk88 v20 v88), ∀ a x, ((![v88, v20] : Fin 2 → IVec S16 32) a x).toNat < S1000x128.size a := fun v20 v88 k0_hw88 => k0_hw88
@[reducible] def k0_t14_loop : Scf.Loop 32 :=
  let c0_i32_61 : BitVec 32 := 0#32
  let c16_i32_62 : BitVec 32 := 16#32
  let v49 : BitVec 32 := Scalar.addi c0_i32_61 c16_i32_62
  let c1_i32_63 : BitVec 32 := 1#32
  ⟨c0_i32_61, v49, c1_i32_63⟩
def k0_off95 (k0_t14 : Fin k0_t14_loop.trips) : Fin 2 → Nat :=
  let c0_i32_61 : BitVec 32 := 0#32
  let c1_i32_63 : BitVec 32 := 1#32
  let arg6 : BitVec 32 := Scf.iv c0_i32_61 c1_i32_63 k0_t14
  let v73 : Index := Scalar.indexCast arg6
  let c0 : Index := 0#32
  ![v73.toNat, 0]
def k0_off96 (k0_t14 : Fin k0_t14_loop.trips) : Fin 2 → Nat :=
  let c0_i32_61 : BitVec 32 := 0#32
  let c1_i32_63 : BitVec 32 := 1#32
  let arg6 : BitVec 32 := Scf.iv c0_i32_61 c1_i32_63 k0_t14
  let v75 : Index := Scalar.indexCast arg6
  let c16 : Index := 16#32
  ![v75.toNat, 16]
def k0_off97 (k0_t14 : Fin k0_t14_loop.trips) : Fin 2 → Nat :=
  let c0_i32_61 : BitVec 32 := 0#32
  let c1_i32_63 : BitVec 32 := 1#32
  let arg6 : BitVec 32 := Scf.iv c0_i32_61 c1_i32_63 k0_t14
  let v77 : Index := Scalar.indexCast arg6
  let c32 : Index := 32#32
  ![v77.toNat, 32]
def k0_off98 (k0_t14 : Fin k0_t14_loop.trips) : Fin 2 → Nat :=
  let c0_i32_61 : BitVec 32 := 0#32
  let c1_i32_63 : BitVec 32 := 1#32
  let arg6 : BitVec 32 := Scf.iv c0_i32_61 c1_i32_63 k0_t14
  let v79 : Index := Scalar.indexCast arg6
  let c48 : Index := 48#32
  ![v79.toNat, 48]
def k0_off99 (k0_t14 : Fin k0_t14_loop.trips) : Fin 2 → Nat :=
  let c0_i32_61 : BitVec 32 := 0#32
  let c1_i32_63 : BitVec 32 := 1#32
  let arg6 : BitVec 32 := Scf.iv c0_i32_61 c1_i32_63 k0_t14
  let v81 : Index := Scalar.indexCast arg6
  let c64 : Index := 64#32
  ![v81.toNat, 64]
def k0_off100 (k0_t14 : Fin k0_t14_loop.trips) : Fin 2 → Nat :=
  let c0_i32_61 : BitVec 32 := 0#32
  let c1_i32_63 : BitVec 32 := 1#32
  let arg6 : BitVec 32 := Scf.iv c0_i32_61 c1_i32_63 k0_t14
  let v83 : Index := Scalar.indexCast arg6
  let c80 : Index := 80#32
  ![v83.toNat, 80]
def k0_off101 (k0_t14 : Fin k0_t14_loop.trips) : Fin 2 → Nat :=
  let c0_i32_61 : BitVec 32 := 0#32
  let c1_i32_63 : BitVec 32 := 1#32
  let arg6 : BitVec 32 := Scf.iv c0_i32_61 c1_i32_63 k0_t14
  let v85 : Index := Scalar.indexCast arg6
  let c96 : Index := 96#32
  ![v85.toNat, 96]
def k0_off102 (k0_t14 : Fin k0_t14_loop.trips) : Fin 2 → Nat :=
  let c0_i32_61 : BitVec 32 := 0#32
  let c1_i32_63 : BitVec 32 := 1#32
  let arg6 : BitVec 32 := Scf.iv c0_i32_61 c1_i32_63 k0_t14
  let v87 : Index := Scalar.indexCast arg6
  let c112 : Index := 112#32
  ![v87.toNat, 112]

def k0_chk89 (v6 : IVec S16 32) (v74 : IVec S16 32) : Prop :=
  (∀ a x, ((![v74, v6] : Fin 2 → IVec S16 32) a x).toNat < S1000x128.size a)
instance k0_chk89.dec : ∀ (v6 : IVec S16 32) (v74 : IVec S16 32), Decidable (k0_chk89 v6 v74) := fun v6 v74 => decidable_of_iff' _ (Iff.of_eq (k0_chk89.eq_1 v6 v74))
theorem k0_idx89_inb : ∀ (v6 : IVec S16 32) (v74 : IVec S16 32) (k0_hw89 : k0_chk89 v6 v74), ∀ a x, ((![v74, v6] : Fin 2 → IVec S16 32) a x).toNat < S1000x128.size a := fun v6 v74 k0_hw89 => k0_hw89

def k0_chk90 (v8 : IVec S16 32) (v76 : IVec S16 32) : Prop :=
  (∀ a x, ((![v76, v8] : Fin 2 → IVec S16 32) a x).toNat < S1000x128.size a)
instance k0_chk90.dec : ∀ (v8 : IVec S16 32) (v76 : IVec S16 32), Decidable (k0_chk90 v8 v76) := fun v8 v76 => decidable_of_iff' _ (Iff.of_eq (k0_chk90.eq_1 v8 v76))
theorem k0_idx90_inb : ∀ (v8 : IVec S16 32) (v76 : IVec S16 32) (k0_hw90 : k0_chk90 v8 v76), ∀ a x, ((![v76, v8] : Fin 2 → IVec S16 32) a x).toNat < S1000x128.size a := fun v8 v76 k0_hw90 => k0_hw90

def k0_chk91 (v10 : IVec S16 32) (v78 : IVec S16 32) : Prop :=
  (∀ a x, ((![v78, v10] : Fin 2 → IVec S16 32) a x).toNat < S1000x128.size a)
instance k0_chk91.dec : ∀ (v10 : IVec S16 32) (v78 : IVec S16 32), Decidable (k0_chk91 v10 v78) := fun v10 v78 => decidable_of_iff' _ (Iff.of_eq (k0_chk91.eq_1 v10 v78))
theorem k0_idx91_inb : ∀ (v10 : IVec S16 32) (v78 : IVec S16 32) (k0_hw91 : k0_chk91 v10 v78), ∀ a x, ((![v78, v10] : Fin 2 → IVec S16 32) a x).toNat < S1000x128.size a := fun v10 v78 k0_hw91 => k0_hw91

def k0_chk92 (v12 : IVec S16 32) (v80 : IVec S16 32) : Prop :=
  (∀ a x, ((![v80, v12] : Fin 2 → IVec S16 32) a x).toNat < S1000x128.size a)
instance k0_chk92.dec : ∀ (v12 : IVec S16 32) (v80 : IVec S16 32), Decidable (k0_chk92 v12 v80) := fun v12 v80 => decidable_of_iff' _ (Iff.of_eq (k0_chk92.eq_1 v12 v80))
theorem k0_idx92_inb : ∀ (v12 : IVec S16 32) (v80 : IVec S16 32) (k0_hw92 : k0_chk92 v12 v80), ∀ a x, ((![v80, v12] : Fin 2 → IVec S16 32) a x).toNat < S1000x128.size a := fun v12 v80 k0_hw92 => k0_hw92

def k0_chk93 (v14 : IVec S16 32) (v82 : IVec S16 32) : Prop :=
  (∀ a x, ((![v82, v14] : Fin 2 → IVec S16 32) a x).toNat < S1000x128.size a)
instance k0_chk93.dec : ∀ (v14 : IVec S16 32) (v82 : IVec S16 32), Decidable (k0_chk93 v14 v82) := fun v14 v82 => decidable_of_iff' _ (Iff.of_eq (k0_chk93.eq_1 v14 v82))
theorem k0_idx93_inb : ∀ (v14 : IVec S16 32) (v82 : IVec S16 32) (k0_hw93 : k0_chk93 v14 v82), ∀ a x, ((![v82, v14] : Fin 2 → IVec S16 32) a x).toNat < S1000x128.size a := fun v14 v82 k0_hw93 => k0_hw93

def k0_chk94 (v16 : IVec S16 32) (v84 : IVec S16 32) : Prop :=
  (∀ a x, ((![v84, v16] : Fin 2 → IVec S16 32) a x).toNat < S1000x128.size a)
instance k0_chk94.dec : ∀ (v16 : IVec S16 32) (v84 : IVec S16 32), Decidable (k0_chk94 v16 v84) := fun v16 v84 => decidable_of_iff' _ (Iff.of_eq (k0_chk94.eq_1 v16 v84))
theorem k0_idx94_inb : ∀ (v16 : IVec S16 32) (v84 : IVec S16 32) (k0_hw94 : k0_chk94 v16 v84), ∀ a x, ((![v84, v16] : Fin 2 → IVec S16 32) a x).toNat < S1000x128.size a := fun v16 v84 k0_hw94 => k0_hw94

def k0_chk95 (v18 : IVec S16 32) (v86 : IVec S16 32) : Prop :=
  (∀ a x, ((![v86, v18] : Fin 2 → IVec S16 32) a x).toNat < S1000x128.size a)
instance k0_chk95.dec : ∀ (v18 : IVec S16 32) (v86 : IVec S16 32), Decidable (k0_chk95 v18 v86) := fun v18 v86 => decidable_of_iff' _ (Iff.of_eq (k0_chk95.eq_1 v18 v86))
theorem k0_idx95_inb : ∀ (v18 : IVec S16 32) (v86 : IVec S16 32) (k0_hw95 : k0_chk95 v18 v86), ∀ a x, ((![v86, v18] : Fin 2 → IVec S16 32) a x).toNat < S1000x128.size a := fun v18 v86 k0_hw95 => k0_hw95

def k0_chk96 (v20 : IVec S16 32) (v88 : IVec S16 32) : Prop :=
  (∀ a x, ((![v88, v20] : Fin 2 → IVec S16 32) a x).toNat < S1000x128.size a)
instance k0_chk96.dec : ∀ (v20 : IVec S16 32) (v88 : IVec S16 32), Decidable (k0_chk96 v20 v88) := fun v20 v88 => decidable_of_iff' _ (Iff.of_eq (k0_chk96.eq_1 v20 v88))
theorem k0_idx96_inb : ∀ (v20 : IVec S16 32) (v88 : IVec S16 32) (k0_hw96 : k0_chk96 v20 v88), ∀ a x, ((![v88, v20] : Fin 2 → IVec S16 32) a x).toNat < S1000x128.size a := fun v20 v88 k0_hw96 => k0_hw96
@[reducible] def k0_t15_loop : Scf.Loop 32 :=
  let c0_i32_67 : BitVec 32 := 0#32
  let c16_i32_68 : BitVec 32 := 16#32
  let v53 : BitVec 32 := Scalar.addi c0_i32_67 c16_i32_68
  let c1_i32_69 : BitVec 32 := 1#32
  ⟨c0_i32_67, v53, c1_i32_69⟩
def k0_off103 (k0_t15 : Fin k0_t15_loop.trips) : Fin 2 → Nat :=
  let c0_i32_67 : BitVec 32 := 0#32
  let c1_i32_69 : BitVec 32 := 1#32
  let arg6 : BitVec 32 := Scf.iv c0_i32_67 c1_i32_69 k0_t15
  let v73 : Index := Scalar.indexCast arg6
  let c0 : Index := 0#32
  ![v73.toNat, 0]
def k0_off104 (k0_t15 : Fin k0_t15_loop.trips) : Fin 2 → Nat :=
  let c0_i32_67 : BitVec 32 := 0#32
  let c1_i32_69 : BitVec 32 := 1#32
  let arg6 : BitVec 32 := Scf.iv c0_i32_67 c1_i32_69 k0_t15
  let v75 : Index := Scalar.indexCast arg6
  let c16 : Index := 16#32
  ![v75.toNat, 16]
def k0_off105 (k0_t15 : Fin k0_t15_loop.trips) : Fin 2 → Nat :=
  let c0_i32_67 : BitVec 32 := 0#32
  let c1_i32_69 : BitVec 32 := 1#32
  let arg6 : BitVec 32 := Scf.iv c0_i32_67 c1_i32_69 k0_t15
  let v77 : Index := Scalar.indexCast arg6
  let c32 : Index := 32#32
  ![v77.toNat, 32]
def k0_off106 (k0_t15 : Fin k0_t15_loop.trips) : Fin 2 → Nat :=
  let c0_i32_67 : BitVec 32 := 0#32
  let c1_i32_69 : BitVec 32 := 1#32
  let arg6 : BitVec 32 := Scf.iv c0_i32_67 c1_i32_69 k0_t15
  let v79 : Index := Scalar.indexCast arg6
  let c48 : Index := 48#32
  ![v79.toNat, 48]
def k0_off107 (k0_t15 : Fin k0_t15_loop.trips) : Fin 2 → Nat :=
  let c0_i32_67 : BitVec 32 := 0#32
  let c1_i32_69 : BitVec 32 := 1#32
  let arg6 : BitVec 32 := Scf.iv c0_i32_67 c1_i32_69 k0_t15
  let v81 : Index := Scalar.indexCast arg6
  let c64 : Index := 64#32
  ![v81.toNat, 64]
def k0_off108 (k0_t15 : Fin k0_t15_loop.trips) : Fin 2 → Nat :=
  let c0_i32_67 : BitVec 32 := 0#32
  let c1_i32_69 : BitVec 32 := 1#32
  let arg6 : BitVec 32 := Scf.iv c0_i32_67 c1_i32_69 k0_t15
  let v83 : Index := Scalar.indexCast arg6
  let c80 : Index := 80#32
  ![v83.toNat, 80]
def k0_off109 (k0_t15 : Fin k0_t15_loop.trips) : Fin 2 → Nat :=
  let c0_i32_67 : BitVec 32 := 0#32
  let c1_i32_69 : BitVec 32 := 1#32
  let arg6 : BitVec 32 := Scf.iv c0_i32_67 c1_i32_69 k0_t15
  let v85 : Index := Scalar.indexCast arg6
  let c96 : Index := 96#32
  ![v85.toNat, 96]
def k0_off110 (k0_t15 : Fin k0_t15_loop.trips) : Fin 2 → Nat :=
  let c0_i32_67 : BitVec 32 := 0#32
  let c1_i32_69 : BitVec 32 := 1#32
  let arg6 : BitVec 32 := Scf.iv c0_i32_67 c1_i32_69 k0_t15
  let v87 : Index := Scalar.indexCast arg6
  let c112 : Index := 112#32
  ![v87.toNat, 112]

def k0_chk97 (v6 : IVec S16 32) (v74 : IVec S16 32) : Prop :=
  (∀ a x, ((![v74, v6] : Fin 2 → IVec S16 32) a x).toNat < S1000x128.size a)
instance k0_chk97.dec : ∀ (v6 : IVec S16 32) (v74 : IVec S16 32), Decidable (k0_chk97 v6 v74) := fun v6 v74 => decidable_of_iff' _ (Iff.of_eq (k0_chk97.eq_1 v6 v74))
theorem k0_idx97_inb : ∀ (v6 : IVec S16 32) (v74 : IVec S16 32) (k0_hw97 : k0_chk97 v6 v74), ∀ a x, ((![v74, v6] : Fin 2 → IVec S16 32) a x).toNat < S1000x128.size a := fun v6 v74 k0_hw97 => k0_hw97

def k0_chk98 (v8 : IVec S16 32) (v76 : IVec S16 32) : Prop :=
  (∀ a x, ((![v76, v8] : Fin 2 → IVec S16 32) a x).toNat < S1000x128.size a)
instance k0_chk98.dec : ∀ (v8 : IVec S16 32) (v76 : IVec S16 32), Decidable (k0_chk98 v8 v76) := fun v8 v76 => decidable_of_iff' _ (Iff.of_eq (k0_chk98.eq_1 v8 v76))
theorem k0_idx98_inb : ∀ (v8 : IVec S16 32) (v76 : IVec S16 32) (k0_hw98 : k0_chk98 v8 v76), ∀ a x, ((![v76, v8] : Fin 2 → IVec S16 32) a x).toNat < S1000x128.size a := fun v8 v76 k0_hw98 => k0_hw98

def k0_chk99 (v10 : IVec S16 32) (v78 : IVec S16 32) : Prop :=
  (∀ a x, ((![v78, v10] : Fin 2 → IVec S16 32) a x).toNat < S1000x128.size a)
instance k0_chk99.dec : ∀ (v10 : IVec S16 32) (v78 : IVec S16 32), Decidable (k0_chk99 v10 v78) := fun v10 v78 => decidable_of_iff' _ (Iff.of_eq (k0_chk99.eq_1 v10 v78))
theorem k0_idx99_inb : ∀ (v10 : IVec S16 32) (v78 : IVec S16 32) (k0_hw99 : k0_chk99 v10 v78), ∀ a x, ((![v78, v10] : Fin 2 → IVec S16 32) a x).toNat < S1000x128.size a := fun v10 v78 k0_hw99 => k0_hw99

def k0_chk100 (v12 : IVec S16 32) (v80 : IVec S16 32) : Prop :=
  (∀ a x, ((![v80, v12] : Fin 2 → IVec S16 32) a x).toNat < S1000x128.size a)
instance k0_chk100.dec : ∀ (v12 : IVec S16 32) (v80 : IVec S16 32), Decidable (k0_chk100 v12 v80) := fun v12 v80 => decidable_of_iff' _ (Iff.of_eq (k0_chk100.eq_1 v12 v80))
theorem k0_idx100_inb : ∀ (v12 : IVec S16 32) (v80 : IVec S16 32) (k0_hw100 : k0_chk100 v12 v80), ∀ a x, ((![v80, v12] : Fin 2 → IVec S16 32) a x).toNat < S1000x128.size a := fun v12 v80 k0_hw100 => k0_hw100

def k0_chk101 (v14 : IVec S16 32) (v82 : IVec S16 32) : Prop :=
  (∀ a x, ((![v82, v14] : Fin 2 → IVec S16 32) a x).toNat < S1000x128.size a)
instance k0_chk101.dec : ∀ (v14 : IVec S16 32) (v82 : IVec S16 32), Decidable (k0_chk101 v14 v82) := fun v14 v82 => decidable_of_iff' _ (Iff.of_eq (k0_chk101.eq_1 v14 v82))
theorem k0_idx101_inb : ∀ (v14 : IVec S16 32) (v82 : IVec S16 32) (k0_hw101 : k0_chk101 v14 v82), ∀ a x, ((![v82, v14] : Fin 2 → IVec S16 32) a x).toNat < S1000x128.size a := fun v14 v82 k0_hw101 => k0_hw101

def k0_chk102 (v16 : IVec S16 32) (v84 : IVec S16 32) : Prop :=
  (∀ a x, ((![v84, v16] : Fin 2 → IVec S16 32) a x).toNat < S1000x128.size a)
instance k0_chk102.dec : ∀ (v16 : IVec S16 32) (v84 : IVec S16 32), Decidable (k0_chk102 v16 v84) := fun v16 v84 => decidable_of_iff' _ (Iff.of_eq (k0_chk102.eq_1 v16 v84))
theorem k0_idx102_inb : ∀ (v16 : IVec S16 32) (v84 : IVec S16 32) (k0_hw102 : k0_chk102 v16 v84), ∀ a x, ((![v84, v16] : Fin 2 → IVec S16 32) a x).toNat < S1000x128.size a := fun v16 v84 k0_hw102 => k0_hw102

def k0_chk103 (v18 : IVec S16 32) (v86 : IVec S16 32) : Prop :=
  (∀ a x, ((![v86, v18] : Fin 2 → IVec S16 32) a x).toNat < S1000x128.size a)
instance k0_chk103.dec : ∀ (v18 : IVec S16 32) (v86 : IVec S16 32), Decidable (k0_chk103 v18 v86) := fun v18 v86 => decidable_of_iff' _ (Iff.of_eq (k0_chk103.eq_1 v18 v86))
theorem k0_idx103_inb : ∀ (v18 : IVec S16 32) (v86 : IVec S16 32) (k0_hw103 : k0_chk103 v18 v86), ∀ a x, ((![v86, v18] : Fin 2 → IVec S16 32) a x).toNat < S1000x128.size a := fun v18 v86 k0_hw103 => k0_hw103

def k0_chk104 (v20 : IVec S16 32) (v88 : IVec S16 32) : Prop :=
  (∀ a x, ((![v88, v20] : Fin 2 → IVec S16 32) a x).toNat < S1000x128.size a)
instance k0_chk104.dec : ∀ (v20 : IVec S16 32) (v88 : IVec S16 32), Decidable (k0_chk104 v20 v88) := fun v20 v88 => decidable_of_iff' _ (Iff.of_eq (k0_chk104.eq_1 v20 v88))
theorem k0_idx104_inb : ∀ (v20 : IVec S16 32) (v88 : IVec S16 32) (k0_hw104 : k0_chk104 v20 v88), ∀ a x, ((![v88, v20] : Fin 2 → IVec S16 32) a x).toNat < S1000x128.size a := fun v20 v88 k0_hw104 => k0_hw104
@[reducible] def k0_t16_loop : Scf.Loop 32 :=
  let c0_i32_72 : BitVec 32 := 0#32
  let c16_i32_73 : BitVec 32 := 16#32
  let v55 : BitVec 32 := Scalar.addi c0_i32_72 c16_i32_73
  let c1_i32_74 : BitVec 32 := 1#32
  ⟨c0_i32_72, v55, c1_i32_74⟩
def k0_off111 (k0_t16 : Fin k0_t16_loop.trips) : Fin 2 → Nat :=
  let c0_i32_72 : BitVec 32 := 0#32
  let c1_i32_74 : BitVec 32 := 1#32
  let arg6 : BitVec 32 := Scf.iv c0_i32_72 c1_i32_74 k0_t16
  let v73 : Index := Scalar.indexCast arg6
  let c0 : Index := 0#32
  ![v73.toNat, 0]
def k0_off112 (k0_t16 : Fin k0_t16_loop.trips) : Fin 2 → Nat :=
  let c0_i32_72 : BitVec 32 := 0#32
  let c1_i32_74 : BitVec 32 := 1#32
  let arg6 : BitVec 32 := Scf.iv c0_i32_72 c1_i32_74 k0_t16
  let v75 : Index := Scalar.indexCast arg6
  let c16 : Index := 16#32
  ![v75.toNat, 16]
def k0_off113 (k0_t16 : Fin k0_t16_loop.trips) : Fin 2 → Nat :=
  let c0_i32_72 : BitVec 32 := 0#32
  let c1_i32_74 : BitVec 32 := 1#32
  let arg6 : BitVec 32 := Scf.iv c0_i32_72 c1_i32_74 k0_t16
  let v77 : Index := Scalar.indexCast arg6
  let c32 : Index := 32#32
  ![v77.toNat, 32]
def k0_off114 (k0_t16 : Fin k0_t16_loop.trips) : Fin 2 → Nat :=
  let c0_i32_72 : BitVec 32 := 0#32
  let c1_i32_74 : BitVec 32 := 1#32
  let arg6 : BitVec 32 := Scf.iv c0_i32_72 c1_i32_74 k0_t16
  let v79 : Index := Scalar.indexCast arg6
  let c48 : Index := 48#32
  ![v79.toNat, 48]
def k0_off115 (k0_t16 : Fin k0_t16_loop.trips) : Fin 2 → Nat :=
  let c0_i32_72 : BitVec 32 := 0#32
  let c1_i32_74 : BitVec 32 := 1#32
  let arg6 : BitVec 32 := Scf.iv c0_i32_72 c1_i32_74 k0_t16
  let v81 : Index := Scalar.indexCast arg6
  let c64 : Index := 64#32
  ![v81.toNat, 64]
def k0_off116 (k0_t16 : Fin k0_t16_loop.trips) : Fin 2 → Nat :=
  let c0_i32_72 : BitVec 32 := 0#32
  let c1_i32_74 : BitVec 32 := 1#32
  let arg6 : BitVec 32 := Scf.iv c0_i32_72 c1_i32_74 k0_t16
  let v83 : Index := Scalar.indexCast arg6
  let c80 : Index := 80#32
  ![v83.toNat, 80]
def k0_off117 (k0_t16 : Fin k0_t16_loop.trips) : Fin 2 → Nat :=
  let c0_i32_72 : BitVec 32 := 0#32
  let c1_i32_74 : BitVec 32 := 1#32
  let arg6 : BitVec 32 := Scf.iv c0_i32_72 c1_i32_74 k0_t16
  let v85 : Index := Scalar.indexCast arg6
  let c96 : Index := 96#32
  ![v85.toNat, 96]
def k0_off118 (k0_t16 : Fin k0_t16_loop.trips) : Fin 2 → Nat :=
  let c0_i32_72 : BitVec 32 := 0#32
  let c1_i32_74 : BitVec 32 := 1#32
  let arg6 : BitVec 32 := Scf.iv c0_i32_72 c1_i32_74 k0_t16
  let v87 : Index := Scalar.indexCast arg6
  let c112 : Index := 112#32
  ![v87.toNat, 112]

def k0_chk105 (v6 : IVec S16 32) (v74 : IVec S16 32) : Prop :=
  (∀ a x, ((![v74, v6] : Fin 2 → IVec S16 32) a x).toNat < S1000x128.size a)
instance k0_chk105.dec : ∀ (v6 : IVec S16 32) (v74 : IVec S16 32), Decidable (k0_chk105 v6 v74) := fun v6 v74 => decidable_of_iff' _ (Iff.of_eq (k0_chk105.eq_1 v6 v74))
theorem k0_idx105_inb : ∀ (v6 : IVec S16 32) (v74 : IVec S16 32) (k0_hw105 : k0_chk105 v6 v74), ∀ a x, ((![v74, v6] : Fin 2 → IVec S16 32) a x).toNat < S1000x128.size a := fun v6 v74 k0_hw105 => k0_hw105

def k0_chk106 (v8 : IVec S16 32) (v76 : IVec S16 32) : Prop :=
  (∀ a x, ((![v76, v8] : Fin 2 → IVec S16 32) a x).toNat < S1000x128.size a)
instance k0_chk106.dec : ∀ (v8 : IVec S16 32) (v76 : IVec S16 32), Decidable (k0_chk106 v8 v76) := fun v8 v76 => decidable_of_iff' _ (Iff.of_eq (k0_chk106.eq_1 v8 v76))
theorem k0_idx106_inb : ∀ (v8 : IVec S16 32) (v76 : IVec S16 32) (k0_hw106 : k0_chk106 v8 v76), ∀ a x, ((![v76, v8] : Fin 2 → IVec S16 32) a x).toNat < S1000x128.size a := fun v8 v76 k0_hw106 => k0_hw106

def k0_chk107 (v10 : IVec S16 32) (v78 : IVec S16 32) : Prop :=
  (∀ a x, ((![v78, v10] : Fin 2 → IVec S16 32) a x).toNat < S1000x128.size a)
instance k0_chk107.dec : ∀ (v10 : IVec S16 32) (v78 : IVec S16 32), Decidable (k0_chk107 v10 v78) := fun v10 v78 => decidable_of_iff' _ (Iff.of_eq (k0_chk107.eq_1 v10 v78))
theorem k0_idx107_inb : ∀ (v10 : IVec S16 32) (v78 : IVec S16 32) (k0_hw107 : k0_chk107 v10 v78), ∀ a x, ((![v78, v10] : Fin 2 → IVec S16 32) a x).toNat < S1000x128.size a := fun v10 v78 k0_hw107 => k0_hw107

def k0_chk108 (v12 : IVec S16 32) (v80 : IVec S16 32) : Prop :=
  (∀ a x, ((![v80, v12] : Fin 2 → IVec S16 32) a x).toNat < S1000x128.size a)
instance k0_chk108.dec : ∀ (v12 : IVec S16 32) (v80 : IVec S16 32), Decidable (k0_chk108 v12 v80) := fun v12 v80 => decidable_of_iff' _ (Iff.of_eq (k0_chk108.eq_1 v12 v80))
theorem k0_idx108_inb : ∀ (v12 : IVec S16 32) (v80 : IVec S16 32) (k0_hw108 : k0_chk108 v12 v80), ∀ a x, ((![v80, v12] : Fin 2 → IVec S16 32) a x).toNat < S1000x128.size a := fun v12 v80 k0_hw108 => k0_hw108

def k0_chk109 (v14 : IVec S16 32) (v82 : IVec S16 32) : Prop :=
  (∀ a x, ((![v82, v14] : Fin 2 → IVec S16 32) a x).toNat < S1000x128.size a)
instance k0_chk109.dec : ∀ (v14 : IVec S16 32) (v82 : IVec S16 32), Decidable (k0_chk109 v14 v82) := fun v14 v82 => decidable_of_iff' _ (Iff.of_eq (k0_chk109.eq_1 v14 v82))
theorem k0_idx109_inb : ∀ (v14 : IVec S16 32) (v82 : IVec S16 32) (k0_hw109 : k0_chk109 v14 v82), ∀ a x, ((![v82, v14] : Fin 2 → IVec S16 32) a x).toNat < S1000x128.size a := fun v14 v82 k0_hw109 => k0_hw109

def k0_chk110 (v16 : IVec S16 32) (v84 : IVec S16 32) : Prop :=
  (∀ a x, ((![v84, v16] : Fin 2 → IVec S16 32) a x).toNat < S1000x128.size a)
instance k0_chk110.dec : ∀ (v16 : IVec S16 32) (v84 : IVec S16 32), Decidable (k0_chk110 v16 v84) := fun v16 v84 => decidable_of_iff' _ (Iff.of_eq (k0_chk110.eq_1 v16 v84))
theorem k0_idx110_inb : ∀ (v16 : IVec S16 32) (v84 : IVec S16 32) (k0_hw110 : k0_chk110 v16 v84), ∀ a x, ((![v84, v16] : Fin 2 → IVec S16 32) a x).toNat < S1000x128.size a := fun v16 v84 k0_hw110 => k0_hw110

def k0_chk111 (v18 : IVec S16 32) (v86 : IVec S16 32) : Prop :=
  (∀ a x, ((![v86, v18] : Fin 2 → IVec S16 32) a x).toNat < S1000x128.size a)
instance k0_chk111.dec : ∀ (v18 : IVec S16 32) (v86 : IVec S16 32), Decidable (k0_chk111 v18 v86) := fun v18 v86 => decidable_of_iff' _ (Iff.of_eq (k0_chk111.eq_1 v18 v86))
theorem k0_idx111_inb : ∀ (v18 : IVec S16 32) (v86 : IVec S16 32) (k0_hw111 : k0_chk111 v18 v86), ∀ a x, ((![v86, v18] : Fin 2 → IVec S16 32) a x).toNat < S1000x128.size a := fun v18 v86 k0_hw111 => k0_hw111

def k0_chk112 (v20 : IVec S16 32) (v88 : IVec S16 32) : Prop :=
  (∀ a x, ((![v88, v20] : Fin 2 → IVec S16 32) a x).toNat < S1000x128.size a)
instance k0_chk112.dec : ∀ (v20 : IVec S16 32) (v88 : IVec S16 32), Decidable (k0_chk112 v20 v88) := fun v20 v88 => decidable_of_iff' _ (Iff.of_eq (k0_chk112.eq_1 v20 v88))
theorem k0_idx112_inb : ∀ (v20 : IVec S16 32) (v88 : IVec S16 32) (k0_hw112 : k0_chk112 v20 v88), ∀ a x, ((![v88, v20] : Fin 2 → IVec S16 32) a x).toNat < S1000x128.size a := fun v20 v88 k0_hw112 => k0_hw112
@[reducible] def k0_t17_loop : Scf.Loop 32 :=
  let c0_i32_77 : BitVec 32 := 0#32
  let c18_i32_78 : BitVec 32 := 18#32
  let v57 : BitVec 32 := Scalar.addi c0_i32_77 c18_i32_78
  let c1_i32_79 : BitVec 32 := 1#32
  ⟨c0_i32_77, v57, c1_i32_79⟩
def k0_off119 (k0_t17 : Fin k0_t17_loop.trips) : Fin 2 → Nat :=
  let c0_i32_77 : BitVec 32 := 0#32
  let c1_i32_79 : BitVec 32 := 1#32
  let arg6 : BitVec 32 := Scf.iv c0_i32_77 c1_i32_79 k0_t17
  let v73 : Index := Scalar.indexCast arg6
  let c0 : Index := 0#32
  ![v73.toNat, 0]
def k0_off120 (k0_t17 : Fin k0_t17_loop.trips) : Fin 2 → Nat :=
  let c0_i32_77 : BitVec 32 := 0#32
  let c1_i32_79 : BitVec 32 := 1#32
  let arg6 : BitVec 32 := Scf.iv c0_i32_77 c1_i32_79 k0_t17
  let v75 : Index := Scalar.indexCast arg6
  let c16 : Index := 16#32
  ![v75.toNat, 16]
def k0_off121 (k0_t17 : Fin k0_t17_loop.trips) : Fin 2 → Nat :=
  let c0_i32_77 : BitVec 32 := 0#32
  let c1_i32_79 : BitVec 32 := 1#32
  let arg6 : BitVec 32 := Scf.iv c0_i32_77 c1_i32_79 k0_t17
  let v77 : Index := Scalar.indexCast arg6
  let c32 : Index := 32#32
  ![v77.toNat, 32]
def k0_off122 (k0_t17 : Fin k0_t17_loop.trips) : Fin 2 → Nat :=
  let c0_i32_77 : BitVec 32 := 0#32
  let c1_i32_79 : BitVec 32 := 1#32
  let arg6 : BitVec 32 := Scf.iv c0_i32_77 c1_i32_79 k0_t17
  let v79 : Index := Scalar.indexCast arg6
  let c48 : Index := 48#32
  ![v79.toNat, 48]
def k0_off123 (k0_t17 : Fin k0_t17_loop.trips) : Fin 2 → Nat :=
  let c0_i32_77 : BitVec 32 := 0#32
  let c1_i32_79 : BitVec 32 := 1#32
  let arg6 : BitVec 32 := Scf.iv c0_i32_77 c1_i32_79 k0_t17
  let v81 : Index := Scalar.indexCast arg6
  let c64 : Index := 64#32
  ![v81.toNat, 64]
def k0_off124 (k0_t17 : Fin k0_t17_loop.trips) : Fin 2 → Nat :=
  let c0_i32_77 : BitVec 32 := 0#32
  let c1_i32_79 : BitVec 32 := 1#32
  let arg6 : BitVec 32 := Scf.iv c0_i32_77 c1_i32_79 k0_t17
  let v83 : Index := Scalar.indexCast arg6
  let c80 : Index := 80#32
  ![v83.toNat, 80]
def k0_off125 (k0_t17 : Fin k0_t17_loop.trips) : Fin 2 → Nat :=
  let c0_i32_77 : BitVec 32 := 0#32
  let c1_i32_79 : BitVec 32 := 1#32
  let arg6 : BitVec 32 := Scf.iv c0_i32_77 c1_i32_79 k0_t17
  let v85 : Index := Scalar.indexCast arg6
  let c96 : Index := 96#32
  ![v85.toNat, 96]
def k0_off126 (k0_t17 : Fin k0_t17_loop.trips) : Fin 2 → Nat :=
  let c0_i32_77 : BitVec 32 := 0#32
  let c1_i32_79 : BitVec 32 := 1#32
  let arg6 : BitVec 32 := Scf.iv c0_i32_77 c1_i32_79 k0_t17
  let v87 : Index := Scalar.indexCast arg6
  let c112 : Index := 112#32
  ![v87.toNat, 112]

def k0_chk113 (v6 : IVec S16 32) (v74 : IVec S16 32) : Prop :=
  (∀ a x, ((![v74, v6] : Fin 2 → IVec S16 32) a x).toNat < S1000x128.size a)
instance k0_chk113.dec : ∀ (v6 : IVec S16 32) (v74 : IVec S16 32), Decidable (k0_chk113 v6 v74) := fun v6 v74 => decidable_of_iff' _ (Iff.of_eq (k0_chk113.eq_1 v6 v74))
theorem k0_idx113_inb : ∀ (v6 : IVec S16 32) (v74 : IVec S16 32) (k0_hw113 : k0_chk113 v6 v74), ∀ a x, ((![v74, v6] : Fin 2 → IVec S16 32) a x).toNat < S1000x128.size a := fun v6 v74 k0_hw113 => k0_hw113

def k0_chk114 (v8 : IVec S16 32) (v76 : IVec S16 32) : Prop :=
  (∀ a x, ((![v76, v8] : Fin 2 → IVec S16 32) a x).toNat < S1000x128.size a)
instance k0_chk114.dec : ∀ (v8 : IVec S16 32) (v76 : IVec S16 32), Decidable (k0_chk114 v8 v76) := fun v8 v76 => decidable_of_iff' _ (Iff.of_eq (k0_chk114.eq_1 v8 v76))
theorem k0_idx114_inb : ∀ (v8 : IVec S16 32) (v76 : IVec S16 32) (k0_hw114 : k0_chk114 v8 v76), ∀ a x, ((![v76, v8] : Fin 2 → IVec S16 32) a x).toNat < S1000x128.size a := fun v8 v76 k0_hw114 => k0_hw114

def k0_chk115 (v10 : IVec S16 32) (v78 : IVec S16 32) : Prop :=
  (∀ a x, ((![v78, v10] : Fin 2 → IVec S16 32) a x).toNat < S1000x128.size a)
instance k0_chk115.dec : ∀ (v10 : IVec S16 32) (v78 : IVec S16 32), Decidable (k0_chk115 v10 v78) := fun v10 v78 => decidable_of_iff' _ (Iff.of_eq (k0_chk115.eq_1 v10 v78))
theorem k0_idx115_inb : ∀ (v10 : IVec S16 32) (v78 : IVec S16 32) (k0_hw115 : k0_chk115 v10 v78), ∀ a x, ((![v78, v10] : Fin 2 → IVec S16 32) a x).toNat < S1000x128.size a := fun v10 v78 k0_hw115 => k0_hw115

def k0_chk116 (v12 : IVec S16 32) (v80 : IVec S16 32) : Prop :=
  (∀ a x, ((![v80, v12] : Fin 2 → IVec S16 32) a x).toNat < S1000x128.size a)
instance k0_chk116.dec : ∀ (v12 : IVec S16 32) (v80 : IVec S16 32), Decidable (k0_chk116 v12 v80) := fun v12 v80 => decidable_of_iff' _ (Iff.of_eq (k0_chk116.eq_1 v12 v80))
theorem k0_idx116_inb : ∀ (v12 : IVec S16 32) (v80 : IVec S16 32) (k0_hw116 : k0_chk116 v12 v80), ∀ a x, ((![v80, v12] : Fin 2 → IVec S16 32) a x).toNat < S1000x128.size a := fun v12 v80 k0_hw116 => k0_hw116

def k0_chk117 (v14 : IVec S16 32) (v82 : IVec S16 32) : Prop :=
  (∀ a x, ((![v82, v14] : Fin 2 → IVec S16 32) a x).toNat < S1000x128.size a)
instance k0_chk117.dec : ∀ (v14 : IVec S16 32) (v82 : IVec S16 32), Decidable (k0_chk117 v14 v82) := fun v14 v82 => decidable_of_iff' _ (Iff.of_eq (k0_chk117.eq_1 v14 v82))
theorem k0_idx117_inb : ∀ (v14 : IVec S16 32) (v82 : IVec S16 32) (k0_hw117 : k0_chk117 v14 v82), ∀ a x, ((![v82, v14] : Fin 2 → IVec S16 32) a x).toNat < S1000x128.size a := fun v14 v82 k0_hw117 => k0_hw117

def k0_chk118 (v16 : IVec S16 32) (v84 : IVec S16 32) : Prop :=
  (∀ a x, ((![v84, v16] : Fin 2 → IVec S16 32) a x).toNat < S1000x128.size a)
instance k0_chk118.dec : ∀ (v16 : IVec S16 32) (v84 : IVec S16 32), Decidable (k0_chk118 v16 v84) := fun v16 v84 => decidable_of_iff' _ (Iff.of_eq (k0_chk118.eq_1 v16 v84))
theorem k0_idx118_inb : ∀ (v16 : IVec S16 32) (v84 : IVec S16 32) (k0_hw118 : k0_chk118 v16 v84), ∀ a x, ((![v84, v16] : Fin 2 → IVec S16 32) a x).toNat < S1000x128.size a := fun v16 v84 k0_hw118 => k0_hw118

def k0_chk119 (v18 : IVec S16 32) (v86 : IVec S16 32) : Prop :=
  (∀ a x, ((![v86, v18] : Fin 2 → IVec S16 32) a x).toNat < S1000x128.size a)
instance k0_chk119.dec : ∀ (v18 : IVec S16 32) (v86 : IVec S16 32), Decidable (k0_chk119 v18 v86) := fun v18 v86 => decidable_of_iff' _ (Iff.of_eq (k0_chk119.eq_1 v18 v86))
theorem k0_idx119_inb : ∀ (v18 : IVec S16 32) (v86 : IVec S16 32) (k0_hw119 : k0_chk119 v18 v86), ∀ a x, ((![v86, v18] : Fin 2 → IVec S16 32) a x).toNat < S1000x128.size a := fun v18 v86 k0_hw119 => k0_hw119

def k0_chk120 (v20 : IVec S16 32) (v88 : IVec S16 32) : Prop :=
  (∀ a x, ((![v88, v20] : Fin 2 → IVec S16 32) a x).toNat < S1000x128.size a)
instance k0_chk120.dec : ∀ (v20 : IVec S16 32) (v88 : IVec S16 32), Decidable (k0_chk120 v20 v88) := fun v20 v88 => decidable_of_iff' _ (Iff.of_eq (k0_chk120.eq_1 v20 v88))
theorem k0_idx120_inb : ∀ (v20 : IVec S16 32) (v88 : IVec S16 32) (k0_hw120 : k0_chk120 v20 v88), ∀ a x, ((![v88, v20] : Fin 2 → IVec S16 32) a x).toNat < S1000x128.size a := fun v20 v88 k0_hw120 => k0_hw120
@[reducible] def k0_t18_loop : Scf.Loop 32 :=
  let c0_i32_82 : BitVec 32 := 0#32
  let c18_i32_83 : BitVec 32 := 18#32
  let v59 : BitVec 32 := Scalar.addi c0_i32_82 c18_i32_83
  let c1_i32_84 : BitVec 32 := 1#32
  ⟨c0_i32_82, v59, c1_i32_84⟩
def k0_off127 (k0_t18 : Fin k0_t18_loop.trips) : Fin 2 → Nat :=
  let c0_i32_82 : BitVec 32 := 0#32
  let c1_i32_84 : BitVec 32 := 1#32
  let arg6 : BitVec 32 := Scf.iv c0_i32_82 c1_i32_84 k0_t18
  let v73 : Index := Scalar.indexCast arg6
  let c0 : Index := 0#32
  ![v73.toNat, 0]
def k0_off128 (k0_t18 : Fin k0_t18_loop.trips) : Fin 2 → Nat :=
  let c0_i32_82 : BitVec 32 := 0#32
  let c1_i32_84 : BitVec 32 := 1#32
  let arg6 : BitVec 32 := Scf.iv c0_i32_82 c1_i32_84 k0_t18
  let v75 : Index := Scalar.indexCast arg6
  let c16 : Index := 16#32
  ![v75.toNat, 16]
def k0_off129 (k0_t18 : Fin k0_t18_loop.trips) : Fin 2 → Nat :=
  let c0_i32_82 : BitVec 32 := 0#32
  let c1_i32_84 : BitVec 32 := 1#32
  let arg6 : BitVec 32 := Scf.iv c0_i32_82 c1_i32_84 k0_t18
  let v77 : Index := Scalar.indexCast arg6
  let c32 : Index := 32#32
  ![v77.toNat, 32]
def k0_off130 (k0_t18 : Fin k0_t18_loop.trips) : Fin 2 → Nat :=
  let c0_i32_82 : BitVec 32 := 0#32
  let c1_i32_84 : BitVec 32 := 1#32
  let arg6 : BitVec 32 := Scf.iv c0_i32_82 c1_i32_84 k0_t18
  let v79 : Index := Scalar.indexCast arg6
  let c48 : Index := 48#32
  ![v79.toNat, 48]
def k0_off131 (k0_t18 : Fin k0_t18_loop.trips) : Fin 2 → Nat :=
  let c0_i32_82 : BitVec 32 := 0#32
  let c1_i32_84 : BitVec 32 := 1#32
  let arg6 : BitVec 32 := Scf.iv c0_i32_82 c1_i32_84 k0_t18
  let v81 : Index := Scalar.indexCast arg6
  let c64 : Index := 64#32
  ![v81.toNat, 64]
def k0_off132 (k0_t18 : Fin k0_t18_loop.trips) : Fin 2 → Nat :=
  let c0_i32_82 : BitVec 32 := 0#32
  let c1_i32_84 : BitVec 32 := 1#32
  let arg6 : BitVec 32 := Scf.iv c0_i32_82 c1_i32_84 k0_t18
  let v83 : Index := Scalar.indexCast arg6
  let c80 : Index := 80#32
  ![v83.toNat, 80]
def k0_off133 (k0_t18 : Fin k0_t18_loop.trips) : Fin 2 → Nat :=
  let c0_i32_82 : BitVec 32 := 0#32
  let c1_i32_84 : BitVec 32 := 1#32
  let arg6 : BitVec 32 := Scf.iv c0_i32_82 c1_i32_84 k0_t18
  let v85 : Index := Scalar.indexCast arg6
  let c96 : Index := 96#32
  ![v85.toNat, 96]
def k0_off134 (k0_t18 : Fin k0_t18_loop.trips) : Fin 2 → Nat :=
  let c0_i32_82 : BitVec 32 := 0#32
  let c1_i32_84 : BitVec 32 := 1#32
  let arg6 : BitVec 32 := Scf.iv c0_i32_82 c1_i32_84 k0_t18
  let v87 : Index := Scalar.indexCast arg6
  let c112 : Index := 112#32
  ![v87.toNat, 112]

def k0_chk121 (v6 : IVec S16 32) (v74 : IVec S16 32) : Prop :=
  (∀ a x, ((![v74, v6] : Fin 2 → IVec S16 32) a x).toNat < S1000x128.size a)
instance k0_chk121.dec : ∀ (v6 : IVec S16 32) (v74 : IVec S16 32), Decidable (k0_chk121 v6 v74) := fun v6 v74 => decidable_of_iff' _ (Iff.of_eq (k0_chk121.eq_1 v6 v74))
theorem k0_idx121_inb : ∀ (v6 : IVec S16 32) (v74 : IVec S16 32) (k0_hw121 : k0_chk121 v6 v74), ∀ a x, ((![v74, v6] : Fin 2 → IVec S16 32) a x).toNat < S1000x128.size a := fun v6 v74 k0_hw121 => k0_hw121

def k0_chk122 (v8 : IVec S16 32) (v76 : IVec S16 32) : Prop :=
  (∀ a x, ((![v76, v8] : Fin 2 → IVec S16 32) a x).toNat < S1000x128.size a)
instance k0_chk122.dec : ∀ (v8 : IVec S16 32) (v76 : IVec S16 32), Decidable (k0_chk122 v8 v76) := fun v8 v76 => decidable_of_iff' _ (Iff.of_eq (k0_chk122.eq_1 v8 v76))
theorem k0_idx122_inb : ∀ (v8 : IVec S16 32) (v76 : IVec S16 32) (k0_hw122 : k0_chk122 v8 v76), ∀ a x, ((![v76, v8] : Fin 2 → IVec S16 32) a x).toNat < S1000x128.size a := fun v8 v76 k0_hw122 => k0_hw122

def k0_chk123 (v10 : IVec S16 32) (v78 : IVec S16 32) : Prop :=
  (∀ a x, ((![v78, v10] : Fin 2 → IVec S16 32) a x).toNat < S1000x128.size a)
instance k0_chk123.dec : ∀ (v10 : IVec S16 32) (v78 : IVec S16 32), Decidable (k0_chk123 v10 v78) := fun v10 v78 => decidable_of_iff' _ (Iff.of_eq (k0_chk123.eq_1 v10 v78))
theorem k0_idx123_inb : ∀ (v10 : IVec S16 32) (v78 : IVec S16 32) (k0_hw123 : k0_chk123 v10 v78), ∀ a x, ((![v78, v10] : Fin 2 → IVec S16 32) a x).toNat < S1000x128.size a := fun v10 v78 k0_hw123 => k0_hw123

def k0_chk124 (v12 : IVec S16 32) (v80 : IVec S16 32) : Prop :=
  (∀ a x, ((![v80, v12] : Fin 2 → IVec S16 32) a x).toNat < S1000x128.size a)
instance k0_chk124.dec : ∀ (v12 : IVec S16 32) (v80 : IVec S16 32), Decidable (k0_chk124 v12 v80) := fun v12 v80 => decidable_of_iff' _ (Iff.of_eq (k0_chk124.eq_1 v12 v80))
theorem k0_idx124_inb : ∀ (v12 : IVec S16 32) (v80 : IVec S16 32) (k0_hw124 : k0_chk124 v12 v80), ∀ a x, ((![v80, v12] : Fin 2 → IVec S16 32) a x).toNat < S1000x128.size a := fun v12 v80 k0_hw124 => k0_hw124

def k0_chk125 (v14 : IVec S16 32) (v82 : IVec S16 32) : Prop :=
  (∀ a x, ((![v82, v14] : Fin 2 → IVec S16 32) a x).toNat < S1000x128.size a)
instance k0_chk125.dec : ∀ (v14 : IVec S16 32) (v82 : IVec S16 32), Decidable (k0_chk125 v14 v82) := fun v14 v82 => decidable_of_iff' _ (Iff.of_eq (k0_chk125.eq_1 v14 v82))
theorem k0_idx125_inb : ∀ (v14 : IVec S16 32) (v82 : IVec S16 32) (k0_hw125 : k0_chk125 v14 v82), ∀ a x, ((![v82, v14] : Fin 2 → IVec S16 32) a x).toNat < S1000x128.size a := fun v14 v82 k0_hw125 => k0_hw125

def k0_chk126 (v16 : IVec S16 32) (v84 : IVec S16 32) : Prop :=
  (∀ a x, ((![v84, v16] : Fin 2 → IVec S16 32) a x).toNat < S1000x128.size a)
instance k0_chk126.dec : ∀ (v16 : IVec S16 32) (v84 : IVec S16 32), Decidable (k0_chk126 v16 v84) := fun v16 v84 => decidable_of_iff' _ (Iff.of_eq (k0_chk126.eq_1 v16 v84))
theorem k0_idx126_inb : ∀ (v16 : IVec S16 32) (v84 : IVec S16 32) (k0_hw126 : k0_chk126 v16 v84), ∀ a x, ((![v84, v16] : Fin 2 → IVec S16 32) a x).toNat < S1000x128.size a := fun v16 v84 k0_hw126 => k0_hw126

def k0_chk127 (v18 : IVec S16 32) (v86 : IVec S16 32) : Prop :=
  (∀ a x, ((![v86, v18] : Fin 2 → IVec S16 32) a x).toNat < S1000x128.size a)
instance k0_chk127.dec : ∀ (v18 : IVec S16 32) (v86 : IVec S16 32), Decidable (k0_chk127 v18 v86) := fun v18 v86 => decidable_of_iff' _ (Iff.of_eq (k0_chk127.eq_1 v18 v86))
theorem k0_idx127_inb : ∀ (v18 : IVec S16 32) (v86 : IVec S16 32) (k0_hw127 : k0_chk127 v18 v86), ∀ a x, ((![v86, v18] : Fin 2 → IVec S16 32) a x).toNat < S1000x128.size a := fun v18 v86 k0_hw127 => k0_hw127

def k0_chk128 (v20 : IVec S16 32) (v88 : IVec S16 32) : Prop :=
  (∀ a x, ((![v88, v20] : Fin 2 → IVec S16 32) a x).toNat < S1000x128.size a)
instance k0_chk128.dec : ∀ (v20 : IVec S16 32) (v88 : IVec S16 32), Decidable (k0_chk128 v20 v88) := fun v20 v88 => decidable_of_iff' _ (Iff.of_eq (k0_chk128.eq_1 v20 v88))
theorem k0_idx128_inb : ∀ (v20 : IVec S16 32) (v88 : IVec S16 32) (k0_hw128 : k0_chk128 v20 v88), ∀ a x, ((![v88, v20] : Fin 2 → IVec S16 32) a x).toNat < S1000x128.size a := fun v20 v88 k0_hw128 => k0_hw128
@[reducible] def k0_t19_loop : Scf.Loop 32 :=
  let c0_i32_87 : BitVec 32 := 0#32
  let c16_i32_88 : BitVec 32 := 16#32
  let v61 : BitVec 32 := Scalar.addi c0_i32_87 c16_i32_88
  let c1_i32_89 : BitVec 32 := 1#32
  ⟨c0_i32_87, v61, c1_i32_89⟩
def k0_off135 (k0_t19 : Fin k0_t19_loop.trips) : Fin 2 → Nat :=
  let c0_i32_87 : BitVec 32 := 0#32
  let c1_i32_89 : BitVec 32 := 1#32
  let arg6 : BitVec 32 := Scf.iv c0_i32_87 c1_i32_89 k0_t19
  let v73 : Index := Scalar.indexCast arg6
  let c0 : Index := 0#32
  ![v73.toNat, 0]
def k0_off136 (k0_t19 : Fin k0_t19_loop.trips) : Fin 2 → Nat :=
  let c0_i32_87 : BitVec 32 := 0#32
  let c1_i32_89 : BitVec 32 := 1#32
  let arg6 : BitVec 32 := Scf.iv c0_i32_87 c1_i32_89 k0_t19
  let v75 : Index := Scalar.indexCast arg6
  let c16 : Index := 16#32
  ![v75.toNat, 16]
def k0_off137 (k0_t19 : Fin k0_t19_loop.trips) : Fin 2 → Nat :=
  let c0_i32_87 : BitVec 32 := 0#32
  let c1_i32_89 : BitVec 32 := 1#32
  let arg6 : BitVec 32 := Scf.iv c0_i32_87 c1_i32_89 k0_t19
  let v77 : Index := Scalar.indexCast arg6
  let c32 : Index := 32#32
  ![v77.toNat, 32]
def k0_off138 (k0_t19 : Fin k0_t19_loop.trips) : Fin 2 → Nat :=
  let c0_i32_87 : BitVec 32 := 0#32
  let c1_i32_89 : BitVec 32 := 1#32
  let arg6 : BitVec 32 := Scf.iv c0_i32_87 c1_i32_89 k0_t19
  let v79 : Index := Scalar.indexCast arg6
  let c48 : Index := 48#32
  ![v79.toNat, 48]
def k0_off139 (k0_t19 : Fin k0_t19_loop.trips) : Fin 2 → Nat :=
  let c0_i32_87 : BitVec 32 := 0#32
  let c1_i32_89 : BitVec 32 := 1#32
  let arg6 : BitVec 32 := Scf.iv c0_i32_87 c1_i32_89 k0_t19
  let v81 : Index := Scalar.indexCast arg6
  let c64 : Index := 64#32
  ![v81.toNat, 64]
def k0_off140 (k0_t19 : Fin k0_t19_loop.trips) : Fin 2 → Nat :=
  let c0_i32_87 : BitVec 32 := 0#32
  let c1_i32_89 : BitVec 32 := 1#32
  let arg6 : BitVec 32 := Scf.iv c0_i32_87 c1_i32_89 k0_t19
  let v83 : Index := Scalar.indexCast arg6
  let c80 : Index := 80#32
  ![v83.toNat, 80]
def k0_off141 (k0_t19 : Fin k0_t19_loop.trips) : Fin 2 → Nat :=
  let c0_i32_87 : BitVec 32 := 0#32
  let c1_i32_89 : BitVec 32 := 1#32
  let arg6 : BitVec 32 := Scf.iv c0_i32_87 c1_i32_89 k0_t19
  let v85 : Index := Scalar.indexCast arg6
  let c96 : Index := 96#32
  ![v85.toNat, 96]
def k0_off142 (k0_t19 : Fin k0_t19_loop.trips) : Fin 2 → Nat :=
  let c0_i32_87 : BitVec 32 := 0#32
  let c1_i32_89 : BitVec 32 := 1#32
  let arg6 : BitVec 32 := Scf.iv c0_i32_87 c1_i32_89 k0_t19
  let v87 : Index := Scalar.indexCast arg6
  let c112 : Index := 112#32
  ![v87.toNat, 112]

def k0_chk129 (v6 : IVec S16 32) (v74 : IVec S16 32) : Prop :=
  (∀ a x, ((![v74, v6] : Fin 2 → IVec S16 32) a x).toNat < S1000x128.size a)
instance k0_chk129.dec : ∀ (v6 : IVec S16 32) (v74 : IVec S16 32), Decidable (k0_chk129 v6 v74) := fun v6 v74 => decidable_of_iff' _ (Iff.of_eq (k0_chk129.eq_1 v6 v74))
theorem k0_idx129_inb : ∀ (v6 : IVec S16 32) (v74 : IVec S16 32) (k0_hw129 : k0_chk129 v6 v74), ∀ a x, ((![v74, v6] : Fin 2 → IVec S16 32) a x).toNat < S1000x128.size a := fun v6 v74 k0_hw129 => k0_hw129

def k0_chk130 (v8 : IVec S16 32) (v76 : IVec S16 32) : Prop :=
  (∀ a x, ((![v76, v8] : Fin 2 → IVec S16 32) a x).toNat < S1000x128.size a)
instance k0_chk130.dec : ∀ (v8 : IVec S16 32) (v76 : IVec S16 32), Decidable (k0_chk130 v8 v76) := fun v8 v76 => decidable_of_iff' _ (Iff.of_eq (k0_chk130.eq_1 v8 v76))
theorem k0_idx130_inb : ∀ (v8 : IVec S16 32) (v76 : IVec S16 32) (k0_hw130 : k0_chk130 v8 v76), ∀ a x, ((![v76, v8] : Fin 2 → IVec S16 32) a x).toNat < S1000x128.size a := fun v8 v76 k0_hw130 => k0_hw130

def k0_chk131 (v10 : IVec S16 32) (v78 : IVec S16 32) : Prop :=
  (∀ a x, ((![v78, v10] : Fin 2 → IVec S16 32) a x).toNat < S1000x128.size a)
instance k0_chk131.dec : ∀ (v10 : IVec S16 32) (v78 : IVec S16 32), Decidable (k0_chk131 v10 v78) := fun v10 v78 => decidable_of_iff' _ (Iff.of_eq (k0_chk131.eq_1 v10 v78))
theorem k0_idx131_inb : ∀ (v10 : IVec S16 32) (v78 : IVec S16 32) (k0_hw131 : k0_chk131 v10 v78), ∀ a x, ((![v78, v10] : Fin 2 → IVec S16 32) a x).toNat < S1000x128.size a := fun v10 v78 k0_hw131 => k0_hw131

def k0_chk132 (v12 : IVec S16 32) (v80 : IVec S16 32) : Prop :=
  (∀ a x, ((![v80, v12] : Fin 2 → IVec S16 32) a x).toNat < S1000x128.size a)
instance k0_chk132.dec : ∀ (v12 : IVec S16 32) (v80 : IVec S16 32), Decidable (k0_chk132 v12 v80) := fun v12 v80 => decidable_of_iff' _ (Iff.of_eq (k0_chk132.eq_1 v12 v80))
theorem k0_idx132_inb : ∀ (v12 : IVec S16 32) (v80 : IVec S16 32) (k0_hw132 : k0_chk132 v12 v80), ∀ a x, ((![v80, v12] : Fin 2 → IVec S16 32) a x).toNat < S1000x128.size a := fun v12 v80 k0_hw132 => k0_hw132

def k0_chk133 (v14 : IVec S16 32) (v82 : IVec S16 32) : Prop :=
  (∀ a x, ((![v82, v14] : Fin 2 → IVec S16 32) a x).toNat < S1000x128.size a)
instance k0_chk133.dec : ∀ (v14 : IVec S16 32) (v82 : IVec S16 32), Decidable (k0_chk133 v14 v82) := fun v14 v82 => decidable_of_iff' _ (Iff.of_eq (k0_chk133.eq_1 v14 v82))
theorem k0_idx133_inb : ∀ (v14 : IVec S16 32) (v82 : IVec S16 32) (k0_hw133 : k0_chk133 v14 v82), ∀ a x, ((![v82, v14] : Fin 2 → IVec S16 32) a x).toNat < S1000x128.size a := fun v14 v82 k0_hw133 => k0_hw133

def k0_chk134 (v16 : IVec S16 32) (v84 : IVec S16 32) : Prop :=
  (∀ a x, ((![v84, v16] : Fin 2 → IVec S16 32) a x).toNat < S1000x128.size a)
instance k0_chk134.dec : ∀ (v16 : IVec S16 32) (v84 : IVec S16 32), Decidable (k0_chk134 v16 v84) := fun v16 v84 => decidable_of_iff' _ (Iff.of_eq (k0_chk134.eq_1 v16 v84))
theorem k0_idx134_inb : ∀ (v16 : IVec S16 32) (v84 : IVec S16 32) (k0_hw134 : k0_chk134 v16 v84), ∀ a x, ((![v84, v16] : Fin 2 → IVec S16 32) a x).toNat < S1000x128.size a := fun v16 v84 k0_hw134 => k0_hw134

def k0_chk135 (v18 : IVec S16 32) (v86 : IVec S16 32) : Prop :=
  (∀ a x, ((![v86, v18] : Fin 2 → IVec S16 32) a x).toNat < S1000x128.size a)
instance k0_chk135.dec : ∀ (v18 : IVec S16 32) (v86 : IVec S16 32), Decidable (k0_chk135 v18 v86) := fun v18 v86 => decidable_of_iff' _ (Iff.of_eq (k0_chk135.eq_1 v18 v86))
theorem k0_idx135_inb : ∀ (v18 : IVec S16 32) (v86 : IVec S16 32) (k0_hw135 : k0_chk135 v18 v86), ∀ a x, ((![v86, v18] : Fin 2 → IVec S16 32) a x).toNat < S1000x128.size a := fun v18 v86 k0_hw135 => k0_hw135

def k0_chk136 (v20 : IVec S16 32) (v88 : IVec S16 32) : Prop :=
  (∀ a x, ((![v88, v20] : Fin 2 → IVec S16 32) a x).toNat < S1000x128.size a)
instance k0_chk136.dec : ∀ (v20 : IVec S16 32) (v88 : IVec S16 32), Decidable (k0_chk136 v20 v88) := fun v20 v88 => decidable_of_iff' _ (Iff.of_eq (k0_chk136.eq_1 v20 v88))
theorem k0_idx136_inb : ∀ (v20 : IVec S16 32) (v88 : IVec S16 32) (k0_hw136 : k0_chk136 v20 v88), ∀ a x, ((![v88, v20] : Fin 2 → IVec S16 32) a x).toNat < S1000x128.size a := fun v20 v88 k0_hw136 => k0_hw136
@[reducible] def k0_t20_loop : Scf.Loop 32 :=
  let c0_i32_92 : BitVec 32 := 0#32
  let c16_i32_93 : BitVec 32 := 16#32
  let v63 : BitVec 32 := Scalar.addi c0_i32_92 c16_i32_93
  let c1_i32_94 : BitVec 32 := 1#32
  ⟨c0_i32_92, v63, c1_i32_94⟩
def k0_off143 (k0_t20 : Fin k0_t20_loop.trips) : Fin 2 → Nat :=
  let c0_i32_92 : BitVec 32 := 0#32
  let c1_i32_94 : BitVec 32 := 1#32
  let arg6 : BitVec 32 := Scf.iv c0_i32_92 c1_i32_94 k0_t20
  let v73 : Index := Scalar.indexCast arg6
  let c0 : Index := 0#32
  ![v73.toNat, 0]
def k0_off144 (k0_t20 : Fin k0_t20_loop.trips) : Fin 2 → Nat :=
  let c0_i32_92 : BitVec 32 := 0#32
  let c1_i32_94 : BitVec 32 := 1#32
  let arg6 : BitVec 32 := Scf.iv c0_i32_92 c1_i32_94 k0_t20
  let v75 : Index := Scalar.indexCast arg6
  let c16 : Index := 16#32
  ![v75.toNat, 16]
def k0_off145 (k0_t20 : Fin k0_t20_loop.trips) : Fin 2 → Nat :=
  let c0_i32_92 : BitVec 32 := 0#32
  let c1_i32_94 : BitVec 32 := 1#32
  let arg6 : BitVec 32 := Scf.iv c0_i32_92 c1_i32_94 k0_t20
  let v77 : Index := Scalar.indexCast arg6
  let c32 : Index := 32#32
  ![v77.toNat, 32]
def k0_off146 (k0_t20 : Fin k0_t20_loop.trips) : Fin 2 → Nat :=
  let c0_i32_92 : BitVec 32 := 0#32
  let c1_i32_94 : BitVec 32 := 1#32
  let arg6 : BitVec 32 := Scf.iv c0_i32_92 c1_i32_94 k0_t20
  let v79 : Index := Scalar.indexCast arg6
  let c48 : Index := 48#32
  ![v79.toNat, 48]
def k0_off147 (k0_t20 : Fin k0_t20_loop.trips) : Fin 2 → Nat :=
  let c0_i32_92 : BitVec 32 := 0#32
  let c1_i32_94 : BitVec 32 := 1#32
  let arg6 : BitVec 32 := Scf.iv c0_i32_92 c1_i32_94 k0_t20
  let v81 : Index := Scalar.indexCast arg6
  let c64 : Index := 64#32
  ![v81.toNat, 64]
def k0_off148 (k0_t20 : Fin k0_t20_loop.trips) : Fin 2 → Nat :=
  let c0_i32_92 : BitVec 32 := 0#32
  let c1_i32_94 : BitVec 32 := 1#32
  let arg6 : BitVec 32 := Scf.iv c0_i32_92 c1_i32_94 k0_t20
  let v83 : Index := Scalar.indexCast arg6
  let c80 : Index := 80#32
  ![v83.toNat, 80]
def k0_off149 (k0_t20 : Fin k0_t20_loop.trips) : Fin 2 → Nat :=
  let c0_i32_92 : BitVec 32 := 0#32
  let c1_i32_94 : BitVec 32 := 1#32
  let arg6 : BitVec 32 := Scf.iv c0_i32_92 c1_i32_94 k0_t20
  let v85 : Index := Scalar.indexCast arg6
  let c96 : Index := 96#32
  ![v85.toNat, 96]
def k0_off150 (k0_t20 : Fin k0_t20_loop.trips) : Fin 2 → Nat :=
  let c0_i32_92 : BitVec 32 := 0#32
  let c1_i32_94 : BitVec 32 := 1#32
  let arg6 : BitVec 32 := Scf.iv c0_i32_92 c1_i32_94 k0_t20
  let v87 : Index := Scalar.indexCast arg6
  let c112 : Index := 112#32
  ![v87.toNat, 112]

def k0_chk137 (v6 : IVec S16 32) (v74 : IVec S16 32) : Prop :=
  (∀ a x, ((![v74, v6] : Fin 2 → IVec S16 32) a x).toNat < S1000x128.size a)
instance k0_chk137.dec : ∀ (v6 : IVec S16 32) (v74 : IVec S16 32), Decidable (k0_chk137 v6 v74) := fun v6 v74 => decidable_of_iff' _ (Iff.of_eq (k0_chk137.eq_1 v6 v74))
theorem k0_idx137_inb : ∀ (v6 : IVec S16 32) (v74 : IVec S16 32) (k0_hw137 : k0_chk137 v6 v74), ∀ a x, ((![v74, v6] : Fin 2 → IVec S16 32) a x).toNat < S1000x128.size a := fun v6 v74 k0_hw137 => k0_hw137

def k0_chk138 (v8 : IVec S16 32) (v76 : IVec S16 32) : Prop :=
  (∀ a x, ((![v76, v8] : Fin 2 → IVec S16 32) a x).toNat < S1000x128.size a)
instance k0_chk138.dec : ∀ (v8 : IVec S16 32) (v76 : IVec S16 32), Decidable (k0_chk138 v8 v76) := fun v8 v76 => decidable_of_iff' _ (Iff.of_eq (k0_chk138.eq_1 v8 v76))
theorem k0_idx138_inb : ∀ (v8 : IVec S16 32) (v76 : IVec S16 32) (k0_hw138 : k0_chk138 v8 v76), ∀ a x, ((![v76, v8] : Fin 2 → IVec S16 32) a x).toNat < S1000x128.size a := fun v8 v76 k0_hw138 => k0_hw138

def k0_chk139 (v10 : IVec S16 32) (v78 : IVec S16 32) : Prop :=
  (∀ a x, ((![v78, v10] : Fin 2 → IVec S16 32) a x).toNat < S1000x128.size a)
instance k0_chk139.dec : ∀ (v10 : IVec S16 32) (v78 : IVec S16 32), Decidable (k0_chk139 v10 v78) := fun v10 v78 => decidable_of_iff' _ (Iff.of_eq (k0_chk139.eq_1 v10 v78))
theorem k0_idx139_inb : ∀ (v10 : IVec S16 32) (v78 : IVec S16 32) (k0_hw139 : k0_chk139 v10 v78), ∀ a x, ((![v78, v10] : Fin 2 → IVec S16 32) a x).toNat < S1000x128.size a := fun v10 v78 k0_hw139 => k0_hw139

def k0_chk140 (v12 : IVec S16 32) (v80 : IVec S16 32) : Prop :=
  (∀ a x, ((![v80, v12] : Fin 2 → IVec S16 32) a x).toNat < S1000x128.size a)
instance k0_chk140.dec : ∀ (v12 : IVec S16 32) (v80 : IVec S16 32), Decidable (k0_chk140 v12 v80) := fun v12 v80 => decidable_of_iff' _ (Iff.of_eq (k0_chk140.eq_1 v12 v80))
theorem k0_idx140_inb : ∀ (v12 : IVec S16 32) (v80 : IVec S16 32) (k0_hw140 : k0_chk140 v12 v80), ∀ a x, ((![v80, v12] : Fin 2 → IVec S16 32) a x).toNat < S1000x128.size a := fun v12 v80 k0_hw140 => k0_hw140

def k0_chk141 (v14 : IVec S16 32) (v82 : IVec S16 32) : Prop :=
  (∀ a x, ((![v82, v14] : Fin 2 → IVec S16 32) a x).toNat < S1000x128.size a)
instance k0_chk141.dec : ∀ (v14 : IVec S16 32) (v82 : IVec S16 32), Decidable (k0_chk141 v14 v82) := fun v14 v82 => decidable_of_iff' _ (Iff.of_eq (k0_chk141.eq_1 v14 v82))
theorem k0_idx141_inb : ∀ (v14 : IVec S16 32) (v82 : IVec S16 32) (k0_hw141 : k0_chk141 v14 v82), ∀ a x, ((![v82, v14] : Fin 2 → IVec S16 32) a x).toNat < S1000x128.size a := fun v14 v82 k0_hw141 => k0_hw141

def k0_chk142 (v16 : IVec S16 32) (v84 : IVec S16 32) : Prop :=
  (∀ a x, ((![v84, v16] : Fin 2 → IVec S16 32) a x).toNat < S1000x128.size a)
instance k0_chk142.dec : ∀ (v16 : IVec S16 32) (v84 : IVec S16 32), Decidable (k0_chk142 v16 v84) := fun v16 v84 => decidable_of_iff' _ (Iff.of_eq (k0_chk142.eq_1 v16 v84))
theorem k0_idx142_inb : ∀ (v16 : IVec S16 32) (v84 : IVec S16 32) (k0_hw142 : k0_chk142 v16 v84), ∀ a x, ((![v84, v16] : Fin 2 → IVec S16 32) a x).toNat < S1000x128.size a := fun v16 v84 k0_hw142 => k0_hw142

def k0_chk143 (v18 : IVec S16 32) (v86 : IVec S16 32) : Prop :=
  (∀ a x, ((![v86, v18] : Fin 2 → IVec S16 32) a x).toNat < S1000x128.size a)
instance k0_chk143.dec : ∀ (v18 : IVec S16 32) (v86 : IVec S16 32), Decidable (k0_chk143 v18 v86) := fun v18 v86 => decidable_of_iff' _ (Iff.of_eq (k0_chk143.eq_1 v18 v86))
theorem k0_idx143_inb : ∀ (v18 : IVec S16 32) (v86 : IVec S16 32) (k0_hw143 : k0_chk143 v18 v86), ∀ a x, ((![v86, v18] : Fin 2 → IVec S16 32) a x).toNat < S1000x128.size a := fun v18 v86 k0_hw143 => k0_hw143

def k0_chk144 (v20 : IVec S16 32) (v88 : IVec S16 32) : Prop :=
  (∀ a x, ((![v88, v20] : Fin 2 → IVec S16 32) a x).toNat < S1000x128.size a)
instance k0_chk144.dec : ∀ (v20 : IVec S16 32) (v88 : IVec S16 32), Decidable (k0_chk144 v20 v88) := fun v20 v88 => decidable_of_iff' _ (Iff.of_eq (k0_chk144.eq_1 v20 v88))
theorem k0_idx144_inb : ∀ (v20 : IVec S16 32) (v88 : IVec S16 32) (k0_hw144 : k0_chk144 v20 v88), ∀ a x, ((![v88, v20] : Fin 2 → IVec S16 32) a x).toNat < S1000x128.size a := fun v20 v88 k0_hw144 => k0_hw144
@[reducible] def k0_t21_loop : Scf.Loop 32 :=
  let c0_i32_98 : BitVec 32 := 0#32
  let c16_i32_99 : BitVec 32 := 16#32
  let v67 : BitVec 32 := Scalar.addi c0_i32_98 c16_i32_99
  let c1_i32_100 : BitVec 32 := 1#32
  ⟨c0_i32_98, v67, c1_i32_100⟩
def k0_off151 (k0_t21 : Fin k0_t21_loop.trips) : Fin 2 → Nat :=
  let c0_i32_98 : BitVec 32 := 0#32
  let c1_i32_100 : BitVec 32 := 1#32
  let arg6 : BitVec 32 := Scf.iv c0_i32_98 c1_i32_100 k0_t21
  let v73 : Index := Scalar.indexCast arg6
  let c0 : Index := 0#32
  ![v73.toNat, 0]
def k0_off152 (k0_t21 : Fin k0_t21_loop.trips) : Fin 2 → Nat :=
  let c0_i32_98 : BitVec 32 := 0#32
  let c1_i32_100 : BitVec 32 := 1#32
  let arg6 : BitVec 32 := Scf.iv c0_i32_98 c1_i32_100 k0_t21
  let v75 : Index := Scalar.indexCast arg6
  let c16 : Index := 16#32
  ![v75.toNat, 16]
def k0_off153 (k0_t21 : Fin k0_t21_loop.trips) : Fin 2 → Nat :=
  let c0_i32_98 : BitVec 32 := 0#32
  let c1_i32_100 : BitVec 32 := 1#32
  let arg6 : BitVec 32 := Scf.iv c0_i32_98 c1_i32_100 k0_t21
  let v77 : Index := Scalar.indexCast arg6
  let c32 : Index := 32#32
  ![v77.toNat, 32]
def k0_off154 (k0_t21 : Fin k0_t21_loop.trips) : Fin 2 → Nat :=
  let c0_i32_98 : BitVec 32 := 0#32
  let c1_i32_100 : BitVec 32 := 1#32
  let arg6 : BitVec 32 := Scf.iv c0_i32_98 c1_i32_100 k0_t21
  let v79 : Index := Scalar.indexCast arg6
  let c48 : Index := 48#32
  ![v79.toNat, 48]
def k0_off155 (k0_t21 : Fin k0_t21_loop.trips) : Fin 2 → Nat :=
  let c0_i32_98 : BitVec 32 := 0#32
  let c1_i32_100 : BitVec 32 := 1#32
  let arg6 : BitVec 32 := Scf.iv c0_i32_98 c1_i32_100 k0_t21
  let v81 : Index := Scalar.indexCast arg6
  let c64 : Index := 64#32
  ![v81.toNat, 64]
def k0_off156 (k0_t21 : Fin k0_t21_loop.trips) : Fin 2 → Nat :=
  let c0_i32_98 : BitVec 32 := 0#32
  let c1_i32_100 : BitVec 32 := 1#32
  let arg6 : BitVec 32 := Scf.iv c0_i32_98 c1_i32_100 k0_t21
  let v83 : Index := Scalar.indexCast arg6
  let c80 : Index := 80#32
  ![v83.toNat, 80]
def k0_off157 (k0_t21 : Fin k0_t21_loop.trips) : Fin 2 → Nat :=
  let c0_i32_98 : BitVec 32 := 0#32
  let c1_i32_100 : BitVec 32 := 1#32
  let arg6 : BitVec 32 := Scf.iv c0_i32_98 c1_i32_100 k0_t21
  let v85 : Index := Scalar.indexCast arg6
  let c96 : Index := 96#32
  ![v85.toNat, 96]
def k0_off158 (k0_t21 : Fin k0_t21_loop.trips) : Fin 2 → Nat :=
  let c0_i32_98 : BitVec 32 := 0#32
  let c1_i32_100 : BitVec 32 := 1#32
  let arg6 : BitVec 32 := Scf.iv c0_i32_98 c1_i32_100 k0_t21
  let v87 : Index := Scalar.indexCast arg6
  let c112 : Index := 112#32
  ![v87.toNat, 112]

def k0_chk145 (v6 : IVec S16 32) (v74 : IVec S16 32) : Prop :=
  (∀ a x, ((![v74, v6] : Fin 2 → IVec S16 32) a x).toNat < S1000x128.size a)
instance k0_chk145.dec : ∀ (v6 : IVec S16 32) (v74 : IVec S16 32), Decidable (k0_chk145 v6 v74) := fun v6 v74 => decidable_of_iff' _ (Iff.of_eq (k0_chk145.eq_1 v6 v74))
theorem k0_idx145_inb : ∀ (v6 : IVec S16 32) (v74 : IVec S16 32) (k0_hw145 : k0_chk145 v6 v74), ∀ a x, ((![v74, v6] : Fin 2 → IVec S16 32) a x).toNat < S1000x128.size a := fun v6 v74 k0_hw145 => k0_hw145

def k0_chk146 (v8 : IVec S16 32) (v76 : IVec S16 32) : Prop :=
  (∀ a x, ((![v76, v8] : Fin 2 → IVec S16 32) a x).toNat < S1000x128.size a)
instance k0_chk146.dec : ∀ (v8 : IVec S16 32) (v76 : IVec S16 32), Decidable (k0_chk146 v8 v76) := fun v8 v76 => decidable_of_iff' _ (Iff.of_eq (k0_chk146.eq_1 v8 v76))
theorem k0_idx146_inb : ∀ (v8 : IVec S16 32) (v76 : IVec S16 32) (k0_hw146 : k0_chk146 v8 v76), ∀ a x, ((![v76, v8] : Fin 2 → IVec S16 32) a x).toNat < S1000x128.size a := fun v8 v76 k0_hw146 => k0_hw146

def k0_chk147 (v10 : IVec S16 32) (v78 : IVec S16 32) : Prop :=
  (∀ a x, ((![v78, v10] : Fin 2 → IVec S16 32) a x).toNat < S1000x128.size a)
instance k0_chk147.dec : ∀ (v10 : IVec S16 32) (v78 : IVec S16 32), Decidable (k0_chk147 v10 v78) := fun v10 v78 => decidable_of_iff' _ (Iff.of_eq (k0_chk147.eq_1 v10 v78))
theorem k0_idx147_inb : ∀ (v10 : IVec S16 32) (v78 : IVec S16 32) (k0_hw147 : k0_chk147 v10 v78), ∀ a x, ((![v78, v10] : Fin 2 → IVec S16 32) a x).toNat < S1000x128.size a := fun v10 v78 k0_hw147 => k0_hw147

def k0_chk148 (v12 : IVec S16 32) (v80 : IVec S16 32) : Prop :=
  (∀ a x, ((![v80, v12] : Fin 2 → IVec S16 32) a x).toNat < S1000x128.size a)
instance k0_chk148.dec : ∀ (v12 : IVec S16 32) (v80 : IVec S16 32), Decidable (k0_chk148 v12 v80) := fun v12 v80 => decidable_of_iff' _ (Iff.of_eq (k0_chk148.eq_1 v12 v80))
theorem k0_idx148_inb : ∀ (v12 : IVec S16 32) (v80 : IVec S16 32) (k0_hw148 : k0_chk148 v12 v80), ∀ a x, ((![v80, v12] : Fin 2 → IVec S16 32) a x).toNat < S1000x128.size a := fun v12 v80 k0_hw148 => k0_hw148

def k0_chk149 (v14 : IVec S16 32) (v82 : IVec S16 32) : Prop :=
  (∀ a x, ((![v82, v14] : Fin 2 → IVec S16 32) a x).toNat < S1000x128.size a)
instance k0_chk149.dec : ∀ (v14 : IVec S16 32) (v82 : IVec S16 32), Decidable (k0_chk149 v14 v82) := fun v14 v82 => decidable_of_iff' _ (Iff.of_eq (k0_chk149.eq_1 v14 v82))
theorem k0_idx149_inb : ∀ (v14 : IVec S16 32) (v82 : IVec S16 32) (k0_hw149 : k0_chk149 v14 v82), ∀ a x, ((![v82, v14] : Fin 2 → IVec S16 32) a x).toNat < S1000x128.size a := fun v14 v82 k0_hw149 => k0_hw149

def k0_chk150 (v16 : IVec S16 32) (v84 : IVec S16 32) : Prop :=
  (∀ a x, ((![v84, v16] : Fin 2 → IVec S16 32) a x).toNat < S1000x128.size a)
instance k0_chk150.dec : ∀ (v16 : IVec S16 32) (v84 : IVec S16 32), Decidable (k0_chk150 v16 v84) := fun v16 v84 => decidable_of_iff' _ (Iff.of_eq (k0_chk150.eq_1 v16 v84))
theorem k0_idx150_inb : ∀ (v16 : IVec S16 32) (v84 : IVec S16 32) (k0_hw150 : k0_chk150 v16 v84), ∀ a x, ((![v84, v16] : Fin 2 → IVec S16 32) a x).toNat < S1000x128.size a := fun v16 v84 k0_hw150 => k0_hw150

def k0_chk151 (v18 : IVec S16 32) (v86 : IVec S16 32) : Prop :=
  (∀ a x, ((![v86, v18] : Fin 2 → IVec S16 32) a x).toNat < S1000x128.size a)
instance k0_chk151.dec : ∀ (v18 : IVec S16 32) (v86 : IVec S16 32), Decidable (k0_chk151 v18 v86) := fun v18 v86 => decidable_of_iff' _ (Iff.of_eq (k0_chk151.eq_1 v18 v86))
theorem k0_idx151_inb : ∀ (v18 : IVec S16 32) (v86 : IVec S16 32) (k0_hw151 : k0_chk151 v18 v86), ∀ a x, ((![v86, v18] : Fin 2 → IVec S16 32) a x).toNat < S1000x128.size a := fun v18 v86 k0_hw151 => k0_hw151

def k0_chk152 (v20 : IVec S16 32) (v88 : IVec S16 32) : Prop :=
  (∀ a x, ((![v88, v20] : Fin 2 → IVec S16 32) a x).toNat < S1000x128.size a)
instance k0_chk152.dec : ∀ (v20 : IVec S16 32) (v88 : IVec S16 32), Decidable (k0_chk152 v20 v88) := fun v20 v88 => decidable_of_iff' _ (Iff.of_eq (k0_chk152.eq_1 v20 v88))
theorem k0_idx152_inb : ∀ (v20 : IVec S16 32) (v88 : IVec S16 32) (k0_hw152 : k0_chk152 v20 v88), ∀ a x, ((![v88, v20] : Fin 2 → IVec S16 32) a x).toNat < S1000x128.size a := fun v20 v88 k0_hw152 => k0_hw152
@[reducible] def k0_t22_loop : Scf.Loop 32 :=
  let c0_i32_103 : BitVec 32 := 0#32
  let c16_i32_104 : BitVec 32 := 16#32
  let v69 : BitVec 32 := Scalar.addi c0_i32_103 c16_i32_104
  let c1_i32_105 : BitVec 32 := 1#32
  ⟨c0_i32_103, v69, c1_i32_105⟩
def k0_off159 (k0_t22 : Fin k0_t22_loop.trips) : Fin 2 → Nat :=
  let c0_i32_103 : BitVec 32 := 0#32
  let c1_i32_105 : BitVec 32 := 1#32
  let arg6 : BitVec 32 := Scf.iv c0_i32_103 c1_i32_105 k0_t22
  let v73 : Index := Scalar.indexCast arg6
  let c0 : Index := 0#32
  ![v73.toNat, 0]
def k0_off160 (k0_t22 : Fin k0_t22_loop.trips) : Fin 2 → Nat :=
  let c0_i32_103 : BitVec 32 := 0#32
  let c1_i32_105 : BitVec 32 := 1#32
  let arg6 : BitVec 32 := Scf.iv c0_i32_103 c1_i32_105 k0_t22
  let v75 : Index := Scalar.indexCast arg6
  let c16 : Index := 16#32
  ![v75.toNat, 16]
def k0_off161 (k0_t22 : Fin k0_t22_loop.trips) : Fin 2 → Nat :=
  let c0_i32_103 : BitVec 32 := 0#32
  let c1_i32_105 : BitVec 32 := 1#32
  let arg6 : BitVec 32 := Scf.iv c0_i32_103 c1_i32_105 k0_t22
  let v77 : Index := Scalar.indexCast arg6
  let c32 : Index := 32#32
  ![v77.toNat, 32]
def k0_off162 (k0_t22 : Fin k0_t22_loop.trips) : Fin 2 → Nat :=
  let c0_i32_103 : BitVec 32 := 0#32
  let c1_i32_105 : BitVec 32 := 1#32
  let arg6 : BitVec 32 := Scf.iv c0_i32_103 c1_i32_105 k0_t22
  let v79 : Index := Scalar.indexCast arg6
  let c48 : Index := 48#32
  ![v79.toNat, 48]
def k0_off163 (k0_t22 : Fin k0_t22_loop.trips) : Fin 2 → Nat :=
  let c0_i32_103 : BitVec 32 := 0#32
  let c1_i32_105 : BitVec 32 := 1#32
  let arg6 : BitVec 32 := Scf.iv c0_i32_103 c1_i32_105 k0_t22
  let v81 : Index := Scalar.indexCast arg6
  let c64 : Index := 64#32
  ![v81.toNat, 64]
def k0_off164 (k0_t22 : Fin k0_t22_loop.trips) : Fin 2 → Nat :=
  let c0_i32_103 : BitVec 32 := 0#32
  let c1_i32_105 : BitVec 32 := 1#32
  let arg6 : BitVec 32 := Scf.iv c0_i32_103 c1_i32_105 k0_t22
  let v83 : Index := Scalar.indexCast arg6
  let c80 : Index := 80#32
  ![v83.toNat, 80]
def k0_off165 (k0_t22 : Fin k0_t22_loop.trips) : Fin 2 → Nat :=
  let c0_i32_103 : BitVec 32 := 0#32
  let c1_i32_105 : BitVec 32 := 1#32
  let arg6 : BitVec 32 := Scf.iv c0_i32_103 c1_i32_105 k0_t22
  let v85 : Index := Scalar.indexCast arg6
  let c96 : Index := 96#32
  ![v85.toNat, 96]
def k0_off166 (k0_t22 : Fin k0_t22_loop.trips) : Fin 2 → Nat :=
  let c0_i32_103 : BitVec 32 := 0#32
  let c1_i32_105 : BitVec 32 := 1#32
  let arg6 : BitVec 32 := Scf.iv c0_i32_103 c1_i32_105 k0_t22
  let v87 : Index := Scalar.indexCast arg6
  let c112 : Index := 112#32
  ![v87.toNat, 112]

def k0_chk153 (v6 : IVec S16 32) (v74 : IVec S16 32) : Prop :=
  (∀ a x, ((![v74, v6] : Fin 2 → IVec S16 32) a x).toNat < S1000x128.size a)
instance k0_chk153.dec : ∀ (v6 : IVec S16 32) (v74 : IVec S16 32), Decidable (k0_chk153 v6 v74) := fun v6 v74 => decidable_of_iff' _ (Iff.of_eq (k0_chk153.eq_1 v6 v74))
theorem k0_idx153_inb : ∀ (v6 : IVec S16 32) (v74 : IVec S16 32) (k0_hw153 : k0_chk153 v6 v74), ∀ a x, ((![v74, v6] : Fin 2 → IVec S16 32) a x).toNat < S1000x128.size a := fun v6 v74 k0_hw153 => k0_hw153

def k0_chk154 (v8 : IVec S16 32) (v76 : IVec S16 32) : Prop :=
  (∀ a x, ((![v76, v8] : Fin 2 → IVec S16 32) a x).toNat < S1000x128.size a)
instance k0_chk154.dec : ∀ (v8 : IVec S16 32) (v76 : IVec S16 32), Decidable (k0_chk154 v8 v76) := fun v8 v76 => decidable_of_iff' _ (Iff.of_eq (k0_chk154.eq_1 v8 v76))
theorem k0_idx154_inb : ∀ (v8 : IVec S16 32) (v76 : IVec S16 32) (k0_hw154 : k0_chk154 v8 v76), ∀ a x, ((![v76, v8] : Fin 2 → IVec S16 32) a x).toNat < S1000x128.size a := fun v8 v76 k0_hw154 => k0_hw154

def k0_chk155 (v10 : IVec S16 32) (v78 : IVec S16 32) : Prop :=
  (∀ a x, ((![v78, v10] : Fin 2 → IVec S16 32) a x).toNat < S1000x128.size a)
instance k0_chk155.dec : ∀ (v10 : IVec S16 32) (v78 : IVec S16 32), Decidable (k0_chk155 v10 v78) := fun v10 v78 => decidable_of_iff' _ (Iff.of_eq (k0_chk155.eq_1 v10 v78))
theorem k0_idx155_inb : ∀ (v10 : IVec S16 32) (v78 : IVec S16 32) (k0_hw155 : k0_chk155 v10 v78), ∀ a x, ((![v78, v10] : Fin 2 → IVec S16 32) a x).toNat < S1000x128.size a := fun v10 v78 k0_hw155 => k0_hw155

def k0_chk156 (v12 : IVec S16 32) (v80 : IVec S16 32) : Prop :=
  (∀ a x, ((![v80, v12] : Fin 2 → IVec S16 32) a x).toNat < S1000x128.size a)
instance k0_chk156.dec : ∀ (v12 : IVec S16 32) (v80 : IVec S16 32), Decidable (k0_chk156 v12 v80) := fun v12 v80 => decidable_of_iff' _ (Iff.of_eq (k0_chk156.eq_1 v12 v80))
theorem k0_idx156_inb : ∀ (v12 : IVec S16 32) (v80 : IVec S16 32) (k0_hw156 : k0_chk156 v12 v80), ∀ a x, ((![v80, v12] : Fin 2 → IVec S16 32) a x).toNat < S1000x128.size a := fun v12 v80 k0_hw156 => k0_hw156

def k0_chk157 (v14 : IVec S16 32) (v82 : IVec S16 32) : Prop :=
  (∀ a x, ((![v82, v14] : Fin 2 → IVec S16 32) a x).toNat < S1000x128.size a)
instance k0_chk157.dec : ∀ (v14 : IVec S16 32) (v82 : IVec S16 32), Decidable (k0_chk157 v14 v82) := fun v14 v82 => decidable_of_iff' _ (Iff.of_eq (k0_chk157.eq_1 v14 v82))
theorem k0_idx157_inb : ∀ (v14 : IVec S16 32) (v82 : IVec S16 32) (k0_hw157 : k0_chk157 v14 v82), ∀ a x, ((![v82, v14] : Fin 2 → IVec S16 32) a x).toNat < S1000x128.size a := fun v14 v82 k0_hw157 => k0_hw157

def k0_chk158 (v16 : IVec S16 32) (v84 : IVec S16 32) : Prop :=
  (∀ a x, ((![v84, v16] : Fin 2 → IVec S16 32) a x).toNat < S1000x128.size a)
instance k0_chk158.dec : ∀ (v16 : IVec S16 32) (v84 : IVec S16 32), Decidable (k0_chk158 v16 v84) := fun v16 v84 => decidable_of_iff' _ (Iff.of_eq (k0_chk158.eq_1 v16 v84))
theorem k0_idx158_inb : ∀ (v16 : IVec S16 32) (v84 : IVec S16 32) (k0_hw158 : k0_chk158 v16 v84), ∀ a x, ((![v84, v16] : Fin 2 → IVec S16 32) a x).toNat < S1000x128.size a := fun v16 v84 k0_hw158 => k0_hw158

def k0_chk159 (v18 : IVec S16 32) (v86 : IVec S16 32) : Prop :=
  (∀ a x, ((![v86, v18] : Fin 2 → IVec S16 32) a x).toNat < S1000x128.size a)
instance k0_chk159.dec : ∀ (v18 : IVec S16 32) (v86 : IVec S16 32), Decidable (k0_chk159 v18 v86) := fun v18 v86 => decidable_of_iff' _ (Iff.of_eq (k0_chk159.eq_1 v18 v86))
theorem k0_idx159_inb : ∀ (v18 : IVec S16 32) (v86 : IVec S16 32) (k0_hw159 : k0_chk159 v18 v86), ∀ a x, ((![v86, v18] : Fin 2 → IVec S16 32) a x).toNat < S1000x128.size a := fun v18 v86 k0_hw159 => k0_hw159

def k0_chk160 (v20 : IVec S16 32) (v88 : IVec S16 32) : Prop :=
  (∀ a x, ((![v88, v20] : Fin 2 → IVec S16 32) a x).toNat < S1000x128.size a)
instance k0_chk160.dec : ∀ (v20 : IVec S16 32) (v88 : IVec S16 32), Decidable (k0_chk160 v20 v88) := fun v20 v88 => decidable_of_iff' _ (Iff.of_eq (k0_chk160.eq_1 v20 v88))
theorem k0_idx160_inb : ∀ (v20 : IVec S16 32) (v88 : IVec S16 32) (k0_hw160 : k0_chk160 v20 v88), ∀ a x, ((![v88, v20] : Fin 2 → IVec S16 32) a x).toNat < S1000x128.size a := fun v20 v88 k0_hw160 => k0_hw160
@[reducible] def k0_t23_loop : Scf.Loop 32 :=
  let c0_i32_108 : BitVec 32 := 0#32
  let c18_i32_109 : BitVec 32 := 18#32
  let v71 : BitVec 32 := Scalar.addi c0_i32_108 c18_i32_109
  let c1_i32_110 : BitVec 32 := 1#32
  ⟨c0_i32_108, v71, c1_i32_110⟩
def k0_off167 (k0_t23 : Fin k0_t23_loop.trips) : Fin 2 → Nat :=
  let c0_i32_108 : BitVec 32 := 0#32
  let c1_i32_110 : BitVec 32 := 1#32
  let arg6 : BitVec 32 := Scf.iv c0_i32_108 c1_i32_110 k0_t23
  let v73 : Index := Scalar.indexCast arg6
  let c0 : Index := 0#32
  ![v73.toNat, 0]
def k0_off168 (k0_t23 : Fin k0_t23_loop.trips) : Fin 2 → Nat :=
  let c0_i32_108 : BitVec 32 := 0#32
  let c1_i32_110 : BitVec 32 := 1#32
  let arg6 : BitVec 32 := Scf.iv c0_i32_108 c1_i32_110 k0_t23
  let v75 : Index := Scalar.indexCast arg6
  let c16 : Index := 16#32
  ![v75.toNat, 16]
def k0_off169 (k0_t23 : Fin k0_t23_loop.trips) : Fin 2 → Nat :=
  let c0_i32_108 : BitVec 32 := 0#32
  let c1_i32_110 : BitVec 32 := 1#32
  let arg6 : BitVec 32 := Scf.iv c0_i32_108 c1_i32_110 k0_t23
  let v77 : Index := Scalar.indexCast arg6
  let c32 : Index := 32#32
  ![v77.toNat, 32]
def k0_off170 (k0_t23 : Fin k0_t23_loop.trips) : Fin 2 → Nat :=
  let c0_i32_108 : BitVec 32 := 0#32
  let c1_i32_110 : BitVec 32 := 1#32
  let arg6 : BitVec 32 := Scf.iv c0_i32_108 c1_i32_110 k0_t23
  let v79 : Index := Scalar.indexCast arg6
  let c48 : Index := 48#32
  ![v79.toNat, 48]
def k0_off171 (k0_t23 : Fin k0_t23_loop.trips) : Fin 2 → Nat :=
  let c0_i32_108 : BitVec 32 := 0#32
  let c1_i32_110 : BitVec 32 := 1#32
  let arg6 : BitVec 32 := Scf.iv c0_i32_108 c1_i32_110 k0_t23
  let v81 : Index := Scalar.indexCast arg6
  let c64 : Index := 64#32
  ![v81.toNat, 64]
def k0_off172 (k0_t23 : Fin k0_t23_loop.trips) : Fin 2 → Nat :=
  let c0_i32_108 : BitVec 32 := 0#32
  let c1_i32_110 : BitVec 32 := 1#32
  let arg6 : BitVec 32 := Scf.iv c0_i32_108 c1_i32_110 k0_t23
  let v83 : Index := Scalar.indexCast arg6
  let c80 : Index := 80#32
  ![v83.toNat, 80]
def k0_off173 (k0_t23 : Fin k0_t23_loop.trips) : Fin 2 → Nat :=
  let c0_i32_108 : BitVec 32 := 0#32
  let c1_i32_110 : BitVec 32 := 1#32
  let arg6 : BitVec 32 := Scf.iv c0_i32_108 c1_i32_110 k0_t23
  let v85 : Index := Scalar.indexCast arg6
  let c96 : Index := 96#32
  ![v85.toNat, 96]
def k0_off174 (k0_t23 : Fin k0_t23_loop.trips) : Fin 2 → Nat :=
  let c0_i32_108 : BitVec 32 := 0#32
  let c1_i32_110 : BitVec 32 := 1#32
  let arg6 : BitVec 32 := Scf.iv c0_i32_108 c1_i32_110 k0_t23
  let v87 : Index := Scalar.indexCast arg6
  let c112 : Index := 112#32
  ![v87.toNat, 112]

def k0_chk161 (v6 : IVec S16 32) (v74 : IVec S16 32) : Prop :=
  (∀ a x, ((![v74, v6] : Fin 2 → IVec S16 32) a x).toNat < S1000x128.size a)
instance k0_chk161.dec : ∀ (v6 : IVec S16 32) (v74 : IVec S16 32), Decidable (k0_chk161 v6 v74) := fun v6 v74 => decidable_of_iff' _ (Iff.of_eq (k0_chk161.eq_1 v6 v74))
theorem k0_idx161_inb : ∀ (v6 : IVec S16 32) (v74 : IVec S16 32) (k0_hw161 : k0_chk161 v6 v74), ∀ a x, ((![v74, v6] : Fin 2 → IVec S16 32) a x).toNat < S1000x128.size a := fun v6 v74 k0_hw161 => k0_hw161

def k0_chk162 (v8 : IVec S16 32) (v76 : IVec S16 32) : Prop :=
  (∀ a x, ((![v76, v8] : Fin 2 → IVec S16 32) a x).toNat < S1000x128.size a)
instance k0_chk162.dec : ∀ (v8 : IVec S16 32) (v76 : IVec S16 32), Decidable (k0_chk162 v8 v76) := fun v8 v76 => decidable_of_iff' _ (Iff.of_eq (k0_chk162.eq_1 v8 v76))
theorem k0_idx162_inb : ∀ (v8 : IVec S16 32) (v76 : IVec S16 32) (k0_hw162 : k0_chk162 v8 v76), ∀ a x, ((![v76, v8] : Fin 2 → IVec S16 32) a x).toNat < S1000x128.size a := fun v8 v76 k0_hw162 => k0_hw162

def k0_chk163 (v10 : IVec S16 32) (v78 : IVec S16 32) : Prop :=
  (∀ a x, ((![v78, v10] : Fin 2 → IVec S16 32) a x).toNat < S1000x128.size a)
instance k0_chk163.dec : ∀ (v10 : IVec S16 32) (v78 : IVec S16 32), Decidable (k0_chk163 v10 v78) := fun v10 v78 => decidable_of_iff' _ (Iff.of_eq (k0_chk163.eq_1 v10 v78))
theorem k0_idx163_inb : ∀ (v10 : IVec S16 32) (v78 : IVec S16 32) (k0_hw163 : k0_chk163 v10 v78), ∀ a x, ((![v78, v10] : Fin 2 → IVec S16 32) a x).toNat < S1000x128.size a := fun v10 v78 k0_hw163 => k0_hw163

def k0_chk164 (v12 : IVec S16 32) (v80 : IVec S16 32) : Prop :=
  (∀ a x, ((![v80, v12] : Fin 2 → IVec S16 32) a x).toNat < S1000x128.size a)
instance k0_chk164.dec : ∀ (v12 : IVec S16 32) (v80 : IVec S16 32), Decidable (k0_chk164 v12 v80) := fun v12 v80 => decidable_of_iff' _ (Iff.of_eq (k0_chk164.eq_1 v12 v80))
theorem k0_idx164_inb : ∀ (v12 : IVec S16 32) (v80 : IVec S16 32) (k0_hw164 : k0_chk164 v12 v80), ∀ a x, ((![v80, v12] : Fin 2 → IVec S16 32) a x).toNat < S1000x128.size a := fun v12 v80 k0_hw164 => k0_hw164

def k0_chk165 (v14 : IVec S16 32) (v82 : IVec S16 32) : Prop :=
  (∀ a x, ((![v82, v14] : Fin 2 → IVec S16 32) a x).toNat < S1000x128.size a)
instance k0_chk165.dec : ∀ (v14 : IVec S16 32) (v82 : IVec S16 32), Decidable (k0_chk165 v14 v82) := fun v14 v82 => decidable_of_iff' _ (Iff.of_eq (k0_chk165.eq_1 v14 v82))
theorem k0_idx165_inb : ∀ (v14 : IVec S16 32) (v82 : IVec S16 32) (k0_hw165 : k0_chk165 v14 v82), ∀ a x, ((![v82, v14] : Fin 2 → IVec S16 32) a x).toNat < S1000x128.size a := fun v14 v82 k0_hw165 => k0_hw165

def k0_chk166 (v16 : IVec S16 32) (v84 : IVec S16 32) : Prop :=
  (∀ a x, ((![v84, v16] : Fin 2 → IVec S16 32) a x).toNat < S1000x128.size a)
instance k0_chk166.dec : ∀ (v16 : IVec S16 32) (v84 : IVec S16 32), Decidable (k0_chk166 v16 v84) := fun v16 v84 => decidable_of_iff' _ (Iff.of_eq (k0_chk166.eq_1 v16 v84))
theorem k0_idx166_inb : ∀ (v16 : IVec S16 32) (v84 : IVec S16 32) (k0_hw166 : k0_chk166 v16 v84), ∀ a x, ((![v84, v16] : Fin 2 → IVec S16 32) a x).toNat < S1000x128.size a := fun v16 v84 k0_hw166 => k0_hw166

def k0_chk167 (v18 : IVec S16 32) (v86 : IVec S16 32) : Prop :=
  (∀ a x, ((![v86, v18] : Fin 2 → IVec S16 32) a x).toNat < S1000x128.size a)
instance k0_chk167.dec : ∀ (v18 : IVec S16 32) (v86 : IVec S16 32), Decidable (k0_chk167 v18 v86) := fun v18 v86 => decidable_of_iff' _ (Iff.of_eq (k0_chk167.eq_1 v18 v86))
theorem k0_idx167_inb : ∀ (v18 : IVec S16 32) (v86 : IVec S16 32) (k0_hw167 : k0_chk167 v18 v86), ∀ a x, ((![v86, v18] : Fin 2 → IVec S16 32) a x).toNat < S1000x128.size a := fun v18 v86 k0_hw167 => k0_hw167

def k0_chk168 (v20 : IVec S16 32) (v88 : IVec S16 32) : Prop :=
  (∀ a x, ((![v88, v20] : Fin 2 → IVec S16 32) a x).toNat < S1000x128.size a)
instance k0_chk168.dec : ∀ (v20 : IVec S16 32) (v88 : IVec S16 32), Decidable (k0_chk168 v20 v88) := fun v20 v88 => decidable_of_iff' _ (Iff.of_eq (k0_chk168.eq_1 v20 v88))
theorem k0_idx168_inb : ∀ (v20 : IVec S16 32) (v88 : IVec S16 32) (k0_hw168 : k0_chk168 v20 v88), ∀ a x, ((![v88, v20] : Fin 2 → IVec S16 32) a x).toNat < S1000x128.size a := fun v20 v88 k0_hw168 => k0_hw168
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16384x50_S50x16384_1_0 : S16384x50.Transposes [1, 0] S50x16384
  iota_S16_d0_w32_scVector : S16.Iotas .scVector 32 [0]
  h_S1x16 : 0 < S1x16.numel
  shapeCasts_S1x16_S16 : S1x16.ShapeCasts S16
  shapeCasts_S16_S1x16 : S16.ShapeCasts S1x16
  inb_S18x128_S16x128_0_0 : ∀ a, (![0, 0] : Fin 2 → Nat) a + S16x128.size a ≤ S18x128.size a
  h_S1000x128 : 0 < S1000x128.numel
  inb_S18x128_S18x128_0_0 : ∀ a, (![0, 0] : Fin 2 → Nat) a + S18x128.size a ≤ S18x128.size a
  transposes_S1000x16384_S16384x1000_1_0 : S1000x16384.Transposes [1, 0] S16384x1000
  hcc0_scoped0 : 0 + S_.numel ≤ 22
  hcc0_scoped1 : 1 + S_.numel ≤ 22
  hcc0_scoped2 : 2 + S_.numel ≤ 22
  hcc0_scoped3 : 3 + S_.numel ≤ 22
  hcc0_scoped4 : 4 + S_.numel ≤ 22
  hcc0_scoped5 : 5 + S_.numel ≤ 22
  hcc0_scoped6 : 6 + S_.numel ≤ 22
  hcc0_scoped7 : 7 + S_.numel ≤ 22
  hcc0_scoped8 : 8 + S_.numel ≤ 22
  hcc0_scoped9 : 9 + S_.numel ≤ 22
  hcc0_scoped10 : 10 + S_.numel ≤ 22
  hcc0_scoped11 : 11 + S_.numel ≤ 22
  hcc0_scoped12 : 12 + S_.numel ≤ 22
  hcc0_scoped13 : 13 + S_.numel ≤ 22
  hcc0_scoped14 : 14 + S_.numel ≤ 22
  hcc0_scoped15 : 15 + S_.numel ≤ 22
  hcc0_scoped16 : 16 + S_.numel ≤ 22
  hcc0_scoped17 : 17 + S_.numel ≤ 22
  hcc0_scoped18 : 18 + S_.numel ≤ 22
  hcc0_scoped19 : 19 + S_.numel ≤ 22
  hcc0_scoped20 : 20 + S_.numel ≤ 22
  hcc0_scoped21 : 21 + S_.numel ≤ 22
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_t2_ok : k0_t2_loop.OK
  k0_off1_inb : ∀ (k0_t1 : Fin k0_t1_loop.trips) (k0_t2 : Fin k0_t2_loop.trips), ∀ a, (k0_off1 k0_t1 k0_t2) a + S1x16.size a ≤ S1000x128.size a
  k0_off2_inb : ∀ i : grid0.Coords, ∀ a, (k0_off2 i) a + S16x128.size a ≤ S50x16384.size a
  k0_t3_ok : k0_t3_loop.OK
  k0_off3_inb : ∀ k0_t3 : Fin k0_t3_loop.trips, ∀ a, (k0_off3 k0_t3) a + S1x16.size a ≤ S18x128.size a
  k0_off4_inb : ∀ k0_t3 : Fin k0_t3_loop.trips, ∀ a, (k0_off4 k0_t3) a + S1x16.size a ≤ S18x128.size a
  k0_off5_inb : ∀ k0_t3 : Fin k0_t3_loop.trips, ∀ a, (k0_off5 k0_t3) a + S1x16.size a ≤ S18x128.size a
  k0_off6_inb : ∀ k0_t3 : Fin k0_t3_loop.trips, ∀ a, (k0_off6 k0_t3) a + S1x16.size a ≤ S18x128.size a
  k0_off7_inb : ∀ k0_t3 : Fin k0_t3_loop.trips, ∀ a, (k0_off7 k0_t3) a + S1x16.size a ≤ S18x128.size a
  k0_off8_inb : ∀ k0_t3 : Fin k0_t3_loop.trips, ∀ a, (k0_off8 k0_t3) a + S1x16.size a ≤ S18x128.size a
  k0_off9_inb : ∀ k0_t3 : Fin k0_t3_loop.trips, ∀ a, (k0_off9 k0_t3) a + S1x16.size a ≤ S18x128.size a
  k0_off10_inb : ∀ k0_t3 : Fin k0_t3_loop.trips, ∀ a, (k0_off10 k0_t3) a + S1x16.size a ≤ S18x128.size a
  k0_off11_inb : ∀ i : grid0.Coords, ∀ (r : Fin 4), ∀ a, (k0_off11 i (BitVec.ofNat 32 (128 * r.val))) a + S16x128.size a ≤ S50x16384.size a
  k0_t4_ok : k0_t4_loop.OK
  k0_off12_inb : ∀ k0_t4 : Fin k0_t4_loop.trips, ∀ a, (k0_off12 k0_t4) a + S1x16.size a ≤ S18x128.size a
  k0_off13_inb : ∀ k0_t4 : Fin k0_t4_loop.trips, ∀ a, (k0_off13 k0_t4) a + S1x16.size a ≤ S18x128.size a
  k0_off14_inb : ∀ k0_t4 : Fin k0_t4_loop.trips, ∀ a, (k0_off14 k0_t4) a + S1x16.size a ≤ S18x128.size a
  k0_off15_inb : ∀ k0_t4 : Fin k0_t4_loop.trips, ∀ a, (k0_off15 k0_t4) a + S1x16.size a ≤ S18x128.size a
  k0_off16_inb : ∀ k0_t4 : Fin k0_t4_loop.trips, ∀ a, (k0_off16 k0_t4) a + S1x16.size a ≤ S18x128.size a
  k0_off17_inb : ∀ k0_t4 : Fin k0_t4_loop.trips, ∀ a, (k0_off17 k0_t4) a + S1x16.size a ≤ S18x128.size a
  k0_off18_inb : ∀ k0_t4 : Fin k0_t4_loop.trips, ∀ a, (k0_off18 k0_t4) a + S1x16.size a ≤ S18x128.size a
  k0_off19_inb : ∀ k0_t4 : Fin k0_t4_loop.trips, ∀ a, (k0_off19 k0_t4) a + S1x16.size a ≤ S18x128.size a
  k0_off20_inb : ∀ i : grid0.Coords, ∀ (r : Fin 4), ∀ a, (k0_off20 i (BitVec.ofNat 32 (128 * r.val))) a + S18x128.size a ≤ S50x16384.size a
  k0_t5_ok : k0_t5_loop.OK
  k0_off21_inb : ∀ k0_t5 : Fin k0_t5_loop.trips, ∀ a, (k0_off21 k0_t5) a + S1x16.size a ≤ S18x128.size a
  k0_off22_inb : ∀ k0_t5 : Fin k0_t5_loop.trips, ∀ a, (k0_off22 k0_t5) a + S1x16.size a ≤ S18x128.size a
  k0_off23_inb : ∀ k0_t5 : Fin k0_t5_loop.trips, ∀ a, (k0_off23 k0_t5) a + S1x16.size a ≤ S18x128.size a
  k0_off24_inb : ∀ k0_t5 : Fin k0_t5_loop.trips, ∀ a, (k0_off24 k0_t5) a + S1x16.size a ≤ S18x128.size a
  k0_off25_inb : ∀ k0_t5 : Fin k0_t5_loop.trips, ∀ a, (k0_off25 k0_t5) a + S1x16.size a ≤ S18x128.size a
  k0_off26_inb : ∀ k0_t5 : Fin k0_t5_loop.trips, ∀ a, (k0_off26 k0_t5) a + S1x16.size a ≤ S18x128.size a
  k0_off27_inb : ∀ k0_t5 : Fin k0_t5_loop.trips, ∀ a, (k0_off27 k0_t5) a + S1x16.size a ≤ S18x128.size a
  k0_off28_inb : ∀ k0_t5 : Fin k0_t5_loop.trips, ∀ a, (k0_off28 k0_t5) a + S1x16.size a ≤ S18x128.size a
  k0_off29_inb : ∀ i : grid0.Coords, ∀ (r : Fin 4), ∀ a, (k0_off29 i (BitVec.ofNat 32 (128 * r.val))) a + S1000x128.size a ≤ S1000x16384.size a
  k0_t6_ok : k0_t6_loop.OK
  k0_off30_inb : ∀ k0_t6 : Fin k0_t6_loop.trips, ∀ a, (k0_off30 k0_t6) a + S1x16.size a ≤ S18x128.size a
  k0_off31_inb : ∀ k0_t6 : Fin k0_t6_loop.trips, ∀ a, (k0_off31 k0_t6) a + S1x16.size a ≤ S18x128.size a
  k0_off32_inb : ∀ k0_t6 : Fin k0_t6_loop.trips, ∀ a, (k0_off32 k0_t6) a + S1x16.size a ≤ S18x128.size a
  k0_off33_inb : ∀ k0_t6 : Fin k0_t6_loop.trips, ∀ a, (k0_off33 k0_t6) a + S1x16.size a ≤ S18x128.size a
  k0_off34_inb : ∀ k0_t6 : Fin k0_t6_loop.trips, ∀ a, (k0_off34 k0_t6) a + S1x16.size a ≤ S18x128.size a
  k0_off35_inb : ∀ k0_t6 : Fin k0_t6_loop.trips, ∀ a, (k0_off35 k0_t6) a + S1x16.size a ≤ S18x128.size a
  k0_off36_inb : ∀ k0_t6 : Fin k0_t6_loop.trips, ∀ a, (k0_off36 k0_t6) a + S1x16.size a ≤ S18x128.size a
  k0_off37_inb : ∀ k0_t6 : Fin k0_t6_loop.trips, ∀ a, (k0_off37 k0_t6) a + S1x16.size a ≤ S18x128.size a
  k0_off38_inb : ∀ i : grid0.Coords, ∀ (r : Fin 4), ∀ a, (k0_off38 i (BitVec.ofNat 32 (128 * r.val))) a + S16x128.size a ≤ S50x16384.size a
  k0_t7_ok : k0_t7_loop.OK
  k0_off39_inb : ∀ k0_t7 : Fin k0_t7_loop.trips, ∀ a, (k0_off39 k0_t7) a + S1x16.size a ≤ S18x128.size a
  k0_off40_inb : ∀ k0_t7 : Fin k0_t7_loop.trips, ∀ a, (k0_off40 k0_t7) a + S1x16.size a ≤ S18x128.size a
  k0_off41_inb : ∀ k0_t7 : Fin k0_t7_loop.trips, ∀ a, (k0_off41 k0_t7) a + S1x16.size a ≤ S18x128.size a
  k0_off42_inb : ∀ k0_t7 : Fin k0_t7_loop.trips, ∀ a, (k0_off42 k0_t7) a + S1x16.size a ≤ S18x128.size a
  k0_off43_inb : ∀ k0_t7 : Fin k0_t7_loop.trips, ∀ a, (k0_off43 k0_t7) a + S1x16.size a ≤ S18x128.size a
  k0_off44_inb : ∀ k0_t7 : Fin k0_t7_loop.trips, ∀ a, (k0_off44 k0_t7) a + S1x16.size a ≤ S18x128.size a
  k0_off45_inb : ∀ k0_t7 : Fin k0_t7_loop.trips, ∀ a, (k0_off45 k0_t7) a + S1x16.size a ≤ S18x128.size a
  k0_off46_inb : ∀ k0_t7 : Fin k0_t7_loop.trips, ∀ a, (k0_off46 k0_t7) a + S1x16.size a ≤ S18x128.size a
  k0_t8_ok : k0_t8_loop.OK
  k0_off47_inb : ∀ k0_t8 : Fin k0_t8_loop.trips, ∀ a, (k0_off47 k0_t8) a + S1x16.size a ≤ S18x128.size a
  k0_off48_inb : ∀ k0_t8 : Fin k0_t8_loop.trips, ∀ a, (k0_off48 k0_t8) a + S1x16.size a ≤ S18x128.size a
  k0_off49_inb : ∀ k0_t8 : Fin k0_t8_loop.trips, ∀ a, (k0_off49 k0_t8) a + S1x16.size a ≤ S18x128.size a
  k0_off50_inb : ∀ k0_t8 : Fin k0_t8_loop.trips, ∀ a, (k0_off50 k0_t8) a + S1x16.size a ≤ S18x128.size a
  k0_off51_inb : ∀ k0_t8 : Fin k0_t8_loop.trips, ∀ a, (k0_off51 k0_t8) a + S1x16.size a ≤ S18x128.size a
  k0_off52_inb : ∀ k0_t8 : Fin k0_t8_loop.trips, ∀ a, (k0_off52 k0_t8) a + S1x16.size a ≤ S18x128.size a
  k0_off53_inb : ∀ k0_t8 : Fin k0_t8_loop.trips, ∀ a, (k0_off53 k0_t8) a + S1x16.size a ≤ S18x128.size a
  k0_off54_inb : ∀ k0_t8 : Fin k0_t8_loop.trips, ∀ a, (k0_off54 k0_t8) a + S1x16.size a ≤ S18x128.size a
  k0_t9_ok : k0_t9_loop.OK
  k0_off55_inb : ∀ k0_t9 : Fin k0_t9_loop.trips, ∀ a, (k0_off55 k0_t9) a + S1x16.size a ≤ S18x128.size a
  k0_off56_inb : ∀ k0_t9 : Fin k0_t9_loop.trips, ∀ a, (k0_off56 k0_t9) a + S1x16.size a ≤ S18x128.size a
  k0_off57_inb : ∀ k0_t9 : Fin k0_t9_loop.trips, ∀ a, (k0_off57 k0_t9) a + S1x16.size a ≤ S18x128.size a
  k0_off58_inb : ∀ k0_t9 : Fin k0_t9_loop.trips, ∀ a, (k0_off58 k0_t9) a + S1x16.size a ≤ S18x128.size a
  k0_off59_inb : ∀ k0_t9 : Fin k0_t9_loop.trips, ∀ a, (k0_off59 k0_t9) a + S1x16.size a ≤ S18x128.size a
  k0_off60_inb : ∀ k0_t9 : Fin k0_t9_loop.trips, ∀ a, (k0_off60 k0_t9) a + S1x16.size a ≤ S18x128.size a
  k0_off61_inb : ∀ k0_t9 : Fin k0_t9_loop.trips, ∀ a, (k0_off61 k0_t9) a + S1x16.size a ≤ S18x128.size a
  k0_off62_inb : ∀ k0_t9 : Fin k0_t9_loop.trips, ∀ a, (k0_off62 k0_t9) a + S1x16.size a ≤ S18x128.size a
  k0_t10_ok : k0_t10_loop.OK
  k0_off63_inb : ∀ k0_t10 : Fin k0_t10_loop.trips, ∀ a, (k0_off63 k0_t10) a + S1x16.size a ≤ S18x128.size a
  k0_off64_inb : ∀ k0_t10 : Fin k0_t10_loop.trips, ∀ a, (k0_off64 k0_t10) a + S1x16.size a ≤ S18x128.size a
  k0_off65_inb : ∀ k0_t10 : Fin k0_t10_loop.trips, ∀ a, (k0_off65 k0_t10) a + S1x16.size a ≤ S18x128.size a
  k0_off66_inb : ∀ k0_t10 : Fin k0_t10_loop.trips, ∀ a, (k0_off66 k0_t10) a + S1x16.size a ≤ S18x128.size a
  k0_off67_inb : ∀ k0_t10 : Fin k0_t10_loop.trips, ∀ a, (k0_off67 k0_t10) a + S1x16.size a ≤ S18x128.size a
  k0_off68_inb : ∀ k0_t10 : Fin k0_t10_loop.trips, ∀ a, (k0_off68 k0_t10) a + S1x16.size a ≤ S18x128.size a
  k0_off69_inb : ∀ k0_t10 : Fin k0_t10_loop.trips, ∀ a, (k0_off69 k0_t10) a + S1x16.size a ≤ S18x128.size a
  k0_off70_inb : ∀ k0_t10 : Fin k0_t10_loop.trips, ∀ a, (k0_off70 k0_t10) a + S1x16.size a ≤ S18x128.size a
  k0_t11_ok : k0_t11_loop.OK
  k0_off71_inb : ∀ k0_t11 : Fin k0_t11_loop.trips, ∀ a, (k0_off71 k0_t11) a + S1x16.size a ≤ S18x128.size a
  k0_off72_inb : ∀ k0_t11 : Fin k0_t11_loop.trips, ∀ a, (k0_off72 k0_t11) a + S1x16.size a ≤ S18x128.size a
  k0_off73_inb : ∀ k0_t11 : Fin k0_t11_loop.trips, ∀ a, (k0_off73 k0_t11) a + S1x16.size a ≤ S18x128.size a
  k0_off74_inb : ∀ k0_t11 : Fin k0_t11_loop.trips, ∀ a, (k0_off74 k0_t11) a + S1x16.size a ≤ S18x128.size a
  k0_off75_inb : ∀ k0_t11 : Fin k0_t11_loop.trips, ∀ a, (k0_off75 k0_t11) a + S1x16.size a ≤ S18x128.size a
  k0_off76_inb : ∀ k0_t11 : Fin k0_t11_loop.trips, ∀ a, (k0_off76 k0_t11) a + S1x16.size a ≤ S18x128.size a
  k0_off77_inb : ∀ k0_t11 : Fin k0_t11_loop.trips, ∀ a, (k0_off77 k0_t11) a + S1x16.size a ≤ S18x128.size a
  k0_off78_inb : ∀ k0_t11 : Fin k0_t11_loop.trips, ∀ a, (k0_off78 k0_t11) a + S1x16.size a ≤ S18x128.size a
  k0_t12_ok : k0_t12_loop.OK
  k0_off79_inb : ∀ k0_t12 : Fin k0_t12_loop.trips, ∀ a, (k0_off79 k0_t12) a + S1x16.size a ≤ S18x128.size a
  k0_off80_inb : ∀ k0_t12 : Fin k0_t12_loop.trips, ∀ a, (k0_off80 k0_t12) a + S1x16.size a ≤ S18x128.size a
  k0_off81_inb : ∀ k0_t12 : Fin k0_t12_loop.trips, ∀ a, (k0_off81 k0_t12) a + S1x16.size a ≤ S18x128.size a
  k0_off82_inb : ∀ k0_t12 : Fin k0_t12_loop.trips, ∀ a, (k0_off82 k0_t12) a + S1x16.size a ≤ S18x128.size a
  k0_off83_inb : ∀ k0_t12 : Fin k0_t12_loop.trips, ∀ a, (k0_off83 k0_t12) a + S1x16.size a ≤ S18x128.size a
  k0_off84_inb : ∀ k0_t12 : Fin k0_t12_loop.trips, ∀ a, (k0_off84 k0_t12) a + S1x16.size a ≤ S18x128.size a
  k0_off85_inb : ∀ k0_t12 : Fin k0_t12_loop.trips, ∀ a, (k0_off85 k0_t12) a + S1x16.size a ≤ S18x128.size a
  k0_off86_inb : ∀ k0_t12 : Fin k0_t12_loop.trips, ∀ a, (k0_off86 k0_t12) a + S1x16.size a ≤ S18x128.size a
  k0_t13_ok : k0_t13_loop.OK
  k0_off87_inb : ∀ k0_t13 : Fin k0_t13_loop.trips, ∀ a, (k0_off87 k0_t13) a + S1x16.size a ≤ S18x128.size a
  k0_off88_inb : ∀ k0_t13 : Fin k0_t13_loop.trips, ∀ a, (k0_off88 k0_t13) a + S1x16.size a ≤ S18x128.size a
  k0_off89_inb : ∀ k0_t13 : Fin k0_t13_loop.trips, ∀ a, (k0_off89 k0_t13) a + S1x16.size a ≤ S18x128.size a
  k0_off90_inb : ∀ k0_t13 : Fin k0_t13_loop.trips, ∀ a, (k0_off90 k0_t13) a + S1x16.size a ≤ S18x128.size a
  k0_off91_inb : ∀ k0_t13 : Fin k0_t13_loop.trips, ∀ a, (k0_off91 k0_t13) a + S1x16.size a ≤ S18x128.size a
  k0_off92_inb : ∀ k0_t13 : Fin k0_t13_loop.trips, ∀ a, (k0_off92 k0_t13) a + S1x16.size a ≤ S18x128.size a
  k0_off93_inb : ∀ k0_t13 : Fin k0_t13_loop.trips, ∀ a, (k0_off93 k0_t13) a + S1x16.size a ≤ S18x128.size a
  k0_off94_inb : ∀ k0_t13 : Fin k0_t13_loop.trips, ∀ a, (k0_off94 k0_t13) a + S1x16.size a ≤ S18x128.size a
  k0_t14_ok : k0_t14_loop.OK
  k0_off95_inb : ∀ k0_t14 : Fin k0_t14_loop.trips, ∀ a, (k0_off95 k0_t14) a + S1x16.size a ≤ S18x128.size a
  k0_off96_inb : ∀ k0_t14 : Fin k0_t14_loop.trips, ∀ a, (k0_off96 k0_t14) a + S1x16.size a ≤ S18x128.size a
  k0_off97_inb : ∀ k0_t14 : Fin k0_t14_loop.trips, ∀ a, (k0_off97 k0_t14) a + S1x16.size a ≤ S18x128.size a
  k0_off98_inb : ∀ k0_t14 : Fin k0_t14_loop.trips, ∀ a, (k0_off98 k0_t14) a + S1x16.size a ≤ S18x128.size a
  k0_off99_inb : ∀ k0_t14 : Fin k0_t14_loop.trips, ∀ a, (k0_off99 k0_t14) a + S1x16.size a ≤ S18x128.size a
  k0_off100_inb : ∀ k0_t14 : Fin k0_t14_loop.trips, ∀ a, (k0_off100 k0_t14) a + S1x16.size a ≤ S18x128.size a
  k0_off101_inb : ∀ k0_t14 : Fin k0_t14_loop.trips, ∀ a, (k0_off101 k0_t14) a + S1x16.size a ≤ S18x128.size a
  k0_off102_inb : ∀ k0_t14 : Fin k0_t14_loop.trips, ∀ a, (k0_off102 k0_t14) a + S1x16.size a ≤ S18x128.size a
  k0_t15_ok : k0_t15_loop.OK
  k0_off103_inb : ∀ k0_t15 : Fin k0_t15_loop.trips, ∀ a, (k0_off103 k0_t15) a + S1x16.size a ≤ S18x128.size a
  k0_off104_inb : ∀ k0_t15 : Fin k0_t15_loop.trips, ∀ a, (k0_off104 k0_t15) a + S1x16.size a ≤ S18x128.size a
  k0_off105_inb : ∀ k0_t15 : Fin k0_t15_loop.trips, ∀ a, (k0_off105 k0_t15) a + S1x16.size a ≤ S18x128.size a
  k0_off106_inb : ∀ k0_t15 : Fin k0_t15_loop.trips, ∀ a, (k0_off106 k0_t15) a + S1x16.size a ≤ S18x128.size a
  k0_off107_inb : ∀ k0_t15 : Fin k0_t15_loop.trips, ∀ a, (k0_off107 k0_t15) a + S1x16.size a ≤ S18x128.size a
  k0_off108_inb : ∀ k0_t15 : Fin k0_t15_loop.trips, ∀ a, (k0_off108 k0_t15) a + S1x16.size a ≤ S18x128.size a
  k0_off109_inb : ∀ k0_t15 : Fin k0_t15_loop.trips, ∀ a, (k0_off109 k0_t15) a + S1x16.size a ≤ S18x128.size a
  k0_off110_inb : ∀ k0_t15 : Fin k0_t15_loop.trips, ∀ a, (k0_off110 k0_t15) a + S1x16.size a ≤ S18x128.size a
  k0_t16_ok : k0_t16_loop.OK
  k0_off111_inb : ∀ k0_t16 : Fin k0_t16_loop.trips, ∀ a, (k0_off111 k0_t16) a + S1x16.size a ≤ S18x128.size a
  k0_off112_inb : ∀ k0_t16 : Fin k0_t16_loop.trips, ∀ a, (k0_off112 k0_t16) a + S1x16.size a ≤ S18x128.size a
  k0_off113_inb : ∀ k0_t16 : Fin k0_t16_loop.trips, ∀ a, (k0_off113 k0_t16) a + S1x16.size a ≤ S18x128.size a
  k0_off114_inb : ∀ k0_t16 : Fin k0_t16_loop.trips, ∀ a, (k0_off114 k0_t16) a + S1x16.size a ≤ S18x128.size a
  k0_off115_inb : ∀ k0_t16 : Fin k0_t16_loop.trips, ∀ a, (k0_off115 k0_t16) a + S1x16.size a ≤ S18x128.size a
  k0_off116_inb : ∀ k0_t16 : Fin k0_t16_loop.trips, ∀ a, (k0_off116 k0_t16) a + S1x16.size a ≤ S18x128.size a
  k0_off117_inb : ∀ k0_t16 : Fin k0_t16_loop.trips, ∀ a, (k0_off117 k0_t16) a + S1x16.size a ≤ S18x128.size a
  k0_off118_inb : ∀ k0_t16 : Fin k0_t16_loop.trips, ∀ a, (k0_off118 k0_t16) a + S1x16.size a ≤ S18x128.size a
  k0_t17_ok : k0_t17_loop.OK
  k0_off119_inb : ∀ k0_t17 : Fin k0_t17_loop.trips, ∀ a, (k0_off119 k0_t17) a + S1x16.size a ≤ S18x128.size a
  k0_off120_inb : ∀ k0_t17 : Fin k0_t17_loop.trips, ∀ a, (k0_off120 k0_t17) a + S1x16.size a ≤ S18x128.size a
  k0_off121_inb : ∀ k0_t17 : Fin k0_t17_loop.trips, ∀ a, (k0_off121 k0_t17) a + S1x16.size a ≤ S18x128.size a
  k0_off122_inb : ∀ k0_t17 : Fin k0_t17_loop.trips, ∀ a, (k0_off122 k0_t17) a + S1x16.size a ≤ S18x128.size a
  k0_off123_inb : ∀ k0_t17 : Fin k0_t17_loop.trips, ∀ a, (k0_off123 k0_t17) a + S1x16.size a ≤ S18x128.size a
  k0_off124_inb : ∀ k0_t17 : Fin k0_t17_loop.trips, ∀ a, (k0_off124 k0_t17) a + S1x16.size a ≤ S18x128.size a
  k0_off125_inb : ∀ k0_t17 : Fin k0_t17_loop.trips, ∀ a, (k0_off125 k0_t17) a + S1x16.size a ≤ S18x128.size a
  k0_off126_inb : ∀ k0_t17 : Fin k0_t17_loop.trips, ∀ a, (k0_off126 k0_t17) a + S1x16.size a ≤ S18x128.size a
  k0_t18_ok : k0_t18_loop.OK
  k0_off127_inb : ∀ k0_t18 : Fin k0_t18_loop.trips, ∀ a, (k0_off127 k0_t18) a + S1x16.size a ≤ S18x128.size a
  k0_off128_inb : ∀ k0_t18 : Fin k0_t18_loop.trips, ∀ a, (k0_off128 k0_t18) a + S1x16.size a ≤ S18x128.size a
  k0_off129_inb : ∀ k0_t18 : Fin k0_t18_loop.trips, ∀ a, (k0_off129 k0_t18) a + S1x16.size a ≤ S18x128.size a
  k0_off130_inb : ∀ k0_t18 : Fin k0_t18_loop.trips, ∀ a, (k0_off130 k0_t18) a + S1x16.size a ≤ S18x128.size a
  k0_off131_inb : ∀ k0_t18 : Fin k0_t18_loop.trips, ∀ a, (k0_off131 k0_t18) a + S1x16.size a ≤ S18x128.size a
  k0_off132_inb : ∀ k0_t18 : Fin k0_t18_loop.trips, ∀ a, (k0_off132 k0_t18) a + S1x16.size a ≤ S18x128.size a
  k0_off133_inb : ∀ k0_t18 : Fin k0_t18_loop.trips, ∀ a, (k0_off133 k0_t18) a + S1x16.size a ≤ S18x128.size a
  k0_off134_inb : ∀ k0_t18 : Fin k0_t18_loop.trips, ∀ a, (k0_off134 k0_t18) a + S1x16.size a ≤ S18x128.size a
  k0_t19_ok : k0_t19_loop.OK
  k0_off135_inb : ∀ k0_t19 : Fin k0_t19_loop.trips, ∀ a, (k0_off135 k0_t19) a + S1x16.size a ≤ S18x128.size a
  k0_off136_inb : ∀ k0_t19 : Fin k0_t19_loop.trips, ∀ a, (k0_off136 k0_t19) a + S1x16.size a ≤ S18x128.size a
  k0_off137_inb : ∀ k0_t19 : Fin k0_t19_loop.trips, ∀ a, (k0_off137 k0_t19) a + S1x16.size a ≤ S18x128.size a
  k0_off138_inb : ∀ k0_t19 : Fin k0_t19_loop.trips, ∀ a, (k0_off138 k0_t19) a + S1x16.size a ≤ S18x128.size a
  k0_off139_inb : ∀ k0_t19 : Fin k0_t19_loop.trips, ∀ a, (k0_off139 k0_t19) a + S1x16.size a ≤ S18x128.size a
  k0_off140_inb : ∀ k0_t19 : Fin k0_t19_loop.trips, ∀ a, (k0_off140 k0_t19) a + S1x16.size a ≤ S18x128.size a
  k0_off141_inb : ∀ k0_t19 : Fin k0_t19_loop.trips, ∀ a, (k0_off141 k0_t19) a + S1x16.size a ≤ S18x128.size a
  k0_off142_inb : ∀ k0_t19 : Fin k0_t19_loop.trips, ∀ a, (k0_off142 k0_t19) a + S1x16.size a ≤ S18x128.size a
  k0_t20_ok : k0_t20_loop.OK
  k0_off143_inb : ∀ k0_t20 : Fin k0_t20_loop.trips, ∀ a, (k0_off143 k0_t20) a + S1x16.size a ≤ S18x128.size a
  k0_off144_inb : ∀ k0_t20 : Fin k0_t20_loop.trips, ∀ a, (k0_off144 k0_t20) a + S1x16.size a ≤ S18x128.size a
  k0_off145_inb : ∀ k0_t20 : Fin k0_t20_loop.trips, ∀ a, (k0_off145 k0_t20) a + S1x16.size a ≤ S18x128.size a
  k0_off146_inb : ∀ k0_t20 : Fin k0_t20_loop.trips, ∀ a, (k0_off146 k0_t20) a + S1x16.size a ≤ S18x128.size a
  k0_off147_inb : ∀ k0_t20 : Fin k0_t20_loop.trips, ∀ a, (k0_off147 k0_t20) a + S1x16.size a ≤ S18x128.size a
  k0_off148_inb : ∀ k0_t20 : Fin k0_t20_loop.trips, ∀ a, (k0_off148 k0_t20) a + S1x16.size a ≤ S18x128.size a
  k0_off149_inb : ∀ k0_t20 : Fin k0_t20_loop.trips, ∀ a, (k0_off149 k0_t20) a + S1x16.size a ≤ S18x128.size a
  k0_off150_inb : ∀ k0_t20 : Fin k0_t20_loop.trips, ∀ a, (k0_off150 k0_t20) a + S1x16.size a ≤ S18x128.size a
  k0_t21_ok : k0_t21_loop.OK
  k0_off151_inb : ∀ k0_t21 : Fin k0_t21_loop.trips, ∀ a, (k0_off151 k0_t21) a + S1x16.size a ≤ S18x128.size a
  k0_off152_inb : ∀ k0_t21 : Fin k0_t21_loop.trips, ∀ a, (k0_off152 k0_t21) a + S1x16.size a ≤ S18x128.size a
  k0_off153_inb : ∀ k0_t21 : Fin k0_t21_loop.trips, ∀ a, (k0_off153 k0_t21) a + S1x16.size a ≤ S18x128.size a
  k0_off154_inb : ∀ k0_t21 : Fin k0_t21_loop.trips, ∀ a, (k0_off154 k0_t21) a + S1x16.size a ≤ S18x128.size a
  k0_off155_inb : ∀ k0_t21 : Fin k0_t21_loop.trips, ∀ a, (k0_off155 k0_t21) a + S1x16.size a ≤ S18x128.size a
  k0_off156_inb : ∀ k0_t21 : Fin k0_t21_loop.trips, ∀ a, (k0_off156 k0_t21) a + S1x16.size a ≤ S18x128.size a
  k0_off157_inb : ∀ k0_t21 : Fin k0_t21_loop.trips, ∀ a, (k0_off157 k0_t21) a + S1x16.size a ≤ S18x128.size a
  k0_off158_inb : ∀ k0_t21 : Fin k0_t21_loop.trips, ∀ a, (k0_off158 k0_t21) a + S1x16.size a ≤ S18x128.size a
  k0_t22_ok : k0_t22_loop.OK
  k0_off159_inb : ∀ k0_t22 : Fin k0_t22_loop.trips, ∀ a, (k0_off159 k0_t22) a + S1x16.size a ≤ S18x128.size a
  k0_off160_inb : ∀ k0_t22 : Fin k0_t22_loop.trips, ∀ a, (k0_off160 k0_t22) a + S1x16.size a ≤ S18x128.size a
  k0_off161_inb : ∀ k0_t22 : Fin k0_t22_loop.trips, ∀ a, (k0_off161 k0_t22) a + S1x16.size a ≤ S18x128.size a
  k0_off162_inb : ∀ k0_t22 : Fin k0_t22_loop.trips, ∀ a, (k0_off162 k0_t22) a + S1x16.size a ≤ S18x128.size a
  k0_off163_inb : ∀ k0_t22 : Fin k0_t22_loop.trips, ∀ a, (k0_off163 k0_t22) a + S1x16.size a ≤ S18x128.size a
  k0_off164_inb : ∀ k0_t22 : Fin k0_t22_loop.trips, ∀ a, (k0_off164 k0_t22) a + S1x16.size a ≤ S18x128.size a
  k0_off165_inb : ∀ k0_t22 : Fin k0_t22_loop.trips, ∀ a, (k0_off165 k0_t22) a + S1x16.size a ≤ S18x128.size a
  k0_off166_inb : ∀ k0_t22 : Fin k0_t22_loop.trips, ∀ a, (k0_off166 k0_t22) a + S1x16.size a ≤ S18x128.size a
  k0_t23_ok : k0_t23_loop.OK
  k0_off167_inb : ∀ k0_t23 : Fin k0_t23_loop.trips, ∀ a, (k0_off167 k0_t23) a + S1x16.size a ≤ S18x128.size a
  k0_off168_inb : ∀ k0_t23 : Fin k0_t23_loop.trips, ∀ a, (k0_off168 k0_t23) a + S1x16.size a ≤ S18x128.size a
  k0_off169_inb : ∀ k0_t23 : Fin k0_t23_loop.trips, ∀ a, (k0_off169 k0_t23) a + S1x16.size a ≤ S18x128.size a
  k0_off170_inb : ∀ k0_t23 : Fin k0_t23_loop.trips, ∀ a, (k0_off170 k0_t23) a + S1x16.size a ≤ S18x128.size a
  k0_off171_inb : ∀ k0_t23 : Fin k0_t23_loop.trips, ∀ a, (k0_off171 k0_t23) a + S1x16.size a ≤ S18x128.size a
  k0_off172_inb : ∀ k0_t23 : Fin k0_t23_loop.trips, ∀ a, (k0_off172 k0_t23) a + S1x16.size a ≤ S18x128.size a
  k0_off173_inb : ∀ k0_t23 : Fin k0_t23_loop.trips, ∀ a, (k0_off173 k0_t23) a + S1x16.size a ≤ S18x128.size a
  k0_off174_inb : ∀ k0_t23 : Fin k0_t23_loop.trips, ∀ a, (k0_off174 k0_t23) a + S1x16.size a ≤ S18x128.size a

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3
abbrev cc0_scoped4 : DmaSems sig S_ := SemArray.consecutive 4 S_ hcc0_scoped4
abbrev cc0_scoped5 : DmaSems sig S_ := SemArray.consecutive 5 S_ hcc0_scoped5
abbrev cc0_scoped6 : DmaSems sig S_ := SemArray.consecutive 6 S_ hcc0_scoped6
abbrev cc0_scoped7 : DmaSems sig S_ := SemArray.consecutive 7 S_ hcc0_scoped7
abbrev cc0_scoped8 : DmaSems sig S_ := SemArray.consecutive 8 S_ hcc0_scoped8
abbrev cc0_scoped9 : DmaSems sig S_ := SemArray.consecutive 9 S_ hcc0_scoped9
abbrev cc0_scoped10 : DmaSems sig S_ := SemArray.consecutive 10 S_ hcc0_scoped10
abbrev cc0_scoped11 : DmaSems sig S_ := SemArray.consecutive 11 S_ hcc0_scoped11
abbrev cc0_scoped12 : DmaSems sig S_ := SemArray.consecutive 12 S_ hcc0_scoped12
abbrev cc0_scoped13 : DmaSems sig S_ := SemArray.consecutive 13 S_ hcc0_scoped13
abbrev cc0_scoped14 : DmaSems sig S_ := SemArray.consecutive 14 S_ hcc0_scoped14
abbrev cc0_scoped15 : DmaSems sig S_ := SemArray.consecutive 15 S_ hcc0_scoped15
abbrev cc0_scoped16 : DmaSems sig S_ := SemArray.consecutive 16 S_ hcc0_scoped16
abbrev cc0_scoped17 : DmaSems sig S_ := SemArray.consecutive 17 S_ hcc0_scoped17
abbrev cc0_scoped18 : DmaSems sig S_ := SemArray.consecutive 18 S_ hcc0_scoped18
abbrev cc0_scoped19 : DmaSems sig S_ := SemArray.consecutive 19 S_ hcc0_scoped19
abbrev cc0_scoped20 : DmaSems sig S_ := SemArray.consecutive 20 S_ hcc0_scoped20
abbrev cc0_scoped21 : DmaSems sig S_ := SemArray.consecutive 21 S_ hcc0_scoped21

class Facts : Prop extends Facts₀ where

variable [Facts]
-- ==== ReferenceIdeal.lean ====
abbrev S16384x50 : Shape := ⟨2, ![16384, 50]⟩
abbrev S16384 : Shape := ⟨1, ![16384]⟩
abbrev S16384x1 : Shape := ⟨2, ![16384, 1]⟩
abbrev S_ : Shape := ⟨0, ![]⟩
abbrev S16384x1000 : Shape := ⟨2, ![16384, 1000]⟩
abbrev S16384x50x1 : Shape := ⟨3, ![16384, 50, 1]⟩
abbrev S16384x50x2 : Shape := ⟨3, ![16384, 50, 2]⟩

abbrev nBuf : Space → Nat
  | .hbm => 32
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S16384, .i32⟩
  | .hbm, ⟨2, _⟩ => ⟨S16384x1, .i32⟩
  | .hbm, ⟨3, _⟩ => ⟨S_, .f32⟩
  | .hbm, ⟨4, _⟩ => ⟨S16384x1000, .f32⟩
  | .hbm, ⟨5, _⟩ => ⟨S_, .i32⟩
  | .hbm, ⟨6, _⟩ => ⟨S16384x1, .i32⟩
  | .hbm, ⟨7, _⟩ => ⟨S16384x1, .i1⟩
  | .hbm, ⟨8, _⟩ => ⟨S_, .i32⟩
  | .hbm, ⟨9, _⟩ => ⟨S16384x1, .i32⟩
  | .hbm, ⟨10, _⟩ => ⟨S16384x1, .i32⟩
  | .hbm, ⟨11, _⟩ => ⟨S16384x1, .i32⟩
  | .hbm, ⟨12, _⟩ => ⟨S_, .i32⟩
  | .hbm, ⟨13, _⟩ => ⟨S16384x50, .i32⟩
  | .hbm, ⟨14, _⟩ => ⟨S16384x50, .i1⟩
  | .hbm, ⟨15, _⟩ => ⟨S_, .i32⟩
  | .hbm, ⟨16, _⟩ => ⟨S16384x50, .i32⟩
  | .hbm, ⟨17, _⟩ => ⟨S16384x50, .i32⟩
  | .hbm, ⟨18, _⟩ => ⟨S16384x50, .i32⟩
  | .hbm, ⟨19, _⟩ => ⟨S16384x50, .i32⟩
  | .hbm, ⟨20, _⟩ => ⟨S16384x50x1, .i32⟩
  | .hbm, ⟨21, _⟩ => ⟨S16384x50x1, .i32⟩
  | .hbm, ⟨22, _⟩ => ⟨S16384x50x2, .i32⟩
  | .hbm, ⟨23, _⟩ => ⟨S_, .f32⟩
  | .hbm, ⟨24, _⟩ => ⟨S16384x50, .f32⟩
  | .hbm, ⟨25, _⟩ => ⟨S16384x1000, .f32⟩
  | .hbm, ⟨26, _⟩ => ⟨S_, .f32⟩
  | .hbm, ⟨27, _⟩ => ⟨S16384x1000, .f32⟩
  | .hbm, ⟨28, _⟩ => ⟨S16384x1000, .f32⟩
  | .hbm, ⟨29, _⟩ => ⟨S_, .f32⟩
  | .hbm, ⟨30, _⟩ => ⟨S16384x1000, .f32⟩
  | .hbm, ⟨31, _⟩ => ⟨S16384x1000, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S_S16384x1000 : S_.BroadcastsInDim S16384x1000 (![] : Fin 0 → Fin S16384x1000.rank)
  bcast_S_S16384x1 : S_.BroadcastsInDim S16384x1 (![] : Fin 0 → Fin S16384x1.rank)
  bcast_S_S16384x50 : S_.BroadcastsInDim S16384x50 (![] : Fin 0 → Fin S16384x50.rank)
  bcast_S16384x1_S16384x50_0_1 : S16384x1.BroadcastsInDim S16384x50 (![0, 1] : Fin 2 → Fin S16384x50.rank)
  bcast_S16384x50_S16384x50x1_0_1 : S16384x50.BroadcastsInDim S16384x50x1 (![0, 1] : Fin 2 → Fin S16384x50x1.rank)
  concatenates_S16384x50x1_S16384x50x1_S16384x50x2_d2 : Shape.Concatenates [S16384x50x1, S16384x50x1] S16384x50x2 2
  scatter_S16384x1000_S16384x50x2_S16384x50_n_01_01_2_wf : ScatterDims.WF S16384x1000 S16384x50x2 S16384x50 [] [0, 1] [0, 1] 2

variable [Facts₀]

def scatter_S16384x1000_S16384x50x2_S16384x50_n_01_01_2 : ScatterDims S16384x1000 S16384x50x2 S16384x50 where
  updateWindowDims := []
  insertedWindowDims := [0, 1]
  scatterDimsToOperandDims := [0, 1]
  indexVectorDim := 2
  wf := scatter_S16384x1000_S16384x50x2_S16384x50_n_01_01_2_wf

class Facts : Prop extends Facts₀ where

variable [Facts]
-- ==== Proof.HitNamed.lean ====
/-
  The one constant the kernel folds. Its body stores, at every (class, sample) position an index row names, the single
  f32 word 0x3F666CF4: the f32 sum of the scale word (the f32 nearest 0.9) and the floor word (the f32 nearest 1e-4).
  Read as an exact number that word is the rounded sum; the certificate's table names it as the UNROUNDED sum of the two
  words' exact values, 15099494 / 2^24 + 13743895 / 2^37 = 123708798743 / 2^37, which is what scaling a one by the scale
  and adding the floor gives on the extended reals.
-/
import proofs.«211736_g82076825026625_cont_sun_c4_101_27_alg».proof.Defs

noncomputable section

namespace Cert.Proof.HitNamed

open Idealize.ShloMosaic

/-- The named word denotes, at the ideal instance, the exact sum the table gives it. -/
theorem hit_named :
    Named.named (F := Ideal) Cert.KernelIdeal.κ "hit_d1_plus_d2" (φ := .f32) 0x3F666CF4#32
      = ((123708798743 / 137438953472 : ℝ) : EReal) :=
  IdealRules.named_const.ideal_named_scalar _ _ _ _ rfl

/-- The idealized kernel differs from the kernel as printed only in reading that one word through the table. -/
theorem preserves : Cert.preserves_Kernel_KernelIdeal :=
  IdealRules.named_const.statement Cert.KernelIdeal.κ "hit_d1_plus_d2" .f32 0x3F666CF4#32
    ((123708798743 / 137438953472 : ℝ) : EReal) rfl

end Cert.Proof.HitNamed

end
-- ==== Proof.LibScatterSet.lean ====
/-
  A `stablehlo.scatter` read at ONE index of its result.

  The scatter is a left fold over the update indices, in row-major order: update index `j` lands at the operand index
  `start j + window j` (coordinate by coordinate), when that is inside the operand, and replaces the element there by the
  body applied to it and the update's element. So at a fixed operand index `i`:
    * if NO update index lands at `i`, the result holds the operand's element (whatever the body);
    * if the body returns the update (`.at[…].set`) and every update index landing at `i` carries one and the same
      value `c` — in particular when exactly one lands there —, the result holds `c`.
  `resultIdx?_eq_some_iff` says when update index `j` lands at `i`: on every axis, `i`'s coordinate is the window's start
  plus `j`'s window coordinate (the "inside the operand" test is then automatic, `i` being an index of the operand).
  `start_eq_zero`: when the scatter indices are all zero words (`x.at[0, :, :, 0, 0]`), every window starts at 0.
-/
import Idealize.ShloMosaic.PureOps.ShapeOps

namespace Idealize.ShloMosaic.ScatterRead

open Idealize.ShloMosaic

/-! ## A left fold of "overwrite one point" steps, read at a point -/

section Fold
variable {α ι κ : Type}

/-- A fold whose steps leave the point `i` alone (none of the listed steps targets it) keeps the start value there. -/
theorem foldl_apply_of_forall_ne (F : (κ → α) → ι → (κ → α)) (g : ι → Option κ) (i : κ)
    (hne : ∀ r n, g n ≠ some i → F r n i = r i) :
    ∀ (l : List ι) (x : κ → α), (∀ n ∈ l, g n ≠ some i) → l.foldl F x i = x i
  | [], _, _ => rfl
  | a :: l, x, h => by
    rw [List.foldl_cons, foldl_apply_of_forall_ne F g i hne l (F x a) (fun n hn => h n (List.mem_cons_of_mem _ hn))]
    exact hne x a (h a List.mem_cons_self)

/-- A fold of overwriting steps, at a point `i` that some listed step targets, all such steps carrying the value `c`:
    the last of them wrote `c` and no later step touches `i`. -/
theorem foldl_apply_of_hits (F : (κ → α) → ι → (κ → α)) (g : ι → Option κ) (v : ι → α) (i : κ) (c : α)
    (hne : ∀ r n, g n ≠ some i → F r n i = r i) (heq : ∀ r n, g n = some i → F r n i = v n) :
    ∀ (l : List ι) (x : κ → α), (∀ n ∈ l, g n = some i → v n = c) → (∃ n ∈ l, g n = some i) → l.foldl F x i = c
  | [], _, _, hex => by obtain ⟨n, hn, _⟩ := hex; cases hn
  | a :: l, x, hall, hex => by
    rw [List.foldl_cons]
    by_cases h : ∃ n ∈ l, g n = some i
    · exact foldl_apply_of_hits F g v i c hne heq l (F x a) (fun n hn => hall n (List.mem_cons_of_mem _ hn)) h
    · have h' : ∀ n ∈ l, g n ≠ some i := fun n hn e => h ⟨n, hn, e⟩
      rw [foldl_apply_of_forall_ne F g i hne l (F x a) h']
      obtain ⟨n, hn, hg⟩ := hex
      rcases List.mem_cons.1 hn with rfl | hn'
      · rw [heq x n hg]; exact hall n List.mem_cons_self hg
      · exact absurd hg (h' n hn')

end Fold

/-! ## Where an update index lands -/

section Scatter
variable {α : Type} {s si u : Shape} {w : Nat}

/-- Update index `j` lands at the operand index `i` exactly when, on every axis, `i`'s coordinate is the window's start
    plus `j`'s window coordinate. -/
theorem resultIdx?_eq_some_iff (d : ScatterDims s si u) (j : u.Idx) (idx : IVec si w) (i : s.Idx) :
    d.resultIdx? j idx = some i ↔ ∀ a, ((i a).val : Int) = d.start j idx a + d.window j a := by
  unfold ScatterDims.resultIdx?
  split
  · rename_i h
    constructor
    · intro e a
      have e' := Option.some.inj e
      rw [← e']
      exact Int.toNat_of_nonneg (h a).1
    · intro e
      refine congrArg some (funext fun a => Fin.ext ?_)
      show (d.start j idx a + d.window j a).toNat = (i a).val
      rw [← e a]; exact Int.toNat_natCast _
  · rename_i h
    constructor
    · intro e; cases e
    · intro e
      exact absurd (fun a => ⟨by rw [← e a]; exact Int.natCast_nonneg _,
        by rw [← e a]; exact Int.ofNat_lt.2 (i a).isLt⟩) h

/-- With every component of every start index the zero word, every window starts at 0 on every axis. -/
theorem start_eq_zero (d : ScatterDims s si u) (j : u.Idx) (idx : IVec si w) (hidx : ∀ k, idx k = 0#w) (a : Fin s.rank) :
    d.start j idx a = 0 := by
  unfold ScatterDims.start
  split
  · rw [hidx]; exact BitVec.toInt_zero
  · rfl

/-! ## The scatter at an index -/

/-- No update index lands at `i`: the scatter's result holds the operand's element there, whatever the body. -/
theorem scatter_apply_of_forall_ne (d : ScatterDims s si u) (f : α → α → α) (x : s.Idx → α) (idx : IVec si w)
    (upd : u.Idx → α) (i : s.Idx) (h : ∀ j : u.Idx, d.resultIdx? j idx ≠ some i) :
    Host.scatter d f x idx upd i = x i := by
  unfold Host.scatter
  refine foldl_apply_of_forall_ne _ (fun n => d.resultIdx? (u.rowMajor.symm n) idx) i ?_ _ x (fun n _ => h _)
  intro r n hn
  generalize d.resultIdx? (u.rowMajor.symm n) idx = o at hn ⊢
  cases o with
  | none => rfl
  | some i₀ =>
    show (if i = i₀ then _ else r i) = r i
    rw [if_neg]
    intro e
    exact hn (by rw [e])

/-- A scatter whose body returns the update (`.at[…].set`), at an index `i` where update index `j₀` lands, every update
    index landing there carrying the same value as `j₀` (so, in particular, when only `j₀` lands there): the result
    holds `j₀`'s update. -/
theorem scatter_set_apply (d : ScatterDims s si u) (x : s.Idx → α) (idx : IVec si w) (upd : u.Idx → α) (i : s.Idx)
    (j₀ : u.Idx) (h₀ : d.resultIdx? j₀ idx = some i) (hsame : ∀ j : u.Idx, d.resultIdx? j idx = some i → upd j = upd j₀) :
    Host.scatter d (fun _ b => b) x idx upd i = upd j₀ := by
  unfold Host.scatter
  refine foldl_apply_of_hits _ (fun n => d.resultIdx? (u.rowMajor.symm n) idx) (fun n => upd (u.rowMajor.symm n)) i
    (upd j₀) ?_ ?_ _ x (fun n _ hn => hsame _ hn)
    ⟨u.rowMajor j₀, List.mem_finRange _, by rw [Equiv.symm_apply_apply]; exact h₀⟩
  · intro r n hn
    generalize d.resultIdx? (u.rowMajor.symm n) idx = o at hn ⊢
    cases o with
    | none => rfl
    | some i₀ =>
      show (if i = i₀ then _ else r i) = r i
      rw [if_neg]
      intro e
      exact hn (by rw [e])
  · intro r n hn
    generalize hv : upd (u.rowMajor.symm n) = v
    generalize d.resultIdx? (u.rowMajor.symm n) idx = o at hn ⊢
    cases o with
    | none => cases hn
    | some i₀ =>
      show (if i = i₀ then v else r i) = v
      rw [if_pos (Option.some.inj hn).symm]

end Scatter

end Idealize.ShloMosaic.ScatterRead
-- ==== Proof.LibScatterConst.lean ====
/-
  A general fact about the host scatter, for any shapes and any element type.

  `Host.scatter d f x idx upd` folds over the update indices in row-major order; each update whose result index lies
  inside the operand replaces the element there by `f` of the old element and the update. When the body returns the
  update (`f = fun _ b => b`, an `.at[...].set`) and every update is the same value `v`, the order of the fold and
  repeated result indices no longer matter: an element of the result is `v` when SOME update index lands on it, and
  the operand's element otherwise.
-/
import Idealize.ShloMosaic.PureOps.ShapeOps
import Idealize.ShloMosaic.PureOps.Dims

namespace Idealize.ShloMosaic.LibScatterConst

variable {α : Type} {s si u : Shape} {w : Nat}

/-- One step of the scatter's fold, with the body returning the update and the update the constant `v`. -/
private def step (d : ScatterDims s si u) (idx : IVec si w) (v : α) (r : s.Idx → α) (n : Fin u.numel) : s.Idx → α :=
  match d.resultIdx? (u.rowMajor.symm n) idx with
  | some i => fun i' => if i' = i then (fun (_ : α) (b : α) => b) (r i) v else r i'
  | none => r

private theorem step_apply (d : ScatterDims s si u) (idx : IVec si w) (v : α) (r : s.Idx → α) (n : Fin u.numel) (i : s.Idx) :
    step d idx v r n i = if d.resultIdx? (u.rowMajor.symm n) idx = some i then v else r i := by
  unfold step
  cases h : d.resultIdx? (u.rowMajor.symm n) idx with
  | none => simp
  | some i0 =>
    by_cases e : i = i0
    · subst e; simp
    · have : ¬ (some i0 = some i) := fun h' => e (Option.some.inj h').symm
      simp [e, this]

/-- The fold over any list of update positions: `v` where some position of the list lands, the start elsewhere. -/
private theorem foldl_step_apply (d : ScatterDims s si u) (idx : IVec si w) (v : α) (l : List (Fin u.numel)) (r : s.Idx → α) (i : s.Idx) :
    l.foldl (step d idx v) r i = if ∃ n ∈ l, d.resultIdx? (u.rowMajor.symm n) idx = some i then v else r i := by
  induction l generalizing r with
  | nil => simp
  | cons n l ih =>
    rw [List.foldl_cons, ih, step_apply]
    by_cases h1 : ∃ n' ∈ l, d.resultIdx? (u.rowMajor.symm n') idx = some i
    · have : ∃ n' ∈ n :: l, d.resultIdx? (u.rowMajor.symm n') idx = some i := by
        obtain ⟨n', hn', e⟩ := h1; exact ⟨n', List.mem_cons_of_mem _ hn', e⟩
      rw [if_pos h1, if_pos this]
    · rw [if_neg h1]
      by_cases h2 : d.resultIdx? (u.rowMajor.symm n) idx = some i
      · rw [if_pos h2, if_pos ⟨n, List.mem_cons_self, h2⟩]
      · rw [if_neg h2, if_neg]
        rintro ⟨n', hn', e⟩
        rcases List.mem_cons.mp hn' with rfl | hm
        · exact h2 e
        · exact h1 ⟨n', hm, e⟩

/-- **A set-scatter of one constant, read at an index**: the constant where some update index lands, the operand's
    element where none does. -/
theorem scatter_set_const_apply (d : ScatterDims s si u) (x : s.Idx → α) (idx : IVec si w) (v : α) (i : s.Idx) :
    Host.scatter d (fun _ b => b) x idx (fun _ => v) i = if ∃ j : u.Idx, d.resultIdx? j idx = some i then v else x i := by
  have h := foldl_step_apply d idx v (List.finRange u.numel) x i
  have e : (∃ n ∈ List.finRange u.numel, d.resultIdx? (u.rowMajor.symm n) idx = some i) ↔ ∃ j : u.Idx, d.resultIdx? j idx = some i := by
    constructor
    · rintro ⟨n, _, hn⟩; exact ⟨_, hn⟩
    · rintro ⟨j, hj⟩; exact ⟨u.rowMajor j, List.mem_finRange _, by rw [Equiv.symm_apply_apply]; exact hj⟩
  have hs : Host.scatter d (fun _ b => b) x idx (fun _ => v) = (List.finRange u.numel).foldl (step d idx v) x := rfl
  rw [hs, h]
  by_cases hh : ∃ j : u.Idx, d.resultIdx? j idx = some i
  · rw [if_pos hh, if_pos (e.mpr hh)]
  · rw [if_neg hh, if_neg (fun h' => hh (e.mp h'))]

end Idealize.ShloMosaic.LibScatterConst
-- ==== Proof.SmoothConsts.lean ====
/-
  The float literals of label smoothing, as the extended reals their words denote.

  The reference scales a 0/1 indicator by the word 0x3F666666 (the f32 nearest 0.9, exactly 15099494 / 2^24) and adds
  the word 0x38D1B717 (the f32 nearest 1e-4, exactly 13743895 / 2^37). An entry whose indicator is one therefore holds
  1 * (15099494 / 2^24) + 13743895 / 2^37 = 123708798743 / 2^37, and an entry whose indicator is zero holds
  0 * (15099494 / 2^24) + 13743895 / 2^37 = 13743895 / 2^37: no rounding happens on the extended reals.
-/
import Idealize.ShloMosaic.PureOps.Ideal
import Idealize.ShloMosaic.PureOps.Ideal.Laws

noncomputable section

namespace Cert.SmoothConsts

open Idealize.ShloMosaic

/-- The word of `1.0` denotes `1`. -/
theorem ofBits_one : Ideal.ofBits .f32 0x3F800000#32 = 1 := by
  simp [Ideal.ofBits, Ideal.ieee, -EReal.coe_mul]; norm_num

/-- The word of the scale (the f32 nearest 0.9) denotes 15099494 / 2^24. -/
theorem ofBits_scale : Ideal.ofBits .f32 0x3F666666#32 = ((15099494 / 16777216 : ℝ) : EReal) := by
  simp [Ideal.ofBits, Ideal.ieee, -EReal.coe_mul]; norm_num

/-- The word of the floor (the f32 nearest 1e-4) denotes 13743895 / 2^37. -/
theorem ofBits_floor : Ideal.ofBits .f32 0x38D1B717#32 = ((13743895 / 137438953472 : ℝ) : EReal) := by
  simp [Ideal.ofBits, Ideal.ieee, -EReal.coe_mul]; norm_num

/-- An entry whose indicator is one: one times the scale plus the floor is 123708798743 / 2^37. -/
theorem hit_value :
    Ideal.ofBits .f32 0x3F800000#32 * Ideal.ofBits .f32 0x3F666666#32 + Ideal.ofBits .f32 0x38D1B717#32
      = ((123708798743 / 137438953472 : ℝ) : EReal) := by
  rw [ofBits_one, ofBits_scale, ofBits_floor, one_mul, ← EReal.coe_add]
  congr 1; norm_num

/-- An entry whose indicator is zero: zero times the scale plus the floor is the floor. -/
theorem miss_value :
    Ideal.ofBits .f32 0x00000000#32 * Ideal.ofBits .f32 0x3F666666#32 + Ideal.ofBits .f32 0x38D1B717#32
      = Ideal.ofBits .f32 0x38D1B717#32 := by
  rw [Ideal.ofBits_zero_f32, zero_mul, zero_add]

end Cert.SmoothConsts

end
-- ==== Proof.RefValue.lean ====
/-
  What the reference computes, entry by entry, for class labels in range.

  The reference builds, for every (sample b, position l), the pair (b, x[b, l]) — the sample's own number beside the class
  the label names — and scatters the constant one at those pairs into a 16384 x 1000 array of zeros. Both corrections
  jnp applies to a negative index (adding the extent) are vacuous: a sample number is never negative, and a label in
  0..999 is not either. An entry (b, k) of the scattered array is therefore one when some position l of sample b holds
  the label k, and zero otherwise; the result scales that indicator by the scale word and adds the floor word.
-/
import proofs.«211736_g82076825026625_cont_sun_c4_101_27_alg».proof.Proof.Gen.ReferenceIdeal.Read
import proofs.«211736_g82076825026625_cont_sun_c4_101_27_alg».proof.Proof.LibScatterSet
import proofs.«211736_g82076825026625_cont_sun_c4_101_27_alg».proof.Proof.LibScatterConst
import proofs.«211736_g82076825026625_cont_sun_c4_101_27_alg».proof.Proof.SmoothConsts
import Idealize.ShloMosaic.Lib.ValueIdx
import Idealize.ShloMosaic.Lib.Affine
import Idealize.ShloMosaic.PureOps.Ideal.Laws

noncomputable section

namespace Cert.Proof.RefValue

open Cert.ReferenceIdeal Cert.ReferenceIdeal.Gen Cert.ReferenceIdeal.Read
open Idealize.ShloMosaic Idealize.ShloMosaic.ValueIdx

variable {F : FTy → Type} [FloatOps F]

/-- Every label is a class number: between 0 and 999 read as a signed word. -/
def InRange (x0 : (⟨S16384x50, .i32⟩ : BufTy).Contents (Elt F)) : Prop :=
  ∀ i, 0 ≤ (x0 i).toInt ∧ (x0 i).toInt ≤ 999

/-- A small natural number, as a 32-bit word, reads back as itself when signed. -/
theorem toInt_ofNat_small (n : Nat) (h : n < 2 ^ 31) : (BitVec.ofNat 32 n).toInt = (n : Int) := by
  rw [BitVec.toInt_eq_toNat_cond, BitVec.toNat_ofNat]
  have e : n % 2 ^ 32 = n := Nat.mod_eq_of_lt (by omega)
  rw [e]
  split <;> omega

/-- The sample number jnp normalises — iota, plus the extent where negative — is the sample number. -/
theorem row_word (i : S16384x1.Idx) : val_main_v7 (F := F) i = BitVec.ofNat 32 (i 0).val := by
  have hlt : (i 0).val < 16384 := (i 0).isLt
  have hneg : IntOp.cmpi .slt (BitVec.ofNat 32 (i 0).val) (0#32) ≠ 1#1 := by
    rw [Ne, IntOp.cmpi_slt, toInt_ofNat_small _ (by omega)]
    show ¬ ((i 0).val : Int) < 0
    omega
  rw [val_main_v7_apply, val_main_v4_apply, val_main_v1_apply, val_main_v0_apply, val_main_v3_apply, val_main_c_apply]
  show Scalar.select (IntOp.cmpi .slt (BitVec.ofNat 32 (i 0).val) (0#32)) _ _ = _
  unfold Scalar.select
  exact if_neg hneg

/-- The label jnp normalises — the label, plus 1000 where negative — is the label, for labels in range. -/
theorem cls_word (x0 : (⟨S16384x50, .i32⟩ : BufTy).Contents (Elt F)) (hx : InRange x0) (i : S16384x50.Idx) :
    val_main_v12 (F := F) x0 i = x0 i := by
  have hneg : IntOp.cmpi .slt (x0 i) (0#32) ≠ 1#1 := by
    rw [Ne, IntOp.cmpi_slt]
    have := (hx i).1
    show ¬ (x0 i).toInt < 0
    omega
  rw [val_main_v12_apply, val_main_v9_apply, val_main_v8_apply, val_main_c_1_apply]
  show Scalar.select (IntOp.cmpi .slt (x0 i) (0#32)) _ _ = _
  unfold Scalar.select
  exact if_neg hneg

/-! ## The index pairs -/

/-- The position of a pair's component in either of the two arrays the pairs are joined from. -/
abbrev pairIdx (j : S16384x50x2.Idx) : S16384x50x1.Idx := fun a => match a with
  | ⟨0, _⟩ => ⟨(j 0).val, (j 0).isLt⟩
  | ⟨1, _⟩ => ⟨(j 1).val, (j 1).isLt⟩
  | ⟨2, _⟩ => ⟨0, Nat.one_pos⟩

/-- The first component of the pair at (b, l) is the sample number b. -/
theorem pair_row (x0 : (⟨S16384x50, .i32⟩ : BufTy).Contents (Elt F)) (j : S16384x50x2.Idx) (h2 : (j 2).val = 0) :
    val_main_v16 (F := F) x0 j = BitVec.ofNat 32 (j 0).val := by
  unfold val_main_v16
  rw [concatenate_pair_apply_left (t := S16384x50x2) (s₁ := S16384x50x1) (s₂ := S16384x50x1) (2 : Fin 3) _ _
    concatenates_S16384x50x1_S16384x50x1_S16384x50x2_d2 j (rfl : S16384x50x1.rank = S16384x50x2.rank) (pairIdx j)
    (fun b => match b with | ⟨0, _⟩ => rfl | ⟨1, _⟩ => rfl | ⟨2, _⟩ => h2.symm)]
  rw [val_main_v14_apply, val_main_v13_apply, row_word]

/-- The second component of the pair at (b, l) is the label x[b, l], for labels in range. -/
theorem pair_cls (x0 : (⟨S16384x50, .i32⟩ : BufTy).Contents (Elt F)) (hx : InRange x0) (j : S16384x50x2.Idx)
    (h2 : (j 2).val = 1) :
    val_main_v16 (F := F) x0 j = x0 (idx_main_v15 (pairIdx j)) := by
  unfold val_main_v16
  rw [concatenate_pair_apply_right (t := S16384x50x2) (s₁ := S16384x50x1) (s₂ := S16384x50x1) (2 : Fin 3) _ _
    concatenates_S16384x50x1_S16384x50x1_S16384x50x2_d2 j (rfl : S16384x50x1.rank = S16384x50x2.rank)
    (rfl : S16384x50x1.rank = S16384x50x2.rank) (pairIdx j)
    (fun b => match b with
      | ⟨0, _⟩ => fun _ => rfl
      | ⟨1, _⟩ => fun _ => rfl
      | ⟨2, _⟩ => fun h => absurd rfl h)
    (by show 0 + 1 = (j 2).val; omega)]
  rw [val_main_v15_apply, cls_word x0 hx]

/-! ## Where a pair lands -/

/-- The scatter's dimension numbers: both operand axes are named by the pair, nothing is a window. -/
abbrev sdims : ScatterDims S16384x1000 S16384x50x2 S16384x50 := scatter_S16384x1000_S16384x50x2_S16384x50_n_01_01_2

theorem mem0 : (0 : Fin 2) ∈ sdims.scatterDimsToOperandDims := by decide
theorem mem1 : (1 : Fin 2) ∈ sdims.scatterDimsToOperandDims := by decide
theorem sKept_nil : sdims.sKept = [] := by decide

/-- No operand axis carries a window coordinate: an update is one element. -/
theorem window_zero (j : S16384x50.Idx) (a : Fin 2) : sdims.window j a = 0 := by
  unfold ScatterDims.window
  rw [dif_neg]
  rw [sKept_nil]
  exact List.not_mem_nil

theorem start0 (idx : IVec S16384x50x2 32) (j : S16384x50.Idx) :
    sdims.start j idx 0 = (idx (sdims.siIdx j ⟨0, by decide⟩)).toInt := by
  unfold ScatterDims.start
  rw [dif_pos mem0]
  rfl
theorem start1 (idx : IVec S16384x50x2 32) (j : S16384x50.Idx) :
    sdims.start j idx 1 = (idx (sdims.siIdx j ⟨1, by decide⟩)).toInt := by
  unfold ScatterDims.start
  rw [dif_pos mem1]
  rfl

/-- The update at (b, l) starts, on the sample axis, at b. -/
theorem start_row (x0 : (⟨S16384x50, .i32⟩ : BufTy).Contents (Elt F)) (j : S16384x50.Idx) :
    sdims.start j (val_main_v16 (F := F) x0) 0 = ((j 0).val : Int) := by
  rw [start0, pair_row x0 _ rfl]
  have h : (j 0).val < 16384 := (j 0).isLt
  exact toInt_ofNat_small _ (by show (j 0).val < 2 ^ 31; omega)

/-- The update at (b, l) starts, on the class axis, at the label x[b, l]. -/
theorem start_cls (x0 : (⟨S16384x50, .i32⟩ : BufTy).Contents (Elt F)) (hx : InRange x0) (j : S16384x50.Idx) :
    sdims.start j (val_main_v16 (F := F) x0) 1 = (x0 j).toInt := by
  rw [start1, pair_cls x0 hx _ rfl]
  congr 2
  funext a
  match a with
  | ⟨0, _⟩ => rfl
  | ⟨1, _⟩ => rfl

/-- The update at (b, l) lands on the entry (b', k) exactly when b = b' and the label x[b, l] is k. -/
theorem lands_iff (x0 : (⟨S16384x50, .i32⟩ : BufTy).Contents (Elt F)) (hx : InRange x0) (j : S16384x50.Idx)
    (i : S16384x1000.Idx) :
    sdims.resultIdx? j (val_main_v16 (F := F) x0) = some i ↔ (j 0).val = (i 0).val ∧ (x0 j).toInt = ((i 1).val : Int) := by
  rw [ScatterRead.resultIdx?_eq_some_iff]
  constructor
  · intro h
    have h0 := h 0
    have h1 := h 1
    rw [start_row, window_zero] at h0
    rw [start_cls x0 hx, window_zero] at h1
    constructor
    · have : ((i 0).val : Int) = ((j 0).val : Int) := by simpa using h0
      omega
    · have : ((i 1).val : Int) = (x0 j).toInt := by simpa using h1
      omega
  · rintro ⟨h0, h1⟩ a
    match a with
    | ⟨0, _⟩ =>
      show ((i 0).val : Int) = sdims.start j (val_main_v16 (F := F) x0) 0 + sdims.window j 0
      rw [start_row, window_zero]; simp [h0]
    | ⟨1, _⟩ =>
      show ((i 1).val : Int) = sdims.start j (val_main_v16 (F := F) x0) 1 + sdims.window j 1
      rw [start_cls x0 hx, window_zero]; simp [h1]

/-! ## The scattered indicator and the result -/

/-- Sample b has the label k at some position. -/
def HasLabel (x0 : (⟨S16384x50, .i32⟩ : BufTy).Contents (Elt F)) (i : S16384x1000.Idx) : Prop :=
  ∃ j : S16384x50.Idx, (j 0).val = (i 0).val ∧ (x0 j).toInt = ((i 1).val : Int)

/-- The scattered array is the indicator of "sample b has the label k": one where it has, zero where it has not. -/
theorem scattered_apply (x0 : (⟨S16384x50, .i32⟩ : BufTy).Contents (Elt F)) (hx : InRange x0) (i : S16384x1000.Idx)
    [Decidable (HasLabel x0 i)] :
    val_main_v18 (F := F) x0 i
      = if HasLabel x0 i then FloatOps.ofBits .f32 0x3F800000#32 else FloatOps.ofBits .f32 0x00000000#32 := by
  have hu : val_main_v17 (F := F) = fun _ => FloatOps.ofBits .f32 0x3F800000#32 := by
    funext k; rw [val_main_v17_apply, val_main_cst_3_apply]
  unfold val_main_v18
  rw [hu, LibScatterConst.scatter_set_const_apply, val_main_v2_apply, val_main_cst_apply]
  have e : (∃ j : S16384x50.Idx, sdims.resultIdx? j (val_main_v16 (F := F) x0) = some i) ↔ HasLabel x0 i :=
    ⟨fun ⟨j, hj⟩ => ⟨j, (lands_iff x0 hx j i).mp hj⟩, fun ⟨j, hj⟩ => ⟨j, (lands_iff x0 hx j i).mpr hj⟩⟩
  by_cases h : HasLabel x0 i
  · rw [if_pos h, if_pos (e.mpr h)]
  · rw [if_neg h, if_neg (fun h' => h (e.mp h'))]

/-- **The reference, entry by entry**, on the extended reals: 123708798743 / 2^37 where sample b has the label k,
    the floor word's value where it has not. -/
theorem reference_apply (x0 : (⟨S16384x50, .i32⟩ : BufTy).Contents (Elt Ideal)) (hx : InRange x0) (i : S16384x1000.Idx)
    [Decidable (HasLabel x0 i)] :
    val_main_v22 (F := Ideal) x0 i
      = if HasLabel x0 i then ((123708798743 / 137438953472 : ℝ) : EReal) else Ideal.ofBits .f32 0x38D1B717#32 := by
  rw [val_main_v22_apply, val_main_v20_apply, val_main_v21_apply, val_main_cst_5_apply, val_main_v19_apply,
    val_main_cst_4_apply, scattered_apply x0 hx i]
  simp only [Ideal.addf_def, Ideal.mulf_def, Ideal.ofBits_def]
  by_cases h : HasLabel x0 i
  · rw [if_pos h, if_pos h]; exact Cert.SmoothConsts.hit_value
  · rw [if_neg h, if_neg h]; exact Cert.SmoothConsts.miss_value

/-- **The smoothed multi-hot array**: the one function of the labels both programs compute. -/
def smoothed (x0 : (⟨S16384x50, .i32⟩ : BufTy).Contents (Elt Ideal)) : S16384x1000.Idx → EReal :=
  open Classical in fun i =>
    if HasLabel x0 i then ((123708798743 / 137438953472 : ℝ) : EReal) else Ideal.ofBits .f32 0x38D1B717#32

/-- The reference's result is the smoothed multi-hot array of its argument, for labels in range. -/
theorem reference_eq (x0 : (⟨S16384x50, .i32⟩ : BufTy).Contents (Elt Ideal)) (hx : InRange x0) :
    val_main_v22 (F := Ideal) x0 = smoothed x0 := by
  funext i
  unfold smoothed
  classical
  exact reference_apply x0 hx i

end Cert.Proof.RefValue

end
-- ==== Proof.RefRun.lean ====
/-
  The reference's run under the precondition.

  The precondition says one thing: every label, read as a signed word, lies between 0 and 999 (an `and`-reduction over
  the whole label array of the two comparisons came out true, so each comparison holds at each entry). Under it the
  reference terminates with its result the smoothed multi-hot array of its argument and the argument unchanged.
-/
import proofs.«211736_g82076825026625_cont_sun_c4_101_27_alg».proof.Defs
import proofs.«211736_g82076825026625_cont_sun_c4_101_27_alg».proof.Proof.RefValue
import proofs.«211736_g82076825026625_cont_sun_c4_101_27_alg».proof.Proof.Gen.Pre_input_domain
import Idealize.ShloMosaic.Lib.ReduceAll

noncomputable section

namespace Cert.Proof.RefRun

open Idealize.ShloMosaic Idealize.ShloMosaic.TcCoe Idealize.SL.Sem Idealize.ShloMosaic.ValueIdx
open Cert.Proof.RefValue

variable {F : FTy → Type} [FloatOps F]

instance : Subsingleton Cert.Pre_input_domain.S_.Idx := ⟨fun a b => funext fun d => d.elim0⟩

/-- The precondition, entry by entry: every label is between 0 and 999. -/
theorem inRange_of_pre (x : IVec Cert.Pre_input_domain.S16384x50 32)
    (h : Cert.Pre_input_domain.fn (F := F) x = fun _ => 1#1) (i : Cert.Pre_input_domain.S16384x50.Idx) :
    0 ≤ (x i).toInt ∧ (x i).toInt ≤ 999 := by
  have h0 := congrFun h ValueIdx.ix0
  dsimp only [Cert.Pre_input_domain.fn] at h0
  have hall := Host.reduce_andi_all _ _ _ _ _ h0 i
  obtain ⟨h1, h2⟩ := IntOp.andi_eq_one.mp hall
  have h1' := IntOp.cmpi_sge.mp h1
  have h2' := IntOp.cmpi_sle.mp h2
  exact ⟨h1', h2'⟩

/-- The reference runs to the end and leaves its argument as it found it. -/
theorem frame_ri : Cert.frame_ReferenceIdeal := fun m ρ _ =>
  (θ_run Cert.ReferenceIdeal.defs _ _).mono (fun _ h c => (h c).2) (Cert.ReferenceIdeal.Value.run (F := Ideal) m ρ)

/-- Under the precondition the reference ends with the smoothed multi-hot array of its argument. -/
theorem run_ref (m : (ℓ : Loc Cert.ReferenceIdeal.nD Cert.ReferenceIdeal.τ Cert.ReferenceIdeal.sig) → Buf (Elt Ideal) ℓ)
    (ρ : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v22)
            = smoothed (m ((c.tc : Thread Cert.ReferenceIdeal.nD Cert.ReferenceIdeal.τ).loc Cert.ReferenceIdeal.main_arg0))
          ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)) :=
  (θ_run Cert.ReferenceIdeal.defs _ _).mono
    (fun _ h c => ⟨(h c).1.trans (by
        rw [Cert.ReferenceIdeal.Read.val_main_v22_eq]
        exact reference_eq _ (fun i => inRange_of_pre _ (hpre c) i)), (h c).2⟩)
    (Cert.ReferenceIdeal.Value.run (F := Ideal) m ρ)

end Cert.Proof.RefRun

end
-- ==== Proof.KCommon.lean ====
/-
  The multi-hot kernel as its launch sees it, and what each vector subcore is handed and hands back.

  Thirty-two vector subcores (two SparseCores of sixteen) each own 512 consecutive samples: subcore s of SparseCore c
  owns samples 512 (2 s + c) .. 512 (2 s + c) + 511, four blocks of 128. A subcore reads the transposed label array
  (50 x 16384) and writes, block by block, its 1000 x 128 column blocks of the transposed result (1000 x 16384): the entry
  (k, b) of the transposed result is the hit value when some position l has label x[b, l] = k, and the floor value otherwise
  (`outT`). So a subcore is handed a read share of the whole transposed label array and its four column blocks of the
  result outright, and hands them back with the blocks holding `outT`.
-/
import proofs.«211736_g82076825026625_cont_sun_c4_101_27_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«211736_g82076825026625_cont_sun_c4_101_27_alg».proof.Proof.Gen.KernelIdeal
import proofs.«211736_g82076825026625_cont_sun_c4_101_27_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The labels (16384 x 50), their transpose (50 x 16384), the transposed result (1000 x 16384), the result (16384 x 1000). -/
abbrev xLoc (d : Dev nD) : Loc nD τ sig := (SparseCore.T d).loc main_arg0
abbrev tLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

abbrev tV : Memref sig .scVector .hbm S50x16384 .i32 := Memref.whole main_v0_scv
abbrev oV : Memref sig .scVector .hbm S1000x16384 .f32 := Memref.whole main_v1_scv
/-- A subcore's scratch: up to eighteen index rows of a block; the 1000 x 128 block being built. -/
abbrev sI : Memref sig .scVector .vmem S18x128 .i32 := Memref.whole cc0_scratch0
abbrev sB : Memref sig .scVector .vmem S1000x128 .f32 := Memref.whole cc0_scratch1

/-! ## What the kernel computes -/

/-- The transposed result, entry by entry, from the transposed labels: the hit value at (k, b) when some position of
    sample b holds the label k, the floor value otherwise. -/
def outT {α : Type} (hit bg : α) (xt : S50x16384.Idx → BitVec 32) : S1000x16384.Idx → α :=
  open Classical in fun i =>
    if ∃ l : Fin 50, (xt (ValueIdx.ix2 l (⟨(i 1).val, (i 1).isLt⟩ : Fin 16384))).toNat = (i 0).val then hit else bg

variable [FloatOps F] [Named F]

/-- The two values the body stores: the named folded word, and the floor word. -/
abbrev hitV : F .f32 := Named.named κ "hit_d1_plus_d2" 0x3F666CF4#32
abbrev bgV : F .f32 := Scalar.ofBits .f32 0x38D1B717#32

/-- The transposed labels as @main's first operation leaves them; the transposed result the kernel leaves. -/
def xtv (d : Dev nD) : Buf (Elt F) (tLoc d) :=
  transpose S50x16384 [1, 0] (m (xLoc d)) transposes_S16384x50_S50x16384_1_0
def outv (d : Dev nD) : Buf (Elt F) (oLoc d) := outT (hitV (F := F)) (bgV (F := F)) (xtv m d)

/-- What the proof asks of the launch memory: every label is a class number (the certificate's precondition). -/
def PreOK : Prop := ∀ (d : Dev nD) (j : S16384x50.Idx), 0 ≤ (m (xLoc d) j).toInt ∧ (m (xLoc d) j).toInt ≤ 999

/-! ## A subcore's share -/

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- Block t (of four) of the subcore at L: 128 columns of the transposed result, as the body slices them. -/
abbrev oRect (L : grid0.Coords) (t : Fin 4) : Rect S1000x16384 :=
  Rect.unit (s := S1000x16384) (k0_off29 L (BitVec.ofNat 32 (128 * t.val))) S1000x128.size (k0_off29_inb L t)
abbrev oBlkSet (L : grid0.Coords) (t : Fin 4) : Finset S1000x16384.Idx := ((oV).view.slice (oRect L t)).set

theorem tok_lt (L : grid0.Coords) : (L 0).val * 16 + (L 1).val < 32 := by
  have h0 : (L 0).val < 2 := (L 0).isLt
  have h1 : (L 1).val < 16 := (L 1).isLt
  omega
/-- The subcore's read share of the transposed labels: one of thirty-two tokens. -/
abbrev tok (L : grid0.Coords) : PosShare TreeShare := Transfers.shareTok fullShare 32 ⟨(L 0).val * 16 + (L 1).val, tok_lt L⟩

/-- Handed to the subcore at L: its read share of the transposed labels, its four blocks at their launch contents. -/
def goRes (d : Dev nD) (L : grid0.Coords) : sProp 𝕄 :=
  iprop((tLoc d ↦{tok L} xtv m d) ∗ bigSep Finset.univ fun t : Fin 4 => oLoc d ↦[oBlkSet L t]{fullShare} m (oLoc d))
/-- Handed back: the share, and the four blocks holding the transposed result. -/
def tdRes (d : Dev nD) (L : grid0.Coords) : sProp 𝕄 :=
  iprop((tLoc d ↦{tok L} xtv m d) ∗ bigSep Finset.univ fun t : Fin 4 => oLoc d ↦[oBlkSet L t]{fullShare} outv m d)

/-- The grid coordinates of subcore i of SparseCore c of the call. -/
def Lof (c : Fin ((K (F := F)).nCore 0)) (i : Fin ((K (F := F)).nSub 0)) : grid0.Coords :=
  fun | 0 => Fin.cast nCore_zero c | 1 => Fin.cast nSub_zero i | ⟨_ + 2, h⟩ => absurd h (Nat.not_lt.2 (Nat.le_add_left _ _))

/-- The one call: a SparseCore is handed its sixteen subcores' shares, each subcore its own. -/
def P : (K (F := F)).Pay (nD := nD) (Val := Elt F) (Name := ℕ) (U := UU) where
  st := fun q d c => match q with | 0 => bigSep Finset.univ fun i : Fin ((K (F := F)).nSub 0) => goRes m d (Lof c i)
  dn := fun q d c => match q with | 0 => bigSep Finset.univ fun i : Fin ((K (F := F)).nSub 0) => tdRes m d (Lof c i)
  go := fun q d c i => match q with | 0 => goRes m d (Lof c i)
  td := fun q d c i => match q with | 0 => tdRes m d (Lof c i)
  x := fun _ _ => iprop(emp)

instance goRes_storable (d : Dev nD) (L : grid0.Coords) : BI.Storable (upEmb : UEmb _ 𝕄) (goRes m d L) := by
  unfold goRes; infer_instance
instance tdRes_storable (d : Dev nD) (L : grid0.Coords) : BI.Storable (upEmb : UEmb _ 𝕄) (tdRes m d L) := by
  unfold tdRes; infer_instance

instance P_storable : (P (F := F) m).IsStorable where
  st q d c := match q with | 0 => (inferInstance : BI.Storable (upEmb : UEmb _ 𝕄) (bigSep Finset.univ fun i : Fin ((K (F := F)).nSub 0) => goRes m d (Lof c i)))
  dn q d c := match q with | 0 => (inferInstance : BI.Storable (upEmb : UEmb _ 𝕄) (bigSep Finset.univ fun i : Fin ((K (F := F)).nSub 0) => tdRes m d (Lof c i)))
  go q d c i := match q with | 0 => (inferInstance : BI.Storable (upEmb : UEmb _ 𝕄) (goRes m d (Lof c i)))
  td q d c i := match q with | 0 => (inferInstance : BI.Storable (upEmb : UEmb _ 𝕄) (tdRes m d (Lof c i)))

end Cert.Proof.KI

end
-- ==== Proof.KOpen.lean ====
/-
  What a vector subcore's scoped storage is: its twenty-two DMA semaphores, each at zero, and its two scratch buffers,
  each whole at some contents; and the arrays as a subcore names them, respelt as the locations @main names.
-/
import proofs.«211736_g82076825026625_cont_sun_c4_101_27_alg».proof.Proof.KCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "sIW" => (Memref.whole Cert.KernelIdeal.cc0_scratch0 : Memref Cert.KernelIdeal.sig Kind.scVector Space.vmem Cert.KernelIdeal.S18x128 EltTy.i32)
local notation "sBW" => (Memref.whole Cert.KernelIdeal.cc0_scratch1 : Memref Cert.KernelIdeal.sig Kind.scVector Space.vmem Cert.KernelIdeal.S1000x128 EltTy.f32)
local notation "tVW" => (Memref.whole Cert.KernelIdeal.main_v0_scv : Memref Cert.KernelIdeal.sig Kind.scVector Space.hbm Cert.KernelIdeal.S50x16384 EltTy.i32)
local notation "oVW" => (Memref.whole Cert.KernelIdeal.main_v1_scv : Memref Cert.KernelIdeal.sig Kind.scVector Space.hbm Cert.KernelIdeal.S1000x16384 EltTy.f32)

/-! ## The semaphores -/

/-- DMA cell k of the subcore at L. -/
abbrev dcell (d : Dev nD) (L : grid0.Coords) (k : Fin 22) : GSem nD τ sig := (VT d L, SemLoc.dma (k : DmaSem sig))

/-- A vector subcore's scoped cells are its DMA cells, all twenty-two, and no regular one. -/
theorem ownCells_VT (d : Dev nD) (L : grid0.Coords) : ownCells (VT d L) = Finset.univ.image (dcell d L) := by
  ext g
  rw [mem_ownCells, Finset.mem_image]
  obtain ⟨thr, s⟩ := g
  constructor
  · rintro ⟨rfl, hs⟩
    cases s with
    | reg r => exact absurd hs ((show ∀ r : Sem sig, ¬ (SemLoc.reg r : SemLoc sig).isScoped .scVector = true by decide) r)
    | dma k => exact ⟨k, Finset.mem_univ _, rfl⟩
  · rintro ⟨k, -, h⟩
    obtain ⟨rfl, rfl⟩ := Prod.mk.inj h
    exact ⟨rfl, (show ∀ s : DmaSem sig, (SemLoc.dma s : SemLoc sig).isScoped .scVector = true by decide) k⟩

theorem dcell_injOn (d : Dev nD) (L : grid0.Coords) : Set.InjOn (dcell d L) (Finset.univ : Finset (Fin 22)) := fun a _ b _ h => by
  have := congrArg (fun g : GSem nD τ sig => g.2) h
  simp only [SemLoc.dma.injEq] at this; exact this

/-- The subcore's own cells at zero: the twenty-two DMA semaphores, one by one, as the body names them. -/
theorem ownSems0_VT (d : Dev nD) (L : grid0.Coords) :
    (ownSems0 (VT d L) : sProp 𝕄)
      = iprop(semVal (VT d L, SemLoc.dma cc0_scoped0.sem) 0
          ∗ semVal (VT d L, SemLoc.dma cc0_scoped1.sem) 0
          ∗ semVal (VT d L, SemLoc.dma cc0_scoped2.sem) 0
          ∗ semVal (VT d L, SemLoc.dma cc0_scoped3.sem) 0
          ∗ semVal (VT d L, SemLoc.dma cc0_scoped4.sem) 0
          ∗ semVal (VT d L, SemLoc.dma cc0_scoped5.sem) 0
          ∗ semVal (VT d L, SemLoc.dma cc0_scoped6.sem) 0
          ∗ semVal (VT d L, SemLoc.dma cc0_scoped7.sem) 0
          ∗ semVal (VT d L, SemLoc.dma cc0_scoped8.sem) 0
          ∗ semVal (VT d L, SemLoc.dma cc0_scoped9.sem) 0
          ∗ semVal (VT d L, SemLoc.dma cc0_scoped10.sem) 0
          ∗ semVal (VT d L, SemLoc.dma cc0_scoped11.sem) 0
          ∗ semVal (VT d L, SemLoc.dma cc0_scoped12.sem) 0
          ∗ semVal (VT d L, SemLoc.dma cc0_scoped13.sem) 0
          ∗ semVal (VT d L, SemLoc.dma cc0_scoped14.sem) 0
          ∗ semVal (VT d L, SemLoc.dma cc0_scoped15.sem) 0
          ∗ semVal (VT d L, SemLoc.dma cc0_scoped16.sem) 0
          ∗ semVal (VT d L, SemLoc.dma cc0_scoped17.sem) 0
          ∗ semVal (VT d L, SemLoc.dma cc0_scoped18.sem) 0
          ∗ semVal (VT d L, SemLoc.dma cc0_scoped19.sem) 0
          ∗ semVal (VT d L, SemLoc.dma cc0_scoped20.sem) 0
          ∗ semVal (VT d L, SemLoc.dma cc0_scoped21.sem) 0) := by
  unfold SparseCore.Cfg.ownSems0
  rw [ownCells_VT, SparseCore.bigSep_image_of_injOn (dcell_injOn d L)]
  rw [show (Finset.univ : Finset (Fin 22)) = {0, 1, 2, 3, 4, 5, 6, 7, 8, 9, 10, 11, 12, 13, 14, 15, 16, 17, 18, 19, 20, 21} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-! ## The scratch buffers -/

/-- The two scratch buffers are among the subcore's own: they are them, at some contents, and the rest. -/
theorem ownBufs_VT (d : Dev nD) (L : grid0.Coords) :
    (ownBufs (VT d L) : sProp 𝕄)
      = iprop((∃ f, (VT d L).loc cc0_scratch0 ↦{fullShare} f) ∗ (∃ f, (VT d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The arrays as a subcore names them -/

/-- The index scratch and the block scratch, whole. -/
theorem pts_sI (d : Dev nD) (L : grid0.Coords) (f : Buf (Elt F) ((VT d L).loc cc0_scratch0)) :
    ((sIW).view.loc (VT d L) ↦{fullShare} f : sProp 𝕄) = ((VT d L).loc cc0_scratch0 ↦{fullShare} f) := rfl
theorem pts_sB (d : Dev nD) (L : grid0.Coords) (f : Buf (Elt F) ((VT d L).loc cc0_scratch1)) :
    ((sBW).view.loc (VT d L) ↦{fullShare} f : sProp 𝕄) = ((VT d L).loc cc0_scratch1 ↦{fullShare} f) := rfl
/-- The transposed labels, whole, at any share. -/
theorem pts_tV (d : Dev nD) (L : grid0.Coords) (q : PosShare TreeShare) (f : Buf (Elt F) (tLoc d)) :
    ((tVW).view.loc (VT d L) ↦{q} f : sProp 𝕄) = (tLoc d ↦{q} f) := rfl
/-- Block t of the transposed result, as the body slices it. -/
theorem pts_oBlk (d : Dev nD) (L : grid0.Coords) (t : Fin 4) (f : Buf (Elt F) (oLoc d)) :
    (((oVW).slice (oRect L t) (fun _ => rfl)).view.loc (VT d L) ↦[((oVW).slice (oRect L t) (fun _ => rfl)).view.set]{fullShare} f : sProp 𝕄)
      = (oLoc d ↦[oBlkSet L t]{fullShare} f) := rfl

end Cert.Proof.KI

end
-- ==== Proof.KInit.lean ====
/-
  The body's first loop nest: the subcore's 1000 x 128 block is filled with the floor value, sixteen lanes at a time —
  row by row (1000 trips), eight stores to a row. Before trip (k1, k2) the rows below k1, and row k1 up to column 16 k2,
  hold the floor value and the rest of the block is as the loop found it; after the last trip every entry holds it.
-/
import proofs.«211736_g82076825026625_cont_sun_c4_101_27_alg».proof.Proof.KCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "sIW" => (Memref.whole Cert.KernelIdeal.cc0_scratch0 : Memref Cert.KernelIdeal.sig Kind.scVector Space.vmem Cert.KernelIdeal.S18x128 EltTy.i32)
local notation "sBW" => (Memref.whole Cert.KernelIdeal.cc0_scratch1 : Memref Cert.KernelIdeal.sig Kind.scVector Space.vmem Cert.KernelIdeal.S1000x128 EltTy.f32)
local notation "tVW" => (Memref.whole Cert.KernelIdeal.main_v0_scv : Memref Cert.KernelIdeal.sig Kind.scVector Space.hbm Cert.KernelIdeal.S50x16384 EltTy.i32)
local notation "oVW" => (Memref.whole Cert.KernelIdeal.main_v1_scv : Memref Cert.KernelIdeal.sig Kind.scVector Space.hbm Cert.KernelIdeal.S1000x16384 EltTy.f32)

/-! ## The block while it is being filled -/

abbrev BlkC (F : FTy → Type) : Type := (⟨S1000x128, .f32⟩ : BufTy).Contents (Elt F)

/-- Rows below k1, and row k1 up to column 16 k2, hold the floor value; every other entry is as it was. -/
def fill (fb : BlkC F) (k1 k2 : Nat) : BlkC F := fun i =>
  if (i 0).val < k1 ∨ ((i 0).val = k1 ∧ (i 1).val < 16 * k2) then bgV (F := F) else fb i

theorem trips1 : k0_t1_loop.trips = 1000 := by decide
theorem trips2 : k0_t2_loop.trips = 8 := by decide

theorem fill_zero (fb : BlkC F) : fill fb 0 0 = fb := by
  funext i; unfold fill; rw [if_neg]; omega
theorem fill_row (fb : BlkC F) (k1 : Nat) : fill fb k1 8 = fill fb (k1 + 1) 0 := by
  funext i
  have h1 : (i 1).val < 128 := (i 1).isLt
  unfold fill
  by_cases h : (i 0).val < k1 ∨ ((i 0).val = k1 ∧ (i 1).val < 16 * 8)
  · rw [if_pos h, if_pos (by omega)]
  · rw [if_neg h, if_neg (by omega)]
theorem fill_all (fb : BlkC F) : fill fb 1000 0 = fun _ => bgV (F := F) := by
  funext i
  have h0 : (i 0).val < 1000 := (i 0).isLt
  unfold fill; rw [if_pos (Or.inl h0)]

/-- The sixteen lanes a trip stores: row k1, columns 16 k2 .. 16 k2 + 15. -/
abbrev laneRect (k1 : Fin k0_t1_loop.trips) (k2 : Fin k0_t2_loop.trips) : Rect S1000x128 :=
  Rect.unit (s := S1000x128) (k0_off1 k1 k2) S1x16.size (k0_off1_inb k1 k2)

theorem mem_lanes (k1 : Fin k0_t1_loop.trips) (k2 : Fin k0_t2_loop.trips) (i : S1000x128.Idx) :
    i ∈ (((sBW).view.slice (laneRect k1 k2)).setOn Finset.univ) ↔ (i 0).val = k1.val ∧ 16 * k2.val ≤ (i 1).val ∧ (i 1).val < 16 * k2.val + 16 := by
  rw [View.setOn_univ, show ((View.whole (cc0_scratch1 : Ref sig .scVector)).slice (laneRect k1 k2)).set = (laneRect k1 k2).set from by
    rw [View.set_slice]; exact Finset.map_refl, Rect.mem_set_unit, k0_off1_eq, Fin.forall_fin_two]
  show (k1.val ≤ (i 0).val ∧ (i 0).val < k1.val + 1) ∧ (16 * k2.val ≤ (i 1).val ∧ (i 1).val < 16 * k2.val + 16) ↔ _
  omega

/-- What a trip stores is the floor value in every lane. -/
theorem lanes_payload (k1 : Fin k0_t1_loop.trips) (k2 : Fin k0_t2_loop.trips) :
    (shapeCast S1x16 (k0_pay2 (F := F)) shapeCasts_S16_S1x16 : S1x16.Idx → Elt F .f32)
      = ((sBW).view.slice (laneRect k1 k2)).read (Elt F) (fun _ => bgV (F := F)) := by
  funext x
  rw [View.read_apply]
  exact (cast_eq _ _).symm

/-- One trip's store takes the block from "up to column 16 k2 of row k1" to "up to column 16 (k2 + 1)". -/
theorem fill_step (fb : BlkC F) (k1 : Fin k0_t1_loop.trips) (k2 : Fin k0_t2_loop.trips) :
    (sBW).view.writes (Elt F) (fill fb k1.val k2.val)
        [⟨laneRect k1 k2, shapeCast S1x16 (k0_pay2 (F := F)) shapeCasts_S16_S1x16⟩]
      = fill fb k1.val (k2.val + 1) := by
  rw [View.writes_singleton, lanes_payload k1 k2, View.write_read_eq_piecewise]
  funext i
  by_cases hi : i ∈ (((sBW).view.slice (laneRect k1 k2)).setOn Finset.univ)
  · rw [Finset.piecewise_eq_of_mem _ _ _ hi]
    have h := (mem_lanes k1 k2 i).mp hi
    unfold fill; rw [if_pos (by omega)]
  · rw [Finset.piecewise_eq_of_notMem _ _ _ hi]
    have h := mt (mem_lanes k1 k2 i).mpr hi
    unfold fill
    by_cases c : (i 0).val < k1.val ∨ ((i 0).val = k1.val ∧ (i 1).val < 16 * k2.val)
    · rw [if_pos c, if_pos (by omega)]
    · rw [if_neg c, if_neg (by omega)]

/-! ## One trip of the inner loop -/

theorem trip2 (d : Dev nD) (L : grid0.Coords) (k1 : Fin k0_t1_loop.trips) (k2 : Fin k0_t2_loop.trips) (acc : BitVec 32) (fb : BlkC F) :
    ((sBW).view.loc (VT d L) ↦{fullShare} fill fb k1.val k2.val : sProp 𝕄)
      ⊢ wp frame (wpE (defs₀ (F := F)) 𝒱₀ (VT d L) none) Set.univ
          (k0_t2_body L tVW (Memref.isWhole_whole _) oVW (Memref.isWhole_whole _) sIW (Memref.isWhole_whole _) sBW (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 k1 k2 acc)
          fun _ => ((sBW).view.loc (VT d L) ↦{fullShare} fill fb k1.val (k2.val + 1) : sProp 𝕄) := by
  unfold k0_t2_body
  iintro H
  sl_exec
  rw [wp_ret]; imodintro
  rw [← fill_step fb k1 k2]
  iexact H

/-! ## The inner loop: one row -/

theorem fill_row' (fb : BlkC F) (k1 : Nat) : fill fb k1 k0_t2_loop.trips = fill fb (k1 + 1) 0 := by
  rw [trips2]; exact fill_row fb k1
theorem fill_all' (fb : BlkC F) : fill fb k0_t1_loop.trips 0 = fun _ => bgV (F := F) := by
  rw [trips1]; exact fill_all fb

theorem init_row (d : Dev nD) (L : grid0.Coords) (k1 : Fin k0_t1_loop.trips) (fb : BlkC F) (Q : BitVec 32 → sProp 𝕄) :
    iprop(((sBW).view.loc (VT d L) ↦{fullShare} fill fb k1.val 0)
        ∗ (∀ acc, ((sBW).view.loc (VT d L) ↦{fullShare} fill fb (k1.val + 1) 0) -∗ Q acc))
      ⊢ wp frame (wpE (defs₀ (F := F)) 𝒱₀ (VT d L) none) Set.univ
          (Scf.Loop.for k0_t2_loop k0_t2_ok 0#32 (k0_t2_body L tVW (Memref.isWhole_whole _) oVW (Memref.isWhole_whole _) sIW (Memref.isWhole_whole _) sBW (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 k1)) Q := by
  iintro ⟨H, HQ⟩
  sl_for (fun (k : Nat) (_ : BitVec 32) => ((sBW).view.loc (VT d L) ↦{fullShare} fill fb k1.val k : sProp 𝕄)) $$ [H HQ]
  case region => exact fun k2 acc => trip2 d L k1 k2 acc fb
  isplitl [H]; · iexact H
  iintro %acc HI
  iapply HQ
  rw [← fill_row' fb k1.val]
  iexact HI

/-! ## One trip of the outer loop, and the nest -/

theorem trip1 (d : Dev nD) (L : grid0.Coords) (k1 : Fin k0_t1_loop.trips) (acc : BitVec 32) (fb : BlkC F) :
    ((sBW).view.loc (VT d L) ↦{fullShare} fill fb k1.val 0 : sProp 𝕄)
      ⊢ wp frame (wpE (defs₀ (F := F)) 𝒱₀ (VT d L) none) Set.univ
          (k0_t1_body L tVW (Memref.isWhole_whole _) oVW (Memref.isWhole_whole _) sIW (Memref.isWhole_whole _) sBW (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 k1 acc)
          fun _ => ((sBW).view.loc (VT d L) ↦{fullShare} fill fb (k1.val + 1) 0 : sProp 𝕄) := by
  unfold k0_t1_body
  simp only [wp_bind, wp_pure]
  iintro H
  iapply (init_row d L k1 fb _)
  isplitl [H]; · iexact H
  iintro %acc' H'
  imodintro
  iexact H'

/-- The first loop nest, from the block at any contents: it ends with every entry at the floor value. -/
theorem init_loops (d : Dev nD) (L : grid0.Coords) (fb : Buf (Elt F) ((VT d L).loc cc0_scratch1)) (Q : BitVec 32 → sProp 𝕄) :
    iprop(((sBW).view.loc (VT d L) ↦{fullShare} fb) ∗ (∀ acc, ((sBW).view.loc (VT d L) ↦{fullShare} (fun _ => bgV (F := F))) -∗ Q acc))
      ⊢ wp frame (wpE (defs₀ (F := F)) 𝒱₀ (VT d L) none) Set.univ
          (Scf.Loop.for k0_t1_loop k0_t1_ok 0#32 (k0_t1_body L tVW (Memref.isWhole_whole _) oVW (Memref.isWhole_whole _) sIW (Memref.isWhole_whole _) sBW (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21)) Q := by
  iintro ⟨H, HQ⟩
  sl_for (fun (k : Nat) (_ : BitVec 32) => ((sBW).view.loc (VT d L) ↦{fullShare} fill (F := F) fb k 0 : sProp 𝕄)) $$ [H HQ]
  case region => exact fun k1 acc => trip1 d L k1 acc fb
  isplitl [H]
  · rw [fill_zero]; iexact H
  iintro %acc HI
  iapply HQ
  have e : ((sBW).view.loc (VT d L) ↦{fullShare} fill (F := F) fb k0_t1_loop.trips 0 : sProp 𝕄)
      = ((sBW).view.loc (VT d L) ↦{fullShare} (fun _ => bgV (F := F))) := by rw [fill_all']
  iapply (Entails.of_eq e)
  iexact HI

end Cert.Proof.KI

end
-- ==== Proof.LibStoreIdxConst.lean ====
/-
  A general fact about the indexed store into a subcore's memory, for any shapes and element type.

  `storeIdx f idxs v mask add h` takes the lanes of `v` in ascending order; each lane whose mask bit is set is written at
  the index the index vectors name for it. With every mask bit set, no accumulation (`add = false`) and every lane of
  `v` one and the same value `c`, the order of the lanes and repeated indices no longer matter: an element of the result
  is `c` when SOME lane names its index, and the element of `f` otherwise.
-/
import Idealize.ShloMosaic.PureOps.ShapeOps

namespace Idealize.ShloMosaic.LibStoreIdxConst

variable {F : FTy → Type} [FloatOps F] {s : Shape} {e : EltTy} {d : Fin 1 → Nat}

/-- One lane's step of the store, all mask bits set, no accumulation, the stored value `c` on every lane. -/
private def step (idxs : Fin s.rank → IVec ⟨1, d⟩ 32) (c : Elt F e) (h : ∀ a x, (idxs a x).toNat < s.size a)
    (g : Vec F s e) (k : Fin (d 0)) : Vec F s e :=
  fun j => if (∀ a, (j a).val = (idxAt idxs h (Shape.ofLane k) a).val) then c else g j

private theorem foldl_step_apply (idxs : Fin s.rank → IVec ⟨1, d⟩ 32) (c : Elt F e)
    (h : ∀ a x, (idxs a x).toNat < s.size a) (l : List (Fin (d 0))) (g : Vec F s e) (j : s.Idx) :
    l.foldl (step idxs c h) g j
      = if ∃ k ∈ l, ∀ a, (j a).val = (idxs a (Shape.ofLane k)).toNat then c else g j := by
  induction l generalizing g with
  | nil => simp
  | cons k l ih =>
    rw [List.foldl_cons, ih]
    by_cases h1 : ∃ k' ∈ l, ∀ a, (j a).val = (idxs a (Shape.ofLane k')).toNat
    · have : ∃ k' ∈ k :: l, ∀ a, (j a).val = (idxs a (Shape.ofLane k')).toNat := by
        obtain ⟨k', hk', e⟩ := h1; exact ⟨k', List.mem_cons_of_mem _ hk', e⟩
      rw [if_pos h1, if_pos this]
    · rw [if_neg h1]
      show (if (∀ a, (j a).val = (idxAt idxs h (Shape.ofLane k) a).val) then c else g j) = _
      by_cases h2 : ∀ a, (j a).val = (idxs a (Shape.ofLane k)).toNat
      · rw [if_pos (show ∀ a, (j a).val = (idxAt idxs h (Shape.ofLane k) a).val from h2), if_pos ⟨k, List.mem_cons_self, h2⟩]
      · rw [if_neg (show ¬ ∀ a, (j a).val = (idxAt idxs h (Shape.ofLane k) a).val from h2), if_neg]
        rintro ⟨k', hk', e⟩
        rcases List.mem_cons.mp hk' with rfl | hm
        · exact h2 e
        · exact h1 ⟨k', hm, e⟩

/-- **An unmasked, non-accumulating indexed store of one value on every lane, read at an index**: that value where
    some lane names the index, the old element where none does. -/
theorem storeIdx_splat_apply (f : Vec F s e) (idxs : Fin s.rank → IVec ⟨1, d⟩ 32) (c : Elt F e)
    (h : ∀ a x, (idxs a x).toNat < s.size a) (j : s.Idx) :
    storeIdx f idxs (fun _ => c) (fun _ => 1#1) false h j
      = if ∃ k : Fin (d 0), ∀ a, (j a).val = (idxs a (Shape.ofLane k)).toNat then c else f j := by
  have hs : storeIdx f idxs (fun _ => c) (fun _ => 1#1) false h = (List.finRange (d 0)).foldl (step idxs c h) f := by
    unfold storeIdx step
    congr 1
  rw [hs, foldl_step_apply]
  by_cases hh : ∃ k : Fin (d 0), ∀ a, (j a).val = (idxs a (Shape.ofLane k)).toNat
  · obtain ⟨k, hk⟩ := hh
    rw [if_pos ⟨k, List.mem_finRange _, hk⟩, if_pos ⟨k, hk⟩]
  · rw [if_neg hh, if_neg]
    rintro ⟨k, _, hk⟩; exact hh ⟨k, hk⟩

end Idealize.ShloMosaic.LibStoreIdxConst
-- ==== Proof.ScanMath.lean ====
/-
  One row of labels scattered into a 1000 x 128 block, as eight indexed stores of sixteen lanes each.

  The block has one column per sample (128 of them) and one row per class. A row of 128 labels, one per sample, is
  split into eight pieces of sixteen lanes; piece g stores the value c at (label, 16 g + lane) for each of its lanes.
  The columns of different lanes are different, so whatever order the stores take, the block afterwards holds c at
  (k, b) exactly when sample b's label in this row is k, and is unchanged elsewhere.

  Rows then accumulate: after the rows r < n of an index array, the block holds c at (k, b) when some row r < n has
  label k at column b.
-/
import Idealize.ShloMosaic.PureOps.ShapeOps
import Idealize.ShloMosaic.Lib.ValueIdx
import proofs.«211736_g82076825026625_cont_sun_c4_101_27_alg».proof.Proof.LibStoreIdxConst

namespace Cert.Proof.ScanMath

open Idealize.ShloMosaic Idealize.ShloMosaic.ValueIdx

variable {F : FTy → Type} [FloatOps F] {e : EltTy}

abbrev SIdx : Shape := ⟨2, ![18, 128]⟩
abbrev SBlk : Shape := ⟨2, ![1000, 128]⟩
abbrev SLane : Shape := ⟨1, ![16]⟩

/-- One piece: the value c stored at (row lane, col lane) for each of the sixteen lanes. -/
theorem piece_apply (f : Vec F SBlk e) (row col : IVec SLane 32) (c : Elt F e)
    (h : ∀ a x, ((![row, col] : Fin 2 → IVec SLane 32) a x).toNat < SBlk.size a) (j : SBlk.Idx) :
    storeIdx f ![row, col] (fun _ => c) (fun _ => 1#1) false h j
      = if ∃ x : Fin 16, (j 0).val = (row (Shape.ofLane x)).toNat ∧ (j 1).val = (col (Shape.ofLane x)).toNat then c else f j := by
  rw [LibStoreIdxConst.storeIdx_splat_apply]
  have e' : (∃ k : Fin ((![16] : Fin 1 → Nat) 0), ∀ a, (j a).val = ((![row, col] : Fin 2 → IVec SLane 32) a (Shape.ofLane k)).toNat)
      ↔ ∃ x : Fin 16, (j 0).val = (row (Shape.ofLane x)).toNat ∧ (j 1).val = (col (Shape.ofLane x)).toNat := by
    constructor
    · rintro ⟨k, hk⟩; exact ⟨k, hk 0, hk 1⟩
    · rintro ⟨x, h0, h1⟩
      refine ⟨x, fun a => ?_⟩
      match a with
      | ⟨0, _⟩ => exact h0
      | ⟨1, _⟩ => exact h1
  by_cases hQ : ∃ x : Fin 16, (j 0).val = (row (Shape.ofLane x)).toNat ∧ (j 1).val = (col (Shape.ofLane x)).toNat
  · rw [if_pos hQ, if_pos (e'.mpr hQ)]
  · rw [if_neg hQ, if_neg (fun h' => hQ (e'.mp h'))]

/-- The eight pieces of one row, in the order the body stores them. -/
def rowNest (base : Vec F SBlk e) (rows cols : Fin 8 → IVec SLane 32) (c : Elt F e)
    (h : ∀ g, ∀ a x, ((![rows g, cols g] : Fin 2 → IVec SLane 32) a x).toNat < SBlk.size a) : Vec F SBlk e :=
  (storeIdx (storeIdx (storeIdx (storeIdx (storeIdx (storeIdx (storeIdx (storeIdx base ![rows 0, cols 0] (fun _ => c) (fun _ => 1#1) false (h 0)) ![rows 1, cols 1] (fun _ => c) (fun _ => 1#1) false (h 1)) ![rows 2, cols 2] (fun _ => c) (fun _ => 1#1) false (h 2)) ![rows 3, cols 3] (fun _ => c) (fun _ => 1#1) false (h 3)) ![rows 4, cols 4] (fun _ => c) (fun _ => 1#1) false (h 4)) ![rows 5, cols 5] (fun _ => c) (fun _ => 1#1) false (h 5)) ![rows 6, cols 6] (fun _ => c) (fun _ => 1#1) false (h 6)) ![rows 7, cols 7] (fun _ => c) (fun _ => 1#1) false (h 7))

/-- **One row**: with piece g holding the labels of columns 16 g .. 16 g + 15 of the row w, at those columns, the block
    afterwards holds c at (k, b) when w b = k and is unchanged elsewhere. -/
theorem rowNest_apply (base : Vec F SBlk e) (rows cols : Fin 8 → IVec SLane 32) (c : Elt F e)
    (h : ∀ g, ∀ a x, ((![rows g, cols g] : Fin 2 → IVec SLane 32) a x).toNat < SBlk.size a)
    (w : Fin 128 → BitVec 32)
    (hrow : ∀ (g : Fin 8) (x : Fin 16), rows g (Shape.ofLane x) = w ⟨16 * g.val + x.val, by have := g.isLt; have := x.isLt; omega⟩)
    (hcol : ∀ (g : Fin 8) (x : Fin 16), (cols g (Shape.ofLane x)).toNat = 16 * g.val + x.val)
    (j : SBlk.Idx) :
    rowNest base rows cols c h j
      = if (w ⟨(j 1).val, (j 1).isLt⟩).toNat = (j 0).val then c else base j := by
  have hj1 : (j 1).val < 128 := (j 1).isLt
  -- the piece and lane of column (j 1)
  let g0 : Fin 8 := ⟨(j 1).val / 16, by omega⟩
  let x0 : Fin 16 := ⟨(j 1).val % 16, Nat.mod_lt _ (by decide)⟩
  have hgx : 16 * g0.val + x0.val = (j 1).val := by show 16 * ((j 1).val / 16) + (j 1).val % 16 = _; omega
  -- a piece other than g0 never names column (j 1); piece g0 names it at lane x0 only
  have key : ∀ g : Fin 8, (∃ x : Fin 16, (j 0).val = (rows g (Shape.ofLane x)).toNat ∧ (j 1).val = (cols g (Shape.ofLane x)).toNat)
      ↔ (g = g0 ∧ (w ⟨(j 1).val, (j 1).isLt⟩).toNat = (j 0).val) := by
    intro g
    constructor
    · rintro ⟨x, h0, h1⟩
      rw [hcol] at h1
      have hg : g = g0 := by
        apply Fin.ext; show g.val = (j 1).val / 16
        have := x.isLt; omega
      refine ⟨hg, ?_⟩
      rw [h0, hrow]
      congr 2
      apply Fin.ext; exact h1
    · rintro ⟨rfl, hw⟩
      refine ⟨x0, ?_, ?_⟩
      · rw [hrow, ← hw]; congr 2; apply Fin.ext; exact hgx.symm
      · rw [hcol]; exact hgx.symm
  unfold rowNest
  simp only [piece_apply]
  by_cases hw : (w ⟨(j 1).val, (j 1).isLt⟩).toNat = (j 0).val
  · rw [if_pos hw]
    -- the piece g0 fires
    have hfire : ∀ g : Fin 8, g = g0 →
        (∃ x : Fin 16, (j 0).val = (rows g (Shape.ofLane x)).toNat ∧ (j 1).val = (cols g (Shape.ofLane x)).toNat) :=
      fun g hg => (key g).mpr ⟨hg, hw⟩
    have hg0 : g0.val < 8 := g0.isLt
    rcases (show g0 = 0 ∨ g0 = 1 ∨ g0 = 2 ∨ g0 = 3 ∨ g0 = 4 ∨ g0 = 5 ∨ g0 = 6 ∨ g0 = 7 by
      have : g0.val = 0 ∨ g0.val = 1 ∨ g0.val = 2 ∨ g0.val = 3 ∨ g0.val = 4 ∨ g0.val = 5 ∨ g0.val = 6 ∨ g0.val = 7 := by omega
      rcases this with h | h | h | h | h | h | h | h
      · exact Or.inl (Fin.ext h)
      · exact Or.inr (Or.inl (Fin.ext h))
      · exact Or.inr (Or.inr (Or.inl (Fin.ext h)))
      · exact Or.inr (Or.inr (Or.inr (Or.inl (Fin.ext h))))
      · exact Or.inr (Or.inr (Or.inr (Or.inr (Or.inl (Fin.ext h)))))
      · exact Or.inr (Or.inr (Or.inr (Or.inr (Or.inr (Or.inl (Fin.ext h))))))
      · exact Or.inr (Or.inr (Or.inr (Or.inr (Or.inr (Or.inr (Or.inl (Fin.ext h)))))))
      · exact Or.inr (Or.inr (Or.inr (Or.inr (Or.inr (Or.inr (Or.inr (Fin.ext h)))))))) with hg | hg | hg | hg | hg | hg | hg | hg
    all_goals
      have hf := hfire _ hg.symm
      simp only [if_pos hf, ite_self]
  · rw [if_neg hw]
    have hno : ∀ g : Fin 8,
        ¬ (∃ x : Fin 16, (j 0).val = (rows g (Shape.ofLane x)).toNat ∧ (j 1).val = (cols g (Shape.ofLane x)).toNat) :=
      fun g hg => hw ((key g).mp hg).2
    simp only [if_neg (hno _)]

end Cert.Proof.ScanMath
-- ==== Proof.KScan.lean ====
/-
  A scan loop of the multi-hot kernel, once for all of them.

  Every scan loop walks the rows of the index scratch (up to eighteen rows of 128 labels, one label per sample of the
  current block): a trip loads row k in eight pieces of sixteen lanes, checks each piece names classes, and stores one
  value — the hit value when building a block, the floor value when clearing it — at (label, column) for each lane.
  After the rows r < k the block holds that value at (cls, b) exactly when some row r < k has label cls at column b, and
  is as it was elsewhere (`scanRows`).
-/
import proofs.«211736_g82076825026625_cont_sun_c4_101_27_alg».proof.Proof.KCommon
import proofs.«211736_g82076825026625_cont_sun_c4_101_27_alg».proof.Proof.ScanMath
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type} [FloatOps F] [Named F]

local notation "𝕄" => MT nD τ sig (HIx 1) (Elt F) ℕ UU ℕ
local notation "sIW" => (Memref.whole Cert.KernelIdeal.cc0_scratch0 : Memref Cert.KernelIdeal.sig Kind.scVector Space.vmem Cert.KernelIdeal.S18x128 EltTy.i32)
local notation "sBW" => (Memref.whole Cert.KernelIdeal.cc0_scratch1 : Memref Cert.KernelIdeal.sig Kind.scVector Space.vmem Cert.KernelIdeal.S1000x128 EltTy.f32)
local notation "tVW" => (Memref.whole Cert.KernelIdeal.main_v0_scv : Memref Cert.KernelIdeal.sig Kind.scVector Space.hbm Cert.KernelIdeal.S50x16384 EltTy.i32)
local notation "oVW" => (Memref.whole Cert.KernelIdeal.main_v1_scv : Memref Cert.KernelIdeal.sig Kind.scVector Space.hbm Cert.KernelIdeal.S1000x16384 EltTy.f32)

/-- One trip of a scan loop, for any loop record, row offsets, stored value and lane columns: the eight 16-lane pieces
    of index row k are loaded and checked, then each is used as the class coordinate of an indexed store of `val`
    into the block, the lane columns the other coordinate. -/
def scanBody (L : grid0.Coords) (a4 : Memref sig .scVector .vmem S18x128 .i32) (a5 : Memref sig .scVector .vmem S1000x128 .f32)
    (n : Scf.Loop 32) (off : Fin 8 → Fin n.trips → Fin 2 → Nat)
    (inb : ∀ g k, ∀ a, off g k a + S1x16.size a ≤ S18x128.size a) (val : FVec F S16 .f32) (ln : Fin 8 → IVec S16 32) :
    Fin n.trips → BitVec 32 → Prog (TpuEff nD τ sig (Elt F) Λ₀ (.scVector ((L 0).castLE hcore0) ((L 1).castLE hsub0))) (BitVec 32) :=
  fun k _ => do
    let l0 : Vec F S1x16 .i32 ← Prog.lift (.load a4 (Rect.unit (s := S18x128) (off 0 k) S1x16.size (inb 0 k)).toLoadRect (View.loadsAt_vmem h_S1x16))
    have i0 : Vec F S16 .i32 := shapeCast S16 l0 shapeCasts_S1x16_S16
    have w0 : k0_chk1 (ln 0) i0 := (← Prog.lift (TpuEff.assume (k0_chk1 (ln 0) i0) (k0_chk1.dec (ln 0) i0))).down
    let l1 : Vec F S1x16 .i32 ← Prog.lift (.load a4 (Rect.unit (s := S18x128) (off 1 k) S1x16.size (inb 1 k)).toLoadRect (View.loadsAt_vmem h_S1x16))
    have i1 : Vec F S16 .i32 := shapeCast S16 l1 shapeCasts_S1x16_S16
    have w1 : k0_chk1 (ln 1) i1 := (← Prog.lift (TpuEff.assume (k0_chk1 (ln 1) i1) (k0_chk1.dec (ln 1) i1))).down
    let l2 : Vec F S1x16 .i32 ← Prog.lift (.load a4 (Rect.unit (s := S18x128) (off 2 k) S1x16.size (inb 2 k)).toLoadRect (View.loadsAt_vmem h_S1x16))
    have i2 : Vec F S16 .i32 := shapeCast S16 l2 shapeCasts_S1x16_S16
    have w2 : k0_chk1 (ln 2) i2 := (← Prog.lift (TpuEff.assume (k0_chk1 (ln 2) i2) (k0_chk1.dec (ln 2) i2))).down
    let l3 : Vec F S1x16 .i32 ← Prog.lift (.load a4 (Rect.unit (s := S18x128) (off 3 k) S1x16.size (inb 3 k)).toLoadRect (View.loadsAt_vmem h_S1x16))
    have i3 : Vec F S16 .i32 := shapeCast S16 l3 shapeCasts_S1x16_S16
    have w3 : k0_chk1 (ln 3) i3 := (← Prog.lift (TpuEff.assume (k0_chk1 (ln 3) i3) (k0_chk1.dec (ln 3) i3))).down
    let l4 : Vec F S1x16 .i32 ← Prog.lift (.load a4 (Rect.unit (s := S18x128) (off 4 k) S1x16.size (inb 4 k)).toLoadRect (View.loadsAt_vmem h_S1x16))
    have i4 : Vec F S16 .i32 := shapeCast S16 l4 shapeCasts_S1x16_S16
    have w4 : k0_chk1 (ln 4) i4 := (← Prog.lift (TpuEff.assume (k0_chk1 (ln 4) i4) (k0_chk1.dec (ln 4) i4))).down
    let l5 : Vec F S1x16 .i32 ← Prog.lift (.load a4 (Rect.unit (s := S18x128) (off 5 k) S1x16.size (inb 5 k)).toLoadRect (View.loadsAt_vmem h_S1x16))
    have i5 : Vec F S16 .i32 := shapeCast S16 l5 shapeCasts_S1x16_S16
    have w5 : k0_chk1 (ln 5) i5 := (← Prog.lift (TpuEff.assume (k0_chk1 (ln 5) i5) (k0_chk1.dec (ln 5) i5))).down
    let l6 : Vec F S1x16 .i32 ← Prog.lift (.load a4 (Rect.unit (s := S18x128) (off 6 k) S1x16.size (inb 6 k)).toLoadRect (View.loadsAt_vmem h_S1x16))
    have i6 : Vec F S16 .i32 := shapeCast S16 l6 shapeCasts_S1x16_S16
    have w6 : k0_chk1 (ln 6) i6 := (← Prog.lift (TpuEff.assume (k0_chk1 (ln 6) i6) (k0_chk1.dec (ln 6) i6))).down
    let l7 : Vec F S1x16 .i32 ← Prog.lift (.load a4 (Rect.unit (s := S18x128) (off 7 k) S1x16.size (inb 7 k)).toLoadRect (View.loadsAt_vmem h_S1x16))
    have i7 : Vec F S16 .i32 := shapeCast S16 l7 shapeCasts_S1x16_S16
    have w7 : k0_chk1 (ln 7) i7 := (← Prog.lift (TpuEff.assume (k0_chk1 (ln 7) i7) (k0_chk1.dec (ln 7) i7))).down
    SparseCore.vectorStoreIdx a5 ![i0, ln 0] val (fun _ => 1#1) false (k0_idx1_inb (ln 0) i0 w0) (View.stores_vmem_bits_univ h_S1000x128 rfl)
    SparseCore.vectorStoreIdx a5 ![i1, ln 1] val (fun _ => 1#1) false (k0_idx1_inb (ln 1) i1 w1) (View.stores_vmem_bits_univ h_S1000x128 rfl)
    SparseCore.vectorStoreIdx a5 ![i2, ln 2] val (fun _ => 1#1) false (k0_idx1_inb (ln 2) i2 w2) (View.stores_vmem_bits_univ h_S1000x128 rfl)
    SparseCore.vectorStoreIdx a5 ![i3, ln 3] val (fun _ => 1#1) false (k0_idx1_inb (ln 3) i3 w3) (View.stores_vmem_bits_univ h_S1000x128 rfl)
    SparseCore.vectorStoreIdx a5 ![i4, ln 4] val (fun _ => 1#1) false (k0_idx1_inb (ln 4) i4 w4) (View.stores_vmem_bits_univ h_S1000x128 rfl)
    SparseCore.vectorStoreIdx a5 ![i5, ln 5] val (fun _ => 1#1) false (k0_idx1_inb (ln 5) i5 w5) (View.stores_vmem_bits_univ h_S1000x128 rfl)
    SparseCore.vectorStoreIdx a5 ![i6, ln 6] val (fun _ => 1#1) false (k0_idx1_inb (ln 6) i6 w6) (View.stores_vmem_bits_univ h_S1000x128 rfl)
    SparseCore.vectorStoreIdx a5 ![i7, ln 7] val (fun _ => 1#1) false (k0_idx1_inb (ln 7) i7 w7) (View.stores_vmem_bits_univ h_S1000x128 rfl)
    pure 0#32

/-! ## A loaded piece, lane by lane -/

omit [Named F] in
/-- Piece g of row k of the index scratch, at lane x, is the label at row k, column 16 g + x. -/
theorem piece_lane (d : Dev nD) (L : grid0.Coords) (xi : Buf (Elt F) ((VT d L).loc cc0_scratch0))
    (off2 : Fin 2 → Nat) (inb2 : ∀ a, off2 a + S1x16.size a ≤ S18x128.size a) (r : Fin 18) (g : Fin 8)
    (hoff : off2 = ![r.val, 16 * g.val]) (x : Fin 16) :
    (shapeCast S16 (View.readAt (Elt F) (sIW).view (Rect.unit (s := S18x128) off2 S1x16.size inb2).toLoadRect xi) shapeCasts_S1x16_S16
        : IVec S16 32) (Shape.ofLane x)
      = xi (ix2 r (⟨16 * g.val + x.val, by have := g.isLt; have := x.isLt; omega⟩ : Fin 128)) := by
  subst hoff
  rw [shapeCast_dropUnit_apply (d := ![16])]
  rw [View.readAt_apply]
  simp only [Memref.view_whole, View.read_whole]
  congr 1
  funext a
  apply Fin.ext
  rw [LoadRect.idx_apply]
  match a with
  | ⟨0, _⟩ => show r.val + 1 * 0 = r.val; omega
  | ⟨1, _⟩ => show 16 * g.val + 1 * x.val = 16 * g.val + x.val; omega

/-! ## The block after the rows before k -/

/-- The block after the rows r < k of the index scratch `xi` have been scanned with the value `c`, starting from `fb`. -/
def scanRows (d : Dev nD) (L : grid0.Coords) (c : F .f32) (xi : Buf (Elt F) ((VT d L).loc cc0_scratch0)) (k : Nat)
    (fb : Buf (Elt F) ((VT d L).loc cc0_scratch1)) : Buf (Elt F) ((VT d L).loc cc0_scratch1) :=
  open Classical in fun (j : S1000x128.Idx) =>
    if ∃ r : Fin 18, r.val < k ∧ (xi (ix2 r (⟨(j 1).val, (j 1).isLt⟩ : Fin 128))).toNat = (j 0).val then c else fb j

omit [Named F] in
/-- One more row is one more `rowNest`. -/
theorem scanRows_succ (d : Dev nD) (L : grid0.Coords) (c : F .f32) (xi : Buf (Elt F) ((VT d L).loc cc0_scratch0))
    (fb : Buf (Elt F) ((VT d L).loc cc0_scratch1)) (k : Fin 18) (rows cols : Fin 8 → IVec S16 32)
    (h : ∀ g, ∀ a x, ((![rows g, cols g] : Fin 2 → IVec S16 32) a x).toNat < S1000x128.size a)
    (hrow : ∀ (g : Fin 8) (x : Fin 16), rows g (Shape.ofLane x)
      = xi (ix2 k (⟨16 * g.val + x.val, by have := g.isLt; have := x.isLt; omega⟩ : Fin 128)))
    (hcol : ∀ (g : Fin 8) (x : Fin 16), (cols g (Shape.ofLane x)).toNat = 16 * g.val + x.val) :
    scanRows d L c xi (k.val + 1) fb = ScanMath.rowNest (F := F) (e := .f32) (scanRows d L c xi k.val fb) rows cols c h := by
  funext j
  rw [ScanMath.rowNest_apply (F := F) (scanRows d L c xi k.val fb) rows cols c h (fun col => xi (ix2 k col)) hrow hcol j]
  unfold scanRows
  classical
  by_cases hk : (xi (ix2 k (⟨(j 1).val, (j 1).isLt⟩ : Fin 128))).toNat = (j 0).val
  · rw [if_pos (show (xi (ix2 k (⟨(j 1).val, (j 1).isLt⟩ : Fin 128))).toNat = (j 0).val from hk)]
    exact if_pos ⟨k, Nat.lt_succ_self _, hk⟩
  · rw [if_neg (show ¬ (xi (ix2 k (⟨(j 1).val, (j 1).isLt⟩ : Fin 128))).toNat = (j 0).val from hk)]
    by_cases hb : ∃ r : Fin 18, r.val < k.val ∧ (xi (ix2 r (⟨(j 1).val, (j 1).isLt⟩ : Fin 128))).toNat = (j 0).val
    · obtain ⟨r, hr, hx⟩ := hb
      rw [if_pos ⟨r, Nat.lt_succ_of_lt hr, hx⟩, if_pos ⟨r, hr, hx⟩]
    · rw [if_neg hb, if_neg]
      rintro ⟨r, hr, hx⟩
      rcases Nat.lt_succ_iff_lt_or_eq.mp hr with hlt | heq
      · exact hb ⟨r, hlt, hx⟩
      · exact hk (by rw [← Fin.ext heq]; exact hx)

/-! ## One trip -/

omit [Named F] in
/-- The block held whole is the block held through its whole-rectangle access. -/
theorem pts_sB_access (d : Dev nD) (L : grid0.Coords) (f : Buf (Elt F) ((VT d L).loc cc0_scratch1)) :
    ((((sBW).access (.whole S1000x128)).loc (VT d L) ↦[((sBW).access (.whole S1000x128)).set]{fullShare} f : sProp 𝕄))
      = ((sBW).view.loc (VT d L) ↦{fullShare} f) := by
  rw [show ((sBW).access (Rect.whole S1000x128)).set = Finset.univ from Memref.set_access_whole (cc0_scratch1 : Ref sig .scVector)]

/-- What a scan loop holds before trip k: the index rows, and the block after the rows before k. -/
def scanInv (d : Dev nD) (L : grid0.Coords) (c : F .f32) (xi : Buf (Elt F) ((VT d L).loc cc0_scratch0))
    (fb : Buf (Elt F) ((VT d L).loc cc0_scratch1)) (k : Nat) (_ : BitVec 32) : sProp 𝕄 :=
  iprop(((sIW).view.loc (VT d L) ↦{fullShare} xi) ∗ ((sBW).view.loc (VT d L) ↦{fullShare} scanRows d L c xi k fb))

/-- The rows a scan loop reads name classes, and its lane columns are the block's columns. -/
structure ScanOK (d : Dev nD) (L : grid0.Coords) (n : Scf.Loop 32) (off : Fin 8 → Fin n.trips → Fin 2 → Nat)
    (ln : Fin 8 → IVec S16 32) (xi : Buf (Elt F) ((VT d L).loc cc0_scratch0)) : Prop where
  trips : n.trips ≤ 18
  off : ∀ g k, off g k = ![k.val, 16 * g.val]
  ln : ∀ (g : Fin 8) (x : Fin 16), (ln g (Shape.ofLane x)).toNat = 16 * g.val + x.val
  xi : ∀ (r : Fin 18) (col : Fin 128), r.val < n.trips → (xi (ix2 r col)).toNat < 1000

omit [Named F] in
theorem lane_eq (x : S16.Idx) : x = Shape.ofLane (d := ![16]) (⟨(x 0).val, (x 0).isLt⟩ : Fin 16) := by
  funext a
  obtain rfl : a = 0 := Subsingleton.elim _ _
  rfl

omit [Named F] in
/-- The check a trip assumes of each piece holds. -/
theorem chk_ok (d : Dev nD) (L : grid0.Coords) (n : Scf.Loop 32) (off : Fin 8 → Fin n.trips → Fin 2 → Nat)
    (inb : ∀ g k, ∀ a, off g k a + S1x16.size a ≤ S18x128.size a) (ln : Fin 8 → IVec S16 32)
    (xi : Buf (Elt F) ((VT d L).loc cc0_scratch0)) (hok : ScanOK d L n off ln xi) (g : Fin 8) (k : Fin n.trips) :
    k0_chk1 (ln g) (shapeCast S16 (View.readAt (Elt F) (sIW).view (Rect.unit (s := S18x128) (off g k) S1x16.size (inb g k)).toLoadRect xi) shapeCasts_S1x16_S16) := by
  have hk18 : k.val < 18 := Nat.lt_of_lt_of_le k.isLt hok.trips
  intro a x
  rw [lane_eq x]
  match a with
  | ⟨0, _⟩ =>
    show ((shapeCast S16 (View.readAt (Elt F) (sIW).view (Rect.unit (s := S18x128) (off g k) S1x16.size (inb g k)).toLoadRect xi) shapeCasts_S1x16_S16 : IVec S16 32)
      (Shape.ofLane (d := ![16]) (⟨(x 0).val, (x 0).isLt⟩ : Fin 16))).toNat < 1000
    rw [piece_lane d L xi (off g k) (inb g k) ⟨k.val, hk18⟩ g (hok.off g k)]
    exact hok.xi _ _ k.isLt
  | ⟨1, _⟩ =>
    show ((ln g) (Shape.ofLane (d := ![16]) (⟨(x 0).val, (x 0).isLt⟩ : Fin 16))).toNat < 128
    rw [hok.ln]
    have := g.isLt; have := (x 0).isLt
    omega

/-- **One trip of a scan loop**: from the block after the rows before k to the block after the rows up to k. -/
theorem scan_step (d : Dev nD) (L : grid0.Coords) (n : Scf.Loop 32) (off : Fin 8 → Fin n.trips → Fin 2 → Nat)
    (inb : ∀ g k, ∀ a, off g k a + S1x16.size a ≤ S18x128.size a) (c : F .f32) (ln : Fin 8 → IVec S16 32)
    (xi : Buf (Elt F) ((VT d L).loc cc0_scratch0)) (fb : Buf (Elt F) ((VT d L).loc cc0_scratch1))
    (hok : ScanOK d L n off ln xi) (k : Fin n.trips) (acc : BitVec 32) :
    scanInv d L c xi fb k.val acc
      ⊢ wp frame (wpE (defs₀ (F := F)) 𝒱₀ (VT d L) none) Set.univ (scanBody L sIW sBW n off inb (fun _ => c) ln k acc)
          (scanInv d L c xi fb (k.val + 1)) := by
  have hk18 : k.val < 18 := Nat.lt_of_lt_of_le k.isLt hok.trips
  unfold scanBody
  simp only [Prog.lift, Prog.bind_op, Prog.bind_ret, Prog.pure_eq_ret]
  unfold scanInv
  iintro ⟨Hi, Hb⟩
  sl_exec (disch := exact chk_ok d L n off inb ln xi hok _ k)
  ihave Hb1 := (Entails.of_eq (pts_sB_access (F := F) d L _).symm) $$ Hb
  iapply (SparseCore.wp_vectorStoreIdx (defs := defs₀ (F := F)) 𝒱₀ (VT d L) none Set.univ (base := sBW)) $$ Hb1; iintro Hb1
  iapply (SparseCore.wp_vectorStoreIdx (defs := defs₀ (F := F)) 𝒱₀ (VT d L) none Set.univ (base := sBW)) $$ Hb1; iintro Hb1
  iapply (SparseCore.wp_vectorStoreIdx (defs := defs₀ (F := F)) 𝒱₀ (VT d L) none Set.univ (base := sBW)) $$ Hb1; iintro Hb1
  iapply (SparseCore.wp_vectorStoreIdx (defs := defs₀ (F := F)) 𝒱₀ (VT d L) none Set.univ (base := sBW)) $$ Hb1; iintro Hb1
  iapply (SparseCore.wp_vectorStoreIdx (defs := defs₀ (F := F)) 𝒱₀ (VT d L) none Set.univ (base := sBW)) $$ Hb1; iintro Hb1
  iapply (SparseCore.wp_vectorStoreIdx (defs := defs₀ (F := F)) 𝒱₀ (VT d L) none Set.univ (base := sBW)) $$ Hb1; iintro Hb1
  iapply (SparseCore.wp_vectorStoreIdx (defs := defs₀ (F := F)) 𝒱₀ (VT d L) none Set.univ (base := sBW)) $$ Hb1; iintro Hb1
  iapply (SparseCore.wp_vectorStoreIdx (defs := defs₀ (F := F)) 𝒱₀ (VT d L) none Set.univ (base := sBW)) $$ Hb1; iintro Hb1
  rw [wp_ret]
  imodintro
  isplitl [Hi]; · iexact Hi
  ihave Hb2 := (Entails.of_eq (pts_sB_access (F := F) d L _)) $$ Hb1
  rw [scanRows_succ d L c xi fb ⟨k.val, hk18⟩
    (fun g => shapeCast S16 (View.readAt (Elt F) (sIW).view (Rect.unit (s := S18x128) (off g k) S1x16.size (inb g k)).toLoadRect xi) shapeCasts_S1x16_S16)
    ln (fun g => chk_ok d L n off inb ln xi hok g k)
    (fun g x => piece_lane d L xi (off g k) (inb g k) ⟨k.val, hk18⟩ g (hok.off g k) x) hok.ln]
  unfold ScanMath.rowNest
  simp only [Memref.write_access_whole_univ, Memref.read_access_whole]
  iexact Hb2

end Cert.Proof.KI

end
-- ==== Proof.KScanEqs.lean ====
/-
  The scan loops of the body, one by one: each loop's region is the generic trip body at that loop's record, its
  eight row offsets (row k, columns 16 g .. 16 g + 15), the value it stores (the hit value when a block is built,
  the floor value when it is cleared) and the eight lane-column vectors; and each loop has at most eighteen trips.
-/
import proofs.«211736_g82076825026625_cont_sun_c4_101_27_alg».proof.Proof.KScan

noncomputable section

namespace Cert.Proof.KI

open Cert.KernelIdeal Cert.KernelIdeal.Gen
open Idealize.ShloMosaic

variable {F : FTy → Type} [FloatOps F] [Named F]

local notation "sIW" => (Memref.whole Cert.KernelIdeal.cc0_scratch0 : Memref Cert.KernelIdeal.sig Kind.scVector Space.vmem Cert.KernelIdeal.S18x128 EltTy.i32)
local notation "sBW" => (Memref.whole Cert.KernelIdeal.cc0_scratch1 : Memref Cert.KernelIdeal.sig Kind.scVector Space.vmem Cert.KernelIdeal.S1000x128 EltTy.f32)
local notation "tVW" => (Memref.whole Cert.KernelIdeal.main_v0_scv : Memref Cert.KernelIdeal.sig Kind.scVector Space.hbm Cert.KernelIdeal.S50x16384 EltTy.i32)
local notation "oVW" => (Memref.whole Cert.KernelIdeal.main_v1_scv : Memref Cert.KernelIdeal.sig Kind.scVector Space.hbm Cert.KernelIdeal.S1000x16384 EltTy.f32)

/-- The eight lane-column vectors: piece g covers columns 16 g .. 16 g + 15. -/
abbrev lanes : Fin 8 → IVec S16 32 := ![k0_pay3, k0_pay4, k0_pay5, k0_pay6, k0_pay7, k0_pay8, k0_pay9, k0_pay10]

/-- Loop 3: offsets 3–10, stores the hit value. -/
abbrev offs3 : Fin 8 → Fin k0_t3_loop.trips → Fin 2 → Nat := ![k0_off3, k0_off4, k0_off5, k0_off6, k0_off7, k0_off8, k0_off9, k0_off10]
theorem inb3 : ∀ g k, ∀ a, offs3 g k a + S1x16.size a ≤ S18x128.size a := (fun g k => match g with | ⟨0, _⟩ => k0_off3_inb k | ⟨1, _⟩ => k0_off4_inb k | ⟨2, _⟩ => k0_off5_inb k | ⟨3, _⟩ => k0_off6_inb k | ⟨4, _⟩ => k0_off7_inb k | ⟨5, _⟩ => k0_off8_inb k | ⟨6, _⟩ => k0_off9_inb k | ⟨7, _⟩ => k0_off10_inb k)
set_option maxRecDepth 65536 in
theorem t3_eq (L : grid0.Coords)  :
    k0_t3_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay1 (F := F)) k0_pay3 k0_pay4 k0_pay5 k0_pay6 k0_pay7 k0_pay8 k0_pay9 k0_pay10
    = scanBody L sIW sBW k0_t3_loop offs3 inb3 (fun _ => hitV (F := F)) lanes := rfl
theorem trips3 : k0_t3_loop.trips ≤ 18 := Nat.le_trans k0_t3_abs.2.1 (by decide)
theorem trips3_eq : Scf.trips k0_t3_loop.lb k0_t3_loop.ub k0_t3_loop.st = 16 := by decide
theorem offs3_eq : ∀ g k, offs3 g k = ![k.val, 16 * g.val] := fun g k => match g with
  | ⟨0, _⟩ => k0_off3_eq k
  | ⟨1, _⟩ => k0_off4_eq k
  | ⟨2, _⟩ => k0_off5_eq k
  | ⟨3, _⟩ => k0_off6_eq k
  | ⟨4, _⟩ => k0_off7_eq k
  | ⟨5, _⟩ => k0_off8_eq k
  | ⟨6, _⟩ => k0_off9_eq k
  | ⟨7, _⟩ => k0_off10_eq k

/-- Loop 4: offsets 12–19, stores the hit value. -/
abbrev offs4 : Fin 8 → Fin k0_t4_loop.trips → Fin 2 → Nat := ![k0_off12, k0_off13, k0_off14, k0_off15, k0_off16, k0_off17, k0_off18, k0_off19]
theorem inb4 : ∀ g k, ∀ a, offs4 g k a + S1x16.size a ≤ S18x128.size a := (fun g k => match g with | ⟨0, _⟩ => k0_off12_inb k | ⟨1, _⟩ => k0_off13_inb k | ⟨2, _⟩ => k0_off14_inb k | ⟨3, _⟩ => k0_off15_inb k | ⟨4, _⟩ => k0_off16_inb k | ⟨5, _⟩ => k0_off17_inb k | ⟨6, _⟩ => k0_off18_inb k | ⟨7, _⟩ => k0_off19_inb k)
set_option maxRecDepth 65536 in
theorem t4_eq (L : grid0.Coords)  :
    k0_t4_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay1 (F := F)) k0_pay3 k0_pay4 k0_pay5 k0_pay6 k0_pay7 k0_pay8 k0_pay9 k0_pay10
    = scanBody L sIW sBW k0_t4_loop offs4 inb4 (fun _ => hitV (F := F)) lanes := rfl
theorem trips4 : k0_t4_loop.trips ≤ 18 := Nat.le_trans k0_t4_abs.2.1 (by decide)
theorem trips4_eq : Scf.trips k0_t4_loop.lb k0_t4_loop.ub k0_t4_loop.st = 16 := by decide
theorem offs4_eq : ∀ g k, offs4 g k = ![k.val, 16 * g.val] := fun g k => match g with
  | ⟨0, _⟩ => k0_off12_eq k
  | ⟨1, _⟩ => k0_off13_eq k
  | ⟨2, _⟩ => k0_off14_eq k
  | ⟨3, _⟩ => k0_off15_eq k
  | ⟨4, _⟩ => k0_off16_eq k
  | ⟨5, _⟩ => k0_off17_eq k
  | ⟨6, _⟩ => k0_off18_eq k
  | ⟨7, _⟩ => k0_off19_eq k

/-- Loop 5: offsets 21–28, stores the hit value. -/
abbrev offs5 : Fin 8 → Fin k0_t5_loop.trips → Fin 2 → Nat := ![k0_off21, k0_off22, k0_off23, k0_off24, k0_off25, k0_off26, k0_off27, k0_off28]
theorem inb5 : ∀ g k, ∀ a, offs5 g k a + S1x16.size a ≤ S18x128.size a := (fun g k => match g with | ⟨0, _⟩ => k0_off21_inb k | ⟨1, _⟩ => k0_off22_inb k | ⟨2, _⟩ => k0_off23_inb k | ⟨3, _⟩ => k0_off24_inb k | ⟨4, _⟩ => k0_off25_inb k | ⟨5, _⟩ => k0_off26_inb k | ⟨6, _⟩ => k0_off27_inb k | ⟨7, _⟩ => k0_off28_inb k)
set_option maxRecDepth 65536 in
theorem t5_eq (L : grid0.Coords)  :
    k0_t5_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay1 (F := F)) (k0_pay2 (F := F)) k0_pay3 k0_pay4 k0_pay5 k0_pay6 k0_pay7 k0_pay8 k0_pay9 k0_pay10
    = scanBody L sIW sBW k0_t5_loop offs5 inb5 (fun _ => hitV (F := F)) lanes := rfl
theorem trips5 : k0_t5_loop.trips ≤ 18 := Nat.le_trans k0_t5_abs.2.1 (by decide)
theorem trips5_eq : Scf.trips k0_t5_loop.lb k0_t5_loop.ub k0_t5_loop.st = 18 := by decide
theorem offs5_eq : ∀ g k, offs5 g k = ![k.val, 16 * g.val] := fun g k => match g with
  | ⟨0, _⟩ => k0_off21_eq k
  | ⟨1, _⟩ => k0_off22_eq k
  | ⟨2, _⟩ => k0_off23_eq k
  | ⟨3, _⟩ => k0_off24_eq k
  | ⟨4, _⟩ => k0_off25_eq k
  | ⟨5, _⟩ => k0_off26_eq k
  | ⟨6, _⟩ => k0_off27_eq k
  | ⟨7, _⟩ => k0_off28_eq k

/-- Loop 6: offsets 30–37, stores the floor value. -/
abbrev offs6 : Fin 8 → Fin k0_t6_loop.trips → Fin 2 → Nat := ![k0_off30, k0_off31, k0_off32, k0_off33, k0_off34, k0_off35, k0_off36, k0_off37]
theorem inb6 : ∀ g k, ∀ a, offs6 g k a + S1x16.size a ≤ S18x128.size a := (fun g k => match g with | ⟨0, _⟩ => k0_off30_inb k | ⟨1, _⟩ => k0_off31_inb k | ⟨2, _⟩ => k0_off32_inb k | ⟨3, _⟩ => k0_off33_inb k | ⟨4, _⟩ => k0_off34_inb k | ⟨5, _⟩ => k0_off35_inb k | ⟨6, _⟩ => k0_off36_inb k | ⟨7, _⟩ => k0_off37_inb k)
set_option maxRecDepth 65536 in
theorem t6_eq (L : grid0.Coords)  :
    k0_t6_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay1 (F := F)) (k0_pay2 (F := F)) k0_pay3 k0_pay4 k0_pay5 k0_pay6 k0_pay7 k0_pay8 k0_pay9 k0_pay10
    = scanBody L sIW sBW k0_t6_loop offs6 inb6 (fun _ => bgV (F := F)) lanes := rfl
theorem trips6 : k0_t6_loop.trips ≤ 18 := Nat.le_trans k0_t6_abs.2.1 (by decide)
theorem trips6_eq : Scf.trips k0_t6_loop.lb k0_t6_loop.ub k0_t6_loop.st = 18 := by decide
theorem offs6_eq : ∀ g k, offs6 g k = ![k.val, 16 * g.val] := fun g k => match g with
  | ⟨0, _⟩ => k0_off30_eq k
  | ⟨1, _⟩ => k0_off31_eq k
  | ⟨2, _⟩ => k0_off32_eq k
  | ⟨3, _⟩ => k0_off33_eq k
  | ⟨4, _⟩ => k0_off34_eq k
  | ⟨5, _⟩ => k0_off35_eq k
  | ⟨6, _⟩ => k0_off36_eq k
  | ⟨7, _⟩ => k0_off37_eq k

/-- Loop 7: offsets 39–46, stores the floor value. -/
abbrev offs7 : Fin 8 → Fin k0_t7_loop.trips → Fin 2 → Nat := ![k0_off39, k0_off40, k0_off41, k0_off42, k0_off43, k0_off44, k0_off45, k0_off46]
theorem inb7 : ∀ g k, ∀ a, offs7 g k a + S1x16.size a ≤ S18x128.size a := (fun g k => match g with | ⟨0, _⟩ => k0_off39_inb k | ⟨1, _⟩ => k0_off40_inb k | ⟨2, _⟩ => k0_off41_inb k | ⟨3, _⟩ => k0_off42_inb k | ⟨4, _⟩ => k0_off43_inb k | ⟨5, _⟩ => k0_off44_inb k | ⟨6, _⟩ => k0_off45_inb k | ⟨7, _⟩ => k0_off46_inb k)
set_option maxRecDepth 65536 in
theorem t7_eq (L : grid0.Coords)  :
    k0_t7_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay1 (F := F)) (k0_pay2 (F := F)) k0_pay3 k0_pay4 k0_pay5 k0_pay6 k0_pay7 k0_pay8 k0_pay9 k0_pay10
    = scanBody L sIW sBW k0_t7_loop offs7 inb7 (fun _ => bgV (F := F)) lanes := rfl
theorem trips7 : k0_t7_loop.trips ≤ 18 := Nat.le_trans k0_t7_abs.2.1 (by decide)
theorem trips7_eq : Scf.trips k0_t7_loop.lb k0_t7_loop.ub k0_t7_loop.st = 16 := by decide
theorem offs7_eq : ∀ g k, offs7 g k = ![k.val, 16 * g.val] := fun g k => match g with
  | ⟨0, _⟩ => k0_off39_eq k
  | ⟨1, _⟩ => k0_off40_eq k
  | ⟨2, _⟩ => k0_off41_eq k
  | ⟨3, _⟩ => k0_off42_eq k
  | ⟨4, _⟩ => k0_off43_eq k
  | ⟨5, _⟩ => k0_off44_eq k
  | ⟨6, _⟩ => k0_off45_eq k
  | ⟨7, _⟩ => k0_off46_eq k

/-- Loop 8: offsets 47–54, stores the floor value. -/
abbrev offs8 : Fin 8 → Fin k0_t8_loop.trips → Fin 2 → Nat := ![k0_off47, k0_off48, k0_off49, k0_off50, k0_off51, k0_off52, k0_off53, k0_off54]
theorem inb8 : ∀ g k, ∀ a, offs8 g k a + S1x16.size a ≤ S18x128.size a := (fun g k => match g with | ⟨0, _⟩ => k0_off47_inb k | ⟨1, _⟩ => k0_off48_inb k | ⟨2, _⟩ => k0_off49_inb k | ⟨3, _⟩ => k0_off50_inb k | ⟨4, _⟩ => k0_off51_inb k | ⟨5, _⟩ => k0_off52_inb k | ⟨6, _⟩ => k0_off53_inb k | ⟨7, _⟩ => k0_off54_inb k)
set_option maxRecDepth 65536 in
theorem t8_eq (L : grid0.Coords) (v1 : BitVec 32) :
    k0_t8_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 v1 (k0_pay1 (F := F)) (k0_pay2 (F := F)) k0_pay3 k0_pay4 k0_pay5 k0_pay6 k0_pay7 k0_pay8 k0_pay9 k0_pay10
    = scanBody L sIW sBW k0_t8_loop offs8 inb8 (fun _ => bgV (F := F)) lanes := rfl
theorem trips8 : k0_t8_loop.trips ≤ 18 := Nat.le_trans k0_t8_abs.2.1 (by decide)
theorem trips8_eq : Scf.trips k0_t8_loop.lb k0_t8_loop.ub k0_t8_loop.st = 16 := by decide
theorem offs8_eq : ∀ g k, offs8 g k = ![k.val, 16 * g.val] := fun g k => match g with
  | ⟨0, _⟩ => k0_off47_eq k
  | ⟨1, _⟩ => k0_off48_eq k
  | ⟨2, _⟩ => k0_off49_eq k
  | ⟨3, _⟩ => k0_off50_eq k
  | ⟨4, _⟩ => k0_off51_eq k
  | ⟨5, _⟩ => k0_off52_eq k
  | ⟨6, _⟩ => k0_off53_eq k
  | ⟨7, _⟩ => k0_off54_eq k

/-- Loop 9: offsets 55–62, stores the hit value. -/
abbrev offs9 : Fin 8 → Fin k0_t9_loop.trips → Fin 2 → Nat := ![k0_off55, k0_off56, k0_off57, k0_off58, k0_off59, k0_off60, k0_off61, k0_off62]
theorem inb9 : ∀ g k, ∀ a, offs9 g k a + S1x16.size a ≤ S18x128.size a := (fun g k => match g with | ⟨0, _⟩ => k0_off55_inb k | ⟨1, _⟩ => k0_off56_inb k | ⟨2, _⟩ => k0_off57_inb k | ⟨3, _⟩ => k0_off58_inb k | ⟨4, _⟩ => k0_off59_inb k | ⟨5, _⟩ => k0_off60_inb k | ⟨6, _⟩ => k0_off61_inb k | ⟨7, _⟩ => k0_off62_inb k)
set_option maxRecDepth 65536 in
theorem t9_eq (L : grid0.Coords) (v1 : BitVec 32) :
    k0_t9_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 v1 (k0_pay1 (F := F)) (k0_pay2 (F := F)) k0_pay3 k0_pay4 k0_pay5 k0_pay6 k0_pay7 k0_pay8 k0_pay9 k0_pay10
    = scanBody L sIW sBW k0_t9_loop offs9 inb9 (fun _ => hitV (F := F)) lanes := rfl
theorem trips9 : k0_t9_loop.trips ≤ 18 := Nat.le_trans k0_t9_abs.2.1 (by decide)
theorem trips9_eq : Scf.trips k0_t9_loop.lb k0_t9_loop.ub k0_t9_loop.st = 16 := by decide
theorem offs9_eq : ∀ g k, offs9 g k = ![k.val, 16 * g.val] := fun g k => match g with
  | ⟨0, _⟩ => k0_off55_eq k
  | ⟨1, _⟩ => k0_off56_eq k
  | ⟨2, _⟩ => k0_off57_eq k
  | ⟨3, _⟩ => k0_off58_eq k
  | ⟨4, _⟩ => k0_off59_eq k
  | ⟨5, _⟩ => k0_off60_eq k
  | ⟨6, _⟩ => k0_off61_eq k
  | ⟨7, _⟩ => k0_off62_eq k

/-- Loop 10: offsets 63–70, stores the hit value. -/
abbrev offs10 : Fin 8 → Fin k0_t10_loop.trips → Fin 2 → Nat := ![k0_off63, k0_off64, k0_off65, k0_off66, k0_off67, k0_off68, k0_off69, k0_off70]
theorem inb10 : ∀ g k, ∀ a, offs10 g k a + S1x16.size a ≤ S18x128.size a := (fun g k => match g with | ⟨0, _⟩ => k0_off63_inb k | ⟨1, _⟩ => k0_off64_inb k | ⟨2, _⟩ => k0_off65_inb k | ⟨3, _⟩ => k0_off66_inb k | ⟨4, _⟩ => k0_off67_inb k | ⟨5, _⟩ => k0_off68_inb k | ⟨6, _⟩ => k0_off69_inb k | ⟨7, _⟩ => k0_off70_inb k)
set_option maxRecDepth 65536 in
theorem t10_eq (L : grid0.Coords)  :
    k0_t10_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay1 (F := F)) k0_pay3 k0_pay4 k0_pay5 k0_pay6 k0_pay7 k0_pay8 k0_pay9 k0_pay10
    = scanBody L sIW sBW k0_t10_loop offs10 inb10 (fun _ => hitV (F := F)) lanes := rfl
theorem trips10 : k0_t10_loop.trips ≤ 18 := Nat.le_trans k0_t10_abs.2.1 (by decide)
theorem trips10_eq : Scf.trips k0_t10_loop.lb k0_t10_loop.ub k0_t10_loop.st = 16 := by decide
theorem offs10_eq : ∀ g k, offs10 g k = ![k.val, 16 * g.val] := fun g k => match g with
  | ⟨0, _⟩ => k0_off63_eq k
  | ⟨1, _⟩ => k0_off64_eq k
  | ⟨2, _⟩ => k0_off65_eq k
  | ⟨3, _⟩ => k0_off66_eq k
  | ⟨4, _⟩ => k0_off67_eq k
  | ⟨5, _⟩ => k0_off68_eq k
  | ⟨6, _⟩ => k0_off69_eq k
  | ⟨7, _⟩ => k0_off70_eq k

/-- Loop 11: offsets 71–78, stores the hit value. -/
abbrev offs11 : Fin 8 → Fin k0_t11_loop.trips → Fin 2 → Nat := ![k0_off71, k0_off72, k0_off73, k0_off74, k0_off75, k0_off76, k0_off77, k0_off78]
theorem inb11 : ∀ g k, ∀ a, offs11 g k a + S1x16.size a ≤ S18x128.size a := (fun g k => match g with | ⟨0, _⟩ => k0_off71_inb k | ⟨1, _⟩ => k0_off72_inb k | ⟨2, _⟩ => k0_off73_inb k | ⟨3, _⟩ => k0_off74_inb k | ⟨4, _⟩ => k0_off75_inb k | ⟨5, _⟩ => k0_off76_inb k | ⟨6, _⟩ => k0_off77_inb k | ⟨7, _⟩ => k0_off78_inb k)
set_option maxRecDepth 65536 in
theorem t11_eq (L : grid0.Coords)  :
    k0_t11_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay1 (F := F)) k0_pay3 k0_pay4 k0_pay5 k0_pay6 k0_pay7 k0_pay8 k0_pay9 k0_pay10
    = scanBody L sIW sBW k0_t11_loop offs11 inb11 (fun _ => hitV (F := F)) lanes := rfl
theorem trips11 : k0_t11_loop.trips ≤ 18 := Nat.le_trans k0_t11_abs.2.1 (by decide)
theorem trips11_eq : Scf.trips k0_t11_loop.lb k0_t11_loop.ub k0_t11_loop.st = 18 := by decide
theorem offs11_eq : ∀ g k, offs11 g k = ![k.val, 16 * g.val] := fun g k => match g with
  | ⟨0, _⟩ => k0_off71_eq k
  | ⟨1, _⟩ => k0_off72_eq k
  | ⟨2, _⟩ => k0_off73_eq k
  | ⟨3, _⟩ => k0_off74_eq k
  | ⟨4, _⟩ => k0_off75_eq k
  | ⟨5, _⟩ => k0_off76_eq k
  | ⟨6, _⟩ => k0_off77_eq k
  | ⟨7, _⟩ => k0_off78_eq k

/-- Loop 12: offsets 79–86, stores the floor value. -/
abbrev offs12 : Fin 8 → Fin k0_t12_loop.trips → Fin 2 → Nat := ![k0_off79, k0_off80, k0_off81, k0_off82, k0_off83, k0_off84, k0_off85, k0_off86]
theorem inb12 : ∀ g k, ∀ a, offs12 g k a + S1x16.size a ≤ S18x128.size a := (fun g k => match g with | ⟨0, _⟩ => k0_off79_inb k | ⟨1, _⟩ => k0_off80_inb k | ⟨2, _⟩ => k0_off81_inb k | ⟨3, _⟩ => k0_off82_inb k | ⟨4, _⟩ => k0_off83_inb k | ⟨5, _⟩ => k0_off84_inb k | ⟨6, _⟩ => k0_off85_inb k | ⟨7, _⟩ => k0_off86_inb k)
set_option maxRecDepth 65536 in
theorem t12_eq (L : grid0.Coords)  :
    k0_t12_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay2 (F := F)) k0_pay3 k0_pay4 k0_pay5 k0_pay6 k0_pay7 k0_pay8 k0_pay9 k0_pay10
    = scanBody L sIW sBW k0_t12_loop offs12 inb12 (fun _ => bgV (F := F)) lanes := rfl
theorem trips12 : k0_t12_loop.trips ≤ 18 := Nat.le_trans k0_t12_abs.2.1 (by decide)
theorem trips12_eq : Scf.trips k0_t12_loop.lb k0_t12_loop.ub k0_t12_loop.st = 18 := by decide
theorem offs12_eq : ∀ g k, offs12 g k = ![k.val, 16 * g.val] := fun g k => match g with
  | ⟨0, _⟩ => k0_off79_eq k
  | ⟨1, _⟩ => k0_off80_eq k
  | ⟨2, _⟩ => k0_off81_eq k
  | ⟨3, _⟩ => k0_off82_eq k
  | ⟨4, _⟩ => k0_off83_eq k
  | ⟨5, _⟩ => k0_off84_eq k
  | ⟨6, _⟩ => k0_off85_eq k
  | ⟨7, _⟩ => k0_off86_eq k

/-- Loop 13: offsets 87–94, stores the floor value. -/
abbrev offs13 : Fin 8 → Fin k0_t13_loop.trips → Fin 2 → Nat := ![k0_off87, k0_off88, k0_off89, k0_off90, k0_off91, k0_off92, k0_off93, k0_off94]
theorem inb13 : ∀ g k, ∀ a, offs13 g k a + S1x16.size a ≤ S18x128.size a := (fun g k => match g with | ⟨0, _⟩ => k0_off87_inb k | ⟨1, _⟩ => k0_off88_inb k | ⟨2, _⟩ => k0_off89_inb k | ⟨3, _⟩ => k0_off90_inb k | ⟨4, _⟩ => k0_off91_inb k | ⟨5, _⟩ => k0_off92_inb k | ⟨6, _⟩ => k0_off93_inb k | ⟨7, _⟩ => k0_off94_inb k)
set_option maxRecDepth 65536 in
theorem t13_eq (L : grid0.Coords)  :
    k0_t13_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay2 (F := F)) k0_pay3 k0_pay4 k0_pay5 k0_pay6 k0_pay7 k0_pay8 k0_pay9 k0_pay10
    = scanBody L sIW sBW k0_t13_loop offs13 inb13 (fun _ => bgV (F := F)) lanes := rfl
theorem trips13 : k0_t13_loop.trips ≤ 18 := Nat.le_trans k0_t13_abs.2.1 (by decide)
theorem trips13_eq : Scf.trips k0_t13_loop.lb k0_t13_loop.ub k0_t13_loop.st = 16 := by decide
theorem offs13_eq : ∀ g k, offs13 g k = ![k.val, 16 * g.val] := fun g k => match g with
  | ⟨0, _⟩ => k0_off87_eq k
  | ⟨1, _⟩ => k0_off88_eq k
  | ⟨2, _⟩ => k0_off89_eq k
  | ⟨3, _⟩ => k0_off90_eq k
  | ⟨4, _⟩ => k0_off91_eq k
  | ⟨5, _⟩ => k0_off92_eq k
  | ⟨6, _⟩ => k0_off93_eq k
  | ⟨7, _⟩ => k0_off94_eq k

/-- Loop 14: offsets 95–102, stores the floor value. -/
abbrev offs14 : Fin 8 → Fin k0_t14_loop.trips → Fin 2 → Nat := ![k0_off95, k0_off96, k0_off97, k0_off98, k0_off99, k0_off100, k0_off101, k0_off102]
theorem inb14 : ∀ g k, ∀ a, offs14 g k a + S1x16.size a ≤ S18x128.size a := (fun g k => match g with | ⟨0, _⟩ => k0_off95_inb k | ⟨1, _⟩ => k0_off96_inb k | ⟨2, _⟩ => k0_off97_inb k | ⟨3, _⟩ => k0_off98_inb k | ⟨4, _⟩ => k0_off99_inb k | ⟨5, _⟩ => k0_off100_inb k | ⟨6, _⟩ => k0_off101_inb k | ⟨7, _⟩ => k0_off102_inb k)
set_option maxRecDepth 65536 in
theorem t14_eq (L : grid0.Coords) (v1 : BitVec 32) :
    k0_t14_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 v1 (k0_pay1 (F := F)) (k0_pay2 (F := F)) k0_pay3 k0_pay4 k0_pay5 k0_pay6 k0_pay7 k0_pay8 k0_pay9 k0_pay10
    = scanBody L sIW sBW k0_t14_loop offs14 inb14 (fun _ => bgV (F := F)) lanes := rfl
theorem trips14 : k0_t14_loop.trips ≤ 18 := Nat.le_trans k0_t14_abs.2.1 (by decide)
theorem trips14_eq : Scf.trips k0_t14_loop.lb k0_t14_loop.ub k0_t14_loop.st = 16 := by decide
theorem offs14_eq : ∀ g k, offs14 g k = ![k.val, 16 * g.val] := fun g k => match g with
  | ⟨0, _⟩ => k0_off95_eq k
  | ⟨1, _⟩ => k0_off96_eq k
  | ⟨2, _⟩ => k0_off97_eq k
  | ⟨3, _⟩ => k0_off98_eq k
  | ⟨4, _⟩ => k0_off99_eq k
  | ⟨5, _⟩ => k0_off100_eq k
  | ⟨6, _⟩ => k0_off101_eq k
  | ⟨7, _⟩ => k0_off102_eq k

/-- Loop 15: offsets 103–110, stores the hit value. -/
abbrev offs15 : Fin 8 → Fin k0_t15_loop.trips → Fin 2 → Nat := ![k0_off103, k0_off104, k0_off105, k0_off106, k0_off107, k0_off108, k0_off109, k0_off110]
theorem inb15 : ∀ g k, ∀ a, offs15 g k a + S1x16.size a ≤ S18x128.size a := (fun g k => match g with | ⟨0, _⟩ => k0_off103_inb k | ⟨1, _⟩ => k0_off104_inb k | ⟨2, _⟩ => k0_off105_inb k | ⟨3, _⟩ => k0_off106_inb k | ⟨4, _⟩ => k0_off107_inb k | ⟨5, _⟩ => k0_off108_inb k | ⟨6, _⟩ => k0_off109_inb k | ⟨7, _⟩ => k0_off110_inb k)
set_option maxRecDepth 65536 in
theorem t15_eq (L : grid0.Coords) (v1 : BitVec 32) :
    k0_t15_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 v1 (k0_pay1 (F := F)) (k0_pay2 (F := F)) k0_pay3 k0_pay4 k0_pay5 k0_pay6 k0_pay7 k0_pay8 k0_pay9 k0_pay10
    = scanBody L sIW sBW k0_t15_loop offs15 inb15 (fun _ => hitV (F := F)) lanes := rfl
theorem trips15 : k0_t15_loop.trips ≤ 18 := Nat.le_trans k0_t15_abs.2.1 (by decide)
theorem trips15_eq : Scf.trips k0_t15_loop.lb k0_t15_loop.ub k0_t15_loop.st = 16 := by decide
theorem offs15_eq : ∀ g k, offs15 g k = ![k.val, 16 * g.val] := fun g k => match g with
  | ⟨0, _⟩ => k0_off103_eq k
  | ⟨1, _⟩ => k0_off104_eq k
  | ⟨2, _⟩ => k0_off105_eq k
  | ⟨3, _⟩ => k0_off106_eq k
  | ⟨4, _⟩ => k0_off107_eq k
  | ⟨5, _⟩ => k0_off108_eq k
  | ⟨6, _⟩ => k0_off109_eq k
  | ⟨7, _⟩ => k0_off110_eq k

/-- Loop 16: offsets 111–118, stores the hit value. -/
abbrev offs16 : Fin 8 → Fin k0_t16_loop.trips → Fin 2 → Nat := ![k0_off111, k0_off112, k0_off113, k0_off114, k0_off115, k0_off116, k0_off117, k0_off118]
theorem inb16 : ∀ g k, ∀ a, offs16 g k a + S1x16.size a ≤ S18x128.size a := (fun g k => match g with | ⟨0, _⟩ => k0_off111_inb k | ⟨1, _⟩ => k0_off112_inb k | ⟨2, _⟩ => k0_off113_inb k | ⟨3, _⟩ => k0_off114_inb k | ⟨4, _⟩ => k0_off115_inb k | ⟨5, _⟩ => k0_off116_inb k | ⟨6, _⟩ => k0_off117_inb k | ⟨7, _⟩ => k0_off118_inb k)
set_option maxRecDepth 65536 in
theorem t16_eq (L : grid0.Coords)  :
    k0_t16_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay1 (F := F)) (k0_pay2 (F := F)) k0_pay3 k0_pay4 k0_pay5 k0_pay6 k0_pay7 k0_pay8 k0_pay9 k0_pay10
    = scanBody L sIW sBW k0_t16_loop offs16 inb16 (fun _ => hitV (F := F)) lanes := rfl
theorem trips16 : k0_t16_loop.trips ≤ 18 := Nat.le_trans k0_t16_abs.2.1 (by decide)
theorem trips16_eq : Scf.trips k0_t16_loop.lb k0_t16_loop.ub k0_t16_loop.st = 16 := by decide
theorem offs16_eq : ∀ g k, offs16 g k = ![k.val, 16 * g.val] := fun g k => match g with
  | ⟨0, _⟩ => k0_off111_eq k
  | ⟨1, _⟩ => k0_off112_eq k
  | ⟨2, _⟩ => k0_off113_eq k
  | ⟨3, _⟩ => k0_off114_eq k
  | ⟨4, _⟩ => k0_off115_eq k
  | ⟨5, _⟩ => k0_off116_eq k
  | ⟨6, _⟩ => k0_off117_eq k
  | ⟨7, _⟩ => k0_off118_eq k

/-- Loop 17: offsets 119–126, stores the hit value. -/
abbrev offs17 : Fin 8 → Fin k0_t17_loop.trips → Fin 2 → Nat := ![k0_off119, k0_off120, k0_off121, k0_off122, k0_off123, k0_off124, k0_off125, k0_off126]
theorem inb17 : ∀ g k, ∀ a, offs17 g k a + S1x16.size a ≤ S18x128.size a := (fun g k => match g with | ⟨0, _⟩ => k0_off119_inb k | ⟨1, _⟩ => k0_off120_inb k | ⟨2, _⟩ => k0_off121_inb k | ⟨3, _⟩ => k0_off122_inb k | ⟨4, _⟩ => k0_off123_inb k | ⟨5, _⟩ => k0_off124_inb k | ⟨6, _⟩ => k0_off125_inb k | ⟨7, _⟩ => k0_off126_inb k)
set_option maxRecDepth 65536 in
theorem t17_eq (L : grid0.Coords)  :
    k0_t17_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay1 (F := F)) (k0_pay2 (F := F)) k0_pay3 k0_pay4 k0_pay5 k0_pay6 k0_pay7 k0_pay8 k0_pay9 k0_pay10
    = scanBody L sIW sBW k0_t17_loop offs17 inb17 (fun _ => hitV (F := F)) lanes := rfl
theorem trips17 : k0_t17_loop.trips ≤ 18 := Nat.le_trans k0_t17_abs.2.1 (by decide)
theorem trips17_eq : Scf.trips k0_t17_loop.lb k0_t17_loop.ub k0_t17_loop.st = 18 := by decide
theorem offs17_eq : ∀ g k, offs17 g k = ![k.val, 16 * g.val] := fun g k => match g with
  | ⟨0, _⟩ => k0_off119_eq k
  | ⟨1, _⟩ => k0_off120_eq k
  | ⟨2, _⟩ => k0_off121_eq k
  | ⟨3, _⟩ => k0_off122_eq k
  | ⟨4, _⟩ => k0_off123_eq k
  | ⟨5, _⟩ => k0_off124_eq k
  | ⟨6, _⟩ => k0_off125_eq k
  | ⟨7, _⟩ => k0_off126_eq k

/-- Loop 18: offsets 127–134, stores the floor value. -/
abbrev offs18 : Fin 8 → Fin k0_t18_loop.trips → Fin 2 → Nat := ![k0_off127, k0_off128, k0_off129, k0_off130, k0_off131, k0_off132, k0_off133, k0_off134]
theorem inb18 : ∀ g k, ∀ a, offs18 g k a + S1x16.size a ≤ S18x128.size a := (fun g k => match g with | ⟨0, _⟩ => k0_off127_inb k | ⟨1, _⟩ => k0_off128_inb k | ⟨2, _⟩ => k0_off129_inb k | ⟨3, _⟩ => k0_off130_inb k | ⟨4, _⟩ => k0_off131_inb k | ⟨5, _⟩ => k0_off132_inb k | ⟨6, _⟩ => k0_off133_inb k | ⟨7, _⟩ => k0_off134_inb k)
set_option maxRecDepth 65536 in
theorem t18_eq (L : grid0.Coords)  :
    k0_t18_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay1 (F := F)) (k0_pay2 (F := F)) k0_pay3 k0_pay4 k0_pay5 k0_pay6 k0_pay7 k0_pay8 k0_pay9 k0_pay10
    = scanBody L sIW sBW k0_t18_loop offs18 inb18 (fun _ => bgV (F := F)) lanes := rfl
theorem trips18 : k0_t18_loop.trips ≤ 18 := Nat.le_trans k0_t18_abs.2.1 (by decide)
theorem trips18_eq : Scf.trips k0_t18_loop.lb k0_t18_loop.ub k0_t18_loop.st = 18 := by decide
theorem offs18_eq : ∀ g k, offs18 g k = ![k.val, 16 * g.val] := fun g k => match g with
  | ⟨0, _⟩ => k0_off127_eq k
  | ⟨1, _⟩ => k0_off128_eq k
  | ⟨2, _⟩ => k0_off129_eq k
  | ⟨3, _⟩ => k0_off130_eq k
  | ⟨4, _⟩ => k0_off131_eq k
  | ⟨5, _⟩ => k0_off132_eq k
  | ⟨6, _⟩ => k0_off133_eq k
  | ⟨7, _⟩ => k0_off134_eq k

/-- Loop 19: offsets 135–142, stores the floor value. -/
abbrev offs19 : Fin 8 → Fin k0_t19_loop.trips → Fin 2 → Nat := ![k0_off135, k0_off136, k0_off137, k0_off138, k0_off139, k0_off140, k0_off141, k0_off142]
theorem inb19 : ∀ g k, ∀ a, offs19 g k a + S1x16.size a ≤ S18x128.size a := (fun g k => match g with | ⟨0, _⟩ => k0_off135_inb k | ⟨1, _⟩ => k0_off136_inb k | ⟨2, _⟩ => k0_off137_inb k | ⟨3, _⟩ => k0_off138_inb k | ⟨4, _⟩ => k0_off139_inb k | ⟨5, _⟩ => k0_off140_inb k | ⟨6, _⟩ => k0_off141_inb k | ⟨7, _⟩ => k0_off142_inb k)
set_option maxRecDepth 65536 in
theorem t19_eq (L : grid0.Coords)  :
    k0_t19_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay2 (F := F)) k0_pay3 k0_pay4 k0_pay5 k0_pay6 k0_pay7 k0_pay8 k0_pay9 k0_pay10
    = scanBody L sIW sBW k0_t19_loop offs19 inb19 (fun _ => bgV (F := F)) lanes := rfl
theorem trips19 : k0_t19_loop.trips ≤ 18 := Nat.le_trans k0_t19_abs.2.1 (by decide)
theorem trips19_eq : Scf.trips k0_t19_loop.lb k0_t19_loop.ub k0_t19_loop.st = 16 := by decide
theorem offs19_eq : ∀ g k, offs19 g k = ![k.val, 16 * g.val] := fun g k => match g with
  | ⟨0, _⟩ => k0_off135_eq k
  | ⟨1, _⟩ => k0_off136_eq k
  | ⟨2, _⟩ => k0_off137_eq k
  | ⟨3, _⟩ => k0_off138_eq k
  | ⟨4, _⟩ => k0_off139_eq k
  | ⟨5, _⟩ => k0_off140_eq k
  | ⟨6, _⟩ => k0_off141_eq k
  | ⟨7, _⟩ => k0_off142_eq k

/-- Loop 20: offsets 143–150, stores the floor value. -/
abbrev offs20 : Fin 8 → Fin k0_t20_loop.trips → Fin 2 → Nat := ![k0_off143, k0_off144, k0_off145, k0_off146, k0_off147, k0_off148, k0_off149, k0_off150]
theorem inb20 : ∀ g k, ∀ a, offs20 g k a + S1x16.size a ≤ S18x128.size a := (fun g k => match g with | ⟨0, _⟩ => k0_off143_inb k | ⟨1, _⟩ => k0_off144_inb k | ⟨2, _⟩ => k0_off145_inb k | ⟨3, _⟩ => k0_off146_inb k | ⟨4, _⟩ => k0_off147_inb k | ⟨5, _⟩ => k0_off148_inb k | ⟨6, _⟩ => k0_off149_inb k | ⟨7, _⟩ => k0_off150_inb k)
set_option maxRecDepth 65536 in
theorem t20_eq (L : grid0.Coords)  :
    k0_t20_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay2 (F := F)) k0_pay3 k0_pay4 k0_pay5 k0_pay6 k0_pay7 k0_pay8 k0_pay9 k0_pay10
    = scanBody L sIW sBW k0_t20_loop offs20 inb20 (fun _ => bgV (F := F)) lanes := rfl
theorem trips20 : k0_t20_loop.trips ≤ 18 := Nat.le_trans k0_t20_abs.2.1 (by decide)
theorem trips20_eq : Scf.trips k0_t20_loop.lb k0_t20_loop.ub k0_t20_loop.st = 16 := by decide
theorem offs20_eq : ∀ g k, offs20 g k = ![k.val, 16 * g.val] := fun g k => match g with
  | ⟨0, _⟩ => k0_off143_eq k
  | ⟨1, _⟩ => k0_off144_eq k
  | ⟨2, _⟩ => k0_off145_eq k
  | ⟨3, _⟩ => k0_off146_eq k
  | ⟨4, _⟩ => k0_off147_eq k
  | ⟨5, _⟩ => k0_off148_eq k
  | ⟨6, _⟩ => k0_off149_eq k
  | ⟨7, _⟩ => k0_off150_eq k

/-- Loop 21: offsets 151–158, stores the hit value. -/
abbrev offs21 : Fin 8 → Fin k0_t21_loop.trips → Fin 2 → Nat := ![k0_off151, k0_off152, k0_off153, k0_off154, k0_off155, k0_off156, k0_off157, k0_off158]
theorem inb21 : ∀ g k, ∀ a, offs21 g k a + S1x16.size a ≤ S18x128.size a := (fun g k => match g with | ⟨0, _⟩ => k0_off151_inb k | ⟨1, _⟩ => k0_off152_inb k | ⟨2, _⟩ => k0_off153_inb k | ⟨3, _⟩ => k0_off154_inb k | ⟨4, _⟩ => k0_off155_inb k | ⟨5, _⟩ => k0_off156_inb k | ⟨6, _⟩ => k0_off157_inb k | ⟨7, _⟩ => k0_off158_inb k)
set_option maxRecDepth 65536 in
theorem t21_eq (L : grid0.Coords) (v1 : BitVec 32) (c512_i32_96 : BitVec 32) :
    k0_t21_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 v1 (k0_pay1 (F := F)) k0_pay3 k0_pay4 k0_pay5 k0_pay6 k0_pay7 k0_pay8 k0_pay9 k0_pay10 c512_i32_96
    = scanBody L sIW sBW k0_t21_loop offs21 inb21 (fun _ => hitV (F := F)) lanes := rfl
theorem trips21 : k0_t21_loop.trips ≤ 18 := Nat.le_trans k0_t21_abs.2.1 (by decide)
theorem trips21_eq : Scf.trips k0_t21_loop.lb k0_t21_loop.ub k0_t21_loop.st = 16 := by decide
theorem offs21_eq : ∀ g k, offs21 g k = ![k.val, 16 * g.val] := fun g k => match g with
  | ⟨0, _⟩ => k0_off151_eq k
  | ⟨1, _⟩ => k0_off152_eq k
  | ⟨2, _⟩ => k0_off153_eq k
  | ⟨3, _⟩ => k0_off154_eq k
  | ⟨4, _⟩ => k0_off155_eq k
  | ⟨5, _⟩ => k0_off156_eq k
  | ⟨6, _⟩ => k0_off157_eq k
  | ⟨7, _⟩ => k0_off158_eq k

/-- Loop 22: offsets 159–166, stores the hit value. -/
abbrev offs22 : Fin 8 → Fin k0_t22_loop.trips → Fin 2 → Nat := ![k0_off159, k0_off160, k0_off161, k0_off162, k0_off163, k0_off164, k0_off165, k0_off166]
theorem inb22 : ∀ g k, ∀ a, offs22 g k a + S1x16.size a ≤ S18x128.size a := (fun g k => match g with | ⟨0, _⟩ => k0_off159_inb k | ⟨1, _⟩ => k0_off160_inb k | ⟨2, _⟩ => k0_off161_inb k | ⟨3, _⟩ => k0_off162_inb k | ⟨4, _⟩ => k0_off163_inb k | ⟨5, _⟩ => k0_off164_inb k | ⟨6, _⟩ => k0_off165_inb k | ⟨7, _⟩ => k0_off166_inb k)
set_option maxRecDepth 65536 in
theorem t22_eq (L : grid0.Coords) (v1 : BitVec 32) (c512_i32_96 : BitVec 32) :
    k0_t22_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 v1 (k0_pay1 (F := F)) k0_pay3 k0_pay4 k0_pay5 k0_pay6 k0_pay7 k0_pay8 k0_pay9 k0_pay10 c512_i32_96
    = scanBody L sIW sBW k0_t22_loop offs22 inb22 (fun _ => hitV (F := F)) lanes := rfl
theorem trips22 : k0_t22_loop.trips ≤ 18 := Nat.le_trans k0_t22_abs.2.1 (by decide)
theorem trips22_eq : Scf.trips k0_t22_loop.lb k0_t22_loop.ub k0_t22_loop.st = 16 := by decide
theorem offs22_eq : ∀ g k, offs22 g k = ![k.val, 16 * g.val] := fun g k => match g with
  | ⟨0, _⟩ => k0_off159_eq k
  | ⟨1, _⟩ => k0_off160_eq k
  | ⟨2, _⟩ => k0_off161_eq k
  | ⟨3, _⟩ => k0_off162_eq k
  | ⟨4, _⟩ => k0_off163_eq k
  | ⟨5, _⟩ => k0_off164_eq k
  | ⟨6, _⟩ => k0_off165_eq k
  | ⟨7, _⟩ => k0_off166_eq k

/-- Loop 23: offsets 167–174, stores the hit value. -/
abbrev offs23 : Fin 8 → Fin k0_t23_loop.trips → Fin 2 → Nat := ![k0_off167, k0_off168, k0_off169, k0_off170, k0_off171, k0_off172, k0_off173, k0_off174]
theorem inb23 : ∀ g k, ∀ a, offs23 g k a + S1x16.size a ≤ S18x128.size a := (fun g k => match g with | ⟨0, _⟩ => k0_off167_inb k | ⟨1, _⟩ => k0_off168_inb k | ⟨2, _⟩ => k0_off169_inb k | ⟨3, _⟩ => k0_off170_inb k | ⟨4, _⟩ => k0_off171_inb k | ⟨5, _⟩ => k0_off172_inb k | ⟨6, _⟩ => k0_off173_inb k | ⟨7, _⟩ => k0_off174_inb k)
set_option maxRecDepth 65536 in
theorem t23_eq (L : grid0.Coords)  :
    k0_t23_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay1 (F := F)) k0_pay3 k0_pay4 k0_pay5 k0_pay6 k0_pay7 k0_pay8 k0_pay9 k0_pay10
    = scanBody L sIW sBW k0_t23_loop offs23 inb23 (fun _ => hitV (F := F)) lanes := rfl
theorem trips23 : k0_t23_loop.trips ≤ 18 := Nat.le_trans k0_t23_abs.2.1 (by decide)
theorem trips23_eq : Scf.trips k0_t23_loop.lb k0_t23_loop.ub k0_t23_loop.st = 18 := by decide
theorem offs23_eq : ∀ g k, offs23 g k = ![k.val, 16 * g.val] := fun g k => match g with
  | ⟨0, _⟩ => k0_off167_eq k
  | ⟨1, _⟩ => k0_off168_eq k
  | ⟨2, _⟩ => k0_off169_eq k
  | ⟨3, _⟩ => k0_off170_eq k
  | ⟨4, _⟩ => k0_off171_eq k
  | ⟨5, _⟩ => k0_off172_eq k
  | ⟨6, _⟩ => k0_off173_eq k
  | ⟨7, _⟩ => k0_off174_eq k

end Cert.Proof.KI

end
-- ==== Proof.KBlock.lean ====
/-
  A block of 128 samples, built and cleared.

  A block starts at the floor value everywhere. The fifty label rows of its 128 samples arrive in three pieces (rows
  0..15, 16..31, 32..49), each scanned with the hit value: afterwards entry (k, b) is the hit value exactly when one of
  the fifty labels of sample b is k — the transposed result on that block. Scanning the same three pieces (in any order)
  with the floor value then returns every entry to the floor value: an entry that was hit is named by one of the pieces
  again, and an entry that was not hit was the floor value already.
-/
import proofs.«211736_g82076825026625_cont_sun_c4_101_27_alg».proof.Proof.KScan

noncomputable section

namespace Cert.Proof.KI

open Cert.KernelIdeal Cert.KernelIdeal.Gen
open Idealize.ShloMosaic Idealize.ShloMosaic.ValueIdx

variable {F : FTy → Type} [FloatOps F]

/-- Piece `X` of the index scratch holds, in its first `n` rows, the label rows `l0 .. l0 + n - 1` of the columns
    `c0 .. c0 + 127` of the transposed labels `xt`. -/
def HoldsRows (d : Dev nD) (L : grid0.Coords) (X : Buf (Elt F) ((VT d L).loc cc0_scratch0)) (xt : S50x16384.Idx → BitVec 32)
    (l0 n c0 : Nat) (hl : l0 + n ≤ 50) (hc : c0 + 128 ≤ 16384) : Prop :=
  ∀ (r : Fin 18) (col : Fin 128) (hr : r.val < n),
    X (ix2 r col) = xt (ix2 (⟨l0 + r.val, by omega⟩ : Fin 50) (⟨c0 + col.val, by have := col.isLt; omega⟩ : Fin 16384))

/-- No rows scanned: the block as it was. -/
theorem scanRows_zero (d : Dev nD) (L : grid0.Coords) (c : F .f32) (xi : Buf (Elt F) ((VT d L).loc cc0_scratch0))
    (fb : Buf (Elt F) ((VT d L).loc cc0_scratch1)) : scanRows d L c xi 0 fb = fb := by
  funext j
  unfold scanRows
  classical
  exact if_neg (by rintro ⟨r, hr, _⟩; exact Nat.not_lt_zero _ hr)

/-- The block's entries after rows have been scanned, as a proposition about the transposed labels. -/
theorem scanRows_apply (d : Dev nD) (L : grid0.Coords) (c : F .f32) (X : Buf (Elt F) ((VT d L).loc cc0_scratch0))
    (xt : S50x16384.Idx → BitVec 32) (l0 n c0 : Nat) (hl : l0 + n ≤ 50) (hc : c0 + 128 ≤ 16384) (hn : n ≤ 18)
    (hX : HoldsRows d L X xt l0 n c0 hl hc) (fb : Buf (Elt F) ((VT d L).loc cc0_scratch1)) (j : S1000x128.Idx) :
    scanRows d L c X n fb j
      = (open Classical in if ∃ l : Fin 50, l0 ≤ l.val ∧ l.val < l0 + n
            ∧ (xt (ix2 l (⟨c0 + (j 1).val, by have h : (j 1).val < 128 := (j 1).isLt; omega⟩ : Fin 16384))).toNat = (j 0).val then c else fb j) := by
  unfold scanRows
  classical
  have hj1 : (j 1).val < 128 := (j 1).isLt
  have e : (∃ r : Fin 18, r.val < n ∧ (X (ix2 r (⟨(j 1).val, (j 1).isLt⟩ : Fin 128))).toNat = (j 0).val)
      ↔ ∃ l : Fin 50, l0 ≤ l.val ∧ l.val < l0 + n
            ∧ (xt (ix2 l (⟨c0 + (j 1).val, by omega⟩ : Fin 16384))).toNat = (j 0).val := by
    constructor
    · rintro ⟨r, hr, hx⟩
      refine ⟨⟨l0 + r.val, by omega⟩, Nat.le_add_right _ _, by show l0 + r.val < l0 + n; omega, ?_⟩
      rw [← hX r ⟨(j 1).val, (j 1).isLt⟩ hr]; exact hx
    · rintro ⟨l, h1, h2, hx⟩
      refine ⟨⟨l.val - l0, by omega⟩, by show l.val - l0 < n; omega, ?_⟩
      rw [hX ⟨l.val - l0, by omega⟩ ⟨(j 1).val, (j 1).isLt⟩ (by show l.val - l0 < n; omega)]
      have hl' : (⟨l0 + (l.val - l0), by omega⟩ : Fin 50) = l := Fin.ext (by show l0 + (l.val - l0) = l.val; omega)
      rw [hl']; exact hx
  by_cases h : ∃ l : Fin 50, l0 ≤ l.val ∧ l.val < l0 + n
            ∧ (xt (ix2 l (⟨c0 + (j 1).val, by omega⟩ : Fin 16384))).toNat = (j 0).val
  · rw [if_pos (e.mpr h), if_pos h]
  · rw [if_neg (fun h' => h (e.mp h')), if_neg h]

/-- The transposed result on the block whose first column is `c0`: the hit value at (k, b) when one of the fifty labels
    of sample c0 + b is k, the floor value otherwise. -/
def blockSpec (hit bg : F .f32) (xt : S50x16384.Idx → BitVec 32) (c0 : Nat) (hc : c0 + 128 ≤ 16384) (j : S1000x128.Idx) : F .f32 :=
  @ite _ (∃ l : Fin 50, (xt (ix2 l (⟨c0 + (j 1).val, by have h : (j 1).val < 128 := (j 1).isLt; omega⟩ : Fin 16384))).toNat = (j 0).val) (Classical.propDecidable _) hit bg

omit [FloatOps F] in
theorem names_split (xt : S50x16384.Idx → BitVec 32) (c0 : Nat) (hc : c0 + 128 ≤ 16384) (j : S1000x128.Idx) :
    (∃ l : Fin 50, (xt (ix2 l (⟨c0 + (j 1).val, by have h : (j 1).val < 128 := (j 1).isLt; omega⟩ : Fin 16384))).toNat = (j 0).val) ↔
      ((∃ l : Fin 50, 32 ≤ l.val ∧ l.val < 32 + 18 ∧ (xt (ix2 l (⟨c0 + (j 1).val, by have h : (j 1).val < 128 := (j 1).isLt; omega⟩ : Fin 16384))).toNat = (j 0).val)
        ∨ (∃ l : Fin 50, 16 ≤ l.val ∧ l.val < 16 + 16 ∧ (xt (ix2 l (⟨c0 + (j 1).val, by have h : (j 1).val < 128 := (j 1).isLt; omega⟩ : Fin 16384))).toNat = (j 0).val)
        ∨ (∃ l : Fin 50, 0 ≤ l.val ∧ l.val < 0 + 16 ∧ (xt (ix2 l (⟨c0 + (j 1).val, by have h : (j 1).val < 128 := (j 1).isLt; omega⟩ : Fin 16384))).toNat = (j 0).val)) := by
  constructor
  · rintro ⟨l, hl⟩
    have := l.isLt
    by_cases a2 : 32 ≤ l.val
    · exact Or.inl ⟨l, a2, by omega, hl⟩
    · by_cases a1 : 16 ≤ l.val
      · exact Or.inr (Or.inl ⟨l, a1, by omega, hl⟩)
      · exact Or.inr (Or.inr ⟨l, Nat.zero_le _, by omega, hl⟩)
  · rintro (⟨l, _, _, hl⟩ | ⟨l, _, _, hl⟩ | ⟨l, _, _, hl⟩) <;> exact ⟨l, hl⟩

/-- **A block built**: from the floor value everywhere, the three pieces scanned with the hit value leave the transposed
    result on the block's 128 columns. -/
theorem block_built (d : Dev nD) (L : grid0.Coords) (hit bg : F .f32) (xt : S50x16384.Idx → BitVec 32) (c0 : Nat)
    (hc : c0 + 128 ≤ 16384) (X0 X1 X2 : Buf (Elt F) ((VT d L).loc cc0_scratch0))
    (h0 : HoldsRows d L X0 xt 0 16 c0 (by decide) hc) (h1 : HoldsRows d L X1 xt 16 16 c0 (by decide) hc)
    (h2 : HoldsRows d L X2 xt 32 18 c0 (by decide) hc) (j : S1000x128.Idx) :
    scanRows d L hit X2 18 (scanRows d L hit X1 16 (scanRows d L hit X0 16 (fun _ => bg))) j = blockSpec hit bg xt c0 hc j := by
  rw [scanRows_apply d L hit X2 xt 32 18 c0 (by decide) hc (by decide) h2,
    scanRows_apply d L hit X1 xt 16 16 c0 (by decide) hc (by decide) h1,
    scanRows_apply d L hit X0 xt 0 16 c0 (by decide) hc (by decide) h0]
  unfold blockSpec
  have hs := names_split xt c0 hc j
  by_cases a2 : ∃ l : Fin 50, 32 ≤ l.val ∧ l.val < 32 + 18 ∧ (xt (ix2 l (⟨c0 + (j 1).val, by have h : (j 1).val < 128 := (j 1).isLt; omega⟩ : Fin 16384))).toNat = (j 0).val
  · rw [if_pos a2, if_pos (hs.mpr (Or.inl a2))]
  · rw [if_neg a2]
    by_cases a1 : ∃ l : Fin 50, 16 ≤ l.val ∧ l.val < 16 + 16 ∧ (xt (ix2 l (⟨c0 + (j 1).val, by have h : (j 1).val < 128 := (j 1).isLt; omega⟩ : Fin 16384))).toNat = (j 0).val
    · rw [if_pos a1, if_pos (hs.mpr (Or.inr (Or.inl a1)))]
    · rw [if_neg a1]
      by_cases a0 : ∃ l : Fin 50, 0 ≤ l.val ∧ l.val < 0 + 16 ∧ (xt (ix2 l (⟨c0 + (j 1).val, by have h : (j 1).val < 128 := (j 1).isLt; omega⟩ : Fin 16384))).toNat = (j 0).val
      · rw [if_pos a0, if_pos (hs.mpr (Or.inr (Or.inr a0)))]
      · rw [if_neg a0, if_neg (fun h => (hs.mp h).elim a2 (fun h' => h'.elim a1 a0))]

/-- **A block cleared**: a block holding the transposed result, with the three pieces scanned again (the last piece
    first) with the floor value, is the floor value everywhere. -/
theorem block_cleared (d : Dev nD) (L : grid0.Coords) (hit bg : F .f32) (xt : S50x16384.Idx → BitVec 32) (c0 : Nat)
    (hc : c0 + 128 ≤ 16384) (X0 X1 X2 : Buf (Elt F) ((VT d L).loc cc0_scratch0))
    (h0 : HoldsRows d L X0 xt 0 16 c0 (by decide) hc) (h1 : HoldsRows d L X1 xt 16 16 c0 (by decide) hc)
    (h2 : HoldsRows d L X2 xt 32 18 c0 (by decide) hc) (B : Buf (Elt F) ((VT d L).loc cc0_scratch1))
    (hB : ∀ j : S1000x128.Idx, B j = blockSpec hit bg xt c0 hc j) (j : S1000x128.Idx) :
    scanRows d L bg X1 16 (scanRows d L bg X0 16 (scanRows d L bg X2 18 B)) j = bg := by
  rw [scanRows_apply d L bg X1 xt 16 16 c0 (by decide) hc (by decide) h1,
    scanRows_apply d L bg X0 xt 0 16 c0 (by decide) hc (by decide) h0,
    scanRows_apply d L bg X2 xt 32 18 c0 (by decide) hc (by decide) h2, hB j]
  unfold blockSpec
  have hs := names_split xt c0 hc j
  by_cases a1 : ∃ l : Fin 50, 16 ≤ l.val ∧ l.val < 16 + 16 ∧ (xt (ix2 l (⟨c0 + (j 1).val, by have h : (j 1).val < 128 := (j 1).isLt; omega⟩ : Fin 16384))).toNat = (j 0).val
  · rw [if_pos a1]
  · rw [if_neg a1]
    by_cases a0 : ∃ l : Fin 50, 0 ≤ l.val ∧ l.val < 0 + 16 ∧ (xt (ix2 l (⟨c0 + (j 1).val, by have h : (j 1).val < 128 := (j 1).isLt; omega⟩ : Fin 16384))).toNat = (j 0).val
    · rw [if_pos a0]
    · rw [if_neg a0]
      by_cases a2 : ∃ l : Fin 50, 32 ≤ l.val ∧ l.val < 32 + 18 ∧ (xt (ix2 l (⟨c0 + (j 1).val, by have h : (j 1).val < 128 := (j 1).isLt; omega⟩ : Fin 16384))).toNat = (j 0).val
      · rw [if_pos a2]
      · rw [if_neg a2, if_neg (fun h => (hs.mp h).elim a2 (fun h' => h'.elim a1 a0))]

/-- The block spec is the transposed result read on the block's columns. -/
theorem outT_block (hit bg : F .f32) (xt : S50x16384.Idx → BitVec 32) (c0 : Nat) (hc : c0 + 128 ≤ 16384) (j : S1000x128.Idx) :
    outT hit bg xt (ix2 (j 0) (⟨c0 + (j 1).val, by have h : (j 1).val < 128 := (j 1).isLt; omega⟩ : Fin 16384)) = blockSpec hit bg xt c0 hc j := by
  unfold outT blockSpec
  classical
  by_cases h : ∃ l : Fin 50, (xt (ix2 l (⟨c0 + (j 1).val, by have h : (j 1).val < 128 := (j 1).isLt; omega⟩ : Fin 16384))).toNat = (j 0).val
  · rw [if_pos h]; exact (if_pos h).symm
  · rw [if_neg h]; exact (if_neg h).symm

end Cert.Proof.KI

end
-- ==== Proof.KDma.lean ====
/-
  What a copy of label rows leaves in the index scratch.

  A copy moves n rows (16 or 18) of 128 columns of the transposed labels, from row l0 and column c0 on, into the first
  n rows of the index scratch. Whatever the scratch held, and whatever was written there before, its first n rows then
  hold those label rows: the newest write decides every entry it covers. The transposed labels at (l, b) are the labels
  at (b, l), which the precondition bounds: so every entry of those rows names a class.
-/
import proofs.«211736_g82076825026625_cont_sun_c4_101_27_alg».proof.Proof.KBlock
import proofs.«211736_g82076825026625_cont_sun_c4_101_27_alg».proof.Proof.KOpen

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

local notation "sIW" => (Memref.whole Cert.KernelIdeal.cc0_scratch0 : Memref Cert.KernelIdeal.sig Kind.scVector Space.vmem Cert.KernelIdeal.S18x128 EltTy.i32)
local notation "sBW" => (Memref.whole Cert.KernelIdeal.cc0_scratch1 : Memref Cert.KernelIdeal.sig Kind.scVector Space.vmem Cert.KernelIdeal.S1000x128 EltTy.f32)
local notation "tVW" => (Memref.whole Cert.KernelIdeal.main_v0_scv : Memref Cert.KernelIdeal.sig Kind.scVector Space.hbm Cert.KernelIdeal.S50x16384 EltTy.i32)
local notation "oVW" => (Memref.whole Cert.KernelIdeal.main_v1_scv : Memref Cert.KernelIdeal.sig Kind.scVector Space.hbm Cert.KernelIdeal.S1000x16384 EltTy.f32)

variable (m : (ℓ : Loc nD τ sig) → Buf (Elt F) ℓ)

/-! ## The transposed labels -/

/-- The transposed labels at (l, b) are the labels at (b, l). -/
theorem xtv_apply (d : Dev nD) (l : Fin 50) (b : Fin 16384) : xtv m d (ix2 l b) = m (xLoc d) (ix2 b l) := by
  unfold xtv
  show m (xLoc d) (transposes_S16384x50_S50x16384_1_0.src (ix2 l b)) = _
  exact congrArg (m (xLoc d)) (funext fun a => match a with | ⟨0, _⟩ => Fin.ext rfl | ⟨1, _⟩ => Fin.ext rfl)

/-- A word between 0 and 999 as a signed word is below 1000 read unsigned. -/
theorem toNat_lt_of_toInt (w : BitVec 32) (h0 : 0 ≤ w.toInt) (h1 : w.toInt ≤ 999) : w.toNat < 1000 := by
  have hlt : w.toNat < 2 ^ 32 := w.isLt
  rw [BitVec.toInt_eq_toNat_cond] at h0 h1
  split at h0 <;> omega

/-! ## A block's first column -/

/-- The first column of block t of the subcore at L. -/
def c0 (L : grid0.Coords) (t : Nat) : Nat := 1024 * (L 1).val + 512 * (L 0).val + 128 * t
theorem c0_le (L : grid0.Coords) (t : Fin 4) : c0 L t.val + 128 ≤ 16384 := by
  have h0 : (L 0).val < 2 := (L 0).isLt
  have h1 : (L 1).val < 16 := (L 1).isLt
  have := t.isLt
  unfold c0; omega
theorem c0_lt (L : grid0.Coords) (t : Fin 4) (j : S1000x128.Idx) : c0 L t.val + (j 1).val < 16384 := by
  have h := c0_le L t
  have h3 : (j 1).val < 128 := (j 1).isLt
  omega

theorem vec2_congr {a b a' b' : Nat} (ha : a = a') (hb : b = b') : (![a, b] : Fin 2 → Nat) = ![a', b'] := by
  subst ha; subst hb; rfl

/-! ## After a copy of label rows -/

/-- The first n rows of the index scratch after n rows of the transposed labels, from (l0, c0) on, were copied over
    them: those label rows — whatever the scratch held and whatever was written before. -/
theorem holds_after_dma (d : Dev nD) (L : grid0.Coords) (f : Buf (Elt F) ((VT d L).loc cc0_scratch0))
    (n : Nat) (off2 : Fin 2 → Nat)
    (inbS : ∀ a, off2 a + (![n, 128] : Fin 2 → Nat) a ≤ S50x16384.size a)
    (hS : ∀ a, (Rect.unit (s := S50x16384) off2 ![n, 128] inbS).stride a = 1)
    (inbD : ∀ a, (![0, 0] : Fin 2 → Nat) a + (![n, 128] : Fin 2 → Nat) a ≤ S18x128.size a)
    (rest : List (View.Piece (Elt F) S18x128 .i32))
    (l0 c0 : Nat) (hoff : off2 = ![l0, c0]) (hl : l0 + n ≤ 50) (hc : c0 + 128 ≤ 16384) :
    HoldsRows d L ((sIW).view.writes (Elt F) f
        (⟨Rect.unit (s := S18x128) ![0, 0] ![n, 128] inbD,
          ReadAs.same.apply (View.read (Elt F) ((tVW).slice (Rect.unit (s := S50x16384) off2 ![n, 128] inbS) hS).view (xtv m d))⟩ :: rest))
      (xtv m d) l0 n c0 hl hc := by
  subst hoff
  intro r col hr
  rw [View.writes_cons]
  have hy : (ix2 r col : S18x128.Idx)
      = ((sIW).view.slice (Rect.unit (s := S18x128) ![0, 0] ![n, 128] inbD)).emb (ix2 (⟨r.val, hr⟩ : Fin n) (⟨col.val, col.isLt⟩ : Fin 128)) := by
    funext a
    match a with
    | ⟨0, _⟩ => exact Fin.ext (show r.val = 0 + 1 * r.val by omega)
    | ⟨1, _⟩ => exact Fin.ext (show col.val = 0 + 1 * col.val by omega)
  rw [hy, View.write_emb_of_mem _ _ (Finset.mem_univ _), cast_eq]
  show View.read (Elt F) ((tVW).slice (Rect.unit (s := S50x16384) ![l0, c0] ![n, 128] inbS) hS).view (xtv m d)
      (ix2 (⟨r.val, hr⟩ : Fin n) (⟨col.val, col.isLt⟩ : Fin 128)) = _
  rw [View.read_apply, cast_eq]
  refine congrArg (xtv m d) (funext fun a => ?_)
  match a with
  | ⟨0, _⟩ => exact Fin.ext (show l0 + 1 * r.val = l0 + r.val by omega)
  | ⟨1, _⟩ => exact Fin.ext (show c0 + 1 * col.val = c0 + col.val by omega)

/-! ### At the body's four sources -/

/-- The first copy of a subcore: rows 0..15 of its block 0. -/
theorem holds_off2 (d : Dev nD) (L : grid0.Coords) (f : Buf (Elt F) ((VT d L).loc cc0_scratch0))
    (hS : ∀ a, (Rect.unit (s := S50x16384) (k0_off2 L) S16x128.size (k0_off2_inb L)).stride a = 1)
    (rest : List (View.Piece (Elt F) S18x128 .i32)) :
    HoldsRows d L ((sIW).view.writes (Elt F) f
        (⟨Rect.unit (s := S18x128) ![0, 0] ![16, 128] inb_S18x128_S16x128_0_0,
          ReadAs.same.apply (View.read (Elt F) ((tVW).slice (Rect.unit (s := S50x16384) (k0_off2 L) S16x128.size (k0_off2_inb L)) hS).view (xtv m d))⟩ :: rest))
      (xtv m d) 0 16 (c0 L 0) (by decide) (c0_le L 0) :=
  holds_after_dma m d L f 16 (k0_off2 L) (k0_off2_inb L) hS inb_S18x128_S16x128_0_0 rest 0 (c0 L 0)
    ((k0_off2_eq L).trans (vec2_congr rfl (by unfold c0; omega))) (by decide) (c0_le L 0)
/-- Rows 0..15 of block t. -/
theorem holds_off38 (d : Dev nD) (L : grid0.Coords) (t : Fin 4) (f : Buf (Elt F) ((VT d L).loc cc0_scratch0))
    (hS : ∀ a, (Rect.unit (s := S50x16384) (k0_off38 L (BitVec.ofNat 32 (128 * t.val))) S16x128.size (k0_off38_inb L t)).stride a = 1)
    (rest : List (View.Piece (Elt F) S18x128 .i32)) :
    HoldsRows d L ((sIW).view.writes (Elt F) f
        (⟨Rect.unit (s := S18x128) ![0, 0] ![16, 128] inb_S18x128_S16x128_0_0,
          ReadAs.same.apply (View.read (Elt F) ((tVW).slice (Rect.unit (s := S50x16384) (k0_off38 L (BitVec.ofNat 32 (128 * t.val))) S16x128.size (k0_off38_inb L t)) hS).view (xtv m d))⟩ :: rest))
      (xtv m d) 0 16 (c0 L t.val) (by decide) (c0_le L t) :=
  holds_after_dma m d L f 16 (k0_off38 L (BitVec.ofNat 32 (128 * t.val))) (k0_off38_inb L t) hS inb_S18x128_S16x128_0_0 rest 0 (c0 L t.val)
    ((k0_off38_eq L t).trans (vec2_congr rfl (by unfold c0; omega))) (by decide) (c0_le L t)
/-- Rows 16..31 of block t. -/
theorem holds_off11 (d : Dev nD) (L : grid0.Coords) (t : Fin 4) (f : Buf (Elt F) ((VT d L).loc cc0_scratch0))
    (hS : ∀ a, (Rect.unit (s := S50x16384) (k0_off11 L (BitVec.ofNat 32 (128 * t.val))) S16x128.size (k0_off11_inb L t)).stride a = 1)
    (rest : List (View.Piece (Elt F) S18x128 .i32)) :
    HoldsRows d L ((sIW).view.writes (Elt F) f
        (⟨Rect.unit (s := S18x128) ![0, 0] ![16, 128] inb_S18x128_S16x128_0_0,
          ReadAs.same.apply (View.read (Elt F) ((tVW).slice (Rect.unit (s := S50x16384) (k0_off11 L (BitVec.ofNat 32 (128 * t.val))) S16x128.size (k0_off11_inb L t)) hS).view (xtv m d))⟩ :: rest))
      (xtv m d) 16 16 (c0 L t.val) (by decide) (c0_le L t) :=
  holds_after_dma m d L f 16 (k0_off11 L (BitVec.ofNat 32 (128 * t.val))) (k0_off11_inb L t) hS inb_S18x128_S16x128_0_0 rest 16 (c0 L t.val)
    ((k0_off11_eq L t).trans (vec2_congr rfl (by unfold c0; omega))) (by decide) (c0_le L t)
/-- Rows 32..49 of block t. -/
theorem holds_off20 (d : Dev nD) (L : grid0.Coords) (t : Fin 4) (f : Buf (Elt F) ((VT d L).loc cc0_scratch0))
    (hS : ∀ a, (Rect.unit (s := S50x16384) (k0_off20 L (BitVec.ofNat 32 (128 * t.val))) S18x128.size (k0_off20_inb L t)).stride a = 1)
    (rest : List (View.Piece (Elt F) S18x128 .i32)) :
    HoldsRows d L ((sIW).view.writes (Elt F) f
        (⟨Rect.unit (s := S18x128) ![0, 0] ![18, 128] inb_S18x128_S18x128_0_0,
          ReadAs.same.apply (View.read (Elt F) ((tVW).slice (Rect.unit (s := S50x16384) (k0_off20 L (BitVec.ofNat 32 (128 * t.val))) S18x128.size (k0_off20_inb L t)) hS).view (xtv m d))⟩ :: rest))
      (xtv m d) 32 18 (c0 L t.val) (by decide) (c0_le L t) :=
  holds_after_dma m d L f 18 (k0_off20 L (BitVec.ofNat 32 (128 * t.val))) (k0_off20_inb L t) hS inb_S18x128_S18x128_0_0 rest 32 (c0 L t.val)
    ((k0_off20_eq L t).trans (vec2_congr rfl (by unfold c0; omega))) (by decide) (c0_le L t)

/-! ## The copied rows name classes -/

/-- Rows of the transposed labels name classes, under the precondition. -/
theorem inRange_of_holds (hpre : PreOK m) {d : Dev nD} {L : grid0.Coords} {X : Buf (Elt F) ((VT d L).loc cc0_scratch0)}
    {l0 n cc : Nat} {hl : l0 + n ≤ 50} {hc : cc + 128 ≤ 16384} (hX : HoldsRows d L X (xtv m d) l0 n cc hl hc) :
    ∀ (r : Fin 18) (col : Fin 128), r.val < n → (X (ix2 r col)).toNat < 1000 := by
  intro r col hr
  rw [hX r col hr, xtv_apply]
  exact toNat_lt_of_toInt _ (hpre d _).1 (hpre d _).2

/-! ## The block copied out -/

/-- After the block scratch, holding at (k, b) the transposed result's entry (k, first column + b), is copied over
    block t, that block holds the transposed result — whatever it held before. The copy's payload P is what the
    block scratch reads (stated as an equation so that a payload known under another name can be given as it is). -/
theorem out_block (d : Dev nD) (L : grid0.Coords) (t : Fin 4)
    (hs : ∀ a, (oRect L t).stride a = 1)
    (g : Buf (Elt F) (((oVW).slice (oRect L t) hs).view.loc (VT d L)))
    (P : (Rect.whole (oRect L t).shape).shape.Idx → Elt F .f32)
    (B : Buf (Elt F) ((VT d L).loc cc0_scratch1))
    (hP : P = ReadAs.same.apply ((sBW).view.read (Elt F) B))
    (hB : ∀ j : S1000x128.Idx, B j = outv m d (ix2 (j 0) (⟨c0 L t.val + (j 1).val, c0_lt L t j⟩ : Fin 16384))) :
    ((((oVW).slice (oRect L t) hs).view.loc (VT d L) ↦[((oVW).slice (oRect L t) hs).view.set]{fullShare}
        ((oVW).slice (oRect L t) hs).view.writes (Elt F) g
          [⟨Rect.whole (oRect L t).shape, P⟩]) : sProp 𝕄)
      = (oLoc d ↦[oBlkSet L t]{fullShare} outv m d) := by
  subst hP
  refine (pointsTo_congr (ℓ := oLoc d) (I := oBlkSet L t) (q := fullShare) ?_ : _ = (oLoc d ↦[oBlkSet L t]{fullShare} outv m d : sProp 𝕄))
  intro i hi
  obtain ⟨x, -, rfl⟩ := Finset.mem_map.mp hi
  rw [View.writes_singleton]
  have hx : ((oVW).view.slice (oRect L t)).emb x
      = ((((oVW).slice (oRect L t) hs).view).slice (Rect.whole (oRect L t).shape)).emb x := by
    rw [View.emb_slice (((oVW).slice (oRect L t) hs).view) (Rect.whole (oRect L t).shape)]
    show _ = ((oVW).slice (oRect L t) hs).view.emb ((Rect.whole (oRect L t).shape).emb x)
    rw [Rect.emb_whole_apply]
  rw [hx, View.write_emb_of_mem _ _ (Finset.mem_univ x), cast_eq]
  show B x = outv m d _
  rw [hB x, ← hx]
  refine congrArg (outv m d) (funext fun a => ?_)
  have ho := k0_off29_eq L t
  match a with
  | ⟨0, _⟩ =>
    refine Fin.ext ?_
    show (x 0).val = (k0_off29 L (BitVec.ofNat 32 (128 * t.val))) 0 + 1 * (x 0).val
    rw [ho]; show (x 0).val = 0 + 1 * (x 0).val; omega
  | ⟨1, _⟩ =>
    refine Fin.ext ?_
    show c0 L t.val + (x 1).val = (k0_off29 L (BitVec.ofNat 32 (128 * t.val))) 1 + 1 * (x 1).val
    rw [ho]; unfold c0
    show (1024 * (L 1).val + 512 * (L 0).val + 128 * t.val) + (x 1).val = (1024 * (L 1).val + 512 * (L 0).val + 128 * t.val) + 1 * (x 1).val
    omega

end Cert.Proof.KI

end
-- ==== Proof.KTile.lean ====
/-
  One vector subcore's whole task.

  The subcore holds a read share of the transposed labels, its four 1000 x 128 column blocks of the transposed result,
  its two scratch buffers (eighteen index rows; the block being built) and its DMA semaphores at zero. It first fills
  the block scratch with the floor value. Then, for each of its four blocks: the fifty label rows of the block's 128
  samples are copied in as three pieces (rows 0..15, 16..31, 32..49) and each piece is scanned with the hit value
  (`scan_step`), which leaves the transposed result on the block (`block_built`); the scratch is copied out to the block;
  and, except after the last block, the three pieces are scanned again with the floor value (the last piece first, the
  other two copied in again), which returns the scratch to the floor value everywhere (`block_cleared`). Every indexed
  store lands inside the scratch because every label is a class number (`inRange_of_holds`). At the end the share, the
  four blocks — now holding the transposed result —, the scratches and the semaphores (each waited back to zero) are
  handed back.
-/
import proofs.«211736_g82076825026625_cont_sun_c4_101_27_alg».proof.Proof.KOpen
import proofs.«211736_g82076825026625_cont_sun_c4_101_27_alg».proof.Proof.KInit
import proofs.«211736_g82076825026625_cont_sun_c4_101_27_alg».proof.Proof.KScanEqs
import proofs.«211736_g82076825026625_cont_sun_c4_101_27_alg».proof.Proof.KBlock
import proofs.«211736_g82076825026625_cont_sun_c4_101_27_alg».proof.Proof.KDma
noncomputable section
namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx
variable {F : FTy → Type} [FloatOps F] [Named F]
local notation "𝕄" => MT nD τ sig (HIx 1) (Elt F) ℕ UU ℕ
local notation "sIW" => (Memref.whole Cert.KernelIdeal.cc0_scratch0 : Memref Cert.KernelIdeal.sig Kind.scVector Space.vmem Cert.KernelIdeal.S18x128 EltTy.i32)
local notation "sBW" => (Memref.whole Cert.KernelIdeal.cc0_scratch1 : Memref Cert.KernelIdeal.sig Kind.scVector Space.vmem Cert.KernelIdeal.S1000x128 EltTy.f32)
local notation "tVW" => (Memref.whole Cert.KernelIdeal.main_v0_scv : Memref Cert.KernelIdeal.sig Kind.scVector Space.hbm Cert.KernelIdeal.S50x16384 EltTy.i32)
local notation "oVW" => (Memref.whole Cert.KernelIdeal.main_v1_scv : Memref Cert.KernelIdeal.sig Kind.scVector Space.hbm Cert.KernelIdeal.S1000x16384 EltTy.f32)

variable (m : (ℓ : Loc nD τ sig) → Buf (Elt F) ℓ)

omit [FloatOps F] [Named F] in
/-- The index scratch held at contents with a property is held at SOME contents with that property. -/
theorem abs_sI (d : Dev nD) (L : grid0.Coords) (P : Buf (Elt F) ((VT d L).loc cc0_scratch0) → Prop)
    (f : Buf (Elt F) ((VT d L).loc cc0_scratch0)) (h : P f) :
    ((sIW).view.loc (VT d L) ↦{fullShare} f : sProp 𝕄) ⊢ iprop(∃ X, ⌜P X⌝ ∗ ((sIW).view.loc (VT d L) ↦{fullShare} X)) := by
  iintro H
  iexists f
  isplitr
  · ipureintro; exact h
  · iexact H

omit [FloatOps F] [Named F] in
/-- Block 0 of the output as the body slices it. -/
theorem pts_oB0 (d : Dev nD) (L : grid0.Coords) (f : Buf (Elt F) (oLoc d)) :
    ((((oVW).slice (Rect.unit (s := S1000x16384) (k0_off29 L 0#32) S1000x128.size (k0_off29_inb L 0)) (fun _ => rfl)).view.loc (VT d L)
        ↦[((oVW).slice (Rect.unit (s := S1000x16384) (k0_off29 L 0#32) S1000x128.size (k0_off29_inb L 0)) (fun _ => rfl)).view.set]{fullShare} f : sProp 𝕄))
      = (oLoc d ↦[oBlkSet L 0]{fullShare} f) := pts_oBlk (F := F) d L 0 f

omit [FloatOps F] [Named F] in
/-- Block 1 of the output as the body slices it. -/
theorem pts_oB1 (d : Dev nD) (L : grid0.Coords) (f : Buf (Elt F) (oLoc d)) :
    ((((oVW).slice (Rect.unit (s := S1000x16384) (k0_off29 L 128#32) S1000x128.size (k0_off29_inb L 1)) (fun _ => rfl)).view.loc (VT d L)
        ↦[((oVW).slice (Rect.unit (s := S1000x16384) (k0_off29 L 128#32) S1000x128.size (k0_off29_inb L 1)) (fun _ => rfl)).view.set]{fullShare} f : sProp 𝕄))
      = (oLoc d ↦[oBlkSet L 1]{fullShare} f) := pts_oBlk (F := F) d L 1 f

omit [FloatOps F] [Named F] in
/-- Block 2 of the output as the body slices it. -/
theorem pts_oB2 (d : Dev nD) (L : grid0.Coords) (f : Buf (Elt F) (oLoc d)) :
    ((((oVW).slice (Rect.unit (s := S1000x16384) (k0_off29 L 256#32) S1000x128.size (k0_off29_inb L 2)) (fun _ => rfl)).view.loc (VT d L)
        ↦[((oVW).slice (Rect.unit (s := S1000x16384) (k0_off29 L 256#32) S1000x128.size (k0_off29_inb L 2)) (fun _ => rfl)).view.set]{fullShare} f : sProp 𝕄))
      = (oLoc d ↦[oBlkSet L 2]{fullShare} f) := pts_oBlk (F := F) d L 2 f

omit [FloatOps F] [Named F] in
/-- Block 3 of the output as the body slices it. -/
theorem pts_oB3 (d : Dev nD) (L : grid0.Coords) (f : Buf (Elt F) (oLoc d)) :
    ((((oVW).slice (Rect.unit (s := S1000x16384) (k0_off29 L 384#32) S1000x128.size (k0_off29_inb L 3)) (fun _ => rfl)).view.loc (VT d L)
        ↦[((oVW).slice (Rect.unit (s := S1000x16384) (k0_off29 L 384#32) S1000x128.size (k0_off29_inb L 3)) (fun _ => rfl)).view.set]{fullShare} f : sProp 𝕄))
      = (oLoc d ↦[oBlkSet L 3]{fullShare} f) := pts_oBlk (F := F) d L 3 f

set_option maxHeartbeats 40000000 in
/-- The task on the vector subcore at grid coordinates L of device d. -/
theorem tile_body (hF : (K (F := F)).Facts) (hpre : PreOK m) (d : Dev nD) (L : grid0.Coords)
    (O : CellTallies nD τ sig (HIx 1)) (W : Waits sig (HIx 1)) (hO : ∀ g, O g none = 0) :
    iprop(levAts (K (F := F)).L (K (F := F)).lev ∗ emp ∗ goRes m d L
        ∗ scopedBufs (VT d L) ∗ scopedSems0 (VT d L) ∗ owes (VT d L) O W)
      ⊢ wp frame (wpE (defs₀ (F := F)) 𝒱₀ (VT d L) none) Set.univ
          (cc0__body L tV (Memref.isWhole_whole _) oV (Memref.isWhole_whole _) sI (Memref.isWhole_whole _) sB (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21)
          fun _ => iprop(tdRes m d L ∗ scopedBufs (VT d L) ∗ scopedSems0 (VT d L)
            ∗ ∃ W', ⌜∀ p ∈ W', p ∈ W ∨ p.2 = none⌝ ∗ owes (VT d L) O W') := by
  have hlanes : ∀ (g : Fin 8) (x : Fin 16), ((lanes g) (Shape.ofLane (d := ![16]) x)).toNat = 16 * g.val + x.val := by decide
  dsimp only [tV, oV, sI, sB]
  simp only [cc0__body_eq_skeleton]; unfold cc0__body_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  simp only [k0_part10_eq_skeleton]; unfold k0_part10_skel
  rw [(K (F := F)).scopedBufs_V hF d (cV L) (jV L), SparseCore.Cfg.scopedSems0_V (Val := Elt F) d (cV L) (jV L), ownSems0_VT, ownBufs_VT]
  unfold goRes
  rw [show (Finset.univ : Finset (Fin 4)) = {0, 1, 2, 3} by decide, SparseCore.bigSep_insert' (by decide), SparseCore.bigSep_insert' (by decide), SparseCore.bigSep_insert' (by decide), bigSep_singleton]
  iintro ⟨#Hlv, -, ⟨Ht, Ho0, Ho1, Ho2, Ho3⟩, ⟨⟨%fi, Hi⟩, ⟨%fb, Hb⟩, Hrest⟩, ⟨Hs0, Hs1, Hs2, Hs3, Hs4, Hs5, Hs6, Hs7, Hs8, Hs9, Hs10, Hs11, Hs12, Hs13, Hs14, Hs15, Hs16, Hs17, Hs18, Hs19, Hs20, Hs21⟩, HO⟩
  ihave Hmw := ((K (F := F)).mayWaits_none (thr := VT d L) hO) $$ Hlv
  ihave Hi := (Entails.of_eq (pts_sI (F := F) d L _).symm) $$ Hi
  ihave Hb := (Entails.of_eq (pts_sB (F := F) d L _).symm) $$ Hb
  ihave Ht := (Entails.of_eq (pts_tV (F := F) d L _ _).symm) $$ Ht
  ihave Ho0 := (Entails.of_eq (pts_oB0 (F := F) d L _).symm) $$ Ho0
  ihave Ho1 := (Entails.of_eq (pts_oB1 (F := F) d L _).symm) $$ Ho1
  ihave Ho2 := (Entails.of_eq (pts_oB2 (F := F) d L _).symm) $$ Ho2
  ihave Ho3 := (Entails.of_eq (pts_oB3 (F := F) d L _).symm) $$ Ho3
  rw [wp_bind, wp_bind]
  iapply (init_loops (F := F) d L fb) $$ [Hb Hi Ht Ho0 Ho1 Ho2 Ho3 Hrest Hs0 Hs1 Hs2 Hs3 Hs4 Hs5 Hs6 Hs7 Hs8 Hs9 Hs10 Hs11 Hs12 Hs13 Hs14 Hs15 Hs16 Hs17 Hs18 Hs19 Hs20 Hs21 HO]
  isplitl [Hb]; · iexact Hb
  iintro %acc0 Hb
  sl_exec
  ihave Hi := (abs_sI (F := F) d L (fun X => HoldsRows d L X (xtv m d) 0 16 (c0 L 0) (by decide) (c0_le L 0)) _ ?hhX0_0) $$ Hi
  case hhX0_0 => exact holds_off2 (F := F) m d L _ _ _
  icases Hi with ⟨%X0_0, %hX0_0, Hi⟩
  -- loop 3
  have hok3 : ScanOK d L k0_t3_loop offs3 lanes X0_0 := ⟨trips3, offs3_eq, hlanes, fun r col hr => inRange_of_holds (F := F) m hpre hX0_0 r col (Nat.lt_of_lt_of_le hr k0_t3_abs.2.1)⟩
  first
    | sl_for (scanInv d L (hitV (F := F)) X0_0 (fun _ => bgV (F := F))) $$ [Hi Hb]
    | (rw [wp_bind]; sl_for (scanInv d L (hitV (F := F)) X0_0 (fun _ => bgV (F := F))) $$ [Hi Hb])
  case region => exact fun k acc => scan_step d L k0_t3_loop offs3 inb3 (hitV (F := F)) lanes X0_0 (fun _ => bgV (F := F)) hok3 k acc
  · unfold scanInv; isplitl [Hi]; · iexact Hi
    rw [scanRows_zero]; iexact Hb
  iintro %acc3 HI
  unfold scanInv
  icases HI with ⟨Hi, Hb⟩
  rw [trips3_eq]
  sl_exec
  ihave Hi := (abs_sI (F := F) d L (fun X => HoldsRows d L X (xtv m d) 16 16 (c0 L 0) (by decide) (c0_le L 0)) _ ?hhX1_0) $$ Hi
  case hhX1_0 => exact holds_off11 (F := F) m d L 0 _ _ _
  icases Hi with ⟨%X1_0, %hX1_0, Hi⟩
  -- loop 4
  have hok4 : ScanOK d L k0_t4_loop offs4 lanes X1_0 := ⟨trips4, offs4_eq, hlanes, fun r col hr => inRange_of_holds (F := F) m hpre hX1_0 r col (Nat.lt_of_lt_of_le hr k0_t4_abs.2.1)⟩
  first
    | sl_for (scanInv d L (hitV (F := F)) X1_0 (scanRows d L (hitV (F := F)) X0_0 16 (fun _ => bgV (F := F)))) $$ [Hi Hb]
    | (rw [wp_bind]; sl_for (scanInv d L (hitV (F := F)) X1_0 (scanRows d L (hitV (F := F)) X0_0 16 (fun _ => bgV (F := F)))) $$ [Hi Hb])
  case region => exact fun k acc => scan_step d L k0_t4_loop offs4 inb4 (hitV (F := F)) lanes X1_0 (scanRows d L (hitV (F := F)) X0_0 16 (fun _ => bgV (F := F))) hok4 k acc
  · unfold scanInv; isplitl [Hi]; · iexact Hi
    rw [scanRows_zero]; iexact Hb
  iintro %acc4 HI
  unfold scanInv
  icases HI with ⟨Hi, Hb⟩
  rw [trips4_eq]
  sl_exec
  ihave Hi := (abs_sI (F := F) d L (fun X => HoldsRows d L X (xtv m d) 32 18 (c0 L 0) (by decide) (c0_le L 0)) _ ?hhX2_0) $$ Hi
  case hhX2_0 => exact holds_off20 (F := F) m d L 0 _ _ _
  icases Hi with ⟨%X2_0, %hX2_0, Hi⟩
  -- loop 5
  have hok5 : ScanOK d L k0_t5_loop offs5 lanes X2_0 := ⟨trips5, offs5_eq, hlanes, fun r col hr => inRange_of_holds (F := F) m hpre hX2_0 r col (Nat.lt_of_lt_of_le hr k0_t5_abs.2.1)⟩
  first
    | sl_for (scanInv d L (hitV (F := F)) X2_0 (scanRows d L (hitV (F := F)) X1_0 16 (scanRows d L (hitV (F := F)) X0_0 16 (fun _ => bgV (F := F))))) $$ [Hi Hb]
    | (rw [wp_bind]; sl_for (scanInv d L (hitV (F := F)) X2_0 (scanRows d L (hitV (F := F)) X1_0 16 (scanRows d L (hitV (F := F)) X0_0 16 (fun _ => bgV (F := F))))) $$ [Hi Hb])
  case region => exact fun k acc => scan_step d L k0_t5_loop offs5 inb5 (hitV (F := F)) lanes X2_0 (scanRows d L (hitV (F := F)) X1_0 16 (scanRows d L (hitV (F := F)) X0_0 16 (fun _ => bgV (F := F)))) hok5 k acc
  · unfold scanInv; isplitl [Hi]; · iexact Hi
    rw [scanRows_zero]; iexact Hb
  iintro %acc5 HI
  unfold scanInv
  icases HI with ⟨Hi, Hb⟩
  rw [trips5_eq]
  sl_exec
  -- block 0 written out
  ihave Ho0 := (Entails.of_eq (out_block (F := F) m d L 0 _ _ _ (scanRows d L (hitV (F := F)) X2_0 18 (scanRows d L (hitV (F := F)) X1_0 16 (scanRows d L (hitV (F := F)) X0_0 16 (fun _ => bgV (F := F))))) ?hP0 ?hB0)) $$ Ho0
  case hP0 => rfl
  case hB0 => exact fun j => (block_built d L (hitV (F := F)) (bgV (F := F)) (xtv m d) (c0 L 0) (c0_le L 0) X0_0 X1_0 X2_0 hX0_0 hX1_0 hX2_0 j).trans (outT_block (hitV (F := F)) (bgV (F := F)) (xtv m d) (c0 L 0) (c0_le L 0) j).symm
  -- loop 6
  have hok6 : ScanOK d L k0_t6_loop offs6 lanes X2_0 := ⟨trips6, offs6_eq, hlanes, fun r col hr => inRange_of_holds (F := F) m hpre hX2_0 r col (Nat.lt_of_lt_of_le hr k0_t6_abs.2.1)⟩
  first
    | sl_for (scanInv d L (bgV (F := F)) X2_0 (scanRows d L (hitV (F := F)) X2_0 18 (scanRows d L (hitV (F := F)) X1_0 16 (scanRows d L (hitV (F := F)) X0_0 16 (fun _ => bgV (F := F)))))) $$ [Hi Hb]
    | (rw [wp_bind]; sl_for (scanInv d L (bgV (F := F)) X2_0 (scanRows d L (hitV (F := F)) X2_0 18 (scanRows d L (hitV (F := F)) X1_0 16 (scanRows d L (hitV (F := F)) X0_0 16 (fun _ => bgV (F := F)))))) $$ [Hi Hb])
  case region => exact fun k acc => scan_step d L k0_t6_loop offs6 inb6 (bgV (F := F)) lanes X2_0 (scanRows d L (hitV (F := F)) X2_0 18 (scanRows d L (hitV (F := F)) X1_0 16 (scanRows d L (hitV (F := F)) X0_0 16 (fun _ => bgV (F := F))))) hok6 k acc
  · unfold scanInv; isplitl [Hi]; · iexact Hi
    rw [scanRows_zero]; iexact Hb
  iintro %acc6 HI
  unfold scanInv
  icases HI with ⟨Hi, Hb⟩
  rw [trips6_eq]
  sl_exec
  ihave Hi := (abs_sI (F := F) d L (fun X => HoldsRows d L X (xtv m d) 0 16 (c0 L 0) (by decide) (c0_le L 0)) _ ?hhY0_0) $$ Hi
  case hhY0_0 => exact holds_off38 (F := F) m d L 0 _ _ _
  icases Hi with ⟨%Y0_0, %hY0_0, Hi⟩
  -- loop 7
  have hok7 : ScanOK d L k0_t7_loop offs7 lanes Y0_0 := ⟨trips7, offs7_eq, hlanes, fun r col hr => inRange_of_holds (F := F) m hpre hY0_0 r col (Nat.lt_of_lt_of_le hr k0_t7_abs.2.1)⟩
  first
    | sl_for (scanInv d L (bgV (F := F)) Y0_0 (scanRows d L (bgV (F := F)) X2_0 18 (scanRows d L (hitV (F := F)) X2_0 18 (scanRows d L (hitV (F := F)) X1_0 16 (scanRows d L (hitV (F := F)) X0_0 16 (fun _ => bgV (F := F))))))) $$ [Hi Hb]
    | (rw [wp_bind]; sl_for (scanInv d L (bgV (F := F)) Y0_0 (scanRows d L (bgV (F := F)) X2_0 18 (scanRows d L (hitV (F := F)) X2_0 18 (scanRows d L (hitV (F := F)) X1_0 16 (scanRows d L (hitV (F := F)) X0_0 16 (fun _ => bgV (F := F))))))) $$ [Hi Hb])
  case region => exact fun k acc => scan_step d L k0_t7_loop offs7 inb7 (bgV (F := F)) lanes Y0_0 (scanRows d L (bgV (F := F)) X2_0 18 (scanRows d L (hitV (F := F)) X2_0 18 (scanRows d L (hitV (F := F)) X1_0 16 (scanRows d L (hitV (F := F)) X0_0 16 (fun _ => bgV (F := F)))))) hok7 k acc
  · unfold scanInv; isplitl [Hi]; · iexact Hi
    rw [scanRows_zero]; iexact Hb
  iintro %acc7 HI
  unfold scanInv
  icases HI with ⟨Hi, Hb⟩
  rw [trips7_eq]
  sl_exec
  ihave Hi := (abs_sI (F := F) d L (fun X => HoldsRows d L X (xtv m d) 16 16 (c0 L 0) (by decide) (c0_le L 0)) _ ?hhY1_0) $$ Hi
  case hhY1_0 => exact holds_off11 (F := F) m d L 0 _ _ _
  icases Hi with ⟨%Y1_0, %hY1_0, Hi⟩
  -- loop 8
  have hok8 : ScanOK d L k0_t8_loop offs8 lanes Y1_0 := ⟨trips8, offs8_eq, hlanes, fun r col hr => inRange_of_holds (F := F) m hpre hY1_0 r col (Nat.lt_of_lt_of_le hr k0_t8_abs.2.1)⟩
  first
    | sl_for (scanInv d L (bgV (F := F)) Y1_0 (scanRows d L (bgV (F := F)) Y0_0 16 (scanRows d L (bgV (F := F)) X2_0 18 (scanRows d L (hitV (F := F)) X2_0 18 (scanRows d L (hitV (F := F)) X1_0 16 (scanRows d L (hitV (F := F)) X0_0 16 (fun _ => bgV (F := F)))))))) $$ [Hi Hb]
    | (rw [wp_bind]; sl_for (scanInv d L (bgV (F := F)) Y1_0 (scanRows d L (bgV (F := F)) Y0_0 16 (scanRows d L (bgV (F := F)) X2_0 18 (scanRows d L (hitV (F := F)) X2_0 18 (scanRows d L (hitV (F := F)) X1_0 16 (scanRows d L (hitV (F := F)) X0_0 16 (fun _ => bgV (F := F)))))))) $$ [Hi Hb])
  case region => exact fun k acc => scan_step d L k0_t8_loop offs8 inb8 (bgV (F := F)) lanes Y1_0 (scanRows d L (bgV (F := F)) Y0_0 16 (scanRows d L (bgV (F := F)) X2_0 18 (scanRows d L (hitV (F := F)) X2_0 18 (scanRows d L (hitV (F := F)) X1_0 16 (scanRows d L (hitV (F := F)) X0_0 16 (fun _ => bgV (F := F))))))) hok8 k acc
  · unfold scanInv; isplitl [Hi]; · iexact Hi
    rw [scanRows_zero]; iexact Hb
  iintro %acc8 HI
  unfold scanInv
  icases HI with ⟨Hi, Hb⟩
  rw [trips8_eq]
  sl_exec
  ihave Hb := (Entails.of_eq (congrArg (fun f => ((sBW).view.loc (VT d L) ↦{fullShare} f : sProp 𝕄)) (funext (block_cleared d L (hitV (F := F)) (bgV (F := F)) (xtv m d) (c0 L 0) (c0_le L 0) Y0_0 Y1_0 X2_0 hY0_0 hY1_0 hX2_0 (scanRows d L (hitV (F := F)) X2_0 18 (scanRows d L (hitV (F := F)) X1_0 16 (scanRows d L (hitV (F := F)) X0_0 16 (fun _ => bgV (F := F))))) (block_built d L (hitV (F := F)) (bgV (F := F)) (xtv m d) (c0 L 0) (c0_le L 0) X0_0 X1_0 X2_0 hX0_0 hX1_0 hX2_0))))) $$ Hb
  ihave Hi := (abs_sI (F := F) d L (fun X => HoldsRows d L X (xtv m d) 0 16 (c0 L 1) (by decide) (c0_le L 1)) _ ?hhX0_1) $$ Hi
  case hhX0_1 => exact holds_off38 (F := F) m d L 1 _ _ _
  icases Hi with ⟨%X0_1, %hX0_1, Hi⟩
  -- loop 9
  have hok9 : ScanOK d L k0_t9_loop offs9 lanes X0_1 := ⟨trips9, offs9_eq, hlanes, fun r col hr => inRange_of_holds (F := F) m hpre hX0_1 r col (Nat.lt_of_lt_of_le hr k0_t9_abs.2.1)⟩
  first
    | sl_for (scanInv d L (hitV (F := F)) X0_1 (fun _ => bgV (F := F))) $$ [Hi Hb]
    | (rw [wp_bind]; sl_for (scanInv d L (hitV (F := F)) X0_1 (fun _ => bgV (F := F))) $$ [Hi Hb])
  case region => exact fun k acc => scan_step d L k0_t9_loop offs9 inb9 (hitV (F := F)) lanes X0_1 (fun _ => bgV (F := F)) hok9 k acc
  · unfold scanInv; isplitl [Hi]; · iexact Hi
    rw [scanRows_zero]; iexact Hb
  iintro %acc9 HI
  unfold scanInv
  icases HI with ⟨Hi, Hb⟩
  rw [trips9_eq]
  sl_exec
  ihave Hi := (abs_sI (F := F) d L (fun X => HoldsRows d L X (xtv m d) 16 16 (c0 L 1) (by decide) (c0_le L 1)) _ ?hhX1_1) $$ Hi
  case hhX1_1 => exact holds_off11 (F := F) m d L 1 _ _ _
  icases Hi with ⟨%X1_1, %hX1_1, Hi⟩
  -- loop 10
  have hok10 : ScanOK d L k0_t10_loop offs10 lanes X1_1 := ⟨trips10, offs10_eq, hlanes, fun r col hr => inRange_of_holds (F := F) m hpre hX1_1 r col (Nat.lt_of_lt_of_le hr k0_t10_abs.2.1)⟩
  first
    | sl_for (scanInv d L (hitV (F := F)) X1_1 (scanRows d L (hitV (F := F)) X0_1 16 (fun _ => bgV (F := F)))) $$ [Hi Hb]
    | (rw [wp_bind]; sl_for (scanInv d L (hitV (F := F)) X1_1 (scanRows d L (hitV (F := F)) X0_1 16 (fun _ => bgV (F := F)))) $$ [Hi Hb])
  case region => exact fun k acc => scan_step d L k0_t10_loop offs10 inb10 (hitV (F := F)) lanes X1_1 (scanRows d L (hitV (F := F)) X0_1 16 (fun _ => bgV (F := F))) hok10 k acc
  · unfold scanInv; isplitl [Hi]; · iexact Hi
    rw [scanRows_zero]; iexact Hb
  iintro %acc10 HI
  unfold scanInv
  icases HI with ⟨Hi, Hb⟩
  rw [trips10_eq]
  sl_exec
  ihave Hi := (abs_sI (F := F) d L (fun X => HoldsRows d L X (xtv m d) 32 18 (c0 L 1) (by decide) (c0_le L 1)) _ ?hhX2_1) $$ Hi
  case hhX2_1 => exact holds_off20 (F := F) m d L 1 _ _ _
  icases Hi with ⟨%X2_1, %hX2_1, Hi⟩
  -- loop 11
  have hok11 : ScanOK d L k0_t11_loop offs11 lanes X2_1 := ⟨trips11, offs11_eq, hlanes, fun r col hr => inRange_of_holds (F := F) m hpre hX2_1 r col (Nat.lt_of_lt_of_le hr k0_t11_abs.2.1)⟩
  first
    | sl_for (scanInv d L (hitV (F := F)) X2_1 (scanRows d L (hitV (F := F)) X1_1 16 (scanRows d L (hitV (F := F)) X0_1 16 (fun _ => bgV (F := F))))) $$ [Hi Hb]
    | (rw [wp_bind]; sl_for (scanInv d L (hitV (F := F)) X2_1 (scanRows d L (hitV (F := F)) X1_1 16 (scanRows d L (hitV (F := F)) X0_1 16 (fun _ => bgV (F := F))))) $$ [Hi Hb])
  case region => exact fun k acc => scan_step d L k0_t11_loop offs11 inb11 (hitV (F := F)) lanes X2_1 (scanRows d L (hitV (F := F)) X1_1 16 (scanRows d L (hitV (F := F)) X0_1 16 (fun _ => bgV (F := F)))) hok11 k acc
  · unfold scanInv; isplitl [Hi]; · iexact Hi
    rw [scanRows_zero]; iexact Hb
  iintro %acc11 HI
  unfold scanInv
  icases HI with ⟨Hi, Hb⟩
  rw [trips11_eq]
  sl_exec
  -- block 1 written out
  ihave Ho1 := (Entails.of_eq (out_block (F := F) m d L 1 _ _ _ (scanRows d L (hitV (F := F)) X2_1 18 (scanRows d L (hitV (F := F)) X1_1 16 (scanRows d L (hitV (F := F)) X0_1 16 (fun _ => bgV (F := F))))) ?hP1 ?hB1)) $$ Ho1
  case hP1 => rfl
  case hB1 => exact fun j => (block_built d L (hitV (F := F)) (bgV (F := F)) (xtv m d) (c0 L 1) (c0_le L 1) X0_1 X1_1 X2_1 hX0_1 hX1_1 hX2_1 j).trans (outT_block (hitV (F := F)) (bgV (F := F)) (xtv m d) (c0 L 1) (c0_le L 1) j).symm
  -- loop 12
  have hok12 : ScanOK d L k0_t12_loop offs12 lanes X2_1 := ⟨trips12, offs12_eq, hlanes, fun r col hr => inRange_of_holds (F := F) m hpre hX2_1 r col (Nat.lt_of_lt_of_le hr k0_t12_abs.2.1)⟩
  first
    | sl_for (scanInv d L (bgV (F := F)) X2_1 (scanRows d L (hitV (F := F)) X2_1 18 (scanRows d L (hitV (F := F)) X1_1 16 (scanRows d L (hitV (F := F)) X0_1 16 (fun _ => bgV (F := F)))))) $$ [Hi Hb]
    | (rw [wp_bind]; sl_for (scanInv d L (bgV (F := F)) X2_1 (scanRows d L (hitV (F := F)) X2_1 18 (scanRows d L (hitV (F := F)) X1_1 16 (scanRows d L (hitV (F := F)) X0_1 16 (fun _ => bgV (F := F)))))) $$ [Hi Hb])
  case region => exact fun k acc => scan_step d L k0_t12_loop offs12 inb12 (bgV (F := F)) lanes X2_1 (scanRows d L (hitV (F := F)) X2_1 18 (scanRows d L (hitV (F := F)) X1_1 16 (scanRows d L (hitV (F := F)) X0_1 16 (fun _ => bgV (F := F))))) hok12 k acc
  · unfold scanInv; isplitl [Hi]; · iexact Hi
    rw [scanRows_zero]; iexact Hb
  iintro %acc12 HI
  unfold scanInv
  icases HI with ⟨Hi, Hb⟩
  rw [trips12_eq]
  sl_exec
  ihave Hi := (abs_sI (F := F) d L (fun X => HoldsRows d L X (xtv m d) 0 16 (c0 L 1) (by decide) (c0_le L 1)) _ ?hhY0_1) $$ Hi
  case hhY0_1 => exact holds_off38 (F := F) m d L 1 _ _ _
  icases Hi with ⟨%Y0_1, %hY0_1, Hi⟩
  -- loop 13
  have hok13 : ScanOK d L k0_t13_loop offs13 lanes Y0_1 := ⟨trips13, offs13_eq, hlanes, fun r col hr => inRange_of_holds (F := F) m hpre hY0_1 r col (Nat.lt_of_lt_of_le hr k0_t13_abs.2.1)⟩
  first
    | sl_for (scanInv d L (bgV (F := F)) Y0_1 (scanRows d L (bgV (F := F)) X2_1 18 (scanRows d L (hitV (F := F)) X2_1 18 (scanRows d L (hitV (F := F)) X1_1 16 (scanRows d L (hitV (F := F)) X0_1 16 (fun _ => bgV (F := F))))))) $$ [Hi Hb]
    | (rw [wp_bind]; sl_for (scanInv d L (bgV (F := F)) Y0_1 (scanRows d L (bgV (F := F)) X2_1 18 (scanRows d L (hitV (F := F)) X2_1 18 (scanRows d L (hitV (F := F)) X1_1 16 (scanRows d L (hitV (F := F)) X0_1 16 (fun _ => bgV (F := F))))))) $$ [Hi Hb])
  case region => exact fun k acc => scan_step d L k0_t13_loop offs13 inb13 (bgV (F := F)) lanes Y0_1 (scanRows d L (bgV (F := F)) X2_1 18 (scanRows d L (hitV (F := F)) X2_1 18 (scanRows d L (hitV (F := F)) X1_1 16 (scanRows d L (hitV (F := F)) X0_1 16 (fun _ => bgV (F := F)))))) hok13 k acc
  · unfold scanInv; isplitl [Hi]; · iexact Hi
    rw [scanRows_zero]; iexact Hb
  iintro %acc13 HI
  unfold scanInv
  icases HI with ⟨Hi, Hb⟩
  rw [trips13_eq]
  sl_exec
  ihave Hi := (abs_sI (F := F) d L (fun X => HoldsRows d L X (xtv m d) 16 16 (c0 L 1) (by decide) (c0_le L 1)) _ ?hhY1_1) $$ Hi
  case hhY1_1 => exact holds_off11 (F := F) m d L 1 _ _ _
  icases Hi with ⟨%Y1_1, %hY1_1, Hi⟩
  -- loop 14
  have hok14 : ScanOK d L k0_t14_loop offs14 lanes Y1_1 := ⟨trips14, offs14_eq, hlanes, fun r col hr => inRange_of_holds (F := F) m hpre hY1_1 r col (Nat.lt_of_lt_of_le hr k0_t14_abs.2.1)⟩
  first
    | sl_for (scanInv d L (bgV (F := F)) Y1_1 (scanRows d L (bgV (F := F)) Y0_1 16 (scanRows d L (bgV (F := F)) X2_1 18 (scanRows d L (hitV (F := F)) X2_1 18 (scanRows d L (hitV (F := F)) X1_1 16 (scanRows d L (hitV (F := F)) X0_1 16 (fun _ => bgV (F := F)))))))) $$ [Hi Hb]
    | (rw [wp_bind]; sl_for (scanInv d L (bgV (F := F)) Y1_1 (scanRows d L (bgV (F := F)) Y0_1 16 (scanRows d L (bgV (F := F)) X2_1 18 (scanRows d L (hitV (F := F)) X2_1 18 (scanRows d L (hitV (F := F)) X1_1 16 (scanRows d L (hitV (F := F)) X0_1 16 (fun _ => bgV (F := F)))))))) $$ [Hi Hb])
  case region => exact fun k acc => scan_step d L k0_t14_loop offs14 inb14 (bgV (F := F)) lanes Y1_1 (scanRows d L (bgV (F := F)) Y0_1 16 (scanRows d L (bgV (F := F)) X2_1 18 (scanRows d L (hitV (F := F)) X2_1 18 (scanRows d L (hitV (F := F)) X1_1 16 (scanRows d L (hitV (F := F)) X0_1 16 (fun _ => bgV (F := F))))))) hok14 k acc
  · unfold scanInv; isplitl [Hi]; · iexact Hi
    rw [scanRows_zero]; iexact Hb
  iintro %acc14 HI
  unfold scanInv
  icases HI with ⟨Hi, Hb⟩
  rw [trips14_eq]
  sl_exec
  ihave Hb := (Entails.of_eq (congrArg (fun f => ((sBW).view.loc (VT d L) ↦{fullShare} f : sProp 𝕄)) (funext (block_cleared d L (hitV (F := F)) (bgV (F := F)) (xtv m d) (c0 L 1) (c0_le L 1) Y0_1 Y1_1 X2_1 hY0_1 hY1_1 hX2_1 (scanRows d L (hitV (F := F)) X2_1 18 (scanRows d L (hitV (F := F)) X1_1 16 (scanRows d L (hitV (F := F)) X0_1 16 (fun _ => bgV (F := F))))) (block_built d L (hitV (F := F)) (bgV (F := F)) (xtv m d) (c0 L 1) (c0_le L 1) X0_1 X1_1 X2_1 hX0_1 hX1_1 hX2_1))))) $$ Hb
  ihave Hi := (abs_sI (F := F) d L (fun X => HoldsRows d L X (xtv m d) 0 16 (c0 L 2) (by decide) (c0_le L 2)) _ ?hhX0_2) $$ Hi
  case hhX0_2 => exact holds_off38 (F := F) m d L 2 _ _ _
  icases Hi with ⟨%X0_2, %hX0_2, Hi⟩
  -- loop 15
  have hok15 : ScanOK d L k0_t15_loop offs15 lanes X0_2 := ⟨trips15, offs15_eq, hlanes, fun r col hr => inRange_of_holds (F := F) m hpre hX0_2 r col (Nat.lt_of_lt_of_le hr k0_t15_abs.2.1)⟩
  first
    | sl_for (scanInv d L (hitV (F := F)) X0_2 (fun _ => bgV (F := F))) $$ [Hi Hb]
    | (rw [wp_bind]; sl_for (scanInv d L (hitV (F := F)) X0_2 (fun _ => bgV (F := F))) $$ [Hi Hb])
  case region => exact fun k acc => scan_step d L k0_t15_loop offs15 inb15 (hitV (F := F)) lanes X0_2 (fun _ => bgV (F := F)) hok15 k acc
  · unfold scanInv; isplitl [Hi]; · iexact Hi
    rw [scanRows_zero]; iexact Hb
  iintro %acc15 HI
  unfold scanInv
  icases HI with ⟨Hi, Hb⟩
  rw [trips15_eq]
  sl_exec
  ihave Hi := (abs_sI (F := F) d L (fun X => HoldsRows d L X (xtv m d) 16 16 (c0 L 2) (by decide) (c0_le L 2)) _ ?hhX1_2) $$ Hi
  case hhX1_2 => exact holds_off11 (F := F) m d L 2 _ _ _
  icases Hi with ⟨%X1_2, %hX1_2, Hi⟩
  -- loop 16
  have hok16 : ScanOK d L k0_t16_loop offs16 lanes X1_2 := ⟨trips16, offs16_eq, hlanes, fun r col hr => inRange_of_holds (F := F) m hpre hX1_2 r col (Nat.lt_of_lt_of_le hr k0_t16_abs.2.1)⟩
  first
    | sl_for (scanInv d L (hitV (F := F)) X1_2 (scanRows d L (hitV (F := F)) X0_2 16 (fun _ => bgV (F := F)))) $$ [Hi Hb]
    | (rw [wp_bind]; sl_for (scanInv d L (hitV (F := F)) X1_2 (scanRows d L (hitV (F := F)) X0_2 16 (fun _ => bgV (F := F)))) $$ [Hi Hb])
  case region => exact fun k acc => scan_step d L k0_t16_loop offs16 inb16 (hitV (F := F)) lanes X1_2 (scanRows d L (hitV (F := F)) X0_2 16 (fun _ => bgV (F := F))) hok16 k acc
  · unfold scanInv; isplitl [Hi]; · iexact Hi
    rw [scanRows_zero]; iexact Hb
  iintro %acc16 HI
  unfold scanInv
  icases HI with ⟨Hi, Hb⟩
  rw [trips16_eq]
  sl_exec
  ihave Hi := (abs_sI (F := F) d L (fun X => HoldsRows d L X (xtv m d) 32 18 (c0 L 2) (by decide) (c0_le L 2)) _ ?hhX2_2) $$ Hi
  case hhX2_2 => exact holds_off20 (F := F) m d L 2 _ _ _
  icases Hi with ⟨%X2_2, %hX2_2, Hi⟩
  -- loop 17
  have hok17 : ScanOK d L k0_t17_loop offs17 lanes X2_2 := ⟨trips17, offs17_eq, hlanes, fun r col hr => inRange_of_holds (F := F) m hpre hX2_2 r col (Nat.lt_of_lt_of_le hr k0_t17_abs.2.1)⟩
  first
    | sl_for (scanInv d L (hitV (F := F)) X2_2 (scanRows d L (hitV (F := F)) X1_2 16 (scanRows d L (hitV (F := F)) X0_2 16 (fun _ => bgV (F := F))))) $$ [Hi Hb]
    | (rw [wp_bind]; sl_for (scanInv d L (hitV (F := F)) X2_2 (scanRows d L (hitV (F := F)) X1_2 16 (scanRows d L (hitV (F := F)) X0_2 16 (fun _ => bgV (F := F))))) $$ [Hi Hb])
  case region => exact fun k acc => scan_step d L k0_t17_loop offs17 inb17 (hitV (F := F)) lanes X2_2 (scanRows d L (hitV (F := F)) X1_2 16 (scanRows d L (hitV (F := F)) X0_2 16 (fun _ => bgV (F := F)))) hok17 k acc
  · unfold scanInv; isplitl [Hi]; · iexact Hi
    rw [scanRows_zero]; iexact Hb
  iintro %acc17 HI
  unfold scanInv
  icases HI with ⟨Hi, Hb⟩
  rw [trips17_eq]
  sl_exec
  -- block 2 written out
  ihave Ho2 := (Entails.of_eq (out_block (F := F) m d L 2 _ _ _ (scanRows d L (hitV (F := F)) X2_2 18 (scanRows d L (hitV (F := F)) X1_2 16 (scanRows d L (hitV (F := F)) X0_2 16 (fun _ => bgV (F := F))))) ?hP2 ?hB2)) $$ Ho2
  case hP2 => rfl
  case hB2 => exact fun j => (block_built d L (hitV (F := F)) (bgV (F := F)) (xtv m d) (c0 L 2) (c0_le L 2) X0_2 X1_2 X2_2 hX0_2 hX1_2 hX2_2 j).trans (outT_block (hitV (F := F)) (bgV (F := F)) (xtv m d) (c0 L 2) (c0_le L 2) j).symm
  -- loop 18
  have hok18 : ScanOK d L k0_t18_loop offs18 lanes X2_2 := ⟨trips18, offs18_eq, hlanes, fun r col hr => inRange_of_holds (F := F) m hpre hX2_2 r col (Nat.lt_of_lt_of_le hr k0_t18_abs.2.1)⟩
  first
    | sl_for (scanInv d L (bgV (F := F)) X2_2 (scanRows d L (hitV (F := F)) X2_2 18 (scanRows d L (hitV (F := F)) X1_2 16 (scanRows d L (hitV (F := F)) X0_2 16 (fun _ => bgV (F := F)))))) $$ [Hi Hb]
    | (rw [wp_bind]; sl_for (scanInv d L (bgV (F := F)) X2_2 (scanRows d L (hitV (F := F)) X2_2 18 (scanRows d L (hitV (F := F)) X1_2 16 (scanRows d L (hitV (F := F)) X0_2 16 (fun _ => bgV (F := F)))))) $$ [Hi Hb])
  case region => exact fun k acc => scan_step d L k0_t18_loop offs18 inb18 (bgV (F := F)) lanes X2_2 (scanRows d L (hitV (F := F)) X2_2 18 (scanRows d L (hitV (F := F)) X1_2 16 (scanRows d L (hitV (F := F)) X0_2 16 (fun _ => bgV (F := F))))) hok18 k acc
  · unfold scanInv; isplitl [Hi]; · iexact Hi
    rw [scanRows_zero]; iexact Hb
  iintro %acc18 HI
  unfold scanInv
  icases HI with ⟨Hi, Hb⟩
  rw [trips18_eq]
  sl_exec
  ihave Hi := (abs_sI (F := F) d L (fun X => HoldsRows d L X (xtv m d) 0 16 (c0 L 2) (by decide) (c0_le L 2)) _ ?hhY0_2) $$ Hi
  case hhY0_2 => exact holds_off38 (F := F) m d L 2 _ _ _
  icases Hi with ⟨%Y0_2, %hY0_2, Hi⟩
  -- loop 19
  have hok19 : ScanOK d L k0_t19_loop offs19 lanes Y0_2 := ⟨trips19, offs19_eq, hlanes, fun r col hr => inRange_of_holds (F := F) m hpre hY0_2 r col (Nat.lt_of_lt_of_le hr k0_t19_abs.2.1)⟩
  first
    | sl_for (scanInv d L (bgV (F := F)) Y0_2 (scanRows d L (bgV (F := F)) X2_2 18 (scanRows d L (hitV (F := F)) X2_2 18 (scanRows d L (hitV (F := F)) X1_2 16 (scanRows d L (hitV (F := F)) X0_2 16 (fun _ => bgV (F := F))))))) $$ [Hi Hb]
    | (rw [wp_bind]; sl_for (scanInv d L (bgV (F := F)) Y0_2 (scanRows d L (bgV (F := F)) X2_2 18 (scanRows d L (hitV (F := F)) X2_2 18 (scanRows d L (hitV (F := F)) X1_2 16 (scanRows d L (hitV (F := F)) X0_2 16 (fun _ => bgV (F := F))))))) $$ [Hi Hb])
  case region => exact fun k acc => scan_step d L k0_t19_loop offs19 inb19 (bgV (F := F)) lanes Y0_2 (scanRows d L (bgV (F := F)) X2_2 18 (scanRows d L (hitV (F := F)) X2_2 18 (scanRows d L (hitV (F := F)) X1_2 16 (scanRows d L (hitV (F := F)) X0_2 16 (fun _ => bgV (F := F)))))) hok19 k acc
  · unfold scanInv; isplitl [Hi]; · iexact Hi
    rw [scanRows_zero]; iexact Hb
  iintro %acc19 HI
  unfold scanInv
  icases HI with ⟨Hi, Hb⟩
  rw [trips19_eq]
  sl_exec
  ihave Hi := (abs_sI (F := F) d L (fun X => HoldsRows d L X (xtv m d) 16 16 (c0 L 2) (by decide) (c0_le L 2)) _ ?hhY1_2) $$ Hi
  case hhY1_2 => exact holds_off11 (F := F) m d L 2 _ _ _
  icases Hi with ⟨%Y1_2, %hY1_2, Hi⟩
  -- loop 20
  have hok20 : ScanOK d L k0_t20_loop offs20 lanes Y1_2 := ⟨trips20, offs20_eq, hlanes, fun r col hr => inRange_of_holds (F := F) m hpre hY1_2 r col (Nat.lt_of_lt_of_le hr k0_t20_abs.2.1)⟩
  first
    | sl_for (scanInv d L (bgV (F := F)) Y1_2 (scanRows d L (bgV (F := F)) Y0_2 16 (scanRows d L (bgV (F := F)) X2_2 18 (scanRows d L (hitV (F := F)) X2_2 18 (scanRows d L (hitV (F := F)) X1_2 16 (scanRows d L (hitV (F := F)) X0_2 16 (fun _ => bgV (F := F)))))))) $$ [Hi Hb]
    | (rw [wp_bind]; sl_for (scanInv d L (bgV (F := F)) Y1_2 (scanRows d L (bgV (F := F)) Y0_2 16 (scanRows d L (bgV (F := F)) X2_2 18 (scanRows d L (hitV (F := F)) X2_2 18 (scanRows d L (hitV (F := F)) X1_2 16 (scanRows d L (hitV (F := F)) X0_2 16 (fun _ => bgV (F := F)))))))) $$ [Hi Hb])
  case region => exact fun k acc => scan_step d L k0_t20_loop offs20 inb20 (bgV (F := F)) lanes Y1_2 (scanRows d L (bgV (F := F)) Y0_2 16 (scanRows d L (bgV (F := F)) X2_2 18 (scanRows d L (hitV (F := F)) X2_2 18 (scanRows d L (hitV (F := F)) X1_2 16 (scanRows d L (hitV (F := F)) X0_2 16 (fun _ => bgV (F := F))))))) hok20 k acc
  · unfold scanInv; isplitl [Hi]; · iexact Hi
    rw [scanRows_zero]; iexact Hb
  iintro %acc20 HI
  unfold scanInv
  icases HI with ⟨Hi, Hb⟩
  rw [trips20_eq]
  sl_exec
  ihave Hb := (Entails.of_eq (congrArg (fun f => ((sBW).view.loc (VT d L) ↦{fullShare} f : sProp 𝕄)) (funext (block_cleared d L (hitV (F := F)) (bgV (F := F)) (xtv m d) (c0 L 2) (c0_le L 2) Y0_2 Y1_2 X2_2 hY0_2 hY1_2 hX2_2 (scanRows d L (hitV (F := F)) X2_2 18 (scanRows d L (hitV (F := F)) X1_2 16 (scanRows d L (hitV (F := F)) X0_2 16 (fun _ => bgV (F := F))))) (block_built d L (hitV (F := F)) (bgV (F := F)) (xtv m d) (c0 L 2) (c0_le L 2) X0_2 X1_2 X2_2 hX0_2 hX1_2 hX2_2))))) $$ Hb
  ihave Hi := (abs_sI (F := F) d L (fun X => HoldsRows d L X (xtv m d) 0 16 (c0 L 3) (by decide) (c0_le L 3)) _ ?hhX0_3) $$ Hi
  case hhX0_3 => exact holds_off38 (F := F) m d L 3 _ _ _
  icases Hi with ⟨%X0_3, %hX0_3, Hi⟩
  -- loop 21
  have hok21 : ScanOK d L k0_t21_loop offs21 lanes X0_3 := ⟨trips21, offs21_eq, hlanes, fun r col hr => inRange_of_holds (F := F) m hpre hX0_3 r col (Nat.lt_of_lt_of_le hr k0_t21_abs.2.1)⟩
  first
    | sl_for (scanInv d L (hitV (F := F)) X0_3 (fun _ => bgV (F := F))) $$ [Hi Hb]
    | (rw [wp_bind]; sl_for (scanInv d L (hitV (F := F)) X0_3 (fun _ => bgV (F := F))) $$ [Hi Hb])
  case region => exact fun k acc => scan_step d L k0_t21_loop offs21 inb21 (hitV (F := F)) lanes X0_3 (fun _ => bgV (F := F)) hok21 k acc
  · unfold scanInv; isplitl [Hi]; · iexact Hi
    rw [scanRows_zero]; iexact Hb
  iintro %acc21 HI
  unfold scanInv
  icases HI with ⟨Hi, Hb⟩
  rw [trips21_eq]
  sl_exec
  ihave Hi := (abs_sI (F := F) d L (fun X => HoldsRows d L X (xtv m d) 16 16 (c0 L 3) (by decide) (c0_le L 3)) _ ?hhX1_3) $$ Hi
  case hhX1_3 => exact holds_off11 (F := F) m d L 3 _ _ _
  icases Hi with ⟨%X1_3, %hX1_3, Hi⟩
  -- loop 22
  have hok22 : ScanOK d L k0_t22_loop offs22 lanes X1_3 := ⟨trips22, offs22_eq, hlanes, fun r col hr => inRange_of_holds (F := F) m hpre hX1_3 r col (Nat.lt_of_lt_of_le hr k0_t22_abs.2.1)⟩
  first
    | sl_for (scanInv d L (hitV (F := F)) X1_3 (scanRows d L (hitV (F := F)) X0_3 16 (fun _ => bgV (F := F)))) $$ [Hi Hb]
    | (rw [wp_bind]; sl_for (scanInv d L (hitV (F := F)) X1_3 (scanRows d L (hitV (F := F)) X0_3 16 (fun _ => bgV (F := F)))) $$ [Hi Hb])
  case region => exact fun k acc => scan_step d L k0_t22_loop offs22 inb22 (hitV (F := F)) lanes X1_3 (scanRows d L (hitV (F := F)) X0_3 16 (fun _ => bgV (F := F))) hok22 k acc
  · unfold scanInv; isplitl [Hi]; · iexact Hi
    rw [scanRows_zero]; iexact Hb
  iintro %acc22 HI
  unfold scanInv
  icases HI with ⟨Hi, Hb⟩
  rw [trips22_eq]
  sl_exec
  ihave Hi := (abs_sI (F := F) d L (fun X => HoldsRows d L X (xtv m d) 32 18 (c0 L 3) (by decide) (c0_le L 3)) _ ?hhX2_3) $$ Hi
  case hhX2_3 => exact holds_off20 (F := F) m d L 3 _ _ _
  icases Hi with ⟨%X2_3, %hX2_3, Hi⟩
  -- loop 23
  have hok23 : ScanOK d L k0_t23_loop offs23 lanes X2_3 := ⟨trips23, offs23_eq, hlanes, fun r col hr => inRange_of_holds (F := F) m hpre hX2_3 r col (Nat.lt_of_lt_of_le hr k0_t23_abs.2.1)⟩
  first
    | sl_for (scanInv d L (hitV (F := F)) X2_3 (scanRows d L (hitV (F := F)) X1_3 16 (scanRows d L (hitV (F := F)) X0_3 16 (fun _ => bgV (F := F))))) $$ [Hi Hb]
    | (rw [wp_bind]; sl_for (scanInv d L (hitV (F := F)) X2_3 (scanRows d L (hitV (F := F)) X1_3 16 (scanRows d L (hitV (F := F)) X0_3 16 (fun _ => bgV (F := F))))) $$ [Hi Hb])
  case region => exact fun k acc => scan_step d L k0_t23_loop offs23 inb23 (hitV (F := F)) lanes X2_3 (scanRows d L (hitV (F := F)) X1_3 16 (scanRows d L (hitV (F := F)) X0_3 16 (fun _ => bgV (F := F)))) hok23 k acc
  · unfold scanInv; isplitl [Hi]; · iexact Hi
    rw [scanRows_zero]; iexact Hb
  iintro %acc23 HI
  unfold scanInv
  icases HI with ⟨Hi, Hb⟩
  rw [trips23_eq]
  sl_exec
  -- block 3 written out
  ihave Ho3 := (Entails.of_eq (out_block (F := F) m d L 3 _ _ _ (scanRows d L (hitV (F := F)) X2_3 18 (scanRows d L (hitV (F := F)) X1_3 16 (scanRows d L (hitV (F := F)) X0_3 16 (fun _ => bgV (F := F))))) ?hP3 ?hB3)) $$ Ho3
  case hP3 => rfl
  case hB3 => exact fun j => (block_built d L (hitV (F := F)) (bgV (F := F)) (xtv m d) (c0 L 3) (c0_le L 3) X0_3 X1_3 X2_3 hX0_3 hX1_3 hX2_3 j).trans (outT_block (hitV (F := F)) (bgV (F := F)) (xtv m d) (c0 L 3) (c0_le L 3) j).symm
  rw [wp_ret]
  imodintro
  unfold tdRes
  rw [show (Finset.univ : Finset (Fin 4)) = {0, 1, 2, 3} by decide, SparseCore.bigSep_insert' (by decide), SparseCore.bigSep_insert' (by decide), SparseCore.bigSep_insert' (by decide), bigSep_singleton]
  isplitl [Ht Ho0 Ho1 Ho2 Ho3]
  · isplitl [Ht]; · iapply (Entails.of_eq (pts_tV (F := F) d L _ _)); iexact Ht
    isplitl [Ho0]; · iexact Ho0
    isplitl [Ho1]; · iexact Ho1
    isplitl [Ho2]; · iexact Ho2
    iexact Ho3
  isplitl [Hi Hb Hrest]
  · isplitl [Hi]; · iexists _; iapply (Entails.of_eq (pts_sI (F := F) d L _)); iexact Hi
    isplitl [Hb]; · iexists _; iapply (Entails.of_eq (pts_sB (F := F) d L _)); iexact Hb
    iexact Hrest
  isplitl [Hs0 Hs1 Hs2 Hs3 Hs4 Hs5 Hs6 Hs7 Hs8 Hs9 Hs10 Hs11 Hs12 Hs13 Hs14 Hs15 Hs16 Hs17 Hs18 Hs19 Hs20 Hs21]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hs20]; · iexact Hs20
    iexact Hs21
  iexists _; isplitr
  rotate_left
  · iexact HO
  · ipureintro
    intro p hp
    repeat (rcases Finset.mem_insert.mp hp with h | hp; · exact .inr (h ▸ rfl))
    exact .inl hp

end Cert.Proof.KI

end
-- ==== Proof.KSplit.lean ====
/-
  The transposed result as 128 column blocks, and the thirty-two read shares of the transposed labels.

  The transposed result (1000 x 16384) is cut along its second axis into 128 blocks of 128 columns. The block a subcore
  slices as its block t is the block numbered 8 s + 4 c + t (s the subcore, c the SparseCore): its first column is
  1024 s + 512 c + 128 t. So the 128 blocks are exactly the four blocks of each of the thirty-two subcores, and the whole
  array, held at ONE function, is the separating conjunction of the subcores' blocks held at that function. Likewise the
  thirty-two read tokens of the transposed labels are one per subcore, token 16 c + s.
-/
import proofs.«211736_g82076825026625_cont_sun_c4_101_27_alg».proof.Proof.KCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The column blocks -/

theorem cdiv : 128 ∣ S1000x16384.size 1 := ⟨128, rfl⟩
/-- Column block p of 128: columns 128 p .. 128 p + 127, every row. -/
abbrev colPart (p : Fin 128) : Rect S1000x16384 := Rect.part (s := S1000x16384) (a₀ := 1) cdiv p
abbrev colSet (p : Fin 128) : Finset S1000x16384.Idx := (colPart p).set

theorem blkNo_lt (L : grid0.Coords) (t : Fin 4) : 8 * (L 1).val + 4 * (L 0).val + t.val < 128 := by
  have h0 : (L 0).val < 2 := (L 0).isLt
  have h1 : (L 1).val < 16 := (L 1).isLt
  have h2 := t.isLt
  omega
/-- The number of block t of the subcore at L. -/
def blkNo (L : grid0.Coords) (t : Fin 4) : Fin 128 := ⟨8 * (L 1).val + 4 * (L 0).val + t.val, blkNo_lt L t⟩

theorem unit_congr {s : Shape} {off off' size size' : Fin s.rank → Nat} (ho : off = off') (hs : size = size')
    {inb : ∀ a, off a + size a ≤ s.size a} {inb' : ∀ a, off' a + size' a ≤ s.size a} :
    Rect.unit (s := s) off size inb = Rect.unit (s := s) off' size' inb' := by
  subst ho; subst hs; rfl

/-- The rectangle the body slices is the column block of that number. -/
theorem oRect_eq (L : grid0.Coords) (t : Fin 4) : oRect L t = colPart (blkNo L t) := by
  refine unit_congr ?_ ?_
  · rw [k0_off29_eq]
    funext a
    match a with
    | ⟨0, _⟩ => show 0 = 0 * 1000; rfl
    | ⟨1, _⟩ =>
      show 1024 * (L 1).val + 512 * (L 0).val + 128 * t.val = (8 * (L 1).val + 4 * (L 0).val + t.val) * (16384 / 128)
      omega
  · funext a
    match a with
    | ⟨0, _⟩ => rfl
    | ⟨1, _⟩ => rfl

theorem oBlkSet_eq (L : grid0.Coords) (t : Fin 4) : oBlkSet L t = colSet (blkNo L t) := by
  show ((View.whole (main_v1_scv : Ref sig .scVector)).slice (oRect L t)).set = _
  rw [View.set_slice, oRect_eq]; exact Finset.map_refl

theorem cols_disjoint : ∀ p ∈ (Finset.univ : Finset (Fin 128)), ∀ p' ∈ (Finset.univ : Finset (Fin 128)), p ≠ p' → Disjoint (colSet p) (colSet p') :=
  fun _ _ _ _ h => Rect.part_disjoint cdiv h
theorem cols_cover : (Finset.univ : Finset (Fin 128)).biUnion colSet = Finset.univ := Rect.biUnion_part cdiv

/-- The transposed result whole, at one function, is its 128 column blocks at that function. -/
theorem oPts_cols (d : Dev nD) (f : Buf (Elt F) (oLoc d)) :
    (oLoc d ↦{fullShare} f : sProp 𝕄) = bigSep Finset.univ fun p : Fin 128 => oLoc d ↦[colSet p]{fullShare} f := by
  rw [← pointsTo_biUnion Finset.univ (ℓ := oLoc d) colSet cols_disjoint, cols_cover]; try rfl

/-! ## Numbering by SparseCore, subcore and block -/

/-- The grid coordinates of subcore i of SparseCore c. -/
def LL (c : Fin 2) (i : Fin 16) : grid0.Coords :=
  fun | 0 => c | 1 => i | ⟨_ + 2, h⟩ => absurd h (Nat.not_lt.2 (Nat.le_add_left _ _))

theorem Lof_eq (c : Fin ((K (F := F)).nCore 0)) (i : Fin ((K (F := F)).nSub 0)) :
    Lof (F := F) c i = LL (Fin.cast nCore_zero c) (Fin.cast nSub_zero i) := rfl

/-- Block 8 i + 4 c + t is block t of subcore i of SparseCore c. -/
def blkEquiv : (Fin 2 × Fin 16) × Fin 4 ≃ Fin 128 where
  toFun x := ⟨8 * x.1.2.val + 4 * x.1.1.val + x.2.val, by
    have := x.1.1.isLt; have := x.1.2.isLt; have := x.2.isLt; omega⟩
  invFun p := ((⟨p.val / 4 % 2, Nat.mod_lt _ (by decide)⟩, ⟨p.val / 8, by have := p.isLt; omega⟩), ⟨p.val % 4, Nat.mod_lt _ (by decide)⟩)
  left_inv x := by
    obtain ⟨⟨c, i⟩, t⟩ := x
    have := c.isLt; have := i.isLt; have := t.isLt
    refine Prod.ext (Prod.ext (Fin.ext ?_) (Fin.ext ?_)) (Fin.ext ?_)
    · show (8 * i.val + 4 * c.val + t.val) / 4 % 2 = c.val; omega
    · show (8 * i.val + 4 * c.val + t.val) / 8 = i.val; omega
    · show (8 * i.val + 4 * c.val + t.val) % 4 = t.val; omega
  right_inv p := by
    have := p.isLt
    refine Fin.ext ?_
    show 8 * (p.val / 8) + 4 * (p.val / 4 % 2) + p.val % 4 = p.val
    omega

/-- Token 16 c + i is subcore i of SparseCore c's. -/
def tokEquiv : Fin 2 × Fin 16 ≃ Fin 32 where
  toFun x := ⟨x.1.val * 16 + x.2.val, by have := x.1.isLt; have := x.2.isLt; omega⟩
  invFun k := (⟨k.val / 16, by have := k.isLt; omega⟩, ⟨k.val % 16, Nat.mod_lt _ (by decide)⟩)
  left_inv x := by
    obtain ⟨c, i⟩ := x
    have := c.isLt; have := i.isLt
    refine Prod.ext (Fin.ext ?_) (Fin.ext ?_)
    · show (c.val * 16 + i.val) / 16 = c.val; omega
    · show (c.val * 16 + i.val) % 16 = i.val; omega
  right_inv k := by
    have := k.isLt
    refine Fin.ext ?_
    show k.val / 16 * 16 + k.val % 16 = k.val
    omega

theorem blkNo_LL (c : Fin 2) (i : Fin 16) (t : Fin 4) : blkNo (LL c i) t = blkEquiv ((c, i), t) := rfl
theorem tok_LL (c : Fin 2) (i : Fin 16) : tok (LL c i) = Transfers.shareTok fullShare 32 (tokEquiv (c, i)) := rfl

/-- A family over the call's SparseCores and their subcores, read over the literal index types. -/
theorem bigSep_grid (Φ : Fin 2 → Fin 16 → sProp 𝕄) :
    (bigSep Finset.univ fun c : Fin ((K (F := F)).nCore 0) => bigSep Finset.univ fun i : Fin ((K (F := F)).nSub 0) =>
        Φ (Fin.cast nCore_zero c) (Fin.cast nSub_zero i))
      = bigSep Finset.univ fun c : Fin 2 => bigSep Finset.univ fun i : Fin 16 => Φ c i :=
  bigSep_congr fun _ _ => bigSep_congr fun _ _ => rfl

/-- A family over the 128 blocks, by SparseCore, subcore and block. -/
theorem bigSep_blks (Φ : Fin 128 → sProp 𝕄) :
    (bigSep Finset.univ fun c : Fin 2 => bigSep Finset.univ fun i : Fin 16 => bigSep Finset.univ fun t : Fin 4 => Φ (blkEquiv ((c, i), t)))
      = bigSep Finset.univ Φ := by
  rw [bigSep_univ_equiv blkEquiv Φ, bigSep_univ_prod, bigSep_univ_prod]
/-- A family over the thirty-two tokens, by SparseCore and subcore. -/
theorem bigSep_toks (Φ : Fin 32 → sProp 𝕄) :
    (bigSep Finset.univ fun c : Fin 2 => bigSep Finset.univ fun i : Fin 16 => Φ (tokEquiv (c, i))) = bigSep Finset.univ Φ := by
  rw [bigSep_univ_equiv tokEquiv Φ, bigSep_univ_prod]

/-! ## What the call takes and hands back -/

/-- The subcores' shares — each its read token of the transposed labels (at g) and its four blocks of the transposed
    result (at f) — are the thirty-two tokens and the transposed result whole at f. -/
theorem shares_eq (d : Dev nD) (g : Buf (Elt F) (tLoc d)) (f : Buf (Elt F) (oLoc d)) :
    (bigSep Finset.univ fun c : Fin ((K (F := F)).nCore 0) => bigSep Finset.univ fun i : Fin ((K (F := F)).nSub 0) =>
        (iprop((tLoc d ↦{tok (Lof (F := F) c i)} g) ∗ bigSep Finset.univ fun t : Fin 4 => oLoc d ↦[oBlkSet (Lof (F := F) c i) t]{fullShare} f) : sProp 𝕄))
      = iprop((bigSep Finset.univ fun k : Fin 32 => tLoc d ↦{Transfers.shareTok fullShare 32 k} g) ∗ oLoc d ↦{fullShare} f) := by
  rw [oPts_cols, ← bigSep_blks (F := F) (fun p => (oLoc d ↦[colSet p]{fullShare} f : sProp 𝕄)),
    ← bigSep_toks (F := F) (fun k => (tLoc d ↦{Transfers.shareTok fullShare 32 k} g : sProp 𝕄)),
    ← bigSep_grid (F := F) (fun c i => (tLoc d ↦{Transfers.shareTok fullShare 32 (tokEquiv (c, i))} g : sProp 𝕄)),
    ← bigSep_grid (F := F) (fun c i => bigSep Finset.univ fun t : Fin 4 => (oLoc d ↦[colSet (blkEquiv ((c, i), t))]{fullShare} f : sProp 𝕄)),
    ← bigSep_sep']
  refine bigSep_congr fun c _ => ?_
  rw [← bigSep_sep']
  refine bigSep_congr fun i _ => ?_
  rw [Lof_eq, tok_LL,
    show (fun t : Fin 4 => (oLoc d ↦[oBlkSet (LL (Fin.cast nCore_zero c) (Fin.cast nSub_zero i)) t]{fullShare} f : sProp 𝕄))
        = fun t => oLoc d ↦[colSet (blkEquiv ((Fin.cast nCore_zero c, Fin.cast nSub_zero i), t))]{fullShare} f
      from funext fun t => by rw [oBlkSet_eq, blkNo_LL]]

variable [FloatOps F] [Named F]
variable (m : (ℓ : Loc nD τ sig) → Buf (Elt F) ℓ)

theorem P_st (d : Dev nD) (c : Fin ((K (F := F)).nCore 0)) :
    (P m).st 0 d c = bigSep Finset.univ fun i : Fin ((K (F := F)).nSub 0) => goRes m d (Lof c i) := rfl
theorem P_dn (d : Dev nD) (c : Fin ((K (F := F)).nCore 0)) :
    (P m).dn 0 d c = bigSep Finset.univ fun i : Fin ((K (F := F)).nSub 0) => tdRes m d (Lof c i) := rfl
theorem P_go (d : Dev nD) (c : Fin ((K (F := F)).nCore 0)) (i : Fin ((K (F := F)).nSub 0)) : (P m).go 0 d c i = goRes m d (Lof c i) := rfl
theorem P_td (d : Dev nD) (c : Fin ((K (F := F)).nCore 0)) (i : Fin ((K (F := F)).nSub 0)) : (P m).td 0 d c i = tdRes m d (Lof c i) := rfl

/-- What the call takes for its SparseCores: the tokens at the transposed labels, the transposed result whole as launched. -/
theorem st0_eq (d : Dev nD) :
    (bigSep Finset.univ fun c : Fin ((K (F := F)).nCore 0) => (P m).st 0 d c)
      = iprop((bigSep Finset.univ fun k : Fin 32 => tLoc d ↦{Transfers.shareTok fullShare 32 k} xtv m d) ∗ oLoc d ↦{fullShare} m (oLoc d)) := by
  rw [← shares_eq]
  refine bigSep_congr fun c _ => ?_
  rw [P_st]
  refine bigSep_congr fun i _ => ?_
  unfold goRes; rfl
/-- What it hands back: the tokens, the transposed result whole at what the kernel computes. -/
theorem dn0_eq (d : Dev nD) :
    (bigSep Finset.univ fun c : Fin ((K (F := F)).nCore 0) => (P m).dn 0 d c)
      = iprop((bigSep Finset.univ fun k : Fin 32 => tLoc d ↦{Transfers.shareTok fullShare 32 k} xtv m d) ∗ oLoc d ↦{fullShare} outv m d) := by
  rw [← shares_eq]
  refine bigSep_congr fun c _ => ?_
  rw [P_dn]
  refine bigSep_congr fun i _ => ?_
  unfold tdRes; rfl

end Cert.Proof.KI

end
-- ==== Proof.KMain.lean ====
/-
  @main on the TensorCore, around the one call.

  @main transposes the labels, starts the two SparseCores and waits for them, and transposes what they wrote. Before the
  call the transposed labels are split into thirty-two read tokens (one per subcore; the remainder stays with @main) and
  the transposed result, whole and as launched, is its 128 column blocks, four per subcore. After the call every block
  holds the one function the kernel computes, so the blocks are the transposed result whole at that function, and the
  last operation leaves its transpose in the result. The labels are never written.
-/
import proofs.«211736_g82076825026625_cont_sun_c4_101_27_alg».proof.Proof.KSplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## A SparseCore's operands are its subcores' shares -/

theorem vecSplit : (K (F := F)).VecSplit' (P m) 0 := by
  intro d c
  show (bigSep Finset.univ fun i : Fin ((K (F := F)).nSub 0) => goRes m d (Lof c i)) ⊢ |={Set.univ}=> iprop(
      (bigSep Finset.univ fun i : Fin ((K (F := F)).nSub 0) => goRes m d (Lof c i))
      ∗ ((bigSep Finset.univ fun i : Fin ((K (F := F)).nSub 0) => tdRes m d (Lof c i))
          -∗ bigSep Finset.univ fun i : Fin ((K (F := F)).nSub 0) => tdRes m d (Lof c i)))
  iintro H; imodintro
  isplitl [H]; · iexact H
  iintro H; iexact H

/-! ## The launch element: the handshakes' rounds; the counters are not used -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The two host operations -/

abbrev x' : DevRef τ sig := Proc.devRef .tc (main_arg0 : Ref sig .tc)
abbrev t' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The labels transposed; the transposed result transposed. -/
abbrev opT1 : HloOp τ sig (Elt F) :=
  StableHlo.unary main_arg0 main_v0 ((transpose S50x16384 [1, 0] · transposes_S16384x50_S50x16384_1_0) : (⟨S16384x50, .i32⟩ : BufTy).Contents (Elt F) → (⟨S50x16384, .i32⟩ : BufTy).Contents (Elt F))
abbrev opT2 : HloOp τ sig (Elt F) :=
  StableHlo.unary main_v1 main_v2 ((transpose S16384x1000 [1, 0] · transposes_S1000x16384_S16384x1000_1_0) : (⟨S1000x16384, .f32⟩ : BufTy).Contents (Elt F) → (⟨S16384x1000, .f32⟩ : BufTy).Contents (Elt F))

abbrev Sxt : Finset (DevRef τ sig) := {x', t'}
abbrev Sor : Finset (DevRef τ sig) := {o', r'}

theorem held_Sxt (d : Dev nD) (W : Valuation τ sig (Elt F)) :
    (held (T d) Sxt W : sProp 𝕄) = iprop((xLoc d ↦{fullShare} W x') ∗ tLoc d ↦{fullShare} W t') := by
  unfold held Sxt
  rw [SparseCore.bigSep_insert' (by decide), bigSep_singleton]
theorem held_Sor (d : Dev nD) (W : Valuation τ sig (Elt F)) :
    (held (T d) Sor W : sProp 𝕄) = iprop((oLoc d ↦{fullShare} W o') ∗ rLoc d ↦{fullShare} W r') := by
  unfold held Sor
  rw [SparseCore.bigSep_insert' (by decide), bigSep_singleton]

theorem hT1 : (opT1 (F := F)).bufs ⊆ Sxt := show ({x', t'} : Finset (DevRef τ sig)) ⊆ Sxt by decide
theorem hT2 : (opT2 (F := F)).bufs ⊆ Sor := show ({o', r'} : Finset (DevRef τ sig)) ⊆ Sor by decide

/-- The result: the transpose of what the kernel computes. -/
abbrev resv (d : Dev nD) : Buf (Elt F) (rLoc d) :=
  transpose S16384x1000 [1, 0] (outv m d) transposes_S1000x16384_S16384x1000_1_0

/-- The launch valuation; after the call, the transposed result at what the kernel computes. -/
def V0 (d : Dev nD) : Valuation τ sig (Elt F) := fun b => m (d, b)
def V1 (d : Dev nD) : Valuation τ sig (Elt F) := Function.update (V0 m d) o' (outv m d)

theorem V1_o (d : Dev nD) : V1 m d o' = outv m d := Function.update_self _ _ _
theorem V1_r (d : Dev nD) : V1 m d r' = m (rLoc d) := Function.update_of_ne (show r' ≠ o' by decide) _ _

theorem T1_x (d : Dev nD) : (opT1 (F := F)).result (V0 m d) x' = m (xLoc d) :=
  (opT1 (F := F)).result_of_not_mem (V0 m d) (b := x') (show x' ∉ ({t'} : Finset (DevRef τ sig)) by decide)
theorem T1_t (d : Dev nD) : (opT1 (F := F)).result (V0 m d) t' = xtv m d :=
  StableHlo.unary_result main_arg0 main_v0 _ _ _ (V0 m d)
theorem T2_r (d : Dev nD) : (opT2 (F := F)).result (V1 m d) r' = resv m d := by
  rw [show (opT2 (F := F)).result (V1 m d) r' = transpose S16384x1000 [1, 0] (V1 m d o') transposes_S1000x16384_S16384x1000_1_0 from
    StableHlo.unary_result main_v1 main_v2 _ _ _ (V1 m d), V1_o]

theorem held_T1 (d : Dev nD) :
    (held (T d) Sxt ((opT1 (F := F)).result (V0 m d)) : sProp 𝕄) = iprop((xLoc d ↦{fullShare} m (xLoc d)) ∗ tLoc d ↦{fullShare} xtv m d) := by
  rw [held_Sxt, T1_x, T1_t]
theorem held_T2 (d : Dev nD) :
    (held (T d) Sor ((opT2 (F := F)).result (V1 m d)) : sProp 𝕄)
      = iprop((oLoc d ↦{fullShare} (opT2 (F := F)).result (V1 m d) o') ∗ rLoc d ↦{fullShare} resv m d) := by
  rw [held_Sor, T2_r]

/-! ## @main -/

theorem unscopedBufs_eq (d : Dev nD) (W : (b : Ref sig .tc) → Buf (Elt F) ((d.tc : Thread nD τ).loc b)) :
    (unscopedBufs d W : sProp 𝕄)
      = iprop((xLoc d ↦{fullShare} W main_arg0) ∗ (tLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- What @main leaves the claim: the labels as launched, the result at the transpose of what the kernel computes. -/
abbrev FIN (d : Dev nD) : sProp 𝕄 := iprop((xLoc d ↦{fullShare} m (xLoc d)) ∗ rLoc d ↦{fullShare} resv m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ht, Ho, Hr⟩, -, -⟩, -⟩
  -- the labels transposed
  iapply (wp_hlo_within 𝒱 (SparseCore.T d) none Set.univ (op := opT1) (S := Sxt) hT1 (V := V0 m d)) $$ [Hb Hx Ht]
  · isplitl [Hb]; · iexact Hb
    rw [held_Sxt]
    isplitl [Hx]; · iexact Hx
    iexact Ht
  iintro ⟨Hb, Hheld⟩
  ihave Hh := (Entails.of_eq (held_T1 (F := F) m d)) $$ Hheld
  icases Hh with ⟨Hx, Ht⟩
  rw [wp_ret]; imodintro
  -- a read token of the transposed labels per subcore; the remainder stays here
  ihave Htk := (Transfers.pointsTo_toks_split (ℓ := tLoc d) (S := Finset.univ) (f := xtv m d) fullShare 32) $$ Ht
  icases Htk with ⟨-, Htoks⟩
  -- the call: the tokens and the transposed result's blocks to the subcores and back
  iapply ((K (F := F)).wp_run (D (F := F)) 𝒱 (EH := EH) (P := P m) κ d 0) $$ [Hst Htoks Ho Hb Hx Hr]
  isplitr; · iexact Hctx
  isplitl [Hst]; · iexact Hst
  isplitl [Htoks Ho]
  · rw [st0_eq]
    isplitl [Htoks]; · iexact Htoks
    iexact Ho
  iintro ⟨Hst, Hdn⟩
  ihave Hdn' := (Entails.of_eq (dn0_eq m d)) $$ Hdn
  icases Hdn' with ⟨-, Ho⟩
  -- the transposed result transposed
  iapply (wp_hlo_within 𝒱 (SparseCore.T d) none Set.univ (op := opT2) (S := Sor) hT2 (V := V1 m d)) $$ [Hb Ho Hr]
  · isplitl [Hb]; · iexact Hb
    rw [held_Sor, V1_o, V1_r]
    isplitl [Ho]; · iexact Ho
    iexact Hr
  iintro ⟨Hb, Hheld⟩
  ihave Hh := (Entails.of_eq (held_T2 (F := F) m d)) $$ Hheld
  icases Hh with ⟨-, Hr⟩
  rw [wp_ret]; imodintro; imodintro
  isplitl [Hst]; · iexact Hst
  isplitl [Hx]; · iexact Hx
  iexact Hr

/-! ## The final memory -/

def fq (d : Dev nD) (s' : Phys nD τ sig (Elt F)) : Prop := s'.mem.mem (rLoc d) = resv m d ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := rLoc d) (I := Finset.univ) (q := fullShare) (f := resv m d)) $$ [HSI Hr]
  · isplitl [HSI] <;> iassumption
  icases H with %h2
  ipureintro
  have e1 : s'.mem.mem (xLoc d) = m (xLoc d) := funext fun (i : Idx (xLoc d)) => h1 i (Finset.mem_univ i)
  have e2 : s'.mem.mem (rLoc d) = resv m d := funext fun (i : Idx (rLoc d)) => h2 i (Finset.mem_univ i)
  exact ⟨e2, e1⟩

/-- The claim about the final memory: the result is the transpose of what the kernel computes; the labels are unchanged. -/
def QC : PUnit × MemSt nD τ sig (Elt F) → Prop := fun r =>
  ∀ c : Dev nD, r.2.mem (rLoc c) = transpose S16384x1000 [1, 0] (outv m c) transposes_S1000x16384_S16384x1000_1_0 ∧ r.2.mem (xLoc c) = m (xLoc c)

end Cert.Proof.KI

end
-- ==== Proof.KLaunch.lean ====
/-
  The program's run from the subcores' task: every subcore, at its grid coordinates, meets the task's obligation;
  a SparseCore's operands are its subcores' shares; @main deals the tokens and the blocks and reads the result.
-/
import proofs.«211736_g82076825026625_cont_sun_c4_101_27_alg».proof.Proof.KTile
import proofs.«211736_g82076825026625_cont_sun_c4_101_27_alg».proof.Proof.KMain

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The subcores' obligation -/

/-- The body table at a vector subcore: the task at that subcore's grid coordinates, on the whole arrays and its scratch. -/
theorem defs₀_vector (c : Fin τ.nSC) (s : Fin τ.nSub) :
    defs₀ (F := F) (.scVector c s) 0 ()
      = SparseCore.onTile hcore0 hsub0 (fun c s => cc0__body (LL c s)
          tV (Memref.isWhole_whole _) oV (Memref.isWhole_whole _) sI (Memref.isWhole_whole _) sB (Memref.isWhole_whole _)
          cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21) ⟨⟩ c s := rfl

/-- The task leaves no wait of the call's own behind; the obligation allows those too. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- the task owes nothing for a protocol of its own
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hF hpre d (Lof c i) O W hO).trans (wp_mono frame _ _ fun _ => obl_post)

/-! ## The program's run -/

theorem run_main [∀ e, Nonempty (Elt F e)] (hpre : PreOK m) :
    θ_run (Cert.KernelIdeal.defs (F := F)) (Cert.KernelIdeal.threads (F := F)) ⟨m, fun _ => 0, ρ⟩
      (fun r => ∀ c : Dev nD, r.2.mem (rLoc c) = transpose S16384x1000 [1, 0] (outv m c) transposes_S1000x16384_S16384x1000_1_0
        ∧ r.2.mem (xLoc c) = m (xLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KValue.lean ====
/-
  The kernel's result is the reference's.

  The kernel works on transposes: it reads the labels transposed (50 x 16384) and writes the result transposed
  (1000 x 16384), and @main undoes both. Entry (b, k) of its result is therefore entry (k, b) of what the body wrote:
  the hit value when some position l has label x[b, l] = k, the floor value otherwise. A label in 0..999 read as a signed
  word is the word read unsigned, so "x[b, l] = k" is the same condition on both sides; the hit value is the named
  word's exact value, the floor value is the same word on both sides.
-/
import proofs.«211736_g82076825026625_cont_sun_c4_101_27_alg».proof.Proof.KCommon
import proofs.«211736_g82076825026625_cont_sun_c4_101_27_alg».proof.Proof.RefValue
import proofs.«211736_g82076825026625_cont_sun_c4_101_27_alg».proof.Proof.HitNamed

noncomputable section

namespace Cert.Proof.KI

open Cert.KernelIdeal Cert.KernelIdeal.Gen

open Idealize.ShloMosaic

/-! ## The two transposes, coordinate by coordinate -/

theorem srcT_0 (j : S50x16384.Idx) : ((transposes_S16384x50_S50x16384_1_0.src j) 0).val = (j 1).val := rfl
theorem srcT_1 (j : S50x16384.Idx) : ((transposes_S16384x50_S50x16384_1_0.src j) 1).val = (j 0).val := rfl
theorem srcR_0 (i : S16384x1000.Idx) : ((transposes_S1000x16384_S16384x1000_1_0.src i) 0).val = (i 1).val := rfl
theorem srcR_1 (i : S16384x1000.Idx) : ((transposes_S1000x16384_S16384x1000_1_0.src i) 1).val = (i 0).val := rfl

/-- A word that is not negative as a signed word is the same number read unsigned. -/
theorem toInt_eq_iff_toNat (w : BitVec 32) (n : Nat) (h0 : 0 ≤ w.toInt) : w.toInt = (n : Int) ↔ w.toNat = n := by
  have hlt : w.toNat < 2 ^ 32 := w.isLt
  rw [BitVec.toInt_eq_toNat_cond] at h0 ⊢
  split at h0 <;> split <;> omega

/-! ## Entry by entry -/

/-- Some position of sample b holds the label k: as the kernel's specification asks it, and as the reference's does. -/
theorem hasLabel_iff (x : (⟨S16384x50, .i32⟩ : BufTy).Contents (Elt Ideal)) (hx : Cert.Proof.RefValue.InRange x)
    (i : S16384x1000.Idx) :
    (∃ l : Fin 50, ((transpose S50x16384 [1, 0] x transposes_S16384x50_S50x16384_1_0)
        (ValueIdx.ix2 l (⟨((transposes_S1000x16384_S16384x1000_1_0.src i) 1).val, ((transposes_S1000x16384_S16384x1000_1_0.src i) 1).isLt⟩ : Fin 16384))).toNat
          = ((transposes_S1000x16384_S16384x1000_1_0.src i) 0).val)
      ↔ Cert.Proof.RefValue.HasLabel x i := by
  constructor
  · rintro ⟨l, hl⟩
    refine ⟨transposes_S16384x50_S50x16384_1_0.src
      (ValueIdx.ix2 l (⟨((transposes_S1000x16384_S16384x1000_1_0.src i) 1).val, ((transposes_S1000x16384_S16384x1000_1_0.src i) 1).isLt⟩ : Fin 16384)), ?_, ?_⟩
    · rw [srcT_0]; exact srcR_1 i
    · rw [toInt_eq_iff_toNat _ _ (hx _).1]
      exact hl.trans (srcR_0 i)
  · rintro ⟨j, hj0, hj1⟩
    refine ⟨⟨(j 1).val, (j 1).isLt⟩, ?_⟩
    have ej : transposes_S16384x50_S50x16384_1_0.src
        (ValueIdx.ix2 (⟨(j 1).val, (j 1).isLt⟩ : Fin 50)
          (⟨((transposes_S1000x16384_S16384x1000_1_0.src i) 1).val, ((transposes_S1000x16384_S16384x1000_1_0.src i) 1).isLt⟩ : Fin 16384)) = j := by
      funext a
      match a with
      | ⟨0, _⟩ => exact Fin.ext ((srcR_1 i).trans hj0.symm)
      | ⟨1, _⟩ => exact Fin.ext rfl
    show (x (transposes_S16384x50_S50x16384_1_0.src _)).toNat = _
    rw [ej, srcR_0]
    exact (toInt_eq_iff_toNat _ _ (hx j).1).mp hj1

/-- **The kernel's result, at the ideal instance, is the smoothed multi-hot array of the labels**, for labels in range. -/
theorem kernel_value (x : (⟨S16384x50, .i32⟩ : BufTy).Contents (Elt Ideal)) (hx : Cert.Proof.RefValue.InRange x) :
    transpose S16384x1000 [1, 0]
        (outT (hitV (F := Ideal)) (bgV (F := Ideal)) (transpose S50x16384 [1, 0] x transposes_S16384x50_S50x16384_1_0))
        transposes_S1000x16384_S16384x1000_1_0
      = Cert.Proof.RefValue.smoothed x := by
  funext i
  show outT (hitV (F := Ideal)) (bgV (F := Ideal)) (transpose S50x16384 [1, 0] x transposes_S16384x50_S50x16384_1_0)
      (transposes_S1000x16384_S16384x1000_1_0.src i) = Cert.Proof.RefValue.smoothed x i
  unfold outT Cert.Proof.RefValue.smoothed
  by_cases h : Cert.Proof.RefValue.HasLabel x i
  · rw [if_pos ((hasLabel_iff x hx i).mpr h), if_pos h]
    exact Cert.Proof.HitNamed.hit_named
  · rw [if_neg (mt (hasLabel_iff x hx i).mp h), if_neg h]
    rfl

end Cert.Proof.KI

end
-- ==== Proof.KClaims.lean ====
/-
  The two claims about the idealized kernel.

  Under the precondition every label is a class number. The idealized kernel then runs to the end with the labels
  unchanged and its result the transpose of what the subcores wrote, which is the smoothed multi-hot array of the labels;
  the reference, from a memory that agrees on the labels, ends with the same array of the same labels.
-/
import proofs.«211736_g82076825026625_cont_sun_c4_101_27_alg».proof.Proof.KLaunch
import proofs.«211736_g82076825026625_cont_sun_c4_101_27_alg».proof.Proof.KValue
import proofs.«211736_g82076825026625_cont_sun_c4_101_27_alg».proof.Proof.RefRun

noncomputable section

namespace Cert.Proof.KI

open Cert.KernelIdeal

open Idealize.ShloMosaic Idealize.SL.Sem

/-- The precondition, entry by entry, is what the kernel's run asks of the launch memory. -/
theorem preOK_of_pre (m : (ℓ : Loc nD τ sig) → Buf (Elt Ideal) ℓ) (h : Cert.Pre_KernelIdeal m) : PreOK (F := Ideal) m :=
  fun d j => Cert.Proof.RefRun.inRange_of_pre (F := Ideal) _ (h d) j

/-- The idealized kernel runs to the end and leaves the labels as it found them. -/
theorem frame_ki : Cert.frame_KernelIdeal := fun m g hpre =>
  (θ_run Cert.KernelIdeal.defs _ _).mono (fun _ h c => (h c).2) (run_main (F := Ideal) m g (preOK_of_pre m hpre))

/-- At the ideal instance the kernel and the reference, from memories that agree on the labels, both end with the
    smoothed multi-hot array of those labels, the labels unchanged. -/
theorem algebraic : Cert.algebraic_KernelIdeal_ReferenceIdeal := by
  intro m g m' g' hpre hagree
  have hpre' : Cert.Pre_ReferenceIdeal m' := fun c => by rw [hagree c]; exact hpre c
  refine ⟨fun c => Cert.Proof.RefValue.smoothed (m (xLoc c)), ?_, ?_⟩
  · refine (θ_run Cert.KernelIdeal.defs _ _).mono (fun _ h c => ⟨(h c).1.trans ?_, (h c).2⟩)
      (run_main (F := Ideal) m g (preOK_of_pre m hpre))
    exact kernel_value (m (xLoc c)) (fun i => preOK_of_pre m hpre c i)
  · refine (θ_run Cert.ReferenceIdeal.defs _ _).mono (fun _ h c => ⟨(h c).1.trans ?_, (h c).2⟩)
      (Cert.Proof.RefRun.run_ref m' g' hpre')
    rw [hagree c]

end Cert.Proof.KI

end
-- ==== Proof.BCommon.lean ====
/-
  The multi-hot kernel as its launch sees it, and what each vector subcore is handed and hands back.

  Thirty-two vector subcores (two SparseCores of sixteen) each own 512 consecutive samples: subcore s of SparseCore c
  owns samples 512 (2 s + c) .. 512 (2 s + c) + 511, four blocks of 128. A subcore reads the transposed label array
  (50 x 16384) and writes, block by block, its 1000 x 128 column blocks of the transposed result (1000 x 16384): the entry
  (k, b) of the transposed result is the hit value when some position l has label x[b, l] = k, and the floor value otherwise
  (`outT`). So a subcore is handed a read share of the whole transposed label array and its four column blocks of the
  result outright, and hands them back with the blocks holding `outT`.
-/
import proofs.«211736_g82076825026625_cont_sun_c4_101_27_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«211736_g82076825026625_cont_sun_c4_101_27_alg».proof.Proof.Gen.Kernel
import proofs.«211736_g82076825026625_cont_sun_c4_101_27_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The labels (16384 x 50), their transpose (50 x 16384), the transposed result (1000 x 16384), the result (16384 x 1000). -/
abbrev xLoc (d : Dev nD) : Loc nD τ sig := (SparseCore.T d).loc main_arg0
abbrev tLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

abbrev tV : Memref sig .scVector .hbm S50x16384 .i32 := Memref.whole main_v0_scv
abbrev oV : Memref sig .scVector .hbm S1000x16384 .f32 := Memref.whole main_v1_scv
/-- A subcore's scratch: up to eighteen index rows of a block; the 1000 x 128 block being built. -/
abbrev sI : Memref sig .scVector .vmem S18x128 .i32 := Memref.whole cc0_scratch0
abbrev sB : Memref sig .scVector .vmem S1000x128 .f32 := Memref.whole cc0_scratch1

/-! ## What the kernel computes -/

/-- The transposed result, entry by entry, from the transposed labels: the hit value at (k, b) when some position of
    sample b holds the label k, the floor value otherwise. -/
def outT {α : Type} (hit bg : α) (xt : S50x16384.Idx → BitVec 32) : S1000x16384.Idx → α :=
  open Classical in fun i =>
    if ∃ l : Fin 50, (xt (ValueIdx.ix2 l (⟨(i 1).val, (i 1).isLt⟩ : Fin 16384))).toNat = (i 0).val then hit else bg

variable [FloatOps F]

/-- The two values the body stores: the hit word, and the floor word. -/
abbrev hitV : F .f32 := Scalar.ofBits .f32 0x3F666CF4#32
abbrev bgV : F .f32 := Scalar.ofBits .f32 0x38D1B717#32

/-- The transposed labels as @main's first operation leaves them; the transposed result the kernel leaves. -/
def xtv (d : Dev nD) : Buf (Elt F) (tLoc d) :=
  transpose S50x16384 [1, 0] (m (xLoc d)) transposes_S16384x50_S50x16384_1_0
def outv (d : Dev nD) : Buf (Elt F) (oLoc d) := outT (hitV (F := F)) (bgV (F := F)) (xtv m d)

/-- What the proof asks of the launch memory: every label is a class number (the certificate's precondition). -/
def PreOK : Prop := ∀ (d : Dev nD) (j : S16384x50.Idx), 0 ≤ (m (xLoc d) j).toInt ∧ (m (xLoc d) j).toInt ≤ 999

/-! ## A subcore's share -/

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- Block t (of four) of the subcore at L: 128 columns of the transposed result, as the body slices them. -/
abbrev oRect (L : grid0.Coords) (t : Fin 4) : Rect S1000x16384 :=
  Rect.unit (s := S1000x16384) (k0_off29 L (BitVec.ofNat 32 (128 * t.val))) S1000x128.size (k0_off29_inb L t)
abbrev oBlkSet (L : grid0.Coords) (t : Fin 4) : Finset S1000x16384.Idx := ((oV).view.slice (oRect L t)).set

theorem tok_lt (L : grid0.Coords) : (L 0).val * 16 + (L 1).val < 32 := by
  have h0 : (L 0).val < 2 := (L 0).isLt
  have h1 : (L 1).val < 16 := (L 1).isLt
  omega
/-- The subcore's read share of the transposed labels: one of thirty-two tokens. -/
abbrev tok (L : grid0.Coords) : PosShare TreeShare := Transfers.shareTok fullShare 32 ⟨(L 0).val * 16 + (L 1).val, tok_lt L⟩

/-- Handed to the subcore at L: its read share of the transposed labels, its four blocks at their launch contents. -/
def goRes (d : Dev nD) (L : grid0.Coords) : sProp 𝕄 :=
  iprop((tLoc d ↦{tok L} xtv m d) ∗ bigSep Finset.univ fun t : Fin 4 => oLoc d ↦[oBlkSet L t]{fullShare} m (oLoc d))
/-- Handed back: the share, and the four blocks holding the transposed result. -/
def tdRes (d : Dev nD) (L : grid0.Coords) : sProp 𝕄 :=
  iprop((tLoc d ↦{tok L} xtv m d) ∗ bigSep Finset.univ fun t : Fin 4 => oLoc d ↦[oBlkSet L t]{fullShare} outv m d)

/-- The grid coordinates of subcore i of SparseCore c of the call. -/
def Lof (c : Fin ((K (F := F)).nCore 0)) (i : Fin ((K (F := F)).nSub 0)) : grid0.Coords :=
  fun | 0 => Fin.cast nCore_zero c | 1 => Fin.cast nSub_zero i | ⟨_ + 2, h⟩ => absurd h (Nat.not_lt.2 (Nat.le_add_left _ _))

/-- The one call: a SparseCore is handed its sixteen subcores' shares, each subcore its own. -/
def P : (K (F := F)).Pay (nD := nD) (Val := Elt F) (Name := ℕ) (U := UU) where
  st := fun q d c => match q with | 0 => bigSep Finset.univ fun i : Fin ((K (F := F)).nSub 0) => goRes m d (Lof c i)
  dn := fun q d c => match q with | 0 => bigSep Finset.univ fun i : Fin ((K (F := F)).nSub 0) => tdRes m d (Lof c i)
  go := fun q d c i => match q with | 0 => goRes m d (Lof c i)
  td := fun q d c i => match q with | 0 => tdRes m d (Lof c i)
  x := fun _ _ => iprop(emp)

instance goRes_storable (d : Dev nD) (L : grid0.Coords) : BI.Storable (upEmb : UEmb _ 𝕄) (goRes m d L) := by
  unfold goRes; infer_instance
instance tdRes_storable (d : Dev nD) (L : grid0.Coords) : BI.Storable (upEmb : UEmb _ 𝕄) (tdRes m d L) := by
  unfold tdRes; infer_instance

instance P_storable : (P (F := F) m).IsStorable where
  st q d c := match q with | 0 => (inferInstance : BI.Storable (upEmb : UEmb _ 𝕄) (bigSep Finset.univ fun i : Fin ((K (F := F)).nSub 0) => goRes m d (Lof c i)))
  dn q d c := match q with | 0 => (inferInstance : BI.Storable (upEmb : UEmb _ 𝕄) (bigSep Finset.univ fun i : Fin ((K (F := F)).nSub 0) => tdRes m d (Lof c i)))
  go q d c i := match q with | 0 => (inferInstance : BI.Storable (upEmb : UEmb _ 𝕄) (goRes m d (Lof c i)))
  td q d c i := match q with | 0 => (inferInstance : BI.Storable (upEmb : UEmb _ 𝕄) (tdRes m d (Lof c i)))

end Cert.Proof.KB

end
-- ==== Proof.BOpen.lean ====
/-
  What a vector subcore's scoped storage is: its twenty-two DMA semaphores, each at zero, and its two scratch buffers,
  each whole at some contents; and the arrays as a subcore names them, respelt as the locations @main names.
-/
import proofs.«211736_g82076825026625_cont_sun_c4_101_27_alg».proof.Proof.BCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "sIW" => (Memref.whole Cert.Kernel.cc0_scratch0 : Memref Cert.Kernel.sig Kind.scVector Space.vmem Cert.Kernel.S18x128 EltTy.i32)
local notation "sBW" => (Memref.whole Cert.Kernel.cc0_scratch1 : Memref Cert.Kernel.sig Kind.scVector Space.vmem Cert.Kernel.S1000x128 EltTy.f32)
local notation "tVW" => (Memref.whole Cert.Kernel.main_v0_scv : Memref Cert.Kernel.sig Kind.scVector Space.hbm Cert.Kernel.S50x16384 EltTy.i32)
local notation "oVW" => (Memref.whole Cert.Kernel.main_v1_scv : Memref Cert.Kernel.sig Kind.scVector Space.hbm Cert.Kernel.S1000x16384 EltTy.f32)

/-! ## The semaphores -/

/-- DMA cell k of the subcore at L. -/
abbrev dcell (d : Dev nD) (L : grid0.Coords) (k : Fin 22) : GSem nD τ sig := (VT d L, SemLoc.dma (k : DmaSem sig))

/-- A vector subcore's scoped cells are its DMA cells, all twenty-two, and no regular one. -/
theorem ownCells_VT (d : Dev nD) (L : grid0.Coords) : ownCells (VT d L) = Finset.univ.image (dcell d L) := by
  ext g
  rw [mem_ownCells, Finset.mem_image]
  obtain ⟨thr, s⟩ := g
  constructor
  · rintro ⟨rfl, hs⟩
    cases s with
    | reg r => exact absurd hs ((show ∀ r : Sem sig, ¬ (SemLoc.reg r : SemLoc sig).isScoped .scVector = true by decide) r)
    | dma k => exact ⟨k, Finset.mem_univ _, rfl⟩
  · rintro ⟨k, -, h⟩
    obtain ⟨rfl, rfl⟩ := Prod.mk.inj h
    exact ⟨rfl, (show ∀ s : DmaSem sig, (SemLoc.dma s : SemLoc sig).isScoped .scVector = true by decide) k⟩

theorem dcell_injOn (d : Dev nD) (L : grid0.Coords) : Set.InjOn (dcell d L) (Finset.univ : Finset (Fin 22)) := fun a _ b _ h => by
  have := congrArg (fun g : GSem nD τ sig => g.2) h
  simp only [SemLoc.dma.injEq] at this; exact this

/-- The subcore's own cells at zero: the twenty-two DMA semaphores, one by one, as the body names them. -/
theorem ownSems0_VT (d : Dev nD) (L : grid0.Coords) :
    (ownSems0 (VT d L) : sProp 𝕄)
      = iprop(semVal (VT d L, SemLoc.dma cc0_scoped0.sem) 0
          ∗ semVal (VT d L, SemLoc.dma cc0_scoped1.sem) 0
          ∗ semVal (VT d L, SemLoc.dma cc0_scoped2.sem) 0
          ∗ semVal (VT d L, SemLoc.dma cc0_scoped3.sem) 0
          ∗ semVal (VT d L, SemLoc.dma cc0_scoped4.sem) 0
          ∗ semVal (VT d L, SemLoc.dma cc0_scoped5.sem) 0
          ∗ semVal (VT d L, SemLoc.dma cc0_scoped6.sem) 0
          ∗ semVal (VT d L, SemLoc.dma cc0_scoped7.sem) 0
          ∗ semVal (VT d L, SemLoc.dma cc0_scoped8.sem) 0
          ∗ semVal (VT d L, SemLoc.dma cc0_scoped9.sem) 0
          ∗ semVal (VT d L, SemLoc.dma cc0_scoped10.sem) 0
          ∗ semVal (VT d L, SemLoc.dma cc0_scoped11.sem) 0
          ∗ semVal (VT d L, SemLoc.dma cc0_scoped12.sem) 0
          ∗ semVal (VT d L, SemLoc.dma cc0_scoped13.sem) 0
          ∗ semVal (VT d L, SemLoc.dma cc0_scoped14.sem) 0
          ∗ semVal (VT d L, SemLoc.dma cc0_scoped15.sem) 0
          ∗ semVal (VT d L, SemLoc.dma cc0_scoped16.sem) 0
          ∗ semVal (VT d L, SemLoc.dma cc0_scoped17.sem) 0
          ∗ semVal (VT d L, SemLoc.dma cc0_scoped18.sem) 0
          ∗ semVal (VT d L, SemLoc.dma cc0_scoped19.sem) 0
          ∗ semVal (VT d L, SemLoc.dma cc0_scoped20.sem) 0
          ∗ semVal (VT d L, SemLoc.dma cc0_scoped21.sem) 0) := by
  unfold SparseCore.Cfg.ownSems0
  rw [ownCells_VT, SparseCore.bigSep_image_of_injOn (dcell_injOn d L)]
  rw [show (Finset.univ : Finset (Fin 22)) = {0, 1, 2, 3, 4, 5, 6, 7, 8, 9, 10, 11, 12, 13, 14, 15, 16, 17, 18, 19, 20, 21} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-! ## The scratch buffers -/

/-- The two scratch buffers are among the subcore's own: they are them, at some contents, and the rest. -/
theorem ownBufs_VT (d : Dev nD) (L : grid0.Coords) :
    (ownBufs (VT d L) : sProp 𝕄)
      = iprop((∃ f, (VT d L).loc cc0_scratch0 ↦{fullShare} f) ∗ (∃ f, (VT d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The arrays as a subcore names them -/

/-- The index scratch and the block scratch, whole. -/
theorem pts_sI (d : Dev nD) (L : grid0.Coords) (f : Buf (Elt F) ((VT d L).loc cc0_scratch0)) :
    ((sIW).view.loc (VT d L) ↦{fullShare} f : sProp 𝕄) = ((VT d L).loc cc0_scratch0 ↦{fullShare} f) := rfl
theorem pts_sB (d : Dev nD) (L : grid0.Coords) (f : Buf (Elt F) ((VT d L).loc cc0_scratch1)) :
    ((sBW).view.loc (VT d L) ↦{fullShare} f : sProp 𝕄) = ((VT d L).loc cc0_scratch1 ↦{fullShare} f) := rfl
/-- The transposed labels, whole, at any share. -/
theorem pts_tV (d : Dev nD) (L : grid0.Coords) (q : PosShare TreeShare) (f : Buf (Elt F) (tLoc d)) :
    ((tVW).view.loc (VT d L) ↦{q} f : sProp 𝕄) = (tLoc d ↦{q} f) := rfl
/-- Block t of the transposed result, as the body slices it. -/
theorem pts_oBlk (d : Dev nD) (L : grid0.Coords) (t : Fin 4) (f : Buf (Elt F) (oLoc d)) :
    (((oVW).slice (oRect L t) (fun _ => rfl)).view.loc (VT d L) ↦[((oVW).slice (oRect L t) (fun _ => rfl)).view.set]{fullShare} f : sProp 𝕄)
      = (oLoc d ↦[oBlkSet L t]{fullShare} f) := rfl

end Cert.Proof.KB

end
-- ==== Proof.BInit.lean ====
/-
  The body's first loop nest: the subcore's 1000 x 128 block is filled with the floor value, sixteen lanes at a time —
  row by row (1000 trips), eight stores to a row. Before trip (k1, k2) the rows below k1, and row k1 up to column 16 k2,
  hold the floor value and the rest of the block is as the loop found it; after the last trip every entry holds it.
-/
import proofs.«211736_g82076825026625_cont_sun_c4_101_27_alg».proof.Proof.BCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "sIW" => (Memref.whole Cert.Kernel.cc0_scratch0 : Memref Cert.Kernel.sig Kind.scVector Space.vmem Cert.Kernel.S18x128 EltTy.i32)
local notation "sBW" => (Memref.whole Cert.Kernel.cc0_scratch1 : Memref Cert.Kernel.sig Kind.scVector Space.vmem Cert.Kernel.S1000x128 EltTy.f32)
local notation "tVW" => (Memref.whole Cert.Kernel.main_v0_scv : Memref Cert.Kernel.sig Kind.scVector Space.hbm Cert.Kernel.S50x16384 EltTy.i32)
local notation "oVW" => (Memref.whole Cert.Kernel.main_v1_scv : Memref Cert.Kernel.sig Kind.scVector Space.hbm Cert.Kernel.S1000x16384 EltTy.f32)

/-! ## The block while it is being filled -/

abbrev BlkC (F : FTy → Type) : Type := (⟨S1000x128, .f32⟩ : BufTy).Contents (Elt F)

/-- Rows below k1, and row k1 up to column 16 k2, hold the floor value; every other entry is as it was. -/
def fill (fb : BlkC F) (k1 k2 : Nat) : BlkC F := fun i =>
  if (i 0).val < k1 ∨ ((i 0).val = k1 ∧ (i 1).val < 16 * k2) then bgV (F := F) else fb i

theorem trips1 : k0_t1_loop.trips = 1000 := by decide
theorem trips2 : k0_t2_loop.trips = 8 := by decide

theorem fill_zero (fb : BlkC F) : fill fb 0 0 = fb := by
  funext i; unfold fill; rw [if_neg]; omega
theorem fill_row (fb : BlkC F) (k1 : Nat) : fill fb k1 8 = fill fb (k1 + 1) 0 := by
  funext i
  have h1 : (i 1).val < 128 := (i 1).isLt
  unfold fill
  by_cases h : (i 0).val < k1 ∨ ((i 0).val = k1 ∧ (i 1).val < 16 * 8)
  · rw [if_pos h, if_pos (by omega)]
  · rw [if_neg h, if_neg (by omega)]
theorem fill_all (fb : BlkC F) : fill fb 1000 0 = fun _ => bgV (F := F) := by
  funext i
  have h0 : (i 0).val < 1000 := (i 0).isLt
  unfold fill; rw [if_pos (Or.inl h0)]

/-- The sixteen lanes a trip stores: row k1, columns 16 k2 .. 16 k2 + 15. -/
abbrev laneRect (k1 : Fin k0_t1_loop.trips) (k2 : Fin k0_t2_loop.trips) : Rect S1000x128 :=
  Rect.unit (s := S1000x128) (k0_off1 k1 k2) S1x16.size (k0_off1_inb k1 k2)

theorem mem_lanes (k1 : Fin k0_t1_loop.trips) (k2 : Fin k0_t2_loop.trips) (i : S1000x128.Idx) :
    i ∈ (((sBW).view.slice (laneRect k1 k2)).setOn Finset.univ) ↔ (i 0).val = k1.val ∧ 16 * k2.val ≤ (i 1).val ∧ (i 1).val < 16 * k2.val + 16 := by
  rw [View.setOn_univ, show ((View.whole (cc0_scratch1 : Ref sig .scVector)).slice (laneRect k1 k2)).set = (laneRect k1 k2).set from by
    rw [View.set_slice]; exact Finset.map_refl, Rect.mem_set_unit, k0_off1_eq, Fin.forall_fin_two]
  show (k1.val ≤ (i 0).val ∧ (i 0).val < k1.val + 1) ∧ (16 * k2.val ≤ (i 1).val ∧ (i 1).val < 16 * k2.val + 16) ↔ _
  omega

/-- What a trip stores is the floor value in every lane. -/
theorem lanes_payload (k1 : Fin k0_t1_loop.trips) (k2 : Fin k0_t2_loop.trips) :
    (shapeCast S1x16 (k0_pay2 (F := F)) shapeCasts_S16_S1x16 : S1x16.Idx → Elt F .f32)
      = ((sBW).view.slice (laneRect k1 k2)).read (Elt F) (fun _ => bgV (F := F)) := by
  funext x
  rw [View.read_apply]
  exact (cast_eq _ _).symm

/-- One trip's store takes the block from "up to column 16 k2 of row k1" to "up to column 16 (k2 + 1)". -/
theorem fill_step (fb : BlkC F) (k1 : Fin k0_t1_loop.trips) (k2 : Fin k0_t2_loop.trips) :
    (sBW).view.writes (Elt F) (fill fb k1.val k2.val)
        [⟨laneRect k1 k2, shapeCast S1x16 (k0_pay2 (F := F)) shapeCasts_S16_S1x16⟩]
      = fill fb k1.val (k2.val + 1) := by
  rw [View.writes_singleton, lanes_payload k1 k2, View.write_read_eq_piecewise]
  funext i
  by_cases hi : i ∈ (((sBW).view.slice (laneRect k1 k2)).setOn Finset.univ)
  · rw [Finset.piecewise_eq_of_mem _ _ _ hi]
    have h := (mem_lanes k1 k2 i).mp hi
    unfold fill; rw [if_pos (by omega)]
  · rw [Finset.piecewise_eq_of_notMem _ _ _ hi]
    have h := mt (mem_lanes k1 k2 i).mpr hi
    unfold fill
    by_cases c : (i 0).val < k1.val ∨ ((i 0).val = k1.val ∧ (i 1).val < 16 * k2.val)
    · rw [if_pos c, if_pos (by omega)]
    · rw [if_neg c, if_neg (by omega)]

/-! ## One trip of the inner loop -/

theorem trip2 (d : Dev nD) (L : grid0.Coords) (k1 : Fin k0_t1_loop.trips) (k2 : Fin k0_t2_loop.trips) (acc : BitVec 32) (fb : BlkC F) :
    ((sBW).view.loc (VT d L) ↦{fullShare} fill fb k1.val k2.val : sProp 𝕄)
      ⊢ wp frame (wpE (defs₀ (F := F)) 𝒱₀ (VT d L) none) Set.univ
          (k0_t2_body L tVW (Memref.isWhole_whole _) oVW (Memref.isWhole_whole _) sIW (Memref.isWhole_whole _) sBW (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 k1 k2 acc)
          fun _ => ((sBW).view.loc (VT d L) ↦{fullShare} fill fb k1.val (k2.val + 1) : sProp 𝕄) := by
  unfold k0_t2_body
  iintro H
  sl_exec
  rw [wp_ret]; imodintro
  rw [← fill_step fb k1 k2]
  iexact H

/-! ## The inner loop: one row -/

theorem fill_row' (fb : BlkC F) (k1 : Nat) : fill fb k1 k0_t2_loop.trips = fill fb (k1 + 1) 0 := by
  rw [trips2]; exact fill_row fb k1
theorem fill_all' (fb : BlkC F) : fill fb k0_t1_loop.trips 0 = fun _ => bgV (F := F) := by
  rw [trips1]; exact fill_all fb

theorem init_row (d : Dev nD) (L : grid0.Coords) (k1 : Fin k0_t1_loop.trips) (fb : BlkC F) (Q : BitVec 32 → sProp 𝕄) :
    iprop(((sBW).view.loc (VT d L) ↦{fullShare} fill fb k1.val 0)
        ∗ (∀ acc, ((sBW).view.loc (VT d L) ↦{fullShare} fill fb (k1.val + 1) 0) -∗ Q acc))
      ⊢ wp frame (wpE (defs₀ (F := F)) 𝒱₀ (VT d L) none) Set.univ
          (Scf.Loop.for k0_t2_loop k0_t2_ok 0#32 (k0_t2_body L tVW (Memref.isWhole_whole _) oVW (Memref.isWhole_whole _) sIW (Memref.isWhole_whole _) sBW (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 k1)) Q := by
  iintro ⟨H, HQ⟩
  sl_for (fun (k : Nat) (_ : BitVec 32) => ((sBW).view.loc (VT d L) ↦{fullShare} fill fb k1.val k : sProp 𝕄)) $$ [H HQ]
  case region => exact fun k2 acc => trip2 d L k1 k2 acc fb
  isplitl [H]; · iexact H
  iintro %acc HI
  iapply HQ
  rw [← fill_row' fb k1.val]
  iexact HI

/-! ## One trip of the outer loop, and the nest -/

theorem trip1 (d : Dev nD) (L : grid0.Coords) (k1 : Fin k0_t1_loop.trips) (acc : BitVec 32) (fb : BlkC F) :
    ((sBW).view.loc (VT d L) ↦{fullShare} fill fb k1.val 0 : sProp 𝕄)
      ⊢ wp frame (wpE (defs₀ (F := F)) 𝒱₀ (VT d L) none) Set.univ
          (k0_t1_body L tVW (Memref.isWhole_whole _) oVW (Memref.isWhole_whole _) sIW (Memref.isWhole_whole _) sBW (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 k1 acc)
          fun _ => ((sBW).view.loc (VT d L) ↦{fullShare} fill fb (k1.val + 1) 0 : sProp 𝕄) := by
  unfold k0_t1_body
  simp only [wp_bind, wp_pure]
  iintro H
  iapply (init_row d L k1 fb _)
  isplitl [H]; · iexact H
  iintro %acc' H'
  imodintro
  iexact H'

/-- The first loop nest, from the block at any contents: it ends with every entry at the floor value. -/
theorem init_loops (d : Dev nD) (L : grid0.Coords) (fb : Buf (Elt F) ((VT d L).loc cc0_scratch1)) (Q : BitVec 32 → sProp 𝕄) :
    iprop(((sBW).view.loc (VT d L) ↦{fullShare} fb) ∗ (∀ acc, ((sBW).view.loc (VT d L) ↦{fullShare} (fun _ => bgV (F := F))) -∗ Q acc))
      ⊢ wp frame (wpE (defs₀ (F := F)) 𝒱₀ (VT d L) none) Set.univ
          (Scf.Loop.for k0_t1_loop k0_t1_ok 0#32 (k0_t1_body L tVW (Memref.isWhole_whole _) oVW (Memref.isWhole_whole _) sIW (Memref.isWhole_whole _) sBW (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21)) Q := by
  iintro ⟨H, HQ⟩
  sl_for (fun (k : Nat) (_ : BitVec 32) => ((sBW).view.loc (VT d L) ↦{fullShare} fill (F := F) fb k 0 : sProp 𝕄)) $$ [H HQ]
  case region => exact fun k1 acc => trip1 d L k1 acc fb
  isplitl [H]
  · rw [fill_zero]; iexact H
  iintro %acc HI
  iapply HQ
  have e : ((sBW).view.loc (VT d L) ↦{fullShare} fill (F := F) fb k0_t1_loop.trips 0 : sProp 𝕄)
      = ((sBW).view.loc (VT d L) ↦{fullShare} (fun _ => bgV (F := F))) := by rw [fill_all']
  iapply (Entails.of_eq e)
  iexact HI

end Cert.Proof.KB

end
-- ==== Proof.BScan.lean ====
/-
  A scan loop of the multi-hot kernel, once for all of them.

  Every scan loop walks the rows of the index scratch (up to eighteen rows of 128 labels, one label per sample of the
  current block): a trip loads row k in eight pieces of sixteen lanes, checks each piece names classes, and stores one
  value — the hit value when building a block, the floor value when clearing it — at (label, column) for each lane.
  After the rows r < k the block holds that value at (cls, b) exactly when some row r < k has label cls at column b, and
  is as it was elsewhere (`scanRows`).
-/
import proofs.«211736_g82076825026625_cont_sun_c4_101_27_alg».proof.Proof.BCommon
import proofs.«211736_g82076825026625_cont_sun_c4_101_27_alg».proof.Proof.ScanMath
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type} [FloatOps F]

local notation "𝕄" => MT nD τ sig (HIx 1) (Elt F) ℕ UU ℕ
local notation "sIW" => (Memref.whole Cert.Kernel.cc0_scratch0 : Memref Cert.Kernel.sig Kind.scVector Space.vmem Cert.Kernel.S18x128 EltTy.i32)
local notation "sBW" => (Memref.whole Cert.Kernel.cc0_scratch1 : Memref Cert.Kernel.sig Kind.scVector Space.vmem Cert.Kernel.S1000x128 EltTy.f32)
local notation "tVW" => (Memref.whole Cert.Kernel.main_v0_scv : Memref Cert.Kernel.sig Kind.scVector Space.hbm Cert.Kernel.S50x16384 EltTy.i32)
local notation "oVW" => (Memref.whole Cert.Kernel.main_v1_scv : Memref Cert.Kernel.sig Kind.scVector Space.hbm Cert.Kernel.S1000x16384 EltTy.f32)

/-- One trip of a scan loop, for any loop record, row offsets, stored value and lane columns: the eight 16-lane pieces
    of index row k are loaded and checked, then each is used as the class coordinate of an indexed store of `val`
    into the block, the lane columns the other coordinate. -/
def scanBody (L : grid0.Coords) (a4 : Memref sig .scVector .vmem S18x128 .i32) (a5 : Memref sig .scVector .vmem S1000x128 .f32)
    (n : Scf.Loop 32) (off : Fin 8 → Fin n.trips → Fin 2 → Nat)
    (inb : ∀ g k, ∀ a, off g k a + S1x16.size a ≤ S18x128.size a) (val : FVec F S16 .f32) (ln : Fin 8 → IVec S16 32) :
    Fin n.trips → BitVec 32 → Prog (TpuEff nD τ sig (Elt F) Λ₀ (.scVector ((L 0).castLE hcore0) ((L 1).castLE hsub0))) (BitVec 32) :=
  fun k _ => do
    let l0 : Vec F S1x16 .i32 ← Prog.lift (.load a4 (Rect.unit (s := S18x128) (off 0 k) S1x16.size (inb 0 k)).toLoadRect (View.loadsAt_vmem h_S1x16))
    have i0 : Vec F S16 .i32 := shapeCast S16 l0 shapeCasts_S1x16_S16
    have w0 : k0_chk1 (ln 0) i0 := (← Prog.lift (TpuEff.assume (k0_chk1 (ln 0) i0) (k0_chk1.dec (ln 0) i0))).down
    let l1 : Vec F S1x16 .i32 ← Prog.lift (.load a4 (Rect.unit (s := S18x128) (off 1 k) S1x16.size (inb 1 k)).toLoadRect (View.loadsAt_vmem h_S1x16))
    have i1 : Vec F S16 .i32 := shapeCast S16 l1 shapeCasts_S1x16_S16
    have w1 : k0_chk1 (ln 1) i1 := (← Prog.lift (TpuEff.assume (k0_chk1 (ln 1) i1) (k0_chk1.dec (ln 1) i1))).down
    let l2 : Vec F S1x16 .i32 ← Prog.lift (.load a4 (Rect.unit (s := S18x128) (off 2 k) S1x16.size (inb 2 k)).toLoadRect (View.loadsAt_vmem h_S1x16))
    have i2 : Vec F S16 .i32 := shapeCast S16 l2 shapeCasts_S1x16_S16
    have w2 : k0_chk1 (ln 2) i2 := (← Prog.lift (TpuEff.assume (k0_chk1 (ln 2) i2) (k0_chk1.dec (ln 2) i2))).down
    let l3 : Vec F S1x16 .i32 ← Prog.lift (.load a4 (Rect.unit (s := S18x128) (off 3 k) S1x16.size (inb 3 k)).toLoadRect (View.loadsAt_vmem h_S1x16))
    have i3 : Vec F S16 .i32 := shapeCast S16 l3 shapeCasts_S1x16_S16
    have w3 : k0_chk1 (ln 3) i3 := (← Prog.lift (TpuEff.assume (k0_chk1 (ln 3) i3) (k0_chk1.dec (ln 3) i3))).down
    let l4 : Vec F S1x16 .i32 ← Prog.lift (.load a4 (Rect.unit (s := S18x128) (off 4 k) S1x16.size (inb 4 k)).toLoadRect (View.loadsAt_vmem h_S1x16))
    have i4 : Vec F S16 .i32 := shapeCast S16 l4 shapeCasts_S1x16_S16
    have w4 : k0_chk1 (ln 4) i4 := (← Prog.lift (TpuEff.assume (k0_chk1 (ln 4) i4) (k0_chk1.dec (ln 4) i4))).down
    let l5 : Vec F S1x16 .i32 ← Prog.lift (.load a4 (Rect.unit (s := S18x128) (off 5 k) S1x16.size (inb 5 k)).toLoadRect (View.loadsAt_vmem h_S1x16))
    have i5 : Vec F S16 .i32 := shapeCast S16 l5 shapeCasts_S1x16_S16
    have w5 : k0_chk1 (ln 5) i5 := (← Prog.lift (TpuEff.assume (k0_chk1 (ln 5) i5) (k0_chk1.dec (ln 5) i5))).down
    let l6 : Vec F S1x16 .i32 ← Prog.lift (.load a4 (Rect.unit (s := S18x128) (off 6 k) S1x16.size (inb 6 k)).toLoadRect (View.loadsAt_vmem h_S1x16))
    have i6 : Vec F S16 .i32 := shapeCast S16 l6 shapeCasts_S1x16_S16
    have w6 : k0_chk1 (ln 6) i6 := (← Prog.lift (TpuEff.assume (k0_chk1 (ln 6) i6) (k0_chk1.dec (ln 6) i6))).down
    let l7 : Vec F S1x16 .i32 ← Prog.lift (.load a4 (Rect.unit (s := S18x128) (off 7 k) S1x16.size (inb 7 k)).toLoadRect (View.loadsAt_vmem h_S1x16))
    have i7 : Vec F S16 .i32 := shapeCast S16 l7 shapeCasts_S1x16_S16
    have w7 : k0_chk1 (ln 7) i7 := (← Prog.lift (TpuEff.assume (k0_chk1 (ln 7) i7) (k0_chk1.dec (ln 7) i7))).down
    SparseCore.vectorStoreIdx a5 ![i0, ln 0] val (fun _ => 1#1) false (k0_idx1_inb (ln 0) i0 w0) (View.stores_vmem_bits_univ h_S1000x128 rfl)
    SparseCore.vectorStoreIdx a5 ![i1, ln 1] val (fun _ => 1#1) false (k0_idx1_inb (ln 1) i1 w1) (View.stores_vmem_bits_univ h_S1000x128 rfl)
    SparseCore.vectorStoreIdx a5 ![i2, ln 2] val (fun _ => 1#1) false (k0_idx1_inb (ln 2) i2 w2) (View.stores_vmem_bits_univ h_S1000x128 rfl)
    SparseCore.vectorStoreIdx a5 ![i3, ln 3] val (fun _ => 1#1) false (k0_idx1_inb (ln 3) i3 w3) (View.stores_vmem_bits_univ h_S1000x128 rfl)
    SparseCore.vectorStoreIdx a5 ![i4, ln 4] val (fun _ => 1#1) false (k0_idx1_inb (ln 4) i4 w4) (View.stores_vmem_bits_univ h_S1000x128 rfl)
    SparseCore.vectorStoreIdx a5 ![i5, ln 5] val (fun _ => 1#1) false (k0_idx1_inb (ln 5) i5 w5) (View.stores_vmem_bits_univ h_S1000x128 rfl)
    SparseCore.vectorStoreIdx a5 ![i6, ln 6] val (fun _ => 1#1) false (k0_idx1_inb (ln 6) i6 w6) (View.stores_vmem_bits_univ h_S1000x128 rfl)
    SparseCore.vectorStoreIdx a5 ![i7, ln 7] val (fun _ => 1#1) false (k0_idx1_inb (ln 7) i7 w7) (View.stores_vmem_bits_univ h_S1000x128 rfl)
    pure 0#32

/-! ## A loaded piece, lane by lane -/

/-- Piece g of row k of the index scratch, at lane x, is the label at row k, column 16 g + x. -/
theorem piece_lane (d : Dev nD) (L : grid0.Coords) (xi : Buf (Elt F) ((VT d L).loc cc0_scratch0))
    (off2 : Fin 2 → Nat) (inb2 : ∀ a, off2 a + S1x16.size a ≤ S18x128.size a) (r : Fin 18) (g : Fin 8)
    (hoff : off2 = ![r.val, 16 * g.val]) (x : Fin 16) :
    (shapeCast S16 (View.readAt (Elt F) (sIW).view (Rect.unit (s := S18x128) off2 S1x16.size inb2).toLoadRect xi) shapeCasts_S1x16_S16
        : IVec S16 32) (Shape.ofLane x)
      = xi (ix2 r (⟨16 * g.val + x.val, by have := g.isLt; have := x.isLt; omega⟩ : Fin 128)) := by
  subst hoff
  rw [shapeCast_dropUnit_apply (d := ![16])]
  rw [View.readAt_apply]
  simp only [Memref.view_whole, View.read_whole]
  congr 1
  funext a
  apply Fin.ext
  rw [LoadRect.idx_apply]
  match a with
  | ⟨0, _⟩ => show r.val + 1 * 0 = r.val; omega
  | ⟨1, _⟩ => show 16 * g.val + 1 * x.val = 16 * g.val + x.val; omega

/-! ## The block after the rows before k -/

/-- The block after the rows r < k of the index scratch `xi` have been scanned with the value `c`, starting from `fb`. -/
def scanRows (d : Dev nD) (L : grid0.Coords) (c : F .f32) (xi : Buf (Elt F) ((VT d L).loc cc0_scratch0)) (k : Nat)
    (fb : Buf (Elt F) ((VT d L).loc cc0_scratch1)) : Buf (Elt F) ((VT d L).loc cc0_scratch1) :=
  open Classical in fun (j : S1000x128.Idx) =>
    if ∃ r : Fin 18, r.val < k ∧ (xi (ix2 r (⟨(j 1).val, (j 1).isLt⟩ : Fin 128))).toNat = (j 0).val then c else fb j

/-- One more row is one more `rowNest`. -/
theorem scanRows_succ (d : Dev nD) (L : grid0.Coords) (c : F .f32) (xi : Buf (Elt F) ((VT d L).loc cc0_scratch0))
    (fb : Buf (Elt F) ((VT d L).loc cc0_scratch1)) (k : Fin 18) (rows cols : Fin 8 → IVec S16 32)
    (h : ∀ g, ∀ a x, ((![rows g, cols g] : Fin 2 → IVec S16 32) a x).toNat < S1000x128.size a)
    (hrow : ∀ (g : Fin 8) (x : Fin 16), rows g (Shape.ofLane x)
      = xi (ix2 k (⟨16 * g.val + x.val, by have := g.isLt; have := x.isLt; omega⟩ : Fin 128)))
    (hcol : ∀ (g : Fin 8) (x : Fin 16), (cols g (Shape.ofLane x)).toNat = 16 * g.val + x.val) :
    scanRows d L c xi (k.val + 1) fb = ScanMath.rowNest (F := F) (e := .f32) (scanRows d L c xi k.val fb) rows cols c h := by
  funext j
  rw [ScanMath.rowNest_apply (F := F) (scanRows d L c xi k.val fb) rows cols c h (fun col => xi (ix2 k col)) hrow hcol j]
  unfold scanRows
  classical
  by_cases hk : (xi (ix2 k (⟨(j 1).val, (j 1).isLt⟩ : Fin 128))).toNat = (j 0).val
  · rw [if_pos (show (xi (ix2 k (⟨(j 1).val, (j 1).isLt⟩ : Fin 128))).toNat = (j 0).val from hk)]
    exact if_pos ⟨k, Nat.lt_succ_self _, hk⟩
  · rw [if_neg (show ¬ (xi (ix2 k (⟨(j 1).val, (j 1).isLt⟩ : Fin 128))).toNat = (j 0).val from hk)]
    by_cases hb : ∃ r : Fin 18, r.val < k.val ∧ (xi (ix2 r (⟨(j 1).val, (j 1).isLt⟩ : Fin 128))).toNat = (j 0).val
    · obtain ⟨r, hr, hx⟩ := hb
      rw [if_pos ⟨r, Nat.lt_succ_of_lt hr, hx⟩, if_pos ⟨r, hr, hx⟩]
    · rw [if_neg hb, if_neg]
      rintro ⟨r, hr, hx⟩
      rcases Nat.lt_succ_iff_lt_or_eq.mp hr with hlt | heq
      · exact hb ⟨r, hlt, hx⟩
      · exact hk (by rw [← Fin.ext heq]; exact hx)

/-! ## One trip -/

/-- The block held whole is the block held through its whole-rectangle access. -/
theorem pts_sB_access (d : Dev nD) (L : grid0.Coords) (f : Buf (Elt F) ((VT d L).loc cc0_scratch1)) :
    ((((sBW).access (.whole S1000x128)).loc (VT d L) ↦[((sBW).access (.whole S1000x128)).set]{fullShare} f : sProp 𝕄))
      = ((sBW).view.loc (VT d L) ↦{fullShare} f) := by
  rw [show ((sBW).access (Rect.whole S1000x128)).set = Finset.univ from Memref.set_access_whole (cc0_scratch1 : Ref sig .scVector)]

/-- What a scan loop holds before trip k: the index rows, and the block after the rows before k. -/
def scanInv (d : Dev nD) (L : grid0.Coords) (c : F .f32) (xi : Buf (Elt F) ((VT d L).loc cc0_scratch0))
    (fb : Buf (Elt F) ((VT d L).loc cc0_scratch1)) (k : Nat) (_ : BitVec 32) : sProp 𝕄 :=
  iprop(((sIW).view.loc (VT d L) ↦{fullShare} xi) ∗ ((sBW).view.loc (VT d L) ↦{fullShare} scanRows d L c xi k fb))

/-- The rows a scan loop reads name classes, and its lane columns are the block's columns. -/
structure ScanOK (d : Dev nD) (L : grid0.Coords) (n : Scf.Loop 32) (off : Fin 8 → Fin n.trips → Fin 2 → Nat)
    (ln : Fin 8 → IVec S16 32) (xi : Buf (Elt F) ((VT d L).loc cc0_scratch0)) : Prop where
  trips : n.trips ≤ 18
  off : ∀ g k, off g k = ![k.val, 16 * g.val]
  ln : ∀ (g : Fin 8) (x : Fin 16), (ln g (Shape.ofLane x)).toNat = 16 * g.val + x.val
  xi : ∀ (r : Fin 18) (col : Fin 128), r.val < n.trips → (xi (ix2 r col)).toNat < 1000

theorem lane_eq (x : S16.Idx) : x = Shape.ofLane (d := ![16]) (⟨(x 0).val, (x 0).isLt⟩ : Fin 16) := by
  funext a
  obtain rfl : a = 0 := Subsingleton.elim _ _
  rfl

/-- The check a trip assumes of each piece holds. -/
theorem chk_ok (d : Dev nD) (L : grid0.Coords) (n : Scf.Loop 32) (off : Fin 8 → Fin n.trips → Fin 2 → Nat)
    (inb : ∀ g k, ∀ a, off g k a + S1x16.size a ≤ S18x128.size a) (ln : Fin 8 → IVec S16 32)
    (xi : Buf (Elt F) ((VT d L).loc cc0_scratch0)) (hok : ScanOK d L n off ln xi) (g : Fin 8) (k : Fin n.trips) :
    k0_chk1 (ln g) (shapeCast S16 (View.readAt (Elt F) (sIW).view (Rect.unit (s := S18x128) (off g k) S1x16.size (inb g k)).toLoadRect xi) shapeCasts_S1x16_S16) := by
  have hk18 : k.val < 18 := Nat.lt_of_lt_of_le k.isLt hok.trips
  intro a x
  rw [lane_eq x]
  match a with
  | ⟨0, _⟩ =>
    show ((shapeCast S16 (View.readAt (Elt F) (sIW).view (Rect.unit (s := S18x128) (off g k) S1x16.size (inb g k)).toLoadRect xi) shapeCasts_S1x16_S16 : IVec S16 32)
      (Shape.ofLane (d := ![16]) (⟨(x 0).val, (x 0).isLt⟩ : Fin 16))).toNat < 1000
    rw [piece_lane d L xi (off g k) (inb g k) ⟨k.val, hk18⟩ g (hok.off g k)]
    exact hok.xi _ _ k.isLt
  | ⟨1, _⟩ =>
    show ((ln g) (Shape.ofLane (d := ![16]) (⟨(x 0).val, (x 0).isLt⟩ : Fin 16))).toNat < 128
    rw [hok.ln]
    have := g.isLt; have := (x 0).isLt
    omega

/-- **One trip of a scan loop**: from the block after the rows before k to the block after the rows up to k. -/
theorem scan_step (d : Dev nD) (L : grid0.Coords) (n : Scf.Loop 32) (off : Fin 8 → Fin n.trips → Fin 2 → Nat)
    (inb : ∀ g k, ∀ a, off g k a + S1x16.size a ≤ S18x128.size a) (c : F .f32) (ln : Fin 8 → IVec S16 32)
    (xi : Buf (Elt F) ((VT d L).loc cc0_scratch0)) (fb : Buf (Elt F) ((VT d L).loc cc0_scratch1))
    (hok : ScanOK d L n off ln xi) (k : Fin n.trips) (acc : BitVec 32) :
    scanInv d L c xi fb k.val acc
      ⊢ wp frame (wpE (defs₀ (F := F)) 𝒱₀ (VT d L) none) Set.univ (scanBody L sIW sBW n off inb (fun _ => c) ln k acc)
          (scanInv d L c xi fb (k.val + 1)) := by
  have hk18 : k.val < 18 := Nat.lt_of_lt_of_le k.isLt hok.trips
  unfold scanBody
  simp only [Prog.lift, Prog.bind_op, Prog.bind_ret, Prog.pure_eq_ret]
  unfold scanInv
  iintro ⟨Hi, Hb⟩
  sl_exec (disch := exact chk_ok d L n off inb ln xi hok _ k)
  ihave Hb1 := (Entails.of_eq (pts_sB_access (F := F) d L _).symm) $$ Hb
  iapply (SparseCore.wp_vectorStoreIdx (defs := defs₀ (F := F)) 𝒱₀ (VT d L) none Set.univ (base := sBW)) $$ Hb1; iintro Hb1
  iapply (SparseCore.wp_vectorStoreIdx (defs := defs₀ (F := F)) 𝒱₀ (VT d L) none Set.univ (base := sBW)) $$ Hb1; iintro Hb1
  iapply (SparseCore.wp_vectorStoreIdx (defs := defs₀ (F := F)) 𝒱₀ (VT d L) none Set.univ (base := sBW)) $$ Hb1; iintro Hb1
  iapply (SparseCore.wp_vectorStoreIdx (defs := defs₀ (F := F)) 𝒱₀ (VT d L) none Set.univ (base := sBW)) $$ Hb1; iintro Hb1
  iapply (SparseCore.wp_vectorStoreIdx (defs := defs₀ (F := F)) 𝒱₀ (VT d L) none Set.univ (base := sBW)) $$ Hb1; iintro Hb1
  iapply (SparseCore.wp_vectorStoreIdx (defs := defs₀ (F := F)) 𝒱₀ (VT d L) none Set.univ (base := sBW)) $$ Hb1; iintro Hb1
  iapply (SparseCore.wp_vectorStoreIdx (defs := defs₀ (F := F)) 𝒱₀ (VT d L) none Set.univ (base := sBW)) $$ Hb1; iintro Hb1
  iapply (SparseCore.wp_vectorStoreIdx (defs := defs₀ (F := F)) 𝒱₀ (VT d L) none Set.univ (base := sBW)) $$ Hb1; iintro Hb1
  rw [wp_ret]
  imodintro
  isplitl [Hi]; · iexact Hi
  ihave Hb2 := (Entails.of_eq (pts_sB_access (F := F) d L _)) $$ Hb1
  rw [scanRows_succ d L c xi fb ⟨k.val, hk18⟩
    (fun g => shapeCast S16 (View.readAt (Elt F) (sIW).view (Rect.unit (s := S18x128) (off g k) S1x16.size (inb g k)).toLoadRect xi) shapeCasts_S1x16_S16)
    ln (fun g => chk_ok d L n off inb ln xi hok g k)
    (fun g x => piece_lane d L xi (off g k) (inb g k) ⟨k.val, hk18⟩ g (hok.off g k) x) hok.ln]
  unfold ScanMath.rowNest
  simp only [Memref.write_access_whole_univ, Memref.read_access_whole]
  iexact Hb2

end Cert.Proof.KB

end
-- ==== Proof.BScanEqs.lean ====
/-
  The scan loops of the body, one by one: each loop's region is the generic trip body at that loop's record, its
  eight row offsets (row k, columns 16 g .. 16 g + 15), the value it stores (the hit value when a block is built,
  the floor value when it is cleared) and the eight lane-column vectors; and each loop has at most eighteen trips.
-/
import proofs.«211736_g82076825026625_cont_sun_c4_101_27_alg».proof.Proof.BScan

noncomputable section

namespace Cert.Proof.KB

open Cert.Kernel Cert.Kernel.Gen
open Idealize.ShloMosaic

variable {F : FTy → Type} [FloatOps F]

local notation "sIW" => (Memref.whole Cert.Kernel.cc0_scratch0 : Memref Cert.Kernel.sig Kind.scVector Space.vmem Cert.Kernel.S18x128 EltTy.i32)
local notation "sBW" => (Memref.whole Cert.Kernel.cc0_scratch1 : Memref Cert.Kernel.sig Kind.scVector Space.vmem Cert.Kernel.S1000x128 EltTy.f32)
local notation "tVW" => (Memref.whole Cert.Kernel.main_v0_scv : Memref Cert.Kernel.sig Kind.scVector Space.hbm Cert.Kernel.S50x16384 EltTy.i32)
local notation "oVW" => (Memref.whole Cert.Kernel.main_v1_scv : Memref Cert.Kernel.sig Kind.scVector Space.hbm Cert.Kernel.S1000x16384 EltTy.f32)

/-- The eight lane-column vectors: piece g covers columns 16 g .. 16 g + 15. -/
abbrev lanes : Fin 8 → IVec S16 32 := ![k0_pay3, k0_pay4, k0_pay5, k0_pay6, k0_pay7, k0_pay8, k0_pay9, k0_pay10]

/-- Loop 3: offsets 3–10, stores the hit value. -/
abbrev offs3 : Fin 8 → Fin k0_t3_loop.trips → Fin 2 → Nat := ![k0_off3, k0_off4, k0_off5, k0_off6, k0_off7, k0_off8, k0_off9, k0_off10]
theorem inb3 : ∀ g k, ∀ a, offs3 g k a + S1x16.size a ≤ S18x128.size a := (fun g k => match g with | ⟨0, _⟩ => k0_off3_inb k | ⟨1, _⟩ => k0_off4_inb k | ⟨2, _⟩ => k0_off5_inb k | ⟨3, _⟩ => k0_off6_inb k | ⟨4, _⟩ => k0_off7_inb k | ⟨5, _⟩ => k0_off8_inb k | ⟨6, _⟩ => k0_off9_inb k | ⟨7, _⟩ => k0_off10_inb k)
set_option maxRecDepth 65536 in
theorem t3_eq (L : grid0.Coords)  :
    k0_t3_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay1 (F := F)) k0_pay3 k0_pay4 k0_pay5 k0_pay6 k0_pay7 k0_pay8 k0_pay9 k0_pay10
    = scanBody L sIW sBW k0_t3_loop offs3 inb3 (fun _ => hitV (F := F)) lanes := rfl
theorem trips3 : k0_t3_loop.trips ≤ 18 := Nat.le_trans k0_t3_abs.2.1 (by decide)
theorem trips3_eq : Scf.trips k0_t3_loop.lb k0_t3_loop.ub k0_t3_loop.st = 16 := by decide
theorem offs3_eq : ∀ g k, offs3 g k = ![k.val, 16 * g.val] := fun g k => match g with
  | ⟨0, _⟩ => k0_off3_eq k
  | ⟨1, _⟩ => k0_off4_eq k
  | ⟨2, _⟩ => k0_off5_eq k
  | ⟨3, _⟩ => k0_off6_eq k
  | ⟨4, _⟩ => k0_off7_eq k
  | ⟨5, _⟩ => k0_off8_eq k
  | ⟨6, _⟩ => k0_off9_eq k
  | ⟨7, _⟩ => k0_off10_eq k

/-- Loop 4: offsets 12–19, stores the hit value. -/
abbrev offs4 : Fin 8 → Fin k0_t4_loop.trips → Fin 2 → Nat := ![k0_off12, k0_off13, k0_off14, k0_off15, k0_off16, k0_off17, k0_off18, k0_off19]
theorem inb4 : ∀ g k, ∀ a, offs4 g k a + S1x16.size a ≤ S18x128.size a := (fun g k => match g with | ⟨0, _⟩ => k0_off12_inb k | ⟨1, _⟩ => k0_off13_inb k | ⟨2, _⟩ => k0_off14_inb k | ⟨3, _⟩ => k0_off15_inb k | ⟨4, _⟩ => k0_off16_inb k | ⟨5, _⟩ => k0_off17_inb k | ⟨6, _⟩ => k0_off18_inb k | ⟨7, _⟩ => k0_off19_inb k)
set_option maxRecDepth 65536 in
theorem t4_eq (L : grid0.Coords)  :
    k0_t4_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay1 (F := F)) k0_pay3 k0_pay4 k0_pay5 k0_pay6 k0_pay7 k0_pay8 k0_pay9 k0_pay10
    = scanBody L sIW sBW k0_t4_loop offs4 inb4 (fun _ => hitV (F := F)) lanes := rfl
theorem trips4 : k0_t4_loop.trips ≤ 18 := Nat.le_trans k0_t4_abs.2.1 (by decide)
theorem trips4_eq : Scf.trips k0_t4_loop.lb k0_t4_loop.ub k0_t4_loop.st = 16 := by decide
theorem offs4_eq : ∀ g k, offs4 g k = ![k.val, 16 * g.val] := fun g k => match g with
  | ⟨0, _⟩ => k0_off12_eq k
  | ⟨1, _⟩ => k0_off13_eq k
  | ⟨2, _⟩ => k0_off14_eq k
  | ⟨3, _⟩ => k0_off15_eq k
  | ⟨4, _⟩ => k0_off16_eq k
  | ⟨5, _⟩ => k0_off17_eq k
  | ⟨6, _⟩ => k0_off18_eq k
  | ⟨7, _⟩ => k0_off19_eq k

/-- Loop 5: offsets 21–28, stores the hit value. -/
abbrev offs5 : Fin 8 → Fin k0_t5_loop.trips → Fin 2 → Nat := ![k0_off21, k0_off22, k0_off23, k0_off24, k0_off25, k0_off26, k0_off27, k0_off28]
theorem inb5 : ∀ g k, ∀ a, offs5 g k a + S1x16.size a ≤ S18x128.size a := (fun g k => match g with | ⟨0, _⟩ => k0_off21_inb k | ⟨1, _⟩ => k0_off22_inb k | ⟨2, _⟩ => k0_off23_inb k | ⟨3, _⟩ => k0_off24_inb k | ⟨4, _⟩ => k0_off25_inb k | ⟨5, _⟩ => k0_off26_inb k | ⟨6, _⟩ => k0_off27_inb k | ⟨7, _⟩ => k0_off28_inb k)
set_option maxRecDepth 65536 in
theorem t5_eq (L : grid0.Coords)  :
    k0_t5_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay1 (F := F)) (k0_pay2 (F := F)) k0_pay3 k0_pay4 k0_pay5 k0_pay6 k0_pay7 k0_pay8 k0_pay9 k0_pay10
    = scanBody L sIW sBW k0_t5_loop offs5 inb5 (fun _ => hitV (F := F)) lanes := rfl
theorem trips5 : k0_t5_loop.trips ≤ 18 := Nat.le_trans k0_t5_abs.2.1 (by decide)
theorem trips5_eq : Scf.trips k0_t5_loop.lb k0_t5_loop.ub k0_t5_loop.st = 18 := by decide
theorem offs5_eq : ∀ g k, offs5 g k = ![k.val, 16 * g.val] := fun g k => match g with
  | ⟨0, _⟩ => k0_off21_eq k
  | ⟨1, _⟩ => k0_off22_eq k
  | ⟨2, _⟩ => k0_off23_eq k
  | ⟨3, _⟩ => k0_off24_eq k
  | ⟨4, _⟩ => k0_off25_eq k
  | ⟨5, _⟩ => k0_off26_eq k
  | ⟨6, _⟩ => k0_off27_eq k
  | ⟨7, _⟩ => k0_off28_eq k

/-- Loop 6: offsets 30–37, stores the floor value. -/
abbrev offs6 : Fin 8 → Fin k0_t6_loop.trips → Fin 2 → Nat := ![k0_off30, k0_off31, k0_off32, k0_off33, k0_off34, k0_off35, k0_off36, k0_off37]
theorem inb6 : ∀ g k, ∀ a, offs6 g k a + S1x16.size a ≤ S18x128.size a := (fun g k => match g with | ⟨0, _⟩ => k0_off30_inb k | ⟨1, _⟩ => k0_off31_inb k | ⟨2, _⟩ => k0_off32_inb k | ⟨3, _⟩ => k0_off33_inb k | ⟨4, _⟩ => k0_off34_inb k | ⟨5, _⟩ => k0_off35_inb k | ⟨6, _⟩ => k0_off36_inb k | ⟨7, _⟩ => k0_off37_inb k)
set_option maxRecDepth 65536 in
theorem t6_eq (L : grid0.Coords)  :
    k0_t6_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay1 (F := F)) (k0_pay2 (F := F)) k0_pay3 k0_pay4 k0_pay5 k0_pay6 k0_pay7 k0_pay8 k0_pay9 k0_pay10
    = scanBody L sIW sBW k0_t6_loop offs6 inb6 (fun _ => bgV (F := F)) lanes := rfl
theorem trips6 : k0_t6_loop.trips ≤ 18 := Nat.le_trans k0_t6_abs.2.1 (by decide)
theorem trips6_eq : Scf.trips k0_t6_loop.lb k0_t6_loop.ub k0_t6_loop.st = 18 := by decide
theorem offs6_eq : ∀ g k, offs6 g k = ![k.val, 16 * g.val] := fun g k => match g with
  | ⟨0, _⟩ => k0_off30_eq k
  | ⟨1, _⟩ => k0_off31_eq k
  | ⟨2, _⟩ => k0_off32_eq k
  | ⟨3, _⟩ => k0_off33_eq k
  | ⟨4, _⟩ => k0_off34_eq k
  | ⟨5, _⟩ => k0_off35_eq k
  | ⟨6, _⟩ => k0_off36_eq k
  | ⟨7, _⟩ => k0_off37_eq k

/-- Loop 7: offsets 39–46, stores the floor value. -/
abbrev offs7 : Fin 8 → Fin k0_t7_loop.trips → Fin 2 → Nat := ![k0_off39, k0_off40, k0_off41, k0_off42, k0_off43, k0_off44, k0_off45, k0_off46]
theorem inb7 : ∀ g k, ∀ a, offs7 g k a + S1x16.size a ≤ S18x128.size a := (fun g k => match g with | ⟨0, _⟩ => k0_off39_inb k | ⟨1, _⟩ => k0_off40_inb k | ⟨2, _⟩ => k0_off41_inb k | ⟨3, _⟩ => k0_off42_inb k | ⟨4, _⟩ => k0_off43_inb k | ⟨5, _⟩ => k0_off44_inb k | ⟨6, _⟩ => k0_off45_inb k | ⟨7, _⟩ => k0_off46_inb k)
set_option maxRecDepth 65536 in
theorem t7_eq (L : grid0.Coords)  :
    k0_t7_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay1 (F := F)) (k0_pay2 (F := F)) k0_pay3 k0_pay4 k0_pay5 k0_pay6 k0_pay7 k0_pay8 k0_pay9 k0_pay10
    = scanBody L sIW sBW k0_t7_loop offs7 inb7 (fun _ => bgV (F := F)) lanes := rfl
theorem trips7 : k0_t7_loop.trips ≤ 18 := Nat.le_trans k0_t7_abs.2.1 (by decide)
theorem trips7_eq : Scf.trips k0_t7_loop.lb k0_t7_loop.ub k0_t7_loop.st = 16 := by decide
theorem offs7_eq : ∀ g k, offs7 g k = ![k.val, 16 * g.val] := fun g k => match g with
  | ⟨0, _⟩ => k0_off39_eq k
  | ⟨1, _⟩ => k0_off40_eq k
  | ⟨2, _⟩ => k0_off41_eq k
  | ⟨3, _⟩ => k0_off42_eq k
  | ⟨4, _⟩ => k0_off43_eq k
  | ⟨5, _⟩ => k0_off44_eq k
  | ⟨6, _⟩ => k0_off45_eq k
  | ⟨7, _⟩ => k0_off46_eq k

/-- Loop 8: offsets 47–54, stores the floor value. -/
abbrev offs8 : Fin 8 → Fin k0_t8_loop.trips → Fin 2 → Nat := ![k0_off47, k0_off48, k0_off49, k0_off50, k0_off51, k0_off52, k0_off53, k0_off54]
theorem inb8 : ∀ g k, ∀ a, offs8 g k a + S1x16.size a ≤ S18x128.size a := (fun g k => match g with | ⟨0, _⟩ => k0_off47_inb k | ⟨1, _⟩ => k0_off48_inb k | ⟨2, _⟩ => k0_off49_inb k | ⟨3, _⟩ => k0_off50_inb k | ⟨4, _⟩ => k0_off51_inb k | ⟨5, _⟩ => k0_off52_inb k | ⟨6, _⟩ => k0_off53_inb k | ⟨7, _⟩ => k0_off54_inb k)
set_option maxRecDepth 65536 in
theorem t8_eq (L : grid0.Coords) (v1 : BitVec 32) :
    k0_t8_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 v1 (k0_pay1 (F := F)) (k0_pay2 (F := F)) k0_pay3 k0_pay4 k0_pay5 k0_pay6 k0_pay7 k0_pay8 k0_pay9 k0_pay10
    = scanBody L sIW sBW k0_t8_loop offs8 inb8 (fun _ => bgV (F := F)) lanes := rfl
theorem trips8 : k0_t8_loop.trips ≤ 18 := Nat.le_trans k0_t8_abs.2.1 (by decide)
theorem trips8_eq : Scf.trips k0_t8_loop.lb k0_t8_loop.ub k0_t8_loop.st = 16 := by decide
theorem offs8_eq : ∀ g k, offs8 g k = ![k.val, 16 * g.val] := fun g k => match g with
  | ⟨0, _⟩ => k0_off47_eq k
  | ⟨1, _⟩ => k0_off48_eq k
  | ⟨2, _⟩ => k0_off49_eq k
  | ⟨3, _⟩ => k0_off50_eq k
  | ⟨4, _⟩ => k0_off51_eq k
  | ⟨5, _⟩ => k0_off52_eq k
  | ⟨6, _⟩ => k0_off53_eq k
  | ⟨7, _⟩ => k0_off54_eq k

/-- Loop 9: offsets 55–62, stores the hit value. -/
abbrev offs9 : Fin 8 → Fin k0_t9_loop.trips → Fin 2 → Nat := ![k0_off55, k0_off56, k0_off57, k0_off58, k0_off59, k0_off60, k0_off61, k0_off62]
theorem inb9 : ∀ g k, ∀ a, offs9 g k a + S1x16.size a ≤ S18x128.size a := (fun g k => match g with | ⟨0, _⟩ => k0_off55_inb k | ⟨1, _⟩ => k0_off56_inb k | ⟨2, _⟩ => k0_off57_inb k | ⟨3, _⟩ => k0_off58_inb k | ⟨4, _⟩ => k0_off59_inb k | ⟨5, _⟩ => k0_off60_inb k | ⟨6, _⟩ => k0_off61_inb k | ⟨7, _⟩ => k0_off62_inb k)
set_option maxRecDepth 65536 in
theorem t9_eq (L : grid0.Coords) (v1 : BitVec 32) :
    k0_t9_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 v1 (k0_pay1 (F := F)) (k0_pay2 (F := F)) k0_pay3 k0_pay4 k0_pay5 k0_pay6 k0_pay7 k0_pay8 k0_pay9 k0_pay10
    = scanBody L sIW sBW k0_t9_loop offs9 inb9 (fun _ => hitV (F := F)) lanes := rfl
theorem trips9 : k0_t9_loop.trips ≤ 18 := Nat.le_trans k0_t9_abs.2.1 (by decide)
theorem trips9_eq : Scf.trips k0_t9_loop.lb k0_t9_loop.ub k0_t9_loop.st = 16 := by decide
theorem offs9_eq : ∀ g k, offs9 g k = ![k.val, 16 * g.val] := fun g k => match g with
  | ⟨0, _⟩ => k0_off55_eq k
  | ⟨1, _⟩ => k0_off56_eq k
  | ⟨2, _⟩ => k0_off57_eq k
  | ⟨3, _⟩ => k0_off58_eq k
  | ⟨4, _⟩ => k0_off59_eq k
  | ⟨5, _⟩ => k0_off60_eq k
  | ⟨6, _⟩ => k0_off61_eq k
  | ⟨7, _⟩ => k0_off62_eq k

/-- Loop 10: offsets 63–70, stores the hit value. -/
abbrev offs10 : Fin 8 → Fin k0_t10_loop.trips → Fin 2 → Nat := ![k0_off63, k0_off64, k0_off65, k0_off66, k0_off67, k0_off68, k0_off69, k0_off70]
theorem inb10 : ∀ g k, ∀ a, offs10 g k a + S1x16.size a ≤ S18x128.size a := (fun g k => match g with | ⟨0, _⟩ => k0_off63_inb k | ⟨1, _⟩ => k0_off64_inb k | ⟨2, _⟩ => k0_off65_inb k | ⟨3, _⟩ => k0_off66_inb k | ⟨4, _⟩ => k0_off67_inb k | ⟨5, _⟩ => k0_off68_inb k | ⟨6, _⟩ => k0_off69_inb k | ⟨7, _⟩ => k0_off70_inb k)
set_option maxRecDepth 65536 in
theorem t10_eq (L : grid0.Coords)  :
    k0_t10_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay1 (F := F)) k0_pay3 k0_pay4 k0_pay5 k0_pay6 k0_pay7 k0_pay8 k0_pay9 k0_pay10
    = scanBody L sIW sBW k0_t10_loop offs10 inb10 (fun _ => hitV (F := F)) lanes := rfl
theorem trips10 : k0_t10_loop.trips ≤ 18 := Nat.le_trans k0_t10_abs.2.1 (by decide)
theorem trips10_eq : Scf.trips k0_t10_loop.lb k0_t10_loop.ub k0_t10_loop.st = 16 := by decide
theorem offs10_eq : ∀ g k, offs10 g k = ![k.val, 16 * g.val] := fun g k => match g with
  | ⟨0, _⟩ => k0_off63_eq k
  | ⟨1, _⟩ => k0_off64_eq k
  | ⟨2, _⟩ => k0_off65_eq k
  | ⟨3, _⟩ => k0_off66_eq k
  | ⟨4, _⟩ => k0_off67_eq k
  | ⟨5, _⟩ => k0_off68_eq k
  | ⟨6, _⟩ => k0_off69_eq k
  | ⟨7, _⟩ => k0_off70_eq k

/-- Loop 11: offsets 71–78, stores the hit value. -/
abbrev offs11 : Fin 8 → Fin k0_t11_loop.trips → Fin 2 → Nat := ![k0_off71, k0_off72, k0_off73, k0_off74, k0_off75, k0_off76, k0_off77, k0_off78]
theorem inb11 : ∀ g k, ∀ a, offs11 g k a + S1x16.size a ≤ S18x128.size a := (fun g k => match g with | ⟨0, _⟩ => k0_off71_inb k | ⟨1, _⟩ => k0_off72_inb k | ⟨2, _⟩ => k0_off73_inb k | ⟨3, _⟩ => k0_off74_inb k | ⟨4, _⟩ => k0_off75_inb k | ⟨5, _⟩ => k0_off76_inb k | ⟨6, _⟩ => k0_off77_inb k | ⟨7, _⟩ => k0_off78_inb k)
set_option maxRecDepth 65536 in
theorem t11_eq (L : grid0.Coords)  :
    k0_t11_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay1 (F := F)) k0_pay3 k0_pay4 k0_pay5 k0_pay6 k0_pay7 k0_pay8 k0_pay9 k0_pay10
    = scanBody L sIW sBW k0_t11_loop offs11 inb11 (fun _ => hitV (F := F)) lanes := rfl
theorem trips11 : k0_t11_loop.trips ≤ 18 := Nat.le_trans k0_t11_abs.2.1 (by decide)
theorem trips11_eq : Scf.trips k0_t11_loop.lb k0_t11_loop.ub k0_t11_loop.st = 18 := by decide
theorem offs11_eq : ∀ g k, offs11 g k = ![k.val, 16 * g.val] := fun g k => match g with
  | ⟨0, _⟩ => k0_off71_eq k
  | ⟨1, _⟩ => k0_off72_eq k
  | ⟨2, _⟩ => k0_off73_eq k
  | ⟨3, _⟩ => k0_off74_eq k
  | ⟨4, _⟩ => k0_off75_eq k
  | ⟨5, _⟩ => k0_off76_eq k
  | ⟨6, _⟩ => k0_off77_eq k
  | ⟨7, _⟩ => k0_off78_eq k

/-- Loop 12: offsets 79–86, stores the floor value. -/
abbrev offs12 : Fin 8 → Fin k0_t12_loop.trips → Fin 2 → Nat := ![k0_off79, k0_off80, k0_off81, k0_off82, k0_off83, k0_off84, k0_off85, k0_off86]
theorem inb12 : ∀ g k, ∀ a, offs12 g k a + S1x16.size a ≤ S18x128.size a := (fun g k => match g with | ⟨0, _⟩ => k0_off79_inb k | ⟨1, _⟩ => k0_off80_inb k | ⟨2, _⟩ => k0_off81_inb k | ⟨3, _⟩ => k0_off82_inb k | ⟨4, _⟩ => k0_off83_inb k | ⟨5, _⟩ => k0_off84_inb k | ⟨6, _⟩ => k0_off85_inb k | ⟨7, _⟩ => k0_off86_inb k)
set_option maxRecDepth 65536 in
theorem t12_eq (L : grid0.Coords)  :
    k0_t12_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay2 (F := F)) k0_pay3 k0_pay4 k0_pay5 k0_pay6 k0_pay7 k0_pay8 k0_pay9 k0_pay10
    = scanBody L sIW sBW k0_t12_loop offs12 inb12 (fun _ => bgV (F := F)) lanes := rfl
theorem trips12 : k0_t12_loop.trips ≤ 18 := Nat.le_trans k0_t12_abs.2.1 (by decide)
theorem trips12_eq : Scf.trips k0_t12_loop.lb k0_t12_loop.ub k0_t12_loop.st = 18 := by decide
theorem offs12_eq : ∀ g k, offs12 g k = ![k.val, 16 * g.val] := fun g k => match g with
  | ⟨0, _⟩ => k0_off79_eq k
  | ⟨1, _⟩ => k0_off80_eq k
  | ⟨2, _⟩ => k0_off81_eq k
  | ⟨3, _⟩ => k0_off82_eq k
  | ⟨4, _⟩ => k0_off83_eq k
  | ⟨5, _⟩ => k0_off84_eq k
  | ⟨6, _⟩ => k0_off85_eq k
  | ⟨7, _⟩ => k0_off86_eq k

/-- Loop 13: offsets 87–94, stores the floor value. -/
abbrev offs13 : Fin 8 → Fin k0_t13_loop.trips → Fin 2 → Nat := ![k0_off87, k0_off88, k0_off89, k0_off90, k0_off91, k0_off92, k0_off93, k0_off94]
theorem inb13 : ∀ g k, ∀ a, offs13 g k a + S1x16.size a ≤ S18x128.size a := (fun g k => match g with | ⟨0, _⟩ => k0_off87_inb k | ⟨1, _⟩ => k0_off88_inb k | ⟨2, _⟩ => k0_off89_inb k | ⟨3, _⟩ => k0_off90_inb k | ⟨4, _⟩ => k0_off91_inb k | ⟨5, _⟩ => k0_off92_inb k | ⟨6, _⟩ => k0_off93_inb k | ⟨7, _⟩ => k0_off94_inb k)
set_option maxRecDepth 65536 in
theorem t13_eq (L : grid0.Coords)  :
    k0_t13_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay2 (F := F)) k0_pay3 k0_pay4 k0_pay5 k0_pay6 k0_pay7 k0_pay8 k0_pay9 k0_pay10
    = scanBody L sIW sBW k0_t13_loop offs13 inb13 (fun _ => bgV (F := F)) lanes := rfl
theorem trips13 : k0_t13_loop.trips ≤ 18 := Nat.le_trans k0_t13_abs.2.1 (by decide)
theorem trips13_eq : Scf.trips k0_t13_loop.lb k0_t13_loop.ub k0_t13_loop.st = 16 := by decide
theorem offs13_eq : ∀ g k, offs13 g k = ![k.val, 16 * g.val] := fun g k => match g with
  | ⟨0, _⟩ => k0_off87_eq k
  | ⟨1, _⟩ => k0_off88_eq k
  | ⟨2, _⟩ => k0_off89_eq k
  | ⟨3, _⟩ => k0_off90_eq k
  | ⟨4, _⟩ => k0_off91_eq k
  | ⟨5, _⟩ => k0_off92_eq k
  | ⟨6, _⟩ => k0_off93_eq k
  | ⟨7, _⟩ => k0_off94_eq k

/-- Loop 14: offsets 95–102, stores the floor value. -/
abbrev offs14 : Fin 8 → Fin k0_t14_loop.trips → Fin 2 → Nat := ![k0_off95, k0_off96, k0_off97, k0_off98, k0_off99, k0_off100, k0_off101, k0_off102]
theorem inb14 : ∀ g k, ∀ a, offs14 g k a + S1x16.size a ≤ S18x128.size a := (fun g k => match g with | ⟨0, _⟩ => k0_off95_inb k | ⟨1, _⟩ => k0_off96_inb k | ⟨2, _⟩ => k0_off97_inb k | ⟨3, _⟩ => k0_off98_inb k | ⟨4, _⟩ => k0_off99_inb k | ⟨5, _⟩ => k0_off100_inb k | ⟨6, _⟩ => k0_off101_inb k | ⟨7, _⟩ => k0_off102_inb k)
set_option maxRecDepth 65536 in
theorem t14_eq (L : grid0.Coords) (v1 : BitVec 32) :
    k0_t14_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 v1 (k0_pay1 (F := F)) (k0_pay2 (F := F)) k0_pay3 k0_pay4 k0_pay5 k0_pay6 k0_pay7 k0_pay8 k0_pay9 k0_pay10
    = scanBody L sIW sBW k0_t14_loop offs14 inb14 (fun _ => bgV (F := F)) lanes := rfl
theorem trips14 : k0_t14_loop.trips ≤ 18 := Nat.le_trans k0_t14_abs.2.1 (by decide)
theorem trips14_eq : Scf.trips k0_t14_loop.lb k0_t14_loop.ub k0_t14_loop.st = 16 := by decide
theorem offs14_eq : ∀ g k, offs14 g k = ![k.val, 16 * g.val] := fun g k => match g with
  | ⟨0, _⟩ => k0_off95_eq k
  | ⟨1, _⟩ => k0_off96_eq k
  | ⟨2, _⟩ => k0_off97_eq k
  | ⟨3, _⟩ => k0_off98_eq k
  | ⟨4, _⟩ => k0_off99_eq k
  | ⟨5, _⟩ => k0_off100_eq k
  | ⟨6, _⟩ => k0_off101_eq k
  | ⟨7, _⟩ => k0_off102_eq k

/-- Loop 15: offsets 103–110, stores the hit value. -/
abbrev offs15 : Fin 8 → Fin k0_t15_loop.trips → Fin 2 → Nat := ![k0_off103, k0_off104, k0_off105, k0_off106, k0_off107, k0_off108, k0_off109, k0_off110]
theorem inb15 : ∀ g k, ∀ a, offs15 g k a + S1x16.size a ≤ S18x128.size a := (fun g k => match g with | ⟨0, _⟩ => k0_off103_inb k | ⟨1, _⟩ => k0_off104_inb k | ⟨2, _⟩ => k0_off105_inb k | ⟨3, _⟩ => k0_off106_inb k | ⟨4, _⟩ => k0_off107_inb k | ⟨5, _⟩ => k0_off108_inb k | ⟨6, _⟩ => k0_off109_inb k | ⟨7, _⟩ => k0_off110_inb k)
set_option maxRecDepth 65536 in
theorem t15_eq (L : grid0.Coords) (v1 : BitVec 32) :
    k0_t15_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 v1 (k0_pay1 (F := F)) (k0_pay2 (F := F)) k0_pay3 k0_pay4 k0_pay5 k0_pay6 k0_pay7 k0_pay8 k0_pay9 k0_pay10
    = scanBody L sIW sBW k0_t15_loop offs15 inb15 (fun _ => hitV (F := F)) lanes := rfl
theorem trips15 : k0_t15_loop.trips ≤ 18 := Nat.le_trans k0_t15_abs.2.1 (by decide)
theorem trips15_eq : Scf.trips k0_t15_loop.lb k0_t15_loop.ub k0_t15_loop.st = 16 := by decide
theorem offs15_eq : ∀ g k, offs15 g k = ![k.val, 16 * g.val] := fun g k => match g with
  | ⟨0, _⟩ => k0_off103_eq k
  | ⟨1, _⟩ => k0_off104_eq k
  | ⟨2, _⟩ => k0_off105_eq k
  | ⟨3, _⟩ => k0_off106_eq k
  | ⟨4, _⟩ => k0_off107_eq k
  | ⟨5, _⟩ => k0_off108_eq k
  | ⟨6, _⟩ => k0_off109_eq k
  | ⟨7, _⟩ => k0_off110_eq k

/-- Loop 16: offsets 111–118, stores the hit value. -/
abbrev offs16 : Fin 8 → Fin k0_t16_loop.trips → Fin 2 → Nat := ![k0_off111, k0_off112, k0_off113, k0_off114, k0_off115, k0_off116, k0_off117, k0_off118]
theorem inb16 : ∀ g k, ∀ a, offs16 g k a + S1x16.size a ≤ S18x128.size a := (fun g k => match g with | ⟨0, _⟩ => k0_off111_inb k | ⟨1, _⟩ => k0_off112_inb k | ⟨2, _⟩ => k0_off113_inb k | ⟨3, _⟩ => k0_off114_inb k | ⟨4, _⟩ => k0_off115_inb k | ⟨5, _⟩ => k0_off116_inb k | ⟨6, _⟩ => k0_off117_inb k | ⟨7, _⟩ => k0_off118_inb k)
set_option maxRecDepth 65536 in
theorem t16_eq (L : grid0.Coords)  :
    k0_t16_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay1 (F := F)) (k0_pay2 (F := F)) k0_pay3 k0_pay4 k0_pay5 k0_pay6 k0_pay7 k0_pay8 k0_pay9 k0_pay10
    = scanBody L sIW sBW k0_t16_loop offs16 inb16 (fun _ => hitV (F := F)) lanes := rfl
theorem trips16 : k0_t16_loop.trips ≤ 18 := Nat.le_trans k0_t16_abs.2.1 (by decide)
theorem trips16_eq : Scf.trips k0_t16_loop.lb k0_t16_loop.ub k0_t16_loop.st = 16 := by decide
theorem offs16_eq : ∀ g k, offs16 g k = ![k.val, 16 * g.val] := fun g k => match g with
  | ⟨0, _⟩ => k0_off111_eq k
  | ⟨1, _⟩ => k0_off112_eq k
  | ⟨2, _⟩ => k0_off113_eq k
  | ⟨3, _⟩ => k0_off114_eq k
  | ⟨4, _⟩ => k0_off115_eq k
  | ⟨5, _⟩ => k0_off116_eq k
  | ⟨6, _⟩ => k0_off117_eq k
  | ⟨7, _⟩ => k0_off118_eq k

/-- Loop 17: offsets 119–126, stores the hit value. -/
abbrev offs17 : Fin 8 → Fin k0_t17_loop.trips → Fin 2 → Nat := ![k0_off119, k0_off120, k0_off121, k0_off122, k0_off123, k0_off124, k0_off125, k0_off126]
theorem inb17 : ∀ g k, ∀ a, offs17 g k a + S1x16.size a ≤ S18x128.size a := (fun g k => match g with | ⟨0, _⟩ => k0_off119_inb k | ⟨1, _⟩ => k0_off120_inb k | ⟨2, _⟩ => k0_off121_inb k | ⟨3, _⟩ => k0_off122_inb k | ⟨4, _⟩ => k0_off123_inb k | ⟨5, _⟩ => k0_off124_inb k | ⟨6, _⟩ => k0_off125_inb k | ⟨7, _⟩ => k0_off126_inb k)
set_option maxRecDepth 65536 in
theorem t17_eq (L : grid0.Coords)  :
    k0_t17_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay1 (F := F)) (k0_pay2 (F := F)) k0_pay3 k0_pay4 k0_pay5 k0_pay6 k0_pay7 k0_pay8 k0_pay9 k0_pay10
    = scanBody L sIW sBW k0_t17_loop offs17 inb17 (fun _ => hitV (F := F)) lanes := rfl
theorem trips17 : k0_t17_loop.trips ≤ 18 := Nat.le_trans k0_t17_abs.2.1 (by decide)
theorem trips17_eq : Scf.trips k0_t17_loop.lb k0_t17_loop.ub k0_t17_loop.st = 18 := by decide
theorem offs17_eq : ∀ g k, offs17 g k = ![k.val, 16 * g.val] := fun g k => match g with
  | ⟨0, _⟩ => k0_off119_eq k
  | ⟨1, _⟩ => k0_off120_eq k
  | ⟨2, _⟩ => k0_off121_eq k
  | ⟨3, _⟩ => k0_off122_eq k
  | ⟨4, _⟩ => k0_off123_eq k
  | ⟨5, _⟩ => k0_off124_eq k
  | ⟨6, _⟩ => k0_off125_eq k
  | ⟨7, _⟩ => k0_off126_eq k

/-- Loop 18: offsets 127–134, stores the floor value. -/
abbrev offs18 : Fin 8 → Fin k0_t18_loop.trips → Fin 2 → Nat := ![k0_off127, k0_off128, k0_off129, k0_off130, k0_off131, k0_off132, k0_off133, k0_off134]
theorem inb18 : ∀ g k, ∀ a, offs18 g k a + S1x16.size a ≤ S18x128.size a := (fun g k => match g with | ⟨0, _⟩ => k0_off127_inb k | ⟨1, _⟩ => k0_off128_inb k | ⟨2, _⟩ => k0_off129_inb k | ⟨3, _⟩ => k0_off130_inb k | ⟨4, _⟩ => k0_off131_inb k | ⟨5, _⟩ => k0_off132_inb k | ⟨6, _⟩ => k0_off133_inb k | ⟨7, _⟩ => k0_off134_inb k)
set_option maxRecDepth 65536 in
theorem t18_eq (L : grid0.Coords)  :
    k0_t18_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay1 (F := F)) (k0_pay2 (F := F)) k0_pay3 k0_pay4 k0_pay5 k0_pay6 k0_pay7 k0_pay8 k0_pay9 k0_pay10
    = scanBody L sIW sBW k0_t18_loop offs18 inb18 (fun _ => bgV (F := F)) lanes := rfl
theorem trips18 : k0_t18_loop.trips ≤ 18 := Nat.le_trans k0_t18_abs.2.1 (by decide)
theorem trips18_eq : Scf.trips k0_t18_loop.lb k0_t18_loop.ub k0_t18_loop.st = 18 := by decide
theorem offs18_eq : ∀ g k, offs18 g k = ![k.val, 16 * g.val] := fun g k => match g with
  | ⟨0, _⟩ => k0_off127_eq k
  | ⟨1, _⟩ => k0_off128_eq k
  | ⟨2, _⟩ => k0_off129_eq k
  | ⟨3, _⟩ => k0_off130_eq k
  | ⟨4, _⟩ => k0_off131_eq k
  | ⟨5, _⟩ => k0_off132_eq k
  | ⟨6, _⟩ => k0_off133_eq k
  | ⟨7, _⟩ => k0_off134_eq k

/-- Loop 19: offsets 135–142, stores the floor value. -/
abbrev offs19 : Fin 8 → Fin k0_t19_loop.trips → Fin 2 → Nat := ![k0_off135, k0_off136, k0_off137, k0_off138, k0_off139, k0_off140, k0_off141, k0_off142]
theorem inb19 : ∀ g k, ∀ a, offs19 g k a + S1x16.size a ≤ S18x128.size a := (fun g k => match g with | ⟨0, _⟩ => k0_off135_inb k | ⟨1, _⟩ => k0_off136_inb k | ⟨2, _⟩ => k0_off137_inb k | ⟨3, _⟩ => k0_off138_inb k | ⟨4, _⟩ => k0_off139_inb k | ⟨5, _⟩ => k0_off140_inb k | ⟨6, _⟩ => k0_off141_inb k | ⟨7, _⟩ => k0_off142_inb k)
set_option maxRecDepth 65536 in
theorem t19_eq (L : grid0.Coords)  :
    k0_t19_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay2 (F := F)) k0_pay3 k0_pay4 k0_pay5 k0_pay6 k0_pay7 k0_pay8 k0_pay9 k0_pay10
    = scanBody L sIW sBW k0_t19_loop offs19 inb19 (fun _ => bgV (F := F)) lanes := rfl
theorem trips19 : k0_t19_loop.trips ≤ 18 := Nat.le_trans k0_t19_abs.2.1 (by decide)
theorem trips19_eq : Scf.trips k0_t19_loop.lb k0_t19_loop.ub k0_t19_loop.st = 16 := by decide
theorem offs19_eq : ∀ g k, offs19 g k = ![k.val, 16 * g.val] := fun g k => match g with
  | ⟨0, _⟩ => k0_off135_eq k
  | ⟨1, _⟩ => k0_off136_eq k
  | ⟨2, _⟩ => k0_off137_eq k
  | ⟨3, _⟩ => k0_off138_eq k
  | ⟨4, _⟩ => k0_off139_eq k
  | ⟨5, _⟩ => k0_off140_eq k
  | ⟨6, _⟩ => k0_off141_eq k
  | ⟨7, _⟩ => k0_off142_eq k

/-- Loop 20: offsets 143–150, stores the floor value. -/
abbrev offs20 : Fin 8 → Fin k0_t20_loop.trips → Fin 2 → Nat := ![k0_off143, k0_off144, k0_off145, k0_off146, k0_off147, k0_off148, k0_off149, k0_off150]
theorem inb20 : ∀ g k, ∀ a, offs20 g k a + S1x16.size a ≤ S18x128.size a := (fun g k => match g with | ⟨0, _⟩ => k0_off143_inb k | ⟨1, _⟩ => k0_off144_inb k | ⟨2, _⟩ => k0_off145_inb k | ⟨3, _⟩ => k0_off146_inb k | ⟨4, _⟩ => k0_off147_inb k | ⟨5, _⟩ => k0_off148_inb k | ⟨6, _⟩ => k0_off149_inb k | ⟨7, _⟩ => k0_off150_inb k)
set_option maxRecDepth 65536 in
theorem t20_eq (L : grid0.Coords)  :
    k0_t20_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay2 (F := F)) k0_pay3 k0_pay4 k0_pay5 k0_pay6 k0_pay7 k0_pay8 k0_pay9 k0_pay10
    = scanBody L sIW sBW k0_t20_loop offs20 inb20 (fun _ => bgV (F := F)) lanes := rfl
theorem trips20 : k0_t20_loop.trips ≤ 18 := Nat.le_trans k0_t20_abs.2.1 (by decide)
theorem trips20_eq : Scf.trips k0_t20_loop.lb k0_t20_loop.ub k0_t20_loop.st = 16 := by decide
theorem offs20_eq : ∀ g k, offs20 g k = ![k.val, 16 * g.val] := fun g k => match g with
  | ⟨0, _⟩ => k0_off143_eq k
  | ⟨1, _⟩ => k0_off144_eq k
  | ⟨2, _⟩ => k0_off145_eq k
  | ⟨3, _⟩ => k0_off146_eq k
  | ⟨4, _⟩ => k0_off147_eq k
  | ⟨5, _⟩ => k0_off148_eq k
  | ⟨6, _⟩ => k0_off149_eq k
  | ⟨7, _⟩ => k0_off150_eq k

/-- Loop 21: offsets 151–158, stores the hit value. -/
abbrev offs21 : Fin 8 → Fin k0_t21_loop.trips → Fin 2 → Nat := ![k0_off151, k0_off152, k0_off153, k0_off154, k0_off155, k0_off156, k0_off157, k0_off158]
theorem inb21 : ∀ g k, ∀ a, offs21 g k a + S1x16.size a ≤ S18x128.size a := (fun g k => match g with | ⟨0, _⟩ => k0_off151_inb k | ⟨1, _⟩ => k0_off152_inb k | ⟨2, _⟩ => k0_off153_inb k | ⟨3, _⟩ => k0_off154_inb k | ⟨4, _⟩ => k0_off155_inb k | ⟨5, _⟩ => k0_off156_inb k | ⟨6, _⟩ => k0_off157_inb k | ⟨7, _⟩ => k0_off158_inb k)
set_option maxRecDepth 65536 in
theorem t21_eq (L : grid0.Coords) (v1 : BitVec 32) (c512_i32_96 : BitVec 32) :
    k0_t21_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 v1 (k0_pay1 (F := F)) k0_pay3 k0_pay4 k0_pay5 k0_pay6 k0_pay7 k0_pay8 k0_pay9 k0_pay10 c512_i32_96
    = scanBody L sIW sBW k0_t21_loop offs21 inb21 (fun _ => hitV (F := F)) lanes := rfl
theorem trips21 : k0_t21_loop.trips ≤ 18 := Nat.le_trans k0_t21_abs.2.1 (by decide)
theorem trips21_eq : Scf.trips k0_t21_loop.lb k0_t21_loop.ub k0_t21_loop.st = 16 := by decide
theorem offs21_eq : ∀ g k, offs21 g k = ![k.val, 16 * g.val] := fun g k => match g with
  | ⟨0, _⟩ => k0_off151_eq k
  | ⟨1, _⟩ => k0_off152_eq k
  | ⟨2, _⟩ => k0_off153_eq k
  | ⟨3, _⟩ => k0_off154_eq k
  | ⟨4, _⟩ => k0_off155_eq k
  | ⟨5, _⟩ => k0_off156_eq k
  | ⟨6, _⟩ => k0_off157_eq k
  | ⟨7, _⟩ => k0_off158_eq k

/-- Loop 22: offsets 159–166, stores the hit value. -/
abbrev offs22 : Fin 8 → Fin k0_t22_loop.trips → Fin 2 → Nat := ![k0_off159, k0_off160, k0_off161, k0_off162, k0_off163, k0_off164, k0_off165, k0_off166]
theorem inb22 : ∀ g k, ∀ a, offs22 g k a + S1x16.size a ≤ S18x128.size a := (fun g k => match g with | ⟨0, _⟩ => k0_off159_inb k | ⟨1, _⟩ => k0_off160_inb k | ⟨2, _⟩ => k0_off161_inb k | ⟨3, _⟩ => k0_off162_inb k | ⟨4, _⟩ => k0_off163_inb k | ⟨5, _⟩ => k0_off164_inb k | ⟨6, _⟩ => k0_off165_inb k | ⟨7, _⟩ => k0_off166_inb k)
set_option maxRecDepth 65536 in
theorem t22_eq (L : grid0.Coords) (v1 : BitVec 32) (c512_i32_96 : BitVec 32) :
    k0_t22_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 v1 (k0_pay1 (F := F)) k0_pay3 k0_pay4 k0_pay5 k0_pay6 k0_pay7 k0_pay8 k0_pay9 k0_pay10 c512_i32_96
    = scanBody L sIW sBW k0_t22_loop offs22 inb22 (fun _ => hitV (F := F)) lanes := rfl
theorem trips22 : k0_t22_loop.trips ≤ 18 := Nat.le_trans k0_t22_abs.2.1 (by decide)
theorem trips22_eq : Scf.trips k0_t22_loop.lb k0_t22_loop.ub k0_t22_loop.st = 16 := by decide
theorem offs22_eq : ∀ g k, offs22 g k = ![k.val, 16 * g.val] := fun g k => match g with
  | ⟨0, _⟩ => k0_off159_eq k
  | ⟨1, _⟩ => k0_off160_eq k
  | ⟨2, _⟩ => k0_off161_eq k
  | ⟨3, _⟩ => k0_off162_eq k
  | ⟨4, _⟩ => k0_off163_eq k
  | ⟨5, _⟩ => k0_off164_eq k
  | ⟨6, _⟩ => k0_off165_eq k
  | ⟨7, _⟩ => k0_off166_eq k

/-- Loop 23: offsets 167–174, stores the hit value. -/
abbrev offs23 : Fin 8 → Fin k0_t23_loop.trips → Fin 2 → Nat := ![k0_off167, k0_off168, k0_off169, k0_off170, k0_off171, k0_off172, k0_off173, k0_off174]
theorem inb23 : ∀ g k, ∀ a, offs23 g k a + S1x16.size a ≤ S18x128.size a := (fun g k => match g with | ⟨0, _⟩ => k0_off167_inb k | ⟨1, _⟩ => k0_off168_inb k | ⟨2, _⟩ => k0_off169_inb k | ⟨3, _⟩ => k0_off170_inb k | ⟨4, _⟩ => k0_off171_inb k | ⟨5, _⟩ => k0_off172_inb k | ⟨6, _⟩ => k0_off173_inb k | ⟨7, _⟩ => k0_off174_inb k)
set_option maxRecDepth 65536 in
theorem t23_eq (L : grid0.Coords)  :
    k0_t23_body (F := F) L tVW (Memref.isWhole_whole _) oVW (Memref.isWhole_whole _) sIW (Memref.isWhole_whole _) sBW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 (k0_pay1 (F := F)) k0_pay3 k0_pay4 k0_pay5 k0_pay6 k0_pay7 k0_pay8 k0_pay9 k0_pay10
    = scanBody L sIW sBW k0_t23_loop offs23 inb23 (fun _ => hitV (F := F)) lanes := rfl
theorem trips23 : k0_t23_loop.trips ≤ 18 := Nat.le_trans k0_t23_abs.2.1 (by decide)
theorem trips23_eq : Scf.trips k0_t23_loop.lb k0_t23_loop.ub k0_t23_loop.st = 18 := by decide
theorem offs23_eq : ∀ g k, offs23 g k = ![k.val, 16 * g.val] := fun g k => match g with
  | ⟨0, _⟩ => k0_off167_eq k
  | ⟨1, _⟩ => k0_off168_eq k
  | ⟨2, _⟩ => k0_off169_eq k
  | ⟨3, _⟩ => k0_off170_eq k
  | ⟨4, _⟩ => k0_off171_eq k
  | ⟨5, _⟩ => k0_off172_eq k
  | ⟨6, _⟩ => k0_off173_eq k
  | ⟨7, _⟩ => k0_off174_eq k

end Cert.Proof.KB

end
-- ==== Proof.BBlock.lean ====
/-
  A block of 128 samples, built and cleared.

  A block starts at the floor value everywhere. The fifty label rows of its 128 samples arrive in three pieces (rows
  0..15, 16..31, 32..49), each scanned with the hit value: afterwards entry (k, b) is the hit value exactly when one of
  the fifty labels of sample b is k — the transposed result on that block. Scanning the same three pieces (in any order)
  with the floor value then returns every entry to the floor value: an entry that was hit is named by one of the pieces
  again, and an entry that was not hit was the floor value already.
-/
import proofs.«211736_g82076825026625_cont_sun_c4_101_27_alg».proof.Proof.BScan

noncomputable section

namespace Cert.Proof.KB

open Cert.Kernel Cert.Kernel.Gen
open Idealize.ShloMosaic Idealize.ShloMosaic.ValueIdx

variable {F : FTy → Type} [FloatOps F]

/-- Piece `X` of the index scratch holds, in its first `n` rows, the label rows `l0 .. l0 + n - 1` of the columns
    `c0 .. c0 + 127` of the transposed labels `xt`. -/
def HoldsRows (d : Dev nD) (L : grid0.Coords) (X : Buf (Elt F) ((VT d L).loc cc0_scratch0)) (xt : S50x16384.Idx → BitVec 32)
    (l0 n c0 : Nat) (hl : l0 + n ≤ 50) (hc : c0 + 128 ≤ 16384) : Prop :=
  ∀ (r : Fin 18) (col : Fin 128) (hr : r.val < n),
    X (ix2 r col) = xt (ix2 (⟨l0 + r.val, by omega⟩ : Fin 50) (⟨c0 + col.val, by have := col.isLt; omega⟩ : Fin 16384))

/-- No rows scanned: the block as it was. -/
theorem scanRows_zero (d : Dev nD) (L : grid0.Coords) (c : F .f32) (xi : Buf (Elt F) ((VT d L).loc cc0_scratch0))
    (fb : Buf (Elt F) ((VT d L).loc cc0_scratch1)) : scanRows d L c xi 0 fb = fb := by
  funext j
  unfold scanRows
  classical
  exact if_neg (by rintro ⟨r, hr, _⟩; exact Nat.not_lt_zero _ hr)

/-- The block's entries after rows have been scanned, as a proposition about the transposed labels. -/
theorem scanRows_apply (d : Dev nD) (L : grid0.Coords) (c : F .f32) (X : Buf (Elt F) ((VT d L).loc cc0_scratch0))
    (xt : S50x16384.Idx → BitVec 32) (l0 n c0 : Nat) (hl : l0 + n ≤ 50) (hc : c0 + 128 ≤ 16384) (hn : n ≤ 18)
    (hX : HoldsRows d L X xt l0 n c0 hl hc) (fb : Buf (Elt F) ((VT d L).loc cc0_scratch1)) (j : S1000x128.Idx) :
    scanRows d L c X n fb j
      = (open Classical in if ∃ l : Fin 50, l0 ≤ l.val ∧ l.val < l0 + n
            ∧ (xt (ix2 l (⟨c0 + (j 1).val, by have h : (j 1).val < 128 := (j 1).isLt; omega⟩ : Fin 16384))).toNat = (j 0).val then c else fb j) := by
  unfold scanRows
  classical
  have hj1 : (j 1).val < 128 := (j 1).isLt
  have e : (∃ r : Fin 18, r.val < n ∧ (X (ix2 r (⟨(j 1).val, (j 1).isLt⟩ : Fin 128))).toNat = (j 0).val)
      ↔ ∃ l : Fin 50, l0 ≤ l.val ∧ l.val < l0 + n
            ∧ (xt (ix2 l (⟨c0 + (j 1).val, by omega⟩ : Fin 16384))).toNat = (j 0).val := by
    constructor
    · rintro ⟨r, hr, hx⟩
      refine ⟨⟨l0 + r.val, by omega⟩, Nat.le_add_right _ _, by show l0 + r.val < l0 + n; omega, ?_⟩
      rw [← hX r ⟨(j 1).val, (j 1).isLt⟩ hr]; exact hx
    · rintro ⟨l, h1, h2, hx⟩
      refine ⟨⟨l.val - l0, by omega⟩, by show l.val - l0 < n; omega, ?_⟩
      rw [hX ⟨l.val - l0, by omega⟩ ⟨(j 1).val, (j 1).isLt⟩ (by show l.val - l0 < n; omega)]
      have hl' : (⟨l0 + (l.val - l0), by omega⟩ : Fin 50) = l := Fin.ext (by show l0 + (l.val - l0) = l.val; omega)
      rw [hl']; exact hx
  by_cases h : ∃ l : Fin 50, l0 ≤ l.val ∧ l.val < l0 + n
            ∧ (xt (ix2 l (⟨c0 + (j 1).val, by omega⟩ : Fin 16384))).toNat = (j 0).val
  · rw [if_pos (e.mpr h), if_pos h]
  · rw [if_neg (fun h' => h (e.mp h')), if_neg h]

/-- The transposed result on the block whose first column is `c0`: the hit value at (k, b) when one of the fifty labels
    of sample c0 + b is k, the floor value otherwise. -/
def blockSpec (hit bg : F .f32) (xt : S50x16384.Idx → BitVec 32) (c0 : Nat) (hc : c0 + 128 ≤ 16384) (j : S1000x128.Idx) : F .f32 :=
  @ite _ (∃ l : Fin 50, (xt (ix2 l (⟨c0 + (j 1).val, by have h : (j 1).val < 128 := (j 1).isLt; omega⟩ : Fin 16384))).toNat = (j 0).val) (Classical.propDecidable _) hit bg

omit [FloatOps F] in
theorem names_split (xt : S50x16384.Idx → BitVec 32) (c0 : Nat) (hc : c0 + 128 ≤ 16384) (j : S1000x128.Idx) :
    (∃ l : Fin 50, (xt (ix2 l (⟨c0 + (j 1).val, by have h : (j 1).val < 128 := (j 1).isLt; omega⟩ : Fin 16384))).toNat = (j 0).val) ↔
      ((∃ l : Fin 50, 32 ≤ l.val ∧ l.val < 32 + 18 ∧ (xt (ix2 l (⟨c0 + (j 1).val, by have h : (j 1).val < 128 := (j 1).isLt; omega⟩ : Fin 16384))).toNat = (j 0).val)
        ∨ (∃ l : Fin 50, 16 ≤ l.val ∧ l.val < 16 + 16 ∧ (xt (ix2 l (⟨c0 + (j 1).val, by have h : (j 1).val < 128 := (j 1).isLt; omega⟩ : Fin 16384))).toNat = (j 0).val)
        ∨ (∃ l : Fin 50, 0 ≤ l.val ∧ l.val < 0 + 16 ∧ (xt (ix2 l (⟨c0 + (j 1).val, by have h : (j 1).val < 128 := (j 1).isLt; omega⟩ : Fin 16384))).toNat = (j 0).val)) := by
  constructor
  · rintro ⟨l, hl⟩
    have := l.isLt
    by_cases a2 : 32 ≤ l.val
    · exact Or.inl ⟨l, a2, by omega, hl⟩
    · by_cases a1 : 16 ≤ l.val
      · exact Or.inr (Or.inl ⟨l, a1, by omega, hl⟩)
      · exact Or.inr (Or.inr ⟨l, Nat.zero_le _, by omega, hl⟩)
  · rintro (⟨l, _, _, hl⟩ | ⟨l, _, _, hl⟩ | ⟨l, _, _, hl⟩) <;> exact ⟨l, hl⟩

/-- **A block built**: from the floor value everywhere, the three pieces scanned with the hit value leave the transposed
    result on the block's 128 columns. -/
theorem block_built (d : Dev nD) (L : grid0.Coords) (hit bg : F .f32) (xt : S50x16384.Idx → BitVec 32) (c0 : Nat)
    (hc : c0 + 128 ≤ 16384) (X0 X1 X2 : Buf (Elt F) ((VT d L).loc cc0_scratch0))
    (h0 : HoldsRows d L X0 xt 0 16 c0 (by decide) hc) (h1 : HoldsRows d L X1 xt 16 16 c0 (by decide) hc)
    (h2 : HoldsRows d L X2 xt 32 18 c0 (by decide) hc) (j : S1000x128.Idx) :
    scanRows d L hit X2 18 (scanRows d L hit X1 16 (scanRows d L hit X0 16 (fun _ => bg))) j = blockSpec hit bg xt c0 hc j := by
  rw [scanRows_apply d L hit X2 xt 32 18 c0 (by decide) hc (by decide) h2,
    scanRows_apply d L hit X1 xt 16 16 c0 (by decide) hc (by decide) h1,
    scanRows_apply d L hit X0 xt 0 16 c0 (by decide) hc (by decide) h0]
  unfold blockSpec
  have hs := names_split xt c0 hc j
  by_cases a2 : ∃ l : Fin 50, 32 ≤ l.val ∧ l.val < 32 + 18 ∧ (xt (ix2 l (⟨c0 + (j 1).val, by have h : (j 1).val < 128 := (j 1).isLt; omega⟩ : Fin 16384))).toNat = (j 0).val
  · rw [if_pos a2, if_pos (hs.mpr (Or.inl a2))]
  · rw [if_neg a2]
    by_cases a1 : ∃ l : Fin 50, 16 ≤ l.val ∧ l.val < 16 + 16 ∧ (xt (ix2 l (⟨c0 + (j 1).val, by have h : (j 1).val < 128 := (j 1).isLt; omega⟩ : Fin 16384))).toNat = (j 0).val
    · rw [if_pos a1, if_pos (hs.mpr (Or.inr (Or.inl a1)))]
    · rw [if_neg a1]
      by_cases a0 : ∃ l : Fin 50, 0 ≤ l.val ∧ l.val < 0 + 16 ∧ (xt (ix2 l (⟨c0 + (j 1).val, by have h : (j 1).val < 128 := (j 1).isLt; omega⟩ : Fin 16384))).toNat = (j 0).val
      · rw [if_pos a0, if_pos (hs.mpr (Or.inr (Or.inr a0)))]
      · rw [if_neg a0, if_neg (fun h => (hs.mp h).elim a2 (fun h' => h'.elim a1 a0))]

/-- **A block cleared**: a block holding the transposed result, with the three pieces scanned again (the last piece
    first) with the floor value, is the floor value everywhere. -/
theorem block_cleared (d : Dev nD) (L : grid0.Coords) (hit bg : F .f32) (xt : S50x16384.Idx → BitVec 32) (c0 : Nat)
    (hc : c0 + 128 ≤ 16384) (X0 X1 X2 : Buf (Elt F) ((VT d L).loc cc0_scratch0))
    (h0 : HoldsRows d L X0 xt 0 16 c0 (by decide) hc) (h1 : HoldsRows d L X1 xt 16 16 c0 (by decide) hc)
    (h2 : HoldsRows d L X2 xt 32 18 c0 (by decide) hc) (B : Buf (Elt F) ((VT d L).loc cc0_scratch1))
    (hB : ∀ j : S1000x128.Idx, B j = blockSpec hit bg xt c0 hc j) (j : S1000x128.Idx) :
    scanRows d L bg X1 16 (scanRows d L bg X0 16 (scanRows d L bg X2 18 B)) j = bg := by
  rw [scanRows_apply d L bg X1 xt 16 16 c0 (by decide) hc (by decide) h1,
    scanRows_apply d L bg X0 xt 0 16 c0 (by decide) hc (by decide) h0,
    scanRows_apply d L bg X2 xt 32 18 c0 (by decide) hc (by decide) h2, hB j]
  unfold blockSpec
  have hs := names_split xt c0 hc j
  by_cases a1 : ∃ l : Fin 50, 16 ≤ l.val ∧ l.val < 16 + 16 ∧ (xt (ix2 l (⟨c0 + (j 1).val, by have h : (j 1).val < 128 := (j 1).isLt; omega⟩ : Fin 16384))).toNat = (j 0).val
  · rw [if_pos a1]
  · rw [if_neg a1]
    by_cases a0 : ∃ l : Fin 50, 0 ≤ l.val ∧ l.val < 0 + 16 ∧ (xt (ix2 l (⟨c0 + (j 1).val, by have h : (j 1).val < 128 := (j 1).isLt; omega⟩ : Fin 16384))).toNat = (j 0).val
    · rw [if_pos a0]
    · rw [if_neg a0]
      by_cases a2 : ∃ l : Fin 50, 32 ≤ l.val ∧ l.val < 32 + 18 ∧ (xt (ix2 l (⟨c0 + (j 1).val, by have h : (j 1).val < 128 := (j 1).isLt; omega⟩ : Fin 16384))).toNat = (j 0).val
      · rw [if_pos a2]
      · rw [if_neg a2, if_neg (fun h => (hs.mp h).elim a2 (fun h' => h'.elim a1 a0))]

/-- The block spec is the transposed result read on the block's columns. -/
theorem outT_block (hit bg : F .f32) (xt : S50x16384.Idx → BitVec 32) (c0 : Nat) (hc : c0 + 128 ≤ 16384) (j : S1000x128.Idx) :
    outT hit bg xt (ix2 (j 0) (⟨c0 + (j 1).val, by have h : (j 1).val < 128 := (j 1).isLt; omega⟩ : Fin 16384)) = blockSpec hit bg xt c0 hc j := by
  unfold outT blockSpec
  classical
  by_cases h : ∃ l : Fin 50, (xt (ix2 l (⟨c0 + (j 1).val, by have h : (j 1).val < 128 := (j 1).isLt; omega⟩ : Fin 16384))).toNat = (j 0).val
  · rw [if_pos h]; exact (if_pos h).symm
  · rw [if_neg h]; exact (if_neg h).symm

end Cert.Proof.KB

end
-- ==== Proof.BDma.lean ====
/-
  What a copy of label rows leaves in the index scratch.

  A copy moves n rows (16 or 18) of 128 columns of the transposed labels, from row l0 and column c0 on, into the first
  n rows of the index scratch. Whatever the scratch held, and whatever was written there before, its first n rows then
  hold those label rows: the newest write decides every entry it covers. The transposed labels at (l, b) are the labels
  at (b, l), which the precondition bounds: so every entry of those rows names a class.
-/
import proofs.«211736_g82076825026625_cont_sun_c4_101_27_alg».proof.Proof.BBlock
import proofs.«211736_g82076825026625_cont_sun_c4_101_27_alg».proof.Proof.BOpen

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

local notation "sIW" => (Memref.whole Cert.Kernel.cc0_scratch0 : Memref Cert.Kernel.sig Kind.scVector Space.vmem Cert.Kernel.S18x128 EltTy.i32)
local notation "sBW" => (Memref.whole Cert.Kernel.cc0_scratch1 : Memref Cert.Kernel.sig Kind.scVector Space.vmem Cert.Kernel.S1000x128 EltTy.f32)
local notation "tVW" => (Memref.whole Cert.Kernel.main_v0_scv : Memref Cert.Kernel.sig Kind.scVector Space.hbm Cert.Kernel.S50x16384 EltTy.i32)
local notation "oVW" => (Memref.whole Cert.Kernel.main_v1_scv : Memref Cert.Kernel.sig Kind.scVector Space.hbm Cert.Kernel.S1000x16384 EltTy.f32)

variable (m : (ℓ : Loc nD τ sig) → Buf (Elt F) ℓ)

/-! ## The transposed labels -/

/-- The transposed labels at (l, b) are the labels at (b, l). -/
theorem xtv_apply (d : Dev nD) (l : Fin 50) (b : Fin 16384) : xtv m d (ix2 l b) = m (xLoc d) (ix2 b l) := by
  unfold xtv
  show m (xLoc d) (transposes_S16384x50_S50x16384_1_0.src (ix2 l b)) = _
  exact congrArg (m (xLoc d)) (funext fun a => match a with | ⟨0, _⟩ => Fin.ext rfl | ⟨1, _⟩ => Fin.ext rfl)

/-- A word between 0 and 999 as a signed word is below 1000 read unsigned. -/
theorem toNat_lt_of_toInt (w : BitVec 32) (h0 : 0 ≤ w.toInt) (h1 : w.toInt ≤ 999) : w.toNat < 1000 := by
  have hlt : w.toNat < 2 ^ 32 := w.isLt
  rw [BitVec.toInt_eq_toNat_cond] at h0 h1
  split at h0 <;> omega

/-! ## A block's first column -/

/-- The first column of block t of the subcore at L. -/
def c0 (L : grid0.Coords) (t : Nat) : Nat := 1024 * (L 1).val + 512 * (L 0).val + 128 * t
theorem c0_le (L : grid0.Coords) (t : Fin 4) : c0 L t.val + 128 ≤ 16384 := by
  have h0 : (L 0).val < 2 := (L 0).isLt
  have h1 : (L 1).val < 16 := (L 1).isLt
  have := t.isLt
  unfold c0; omega
theorem c0_lt (L : grid0.Coords) (t : Fin 4) (j : S1000x128.Idx) : c0 L t.val + (j 1).val < 16384 := by
  have h := c0_le L t
  have h3 : (j 1).val < 128 := (j 1).isLt
  omega

theorem vec2_congr {a b a' b' : Nat} (ha : a = a') (hb : b = b') : (![a, b] : Fin 2 → Nat) = ![a', b'] := by
  subst ha; subst hb; rfl

/-! ## After a copy of label rows -/

/-- The first n rows of the index scratch after n rows of the transposed labels, from (l0, c0) on, were copied over
    them: those label rows — whatever the scratch held and whatever was written before. -/
theorem holds_after_dma (d : Dev nD) (L : grid0.Coords) (f : Buf (Elt F) ((VT d L).loc cc0_scratch0))
    (n : Nat) (off2 : Fin 2 → Nat)
    (inbS : ∀ a, off2 a + (![n, 128] : Fin 2 → Nat) a ≤ S50x16384.size a)
    (hS : ∀ a, (Rect.unit (s := S50x16384) off2 ![n, 128] inbS).stride a = 1)
    (inbD : ∀ a, (![0, 0] : Fin 2 → Nat) a + (![n, 128] : Fin 2 → Nat) a ≤ S18x128.size a)
    (rest : List (View.Piece (Elt F) S18x128 .i32))
    (l0 c0 : Nat) (hoff : off2 = ![l0, c0]) (hl : l0 + n ≤ 50) (hc : c0 + 128 ≤ 16384) :
    HoldsRows d L ((sIW).view.writes (Elt F) f
        (⟨Rect.unit (s := S18x128) ![0, 0] ![n, 128] inbD,
          ReadAs.same.apply (View.read (Elt F) ((tVW).slice (Rect.unit (s := S50x16384) off2 ![n, 128] inbS) hS).view (xtv m d))⟩ :: rest))
      (xtv m d) l0 n c0 hl hc := by
  subst hoff
  intro r col hr
  rw [View.writes_cons]
  have hy : (ix2 r col : S18x128.Idx)
      = ((sIW).view.slice (Rect.unit (s := S18x128) ![0, 0] ![n, 128] inbD)).emb (ix2 (⟨r.val, hr⟩ : Fin n) (⟨col.val, col.isLt⟩ : Fin 128)) := by
    funext a
    match a with
    | ⟨0, _⟩ => exact Fin.ext (show r.val = 0 + 1 * r.val by omega)
    | ⟨1, _⟩ => exact Fin.ext (show col.val = 0 + 1 * col.val by omega)
  rw [hy, View.write_emb_of_mem _ _ (Finset.mem_univ _), cast_eq]
  show View.read (Elt F) ((tVW).slice (Rect.unit (s := S50x16384) ![l0, c0] ![n, 128] inbS) hS).view (xtv m d)
      (ix2 (⟨r.val, hr⟩ : Fin n) (⟨col.val, col.isLt⟩ : Fin 128)) = _
  rw [View.read_apply, cast_eq]
  refine congrArg (xtv m d) (funext fun a => ?_)
  match a with
  | ⟨0, _⟩ => exact Fin.ext (show l0 + 1 * r.val = l0 + r.val by omega)
  | ⟨1, _⟩ => exact Fin.ext (show c0 + 1 * col.val = c0 + col.val by omega)

/-! ### At the body's four sources -/

/-- The first copy of a subcore: rows 0..15 of its block 0. -/
theorem holds_off2 (d : Dev nD) (L : grid0.Coords) (f : Buf (Elt F) ((VT d L).loc cc0_scratch0))
    (hS : ∀ a, (Rect.unit (s := S50x16384) (k0_off2 L) S16x128.size (k0_off2_inb L)).stride a = 1)
    (rest : List (View.Piece (Elt F) S18x128 .i32)) :
    HoldsRows d L ((sIW).view.writes (Elt F) f
        (⟨Rect.unit (s := S18x128) ![0, 0] ![16, 128] inb_S18x128_S16x128_0_0,
          ReadAs.same.apply (View.read (Elt F) ((tVW).slice (Rect.unit (s := S50x16384) (k0_off2 L) S16x128.size (k0_off2_inb L)) hS).view (xtv m d))⟩ :: rest))
      (xtv m d) 0 16 (c0 L 0) (by decide) (c0_le L 0) :=
  holds_after_dma m d L f 16 (k0_off2 L) (k0_off2_inb L) hS inb_S18x128_S16x128_0_0 rest 0 (c0 L 0)
    ((k0_off2_eq L).trans (vec2_congr rfl (by unfold c0; omega))) (by decide) (c0_le L 0)
/-- Rows 0..15 of block t. -/
theorem holds_off38 (d : Dev nD) (L : grid0.Coords) (t : Fin 4) (f : Buf (Elt F) ((VT d L).loc cc0_scratch0))
    (hS : ∀ a, (Rect.unit (s := S50x16384) (k0_off38 L (BitVec.ofNat 32 (128 * t.val))) S16x128.size (k0_off38_inb L t)).stride a = 1)
    (rest : List (View.Piece (Elt F) S18x128 .i32)) :
    HoldsRows d L ((sIW).view.writes (Elt F) f
        (⟨Rect.unit (s := S18x128) ![0, 0] ![16, 128] inb_S18x128_S16x128_0_0,
          ReadAs.same.apply (View.read (Elt F) ((tVW).slice (Rect.unit (s := S50x16384) (k0_off38 L (BitVec.ofNat 32 (128 * t.val))) S16x128.size (k0_off38_inb L t)) hS).view (xtv m d))⟩ :: rest))
      (xtv m d) 0 16 (c0 L t.val) (by decide) (c0_le L t) :=
  holds_after_dma m d L f 16 (k0_off38 L (BitVec.ofNat 32 (128 * t.val))) (k0_off38_inb L t) hS inb_S18x128_S16x128_0_0 rest 0 (c0 L t.val)
    ((k0_off38_eq L t).trans (vec2_congr rfl (by unfold c0; omega))) (by decide) (c0_le L t)
/-- Rows 16..31 of block t. -/
theorem holds_off11 (d : Dev nD) (L : grid0.Coords) (t : Fin 4) (f : Buf (Elt F) ((VT d L).loc cc0_scratch0))
    (hS : ∀ a, (Rect.unit (s := S50x16384) (k0_off11 L (BitVec.ofNat 32 (128 * t.val))) S16x128.size (k0_off11_inb L t)).stride a = 1)
    (rest : List (View.Piece (Elt F) S18x128 .i32)) :
    HoldsRows d L ((sIW).view.writes (Elt F) f
        (⟨Rect.unit (s := S18x128) ![0, 0] ![16, 128] inb_S18x128_S16x128_0_0,
          ReadAs.same.apply (View.read (Elt F) ((tVW).slice (Rect.unit (s := S50x16384) (k0_off11 L (BitVec.ofNat 32 (128 * t.val))) S16x128.size (k0_off11_inb L t)) hS).view (xtv m d))⟩ :: rest))
      (xtv m d) 16 16 (c0 L t.val) (by decide) (c0_le L t) :=
  holds_after_dma m d L f 16 (k0_off11 L (BitVec.ofNat 32 (128 * t.val))) (k0_off11_inb L t) hS inb_S18x128_S16x128_0_0 rest 16 (c0 L t.val)
    ((k0_off11_eq L t).trans (vec2_congr rfl (by unfold c0; omega))) (by decide) (c0_le L t)
/-- Rows 32..49 of block t. -/
theorem holds_off20 (d : Dev nD) (L : grid0.Coords) (t : Fin 4) (f : Buf (Elt F) ((VT d L).loc cc0_scratch0))
    (hS : ∀ a, (Rect.unit (s := S50x16384) (k0_off20 L (BitVec.ofNat 32 (128 * t.val))) S18x128.size (k0_off20_inb L t)).stride a = 1)
    (rest : List (View.Piece (Elt F) S18x128 .i32)) :
    HoldsRows d L ((sIW).view.writes (Elt F) f
        (⟨Rect.unit (s := S18x128) ![0, 0] ![18, 128] inb_S18x128_S18x128_0_0,
          ReadAs.same.apply (View.read (Elt F) ((tVW).slice (Rect.unit (s := S50x16384) (k0_off20 L (BitVec.ofNat 32 (128 * t.val))) S18x128.size (k0_off20_inb L t)) hS).view (xtv m d))⟩ :: rest))
      (xtv m d) 32 18 (c0 L t.val) (by decide) (c0_le L t) :=
  holds_after_dma m d L f 18 (k0_off20 L (BitVec.ofNat 32 (128 * t.val))) (k0_off20_inb L t) hS inb_S18x128_S18x128_0_0 rest 32 (c0 L t.val)
    ((k0_off20_eq L t).trans (vec2_congr rfl (by unfold c0; omega))) (by decide) (c0_le L t)

/-! ## The copied rows name classes -/

/-- Rows of the transposed labels name classes, under the precondition. -/
theorem inRange_of_holds (hpre : PreOK m) {d : Dev nD} {L : grid0.Coords} {X : Buf (Elt F) ((VT d L).loc cc0_scratch0)}
    {l0 n cc : Nat} {hl : l0 + n ≤ 50} {hc : cc + 128 ≤ 16384} (hX : HoldsRows d L X (xtv m d) l0 n cc hl hc) :
    ∀ (r : Fin 18) (col : Fin 128), r.val < n → (X (ix2 r col)).toNat < 1000 := by
  intro r col hr
  rw [hX r col hr, xtv_apply]
  exact toNat_lt_of_toInt _ (hpre d _).1 (hpre d _).2

/-! ## The block copied out -/

/-- After the block scratch, holding at (k, b) the transposed result's entry (k, first column + b), is copied over
    block t, that block holds the transposed result — whatever it held before. The copy's payload P is what the
    block scratch reads (stated as an equation so that a payload known under another name can be given as it is). -/
theorem out_block (d : Dev nD) (L : grid0.Coords) (t : Fin 4)
    (hs : ∀ a, (oRect L t).stride a = 1)
    (g : Buf (Elt F) (((oVW).slice (oRect L t) hs).view.loc (VT d L)))
    (P : (Rect.whole (oRect L t).shape).shape.Idx → Elt F .f32)
    (B : Buf (Elt F) ((VT d L).loc cc0_scratch1))
    (hP : P = ReadAs.same.apply ((sBW).view.read (Elt F) B))
    (hB : ∀ j : S1000x128.Idx, B j = outv m d (ix2 (j 0) (⟨c0 L t.val + (j 1).val, c0_lt L t j⟩ : Fin 16384))) :
    ((((oVW).slice (oRect L t) hs).view.loc (VT d L) ↦[((oVW).slice (oRect L t) hs).view.set]{fullShare}
        ((oVW).slice (oRect L t) hs).view.writes (Elt F) g
          [⟨Rect.whole (oRect L t).shape, P⟩]) : sProp 𝕄)
      = (oLoc d ↦[oBlkSet L t]{fullShare} outv m d) := by
  subst hP
  refine (pointsTo_congr (ℓ := oLoc d) (I := oBlkSet L t) (q := fullShare) ?_ : _ = (oLoc d ↦[oBlkSet L t]{fullShare} outv m d : sProp 𝕄))
  intro i hi
  obtain ⟨x, -, rfl⟩ := Finset.mem_map.mp hi
  rw [View.writes_singleton]
  have hx : ((oVW).view.slice (oRect L t)).emb x
      = ((((oVW).slice (oRect L t) hs).view).slice (Rect.whole (oRect L t).shape)).emb x := by
    rw [View.emb_slice (((oVW).slice (oRect L t) hs).view) (Rect.whole (oRect L t).shape)]
    show _ = ((oVW).slice (oRect L t) hs).view.emb ((Rect.whole (oRect L t).shape).emb x)
    rw [Rect.emb_whole_apply]
  rw [hx, View.write_emb_of_mem _ _ (Finset.mem_univ x), cast_eq]
  show B x = outv m d _
  rw [hB x, ← hx]
  refine congrArg (outv m d) (funext fun a => ?_)
  have ho := k0_off29_eq L t
  match a with
  | ⟨0, _⟩ =>
    refine Fin.ext ?_
    show (x 0).val = (k0_off29 L (BitVec.ofNat 32 (128 * t.val))) 0 + 1 * (x 0).val
    rw [ho]; show (x 0).val = 0 + 1 * (x 0).val; omega
  | ⟨1, _⟩ =>
    refine Fin.ext ?_
    show c0 L t.val + (x 1).val = (k0_off29 L (BitVec.ofNat 32 (128 * t.val))) 1 + 1 * (x 1).val
    rw [ho]; unfold c0
    show (1024 * (L 1).val + 512 * (L 0).val + 128 * t.val) + (x 1).val = (1024 * (L 1).val + 512 * (L 0).val + 128 * t.val) + 1 * (x 1).val
    omega

end Cert.Proof.KB

end
-- ==== Proof.BTile.lean ====
/-
  One vector subcore's whole task.

  The subcore holds a read share of the transposed labels, its four 1000 x 128 column blocks of the transposed result,
  its two scratch buffers (eighteen index rows; the block being built) and its DMA semaphores at zero. It first fills
  the block scratch with the floor value. Then, for each of its four blocks: the fifty label rows of the block's 128
  samples are copied in as three pieces (rows 0..15, 16..31, 32..49) and each piece is scanned with the hit value
  (`scan_step`), which leaves the transposed result on the block (`block_built`); the scratch is copied out to the block;
  and, except after the last block, the three pieces are scanned again with the floor value (the last piece first, the
  other two copied in again), which returns the scratch to the floor value everywhere (`block_cleared`). Every indexed
  store lands inside the scratch because every label is a class number (`inRange_of_holds`). At the end the share, the
  four blocks — now holding the transposed result —, the scratches and the semaphores (each waited back to zero) are
  handed back.
-/
import proofs.«211736_g82076825026625_cont_sun_c4_101_27_alg».proof.Proof.BOpen
import proofs.«211736_g82076825026625_cont_sun_c4_101_27_alg».proof.Proof.BInit
import proofs.«211736_g82076825026625_cont_sun_c4_101_27_alg».proof.Proof.BScanEqs
import proofs.«211736_g82076825026625_cont_sun_c4_101_27_alg».proof.Proof.BBlock
import proofs.«211736_g82076825026625_cont_sun_c4_101_27_alg».proof.Proof.BDma
noncomputable section
namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx
variable {F : FTy → Type} [FloatOps F]
local notation "𝕄" => MT nD τ sig (HIx 1) (Elt F) ℕ UU ℕ
local notation "sIW" => (Memref.whole Cert.Kernel.cc0_scratch0 : Memref Cert.Kernel.sig Kind.scVector Space.vmem Cert.Kernel.S18x128 EltTy.i32)
local notation "sBW" => (Memref.whole Cert.Kernel.cc0_scratch1 : Memref Cert.Kernel.sig Kind.scVector Space.vmem Cert.Kernel.S1000x128 EltTy.f32)
local notation "tVW" => (Memref.whole Cert.Kernel.main_v0_scv : Memref Cert.Kernel.sig Kind.scVector Space.hbm Cert.Kernel.S50x16384 EltTy.i32)
local notation "oVW" => (Memref.whole Cert.Kernel.main_v1_scv : Memref Cert.Kernel.sig Kind.scVector Space.hbm Cert.Kernel.S1000x16384 EltTy.f32)

variable (m : (ℓ : Loc nD τ sig) → Buf (Elt F) ℓ)

omit [FloatOps F] in
/-- The index scratch held at contents with a property is held at SOME contents with that property. -/
theorem abs_sI (d : Dev nD) (L : grid0.Coords) (P : Buf (Elt F) ((VT d L).loc cc0_scratch0) → Prop)
    (f : Buf (Elt F) ((VT d L).loc cc0_scratch0)) (h : P f) :
    ((sIW).view.loc (VT d L) ↦{fullShare} f : sProp 𝕄) ⊢ iprop(∃ X, ⌜P X⌝ ∗ ((sIW).view.loc (VT d L) ↦{fullShare} X)) := by
  iintro H
  iexists f
  isplitr
  · ipureintro; exact h
  · iexact H

omit [FloatOps F] in
/-- Block 0 of the output as the body slices it. -/
theorem pts_oB0 (d : Dev nD) (L : grid0.Coords) (f : Buf (Elt F) (oLoc d)) :
    ((((oVW).slice (Rect.unit (s := S1000x16384) (k0_off29 L 0#32) S1000x128.size (k0_off29_inb L 0)) (fun _ => rfl)).view.loc (VT d L)
        ↦[((oVW).slice (Rect.unit (s := S1000x16384) (k0_off29 L 0#32) S1000x128.size (k0_off29_inb L 0)) (fun _ => rfl)).view.set]{fullShare} f : sProp 𝕄))
      = (oLoc d ↦[oBlkSet L 0]{fullShare} f) := pts_oBlk (F := F) d L 0 f

omit [FloatOps F] in
/-- Block 1 of the output as the body slices it. -/
theorem pts_oB1 (d : Dev nD) (L : grid0.Coords) (f : Buf (Elt F) (oLoc d)) :
    ((((oVW).slice (Rect.unit (s := S1000x16384) (k0_off29 L 128#32) S1000x128.size (k0_off29_inb L 1)) (fun _ => rfl)).view.loc (VT d L)
        ↦[((oVW).slice (Rect.unit (s := S1000x16384) (k0_off29 L 128#32) S1000x128.size (k0_off29_inb L 1)) (fun _ => rfl)).view.set]{fullShare} f : sProp 𝕄))
      = (oLoc d ↦[oBlkSet L 1]{fullShare} f) := pts_oBlk (F := F) d L 1 f

omit [FloatOps F] in
/-- Block 2 of the output as the body slices it. -/
theorem pts_oB2 (d : Dev nD) (L : grid0.Coords) (f : Buf (Elt F) (oLoc d)) :
    ((((oVW).slice (Rect.unit (s := S1000x16384) (k0_off29 L 256#32) S1000x128.size (k0_off29_inb L 2)) (fun _ => rfl)).view.loc (VT d L)
        ↦[((oVW).slice (Rect.unit (s := S1000x16384) (k0_off29 L 256#32) S1000x128.size (k0_off29_inb L 2)) (fun _ => rfl)).view.set]{fullShare} f : sProp 𝕄))
      = (oLoc d ↦[oBlkSet L 2]{fullShare} f) := pts_oBlk (F := F) d L 2 f

omit [FloatOps F] in
/-- Block 3 of the output as the body slices it. -/
theorem pts_oB3 (d : Dev nD) (L : grid0.Coords) (f : Buf (Elt F) (oLoc d)) :
    ((((oVW).slice (Rect.unit (s := S1000x16384) (k0_off29 L 384#32) S1000x128.size (k0_off29_inb L 3)) (fun _ => rfl)).view.loc (VT d L)
        ↦[((oVW).slice (Rect.unit (s := S1000x16384) (k0_off29 L 384#32) S1000x128.size (k0_off29_inb L 3)) (fun _ => rfl)).view.set]{fullShare} f : sProp 𝕄))
      = (oLoc d ↦[oBlkSet L 3]{fullShare} f) := pts_oBlk (F := F) d L 3 f

set_option maxHeartbeats 40000000 in
/-- The task on the vector subcore at grid coordinates L of device d. -/
theorem tile_body (hF : (K (F := F)).Facts) (hpre : PreOK m) (d : Dev nD) (L : grid0.Coords)
    (O : CellTallies nD τ sig (HIx 1)) (W : Waits sig (HIx 1)) (hO : ∀ g, O g none = 0) :
    iprop(levAts (K (F := F)).L (K (F := F)).lev ∗ emp ∗ goRes m d L
        ∗ scopedBufs (VT d L) ∗ scopedSems0 (VT d L) ∗ owes (VT d L) O W)
      ⊢ wp frame (wpE (defs₀ (F := F)) 𝒱₀ (VT d L) none) Set.univ
          (cc0__body L tV (Memref.isWhole_whole _) oV (Memref.isWhole_whole _) sI (Memref.isWhole_whole _) sB (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21)
          fun _ => iprop(tdRes m d L ∗ scopedBufs (VT d L) ∗ scopedSems0 (VT d L)
            ∗ ∃ W', ⌜∀ p ∈ W', p ∈ W ∨ p.2 = none⌝ ∗ owes (VT d L) O W') := by
  have hlanes : ∀ (g : Fin 8) (x : Fin 16), ((lanes g) (Shape.ofLane (d := ![16]) x)).toNat = 16 * g.val + x.val := by decide
  dsimp only [tV, oV, sI, sB]
  simp only [cc0__body_eq_skeleton]; unfold cc0__body_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  simp only [k0_part10_eq_skeleton]; unfold k0_part10_skel
  rw [(K (F := F)).scopedBufs_V hF d (cV L) (jV L), SparseCore.Cfg.scopedSems0_V (Val := Elt F) d (cV L) (jV L), ownSems0_VT, ownBufs_VT]
  unfold goRes
  rw [show (Finset.univ : Finset (Fin 4)) = {0, 1, 2, 3} by decide, SparseCore.bigSep_insert' (by decide), SparseCore.bigSep_insert' (by decide), SparseCore.bigSep_insert' (by decide), bigSep_singleton]
  iintro ⟨#Hlv, -, ⟨Ht, Ho0, Ho1, Ho2, Ho3⟩, ⟨⟨%fi, Hi⟩, ⟨%fb, Hb⟩, Hrest⟩, ⟨Hs0, Hs1, Hs2, Hs3, Hs4, Hs5, Hs6, Hs7, Hs8, Hs9, Hs10, Hs11, Hs12, Hs13, Hs14, Hs15, Hs16, Hs17, Hs18, Hs19, Hs20, Hs21⟩, HO⟩
  ihave Hmw := ((K (F := F)).mayWaits_none (thr := VT d L) hO) $$ Hlv
  ihave Hi := (Entails.of_eq (pts_sI (F := F) d L _).symm) $$ Hi
  ihave Hb := (Entails.of_eq (pts_sB (F := F) d L _).symm) $$ Hb
  ihave Ht := (Entails.of_eq (pts_tV (F := F) d L _ _).symm) $$ Ht
  ihave Ho0 := (Entails.of_eq (pts_oB0 (F := F) d L _).symm) $$ Ho0
  ihave Ho1 := (Entails.of_eq (pts_oB1 (F := F) d L _).symm) $$ Ho1
  ihave Ho2 := (Entails.of_eq (pts_oB2 (F := F) d L _).symm) $$ Ho2
  ihave Ho3 := (Entails.of_eq (pts_oB3 (F := F) d L _).symm) $$ Ho3
  rw [wp_bind, wp_bind]
  iapply (init_loops (F := F) d L fb) $$ [Hb Hi Ht Ho0 Ho1 Ho2 Ho3 Hrest Hs0 Hs1 Hs2 Hs3 Hs4 Hs5 Hs6 Hs7 Hs8 Hs9 Hs10 Hs11 Hs12 Hs13 Hs14 Hs15 Hs16 Hs17 Hs18 Hs19 Hs20 Hs21 HO]
  isplitl [Hb]; · iexact Hb
  iintro %acc0 Hb
  sl_exec
  ihave Hi := (abs_sI (F := F) d L (fun X => HoldsRows d L X (xtv m d) 0 16 (c0 L 0) (by decide) (c0_le L 0)) _ ?hhX0_0) $$ Hi
  case hhX0_0 => exact holds_off2 (F := F) m d L _ _ _
  icases Hi with ⟨%X0_0, %hX0_0, Hi⟩
  -- loop 3
  have hok3 : ScanOK d L k0_t3_loop offs3 lanes X0_0 := ⟨trips3, offs3_eq, hlanes, fun r col hr => inRange_of_holds (F := F) m hpre hX0_0 r col (Nat.lt_of_lt_of_le hr k0_t3_abs.2.1)⟩
  first
    | sl_for (scanInv d L (hitV (F := F)) X0_0 (fun _ => bgV (F := F))) $$ [Hi Hb]
    | (rw [wp_bind]; sl_for (scanInv d L (hitV (F := F)) X0_0 (fun _ => bgV (F := F))) $$ [Hi Hb])
  case region => exact fun k acc => scan_step d L k0_t3_loop offs3 inb3 (hitV (F := F)) lanes X0_0 (fun _ => bgV (F := F)) hok3 k acc
  · unfold scanInv; isplitl [Hi]; · iexact Hi
    rw [scanRows_zero]; iexact Hb
  iintro %acc3 HI
  unfold scanInv
  icases HI with ⟨Hi, Hb⟩
  rw [trips3_eq]
  sl_exec
  ihave Hi := (abs_sI (F := F) d L (fun X => HoldsRows d L X (xtv m d) 16 16 (c0 L 0) (by decide) (c0_le L 0)) _ ?hhX1_0) $$ Hi
  case hhX1_0 => exact holds_off11 (F := F) m d L 0 _ _ _
  icases Hi with ⟨%X1_0, %hX1_0, Hi⟩
  -- loop 4
  have hok4 : ScanOK d L k0_t4_loop offs4 lanes X1_0 := ⟨trips4, offs4_eq, hlanes, fun r col hr => inRange_of_holds (F := F) m hpre hX1_0 r col (Nat.lt_of_lt_of_le hr k0_t4_abs.2.1)⟩
  first
    | sl_for (scanInv d L (hitV (F := F)) X1_0 (scanRows d L (hitV (F := F)) X0_0 16 (fun _ => bgV (F := F)))) $$ [Hi Hb]
    | (rw [wp_bind]; sl_for (scanInv d L (hitV (F := F)) X1_0 (scanRows d L (hitV (F := F)) X0_0 16 (fun _ => bgV (F := F)))) $$ [Hi Hb])
  case region => exact fun k acc => scan_step d L k0_t4_loop offs4 inb4 (hitV (F := F)) lanes X1_0 (scanRows d L (hitV (F := F)) X0_0 16 (fun _ => bgV (F := F))) hok4 k acc
  · unfold scanInv; isplitl [Hi]; · iexact Hi
    rw [scanRows_zero]; iexact Hb
  iintro %acc4 HI
  unfold scanInv
  icases HI with ⟨Hi, Hb⟩
  rw [trips4_eq]
  sl_exec
  ihave Hi := (abs_sI (F := F) d L (fun X => HoldsRows d L X (xtv m d) 32 18 (c0 L 0) (by decide) (c0_le L 0)) _ ?hhX2_0) $$ Hi
  case hhX2_0 => exact holds_off20 (F := F) m d L 0 _ _ _
  icases Hi with ⟨%X2_0, %hX2_0, Hi⟩
  -- loop 5
  have hok5 : ScanOK d L k0_t5_loop offs5 lanes X2_0 := ⟨trips5, offs5_eq, hlanes, fun r col hr => inRange_of_holds (F := F) m hpre hX2_0 r col (Nat.lt_of_lt_of_le hr k0_t5_abs.2.1)⟩
  first
    | sl_for (scanInv d L (hitV (F := F)) X2_0 (scanRows d L (hitV (F := F)) X1_0 16 (scanRows d L (hitV (F := F)) X0_0 16 (fun _ => bgV (F := F))))) $$ [Hi Hb]
    | (rw [wp_bind]; sl_for (scanInv d L (hitV (F := F)) X2_0 (scanRows d L (hitV (F := F)) X1_0 16 (scanRows d L (hitV (F := F)) X0_0 16 (fun _ => bgV (F := F))))) $$ [Hi Hb])
  case region => exact fun k acc => scan_step d L k0_t5_loop offs5 inb5 (hitV (F := F)) lanes X2_0 (scanRows d L (hitV (F := F)) X1_0 16 (scanRows d L (hitV (F := F)) X0_0 16 (fun _ => bgV (F := F)))) hok5 k acc
  · unfold scanInv; isplitl [Hi]; · iexact Hi
    rw [scanRows_zero]; iexact Hb
  iintro %acc5 HI
  unfold scanInv
  icases HI with ⟨Hi, Hb⟩
  rw [trips5_eq]
  sl_exec
  -- block 0 written out
  ihave Ho0 := (Entails.of_eq (out_block (F := F) m d L 0 _ _ _ (scanRows d L (hitV (F := F)) X2_0 18 (scanRows d L (hitV (F := F)) X1_0 16 (scanRows d L (hitV (F := F)) X0_0 16 (fun _ => bgV (F := F))))) ?hP0 ?hB0)) $$ Ho0
  case hP0 => rfl
  case hB0 => exact fun j => (block_built d L (hitV (F := F)) (bgV (F := F)) (xtv m d) (c0 L 0) (c0_le L 0) X0_0 X1_0 X2_0 hX0_0 hX1_0 hX2_0 j).trans (outT_block (hitV (F := F)) (bgV (F := F)) (xtv m d) (c0 L 0) (c0_le L 0) j).symm
  -- loop 6
  have hok6 : ScanOK d L k0_t6_loop offs6 lanes X2_0 := ⟨trips6, offs6_eq, hlanes, fun r col hr => inRange_of_holds (F := F) m hpre hX2_0 r col (Nat.lt_of_lt_of_le hr k0_t6_abs.2.1)⟩
  first
    | sl_for (scanInv d L (bgV (F := F)) X2_0 (scanRows d L (hitV (F := F)) X2_0 18 (scanRows d L (hitV (F := F)) X1_0 16 (scanRows d L (hitV (F := F)) X0_0 16 (fun _ => bgV (F := F)))))) $$ [Hi Hb]
    | (rw [wp_bind]; sl_for (scanInv d L (bgV (F := F)) X2_0 (scanRows d L (hitV (F := F)) X2_0 18 (scanRows d L (hitV (F := F)) X1_0 16 (scanRows d L (hitV (F := F)) X0_0 16 (fun _ => bgV (F := F)))))) $$ [Hi Hb])
  case region => exact fun k acc => scan_step d L k0_t6_loop offs6 inb6 (bgV (F := F)) lanes X2_0 (scanRows d L (hitV (F := F)) X2_0 18 (scanRows d L (hitV (F := F)) X1_0 16 (scanRows d L (hitV (F := F)) X0_0 16 (fun _ => bgV (F := F))))) hok6 k acc
  · unfold scanInv; isplitl [Hi]; · iexact Hi
    rw [scanRows_zero]; iexact Hb
  iintro %acc6 HI
  unfold scanInv
  icases HI with ⟨Hi, Hb⟩
  rw [trips6_eq]
  sl_exec
  ihave Hi := (abs_sI (F := F) d L (fun X => HoldsRows d L X (xtv m d) 0 16 (c0 L 0) (by decide) (c0_le L 0)) _ ?hhY0_0) $$ Hi
  case hhY0_0 => exact holds_off38 (F := F) m d L 0 _ _ _
  icases Hi with ⟨%Y0_0, %hY0_0, Hi⟩
  -- loop 7
  have hok7 : ScanOK d L k0_t7_loop offs7 lanes Y0_0 := ⟨trips7, offs7_eq, hlanes, fun r col hr => inRange_of_holds (F := F) m hpre hY0_0 r col (Nat.lt_of_lt_of_le hr k0_t7_abs.2.1)⟩
  first
    | sl_for (scanInv d L (bgV (F := F)) Y0_0 (scanRows d L (bgV (F := F)) X2_0 18 (scanRows d L (hitV (F := F)) X2_0 18 (scanRows d L (hitV (F := F)) X1_0 16 (scanRows d L (hitV (F := F)) X0_0 16 (fun _ => bgV (F := F))))))) $$ [Hi Hb]
    | (rw [wp_bind]; sl_for (scanInv d L (bgV (F := F)) Y0_0 (scanRows d L (bgV (F := F)) X2_0 18 (scanRows d L (hitV (F := F)) X2_0 18 (scanRows d L (hitV (F := F)) X1_0 16 (scanRows d L (hitV (F := F)) X0_0 16 (fun _ => bgV (F := F))))))) $$ [Hi Hb])
  case region => exact fun k acc => scan_step d L k0_t7_loop offs7 inb7 (bgV (F := F)) lanes Y0_0 (scanRows d L (bgV (F := F)) X2_0 18 (scanRows d L (hitV (F := F)) X2_0 18 (scanRows d L (hitV (F := F)) X1_0 16 (scanRows d L (hitV (F := F)) X0_0 16 (fun _ => bgV (F := F)))))) hok7 k acc
  · unfold scanInv; isplitl [Hi]; · iexact Hi
    rw [scanRows_zero]; iexact Hb
  iintro %acc7 HI
  unfold scanInv
  icases HI with ⟨Hi, Hb⟩
  rw [trips7_eq]
  sl_exec
  ihave Hi := (abs_sI (F := F) d L (fun X => HoldsRows d L X (xtv m d) 16 16 (c0 L 0) (by decide) (c0_le L 0)) _ ?hhY1_0) $$ Hi
  case hhY1_0 => exact holds_off11 (F := F) m d L 0 _ _ _
  icases Hi with ⟨%Y1_0, %hY1_0, Hi⟩
  -- loop 8
  have hok8 : ScanOK d L k0_t8_loop offs8 lanes Y1_0 := ⟨trips8, offs8_eq, hlanes, fun r col hr => inRange_of_holds (F := F) m hpre hY1_0 r col (Nat.lt_of_lt_of_le hr k0_t8_abs.2.1)⟩
  first
    | sl_for (scanInv d L (bgV (F := F)) Y1_0 (scanRows d L (bgV (F := F)) Y0_0 16 (scanRows d L (bgV (F := F)) X2_0 18 (scanRows d L (hitV (F := F)) X2_0 18 (scanRows d L (hitV (F := F)) X1_0 16 (scanRows d L (hitV (F := F)) X0_0 16 (fun _ => bgV (F := F)))))))) $$ [Hi Hb]
    | (rw [wp_bind]; sl_for (scanInv d L (bgV (F := F)) Y1_0 (scanRows d L (bgV (F := F)) Y0_0 16 (scanRows d L (bgV (F := F)) X2_0 18 (scanRows d L (hitV (F := F)) X2_0 18 (scanRows d L (hitV (F := F)) X1_0 16 (scanRows d L (hitV (F := F)) X0_0 16 (fun _ => bgV (F := F)))))))) $$ [Hi Hb])
  case region => exact fun k acc => scan_step d L k0_t8_loop offs8 inb8 (bgV (F := F)) lanes Y1_0 (scanRows d L (bgV (F := F)) Y0_0 16 (scanRows d L (bgV (F := F)) X2_0 18 (scanRows d L (hitV (F := F)) X2_0 18 (scanRows d L (hitV (F := F)) X1_0 16 (scanRows d L (hitV (F := F)) X0_0 16 (fun _ => bgV (F := F))))))) hok8 k acc
  · unfold scanInv; isplitl [Hi]; · iexact Hi
    rw [scanRows_zero]; iexact Hb
  iintro %acc8 HI
  unfold scanInv
  icases HI with ⟨Hi, Hb⟩
  rw [trips8_eq]
  sl_exec
  ihave Hb := (Entails.of_eq (congrArg (fun f => ((sBW).view.loc (VT d L) ↦{fullShare} f : sProp 𝕄)) (funext (block_cleared d L (hitV (F := F)) (bgV (F := F)) (xtv m d) (c0 L 0) (c0_le L 0) Y0_0 Y1_0 X2_0 hY0_0 hY1_0 hX2_0 (scanRows d L (hitV (F := F)) X2_0 18 (scanRows d L (hitV (F := F)) X1_0 16 (scanRows d L (hitV (F := F)) X0_0 16 (fun _ => bgV (F := F))))) (block_built d L (hitV (F := F)) (bgV (F := F)) (xtv m d) (c0 L 0) (c0_le L 0) X0_0 X1_0 X2_0 hX0_0 hX1_0 hX2_0))))) $$ Hb
  ihave Hi := (abs_sI (F := F) d L (fun X => HoldsRows d L X (xtv m d) 0 16 (c0 L 1) (by decide) (c0_le L 1)) _ ?hhX0_1) $$ Hi
  case hhX0_1 => exact holds_off38 (F := F) m d L 1 _ _ _
  icases Hi with ⟨%X0_1, %hX0_1, Hi⟩
  -- loop 9
  have hok9 : ScanOK d L k0_t9_loop offs9 lanes X0_1 := ⟨trips9, offs9_eq, hlanes, fun r col hr => inRange_of_holds (F := F) m hpre hX0_1 r col (Nat.lt_of_lt_of_le hr k0_t9_abs.2.1)⟩
  first
    | sl_for (scanInv d L (hitV (F := F)) X0_1 (fun _ => bgV (F := F))) $$ [Hi Hb]
    | (rw [wp_bind]; sl_for (scanInv d L (hitV (F := F)) X0_1 (fun _ => bgV (F := F))) $$ [Hi Hb])
  case region => exact fun k acc => scan_step d L k0_t9_loop offs9 inb9 (hitV (F := F)) lanes X0_1 (fun _ => bgV (F := F)) hok9 k acc
  · unfold scanInv; isplitl [Hi]; · iexact Hi
    rw [scanRows_zero]; iexact Hb
  iintro %acc9 HI
  unfold scanInv
  icases HI with ⟨Hi, Hb⟩
  rw [trips9_eq]
  sl_exec
  ihave Hi := (abs_sI (F := F) d L (fun X => HoldsRows d L X (xtv m d) 16 16 (c0 L 1) (by decide) (c0_le L 1)) _ ?hhX1_1) $$ Hi
  case hhX1_1 => exact holds_off11 (F := F) m d L 1 _ _ _
  icases Hi with ⟨%X1_1, %hX1_1, Hi⟩
  -- loop 10
  have hok10 : ScanOK d L k0_t10_loop offs10 lanes X1_1 := ⟨trips10, offs10_eq, hlanes, fun r col hr => inRange_of_holds (F := F) m hpre hX1_1 r col (Nat.lt_of_lt_of_le hr k0_t10_abs.2.1)⟩
  first
    | sl_for (scanInv d L (hitV (F := F)) X1_1 (scanRows d L (hitV (F := F)) X0_1 16 (fun _ => bgV (F := F)))) $$ [Hi Hb]
    | (rw [wp_bind]; sl_for (scanInv d L (hitV (F := F)) X1_1 (scanRows d L (hitV (F := F)) X0_1 16 (fun _ => bgV (F := F)))) $$ [Hi Hb])
  case region => exact fun k acc => scan_step d L k0_t10_loop offs10 inb10 (hitV (F := F)) lanes X1_1 (scanRows d L (hitV (F := F)) X0_1 16 (fun _ => bgV (F := F))) hok10 k acc
  · unfold scanInv; isplitl [Hi]; · iexact Hi
    rw [scanRows_zero]; iexact Hb
  iintro %acc10 HI
  unfold scanInv
  icases HI with ⟨Hi, Hb⟩
  rw [trips10_eq]
  sl_exec
  ihave Hi := (abs_sI (F := F) d L (fun X => HoldsRows d L X (xtv m d) 32 18 (c0 L 1) (by decide) (c0_le L 1)) _ ?hhX2_1) $$ Hi
  case hhX2_1 => exact holds_off20 (F := F) m d L 1 _ _ _
  icases Hi with ⟨%X2_1, %hX2_1, Hi⟩
  -- loop 11
  have hok11 : ScanOK d L k0_t11_loop offs11 lanes X2_1 := ⟨trips11, offs11_eq, hlanes, fun r col hr => inRange_of_holds (F := F) m hpre hX2_1 r col (Nat.lt_of_lt_of_le hr k0_t11_abs.2.1)⟩
  first
    | sl_for (scanInv d L (hitV (F := F)) X2_1 (scanRows d L (hitV (F := F)) X1_1 16 (scanRows d L (hitV (F := F)) X0_1 16 (fun _ => bgV (F := F))))) $$ [Hi Hb]
    | (rw [wp_bind]; sl_for (scanInv d L (hitV (F := F)) X2_1 (scanRows d L (hitV (F := F)) X1_1 16 (scanRows d L (hitV (F := F)) X0_1 16 (fun _ => bgV (F := F))))) $$ [Hi Hb])
  case region => exact fun k acc => scan_step d L k0_t11_loop offs11 inb11 (hitV (F := F)) lanes X2_1 (scanRows d L (hitV (F := F)) X1_1 16 (scanRows d L (hitV (F := F)) X0_1 16 (fun _ => bgV (F := F)))) hok11 k acc
  · unfold scanInv; isplitl [Hi]; · iexact Hi
    rw [scanRows_zero]; iexact Hb
  iintro %acc11 HI
  unfold scanInv
  icases HI with ⟨Hi, Hb⟩
  rw [trips11_eq]
  sl_exec
  -- block 1 written out
  ihave Ho1 := (Entails.of_eq (out_block (F := F) m d L 1 _ _ _ (scanRows d L (hitV (F := F)) X2_1 18 (scanRows d L (hitV (F := F)) X1_1 16 (scanRows d L (hitV (F := F)) X0_1 16 (fun _ => bgV (F := F))))) ?hP1 ?hB1)) $$ Ho1
  case hP1 => rfl
  case hB1 => exact fun j => (block_built d L (hitV (F := F)) (bgV (F := F)) (xtv m d) (c0 L 1) (c0_le L 1) X0_1 X1_1 X2_1 hX0_1 hX1_1 hX2_1 j).trans (outT_block (hitV (F := F)) (bgV (F := F)) (xtv m d) (c0 L 1) (c0_le L 1) j).symm
  -- loop 12
  have hok12 : ScanOK d L k0_t12_loop offs12 lanes X2_1 := ⟨trips12, offs12_eq, hlanes, fun r col hr => inRange_of_holds (F := F) m hpre hX2_1 r col (Nat.lt_of_lt_of_le hr k0_t12_abs.2.1)⟩
  first
    | sl_for (scanInv d L (bgV (F := F)) X2_1 (scanRows d L (hitV (F := F)) X2_1 18 (scanRows d L (hitV (F := F)) X1_1 16 (scanRows d L (hitV (F := F)) X0_1 16 (fun _ => bgV (F := F)))))) $$ [Hi Hb]
    | (rw [wp_bind]; sl_for (scanInv d L (bgV (F := F)) X2_1 (scanRows d L (hitV (F := F)) X2_1 18 (scanRows d L (hitV (F := F)) X1_1 16 (scanRows d L (hitV (F := F)) X0_1 16 (fun _ => bgV (F := F)))))) $$ [Hi Hb])
  case region => exact fun k acc => scan_step d L k0_t12_loop offs12 inb12 (bgV (F := F)) lanes X2_1 (scanRows d L (hitV (F := F)) X2_1 18 (scanRows d L (hitV (F := F)) X1_1 16 (scanRows d L (hitV (F := F)) X0_1 16 (fun _ => bgV (F := F))))) hok12 k acc
  · unfold scanInv; isplitl [Hi]; · iexact Hi
    rw [scanRows_zero]; iexact Hb
  iintro %acc12 HI
  unfold scanInv
  icases HI with ⟨Hi, Hb⟩
  rw [trips12_eq]
  sl_exec
  ihave Hi := (abs_sI (F := F) d L (fun X => HoldsRows d L X (xtv m d) 0 16 (c0 L 1) (by decide) (c0_le L 1)) _ ?hhY0_1) $$ Hi
  case hhY0_1 => exact holds_off38 (F := F) m d L 1 _ _ _
  icases Hi with ⟨%Y0_1, %hY0_1, Hi⟩
  -- loop 13
  have hok13 : ScanOK d L k0_t13_loop offs13 lanes Y0_1 := ⟨trips13, offs13_eq, hlanes, fun r col hr => inRange_of_holds (F := F) m hpre hY0_1 r col (Nat.lt_of_lt_of_le hr k0_t13_abs.2.1)⟩
  first
    | sl_for (scanInv d L (bgV (F := F)) Y0_1 (scanRows d L (bgV (F := F)) X2_1 18 (scanRows d L (hitV (F := F)) X2_1 18 (scanRows d L (hitV (F := F)) X1_1 16 (scanRows d L (hitV (F := F)) X0_1 16 (fun _ => bgV (F := F))))))) $$ [Hi Hb]
    | (rw [wp_bind]; sl_for (scanInv d L (bgV (F := F)) Y0_1 (scanRows d L (bgV (F := F)) X2_1 18 (scanRows d L (hitV (F := F)) X2_1 18 (scanRows d L (hitV (F := F)) X1_1 16 (scanRows d L (hitV (F := F)) X0_1 16 (fun _ => bgV (F := F))))))) $$ [Hi Hb])
  case region => exact fun k acc => scan_step d L k0_t13_loop offs13 inb13 (bgV (F := F)) lanes Y0_1 (scanRows d L (bgV (F := F)) X2_1 18 (scanRows d L (hitV (F := F)) X2_1 18 (scanRows d L (hitV (F := F)) X1_1 16 (scanRows d L (hitV (F := F)) X0_1 16 (fun _ => bgV (F := F)))))) hok13 k acc
  · unfold scanInv; isplitl [Hi]; · iexact Hi
    rw [scanRows_zero]; iexact Hb
  iintro %acc13 HI
  unfold scanInv
  icases HI with ⟨Hi, Hb⟩
  rw [trips13_eq]
  sl_exec
  ihave Hi := (abs_sI (F := F) d L (fun X => HoldsRows d L X (xtv m d) 16 16 (c0 L 1) (by decide) (c0_le L 1)) _ ?hhY1_1) $$ Hi
  case hhY1_1 => exact holds_off11 (F := F) m d L 1 _ _ _
  icases Hi with ⟨%Y1_1, %hY1_1, Hi⟩
  -- loop 14
  have hok14 : ScanOK d L k0_t14_loop offs14 lanes Y1_1 := ⟨trips14, offs14_eq, hlanes, fun r col hr => inRange_of_holds (F := F) m hpre hY1_1 r col (Nat.lt_of_lt_of_le hr k0_t14_abs.2.1)⟩
  first
    | sl_for (scanInv d L (bgV (F := F)) Y1_1 (scanRows d L (bgV (F := F)) Y0_1 16 (scanRows d L (bgV (F := F)) X2_1 18 (scanRows d L (hitV (F := F)) X2_1 18 (scanRows d L (hitV (F := F)) X1_1 16 (scanRows d L (hitV (F := F)) X0_1 16 (fun _ => bgV (F := F)))))))) $$ [Hi Hb]
    | (rw [wp_bind]; sl_for (scanInv d L (bgV (F := F)) Y1_1 (scanRows d L (bgV (F := F)) Y0_1 16 (scanRows d L (bgV (F := F)) X2_1 18 (scanRows d L (hitV (F := F)) X2_1 18 (scanRows d L (hitV (F := F)) X1_1 16 (scanRows d L (hitV (F := F)) X0_1 16 (fun _ => bgV (F := F)))))))) $$ [Hi Hb])
  case region => exact fun k acc => scan_step d L k0_t14_loop offs14 inb14 (bgV (F := F)) lanes Y1_1 (scanRows d L (bgV (F := F)) Y0_1 16 (scanRows d L (bgV (F := F)) X2_1 18 (scanRows d L (hitV (F := F)) X2_1 18 (scanRows d L (hitV (F := F)) X1_1 16 (scanRows d L (hitV (F := F)) X0_1 16 (fun _ => bgV (F := F))))))) hok14 k acc
  · unfold scanInv; isplitl [Hi]; · iexact Hi
    rw [scanRows_zero]; iexact Hb
  iintro %acc14 HI
  unfold scanInv
  icases HI with ⟨Hi, Hb⟩
  rw [trips14_eq]
  sl_exec
  ihave Hb := (Entails.of_eq (congrArg (fun f => ((sBW).view.loc (VT d L) ↦{fullShare} f : sProp 𝕄)) (funext (block_cleared d L (hitV (F := F)) (bgV (F := F)) (xtv m d) (c0 L 1) (c0_le L 1) Y0_1 Y1_1 X2_1 hY0_1 hY1_1 hX2_1 (scanRows d L (hitV (F := F)) X2_1 18 (scanRows d L (hitV (F := F)) X1_1 16 (scanRows d L (hitV (F := F)) X0_1 16 (fun _ => bgV (F := F))))) (block_built d L (hitV (F := F)) (bgV (F := F)) (xtv m d) (c0 L 1) (c0_le L 1) X0_1 X1_1 X2_1 hX0_1 hX1_1 hX2_1))))) $$ Hb
  ihave Hi := (abs_sI (F := F) d L (fun X => HoldsRows d L X (xtv m d) 0 16 (c0 L 2) (by decide) (c0_le L 2)) _ ?hhX0_2) $$ Hi
  case hhX0_2 => exact holds_off38 (F := F) m d L 2 _ _ _
  icases Hi with ⟨%X0_2, %hX0_2, Hi⟩
  -- loop 15
  have hok15 : ScanOK d L k0_t15_loop offs15 lanes X0_2 := ⟨trips15, offs15_eq, hlanes, fun r col hr => inRange_of_holds (F := F) m hpre hX0_2 r col (Nat.lt_of_lt_of_le hr k0_t15_abs.2.1)⟩
  first
    | sl_for (scanInv d L (hitV (F := F)) X0_2 (fun _ => bgV (F := F))) $$ [Hi Hb]
    | (rw [wp_bind]; sl_for (scanInv d L (hitV (F := F)) X0_2 (fun _ => bgV (F := F))) $$ [Hi Hb])
  case region => exact fun k acc => scan_step d L k0_t15_loop offs15 inb15 (hitV (F := F)) lanes X0_2 (fun _ => bgV (F := F)) hok15 k acc
  · unfold scanInv; isplitl [Hi]; · iexact Hi
    rw [scanRows_zero]; iexact Hb
  iintro %acc15 HI
  unfold scanInv
  icases HI with ⟨Hi, Hb⟩
  rw [trips15_eq]
  sl_exec
  ihave Hi := (abs_sI (F := F) d L (fun X => HoldsRows d L X (xtv m d) 16 16 (c0 L 2) (by decide) (c0_le L 2)) _ ?hhX1_2) $$ Hi
  case hhX1_2 => exact holds_off11 (F := F) m d L 2 _ _ _
  icases Hi with ⟨%X1_2, %hX1_2, Hi⟩
  -- loop 16
  have hok16 : ScanOK d L k0_t16_loop offs16 lanes X1_2 := ⟨trips16, offs16_eq, hlanes, fun r col hr => inRange_of_holds (F := F) m hpre hX1_2 r col (Nat.lt_of_lt_of_le hr k0_t16_abs.2.1)⟩
  first
    | sl_for (scanInv d L (hitV (F := F)) X1_2 (scanRows d L (hitV (F := F)) X0_2 16 (fun _ => bgV (F := F)))) $$ [Hi Hb]
    | (rw [wp_bind]; sl_for (scanInv d L (hitV (F := F)) X1_2 (scanRows d L (hitV (F := F)) X0_2 16 (fun _ => bgV (F := F)))) $$ [Hi Hb])
  case region => exact fun k acc => scan_step d L k0_t16_loop offs16 inb16 (hitV (F := F)) lanes X1_2 (scanRows d L (hitV (F := F)) X0_2 16 (fun _ => bgV (F := F))) hok16 k acc
  · unfold scanInv; isplitl [Hi]; · iexact Hi
    rw [scanRows_zero]; iexact Hb
  iintro %acc16 HI
  unfold scanInv
  icases HI with ⟨Hi, Hb⟩
  rw [trips16_eq]
  sl_exec
  ihave Hi := (abs_sI (F := F) d L (fun X => HoldsRows d L X (xtv m d) 32 18 (c0 L 2) (by decide) (c0_le L 2)) _ ?hhX2_2) $$ Hi
  case hhX2_2 => exact holds_off20 (F := F) m d L 2 _ _ _
  icases Hi with ⟨%X2_2, %hX2_2, Hi⟩
  -- loop 17
  have hok17 : ScanOK d L k0_t17_loop offs17 lanes X2_2 := ⟨trips17, offs17_eq, hlanes, fun r col hr => inRange_of_holds (F := F) m hpre hX2_2 r col (Nat.lt_of_lt_of_le hr k0_t17_abs.2.1)⟩
  first
    | sl_for (scanInv d L (hitV (F := F)) X2_2 (scanRows d L (hitV (F := F)) X1_2 16 (scanRows d L (hitV (F := F)) X0_2 16 (fun _ => bgV (F := F))))) $$ [Hi Hb]
    | (rw [wp_bind]; sl_for (scanInv d L (hitV (F := F)) X2_2 (scanRows d L (hitV (F := F)) X1_2 16 (scanRows d L (hitV (F := F)) X0_2 16 (fun _ => bgV (F := F))))) $$ [Hi Hb])
  case region => exact fun k acc => scan_step d L k0_t17_loop offs17 inb17 (hitV (F := F)) lanes X2_2 (scanRows d L (hitV (F := F)) X1_2 16 (scanRows d L (hitV (F := F)) X0_2 16 (fun _ => bgV (F := F)))) hok17 k acc
  · unfold scanInv; isplitl [Hi]; · iexact Hi
    rw [scanRows_zero]; iexact Hb
  iintro %acc17 HI
  unfold scanInv
  icases HI with ⟨Hi, Hb⟩
  rw [trips17_eq]
  sl_exec
  -- block 2 written out
  ihave Ho2 := (Entails.of_eq (out_block (F := F) m d L 2 _ _ _ (scanRows d L (hitV (F := F)) X2_2 18 (scanRows d L (hitV (F := F)) X1_2 16 (scanRows d L (hitV (F := F)) X0_2 16 (fun _ => bgV (F := F))))) ?hP2 ?hB2)) $$ Ho2
  case hP2 => rfl
  case hB2 => exact fun j => (block_built d L (hitV (F := F)) (bgV (F := F)) (xtv m d) (c0 L 2) (c0_le L 2) X0_2 X1_2 X2_2 hX0_2 hX1_2 hX2_2 j).trans (outT_block (hitV (F := F)) (bgV (F := F)) (xtv m d) (c0 L 2) (c0_le L 2) j).symm
  -- loop 18
  have hok18 : ScanOK d L k0_t18_loop offs18 lanes X2_2 := ⟨trips18, offs18_eq, hlanes, fun r col hr => inRange_of_holds (F := F) m hpre hX2_2 r col (Nat.lt_of_lt_of_le hr k0_t18_abs.2.1)⟩
  first
    | sl_for (scanInv d L (bgV (F := F)) X2_2 (scanRows d L (hitV (F := F)) X2_2 18 (scanRows d L (hitV (F := F)) X1_2 16 (scanRows d L (hitV (F := F)) X0_2 16 (fun _ => bgV (F := F)))))) $$ [Hi Hb]
    | (rw [wp_bind]; sl_for (scanInv d L (bgV (F := F)) X2_2 (scanRows d L (hitV (F := F)) X2_2 18 (scanRows d L (hitV (F := F)) X1_2 16 (scanRows d L (hitV (F := F)) X0_2 16 (fun _ => bgV (F := F)))))) $$ [Hi Hb])
  case region => exact fun k acc => scan_step d L k0_t18_loop offs18 inb18 (bgV (F := F)) lanes X2_2 (scanRows d L (hitV (F := F)) X2_2 18 (scanRows d L (hitV (F := F)) X1_2 16 (scanRows d L (hitV (F := F)) X0_2 16 (fun _ => bgV (F := F))))) hok18 k acc
  · unfold scanInv; isplitl [Hi]; · iexact Hi
    rw [scanRows_zero]; iexact Hb
  iintro %acc18 HI
  unfold scanInv
  icases HI with ⟨Hi, Hb⟩
  rw [trips18_eq]
  sl_exec
  ihave Hi := (abs_sI (F := F) d L (fun X => HoldsRows d L X (xtv m d) 0 16 (c0 L 2) (by decide) (c0_le L 2)) _ ?hhY0_2) $$ Hi
  case hhY0_2 => exact holds_off38 (F := F) m d L 2 _ _ _
  icases Hi with ⟨%Y0_2, %hY0_2, Hi⟩
  -- loop 19
  have hok19 : ScanOK d L k0_t19_loop offs19 lanes Y0_2 := ⟨trips19, offs19_eq, hlanes, fun r col hr => inRange_of_holds (F := F) m hpre hY0_2 r col (Nat.lt_of_lt_of_le hr k0_t19_abs.2.1)⟩
  first
    | sl_for (scanInv d L (bgV (F := F)) Y0_2 (scanRows d L (bgV (F := F)) X2_2 18 (scanRows d L (hitV (F := F)) X2_2 18 (scanRows d L (hitV (F := F)) X1_2 16 (scanRows d L (hitV (F := F)) X0_2 16 (fun _ => bgV (F := F))))))) $$ [Hi Hb]
    | (rw [wp_bind]; sl_for (scanInv d L (bgV (F := F)) Y0_2 (scanRows d L (bgV (F := F)) X2_2 18 (scanRows d L (hitV (F := F)) X2_2 18 (scanRows d L (hitV (F := F)) X1_2 16 (scanRows d L (hitV (F := F)) X0_2 16 (fun _ => bgV (F := F))))))) $$ [Hi Hb])
  case region => exact fun k acc => scan_step d L k0_t19_loop offs19 inb19 (bgV (F := F)) lanes Y0_2 (scanRows d L (bgV (F := F)) X2_2 18 (scanRows d L (hitV (F := F)) X2_2 18 (scanRows d L (hitV (F := F)) X1_2 16 (scanRows d L (hitV (F := F)) X0_2 16 (fun _ => bgV (F := F)))))) hok19 k acc
  · unfold scanInv; isplitl [Hi]; · iexact Hi
    rw [scanRows_zero]; iexact Hb
  iintro %acc19 HI
  unfold scanInv
  icases HI with ⟨Hi, Hb⟩
  rw [trips19_eq]
  sl_exec
  ihave Hi := (abs_sI (F := F) d L (fun X => HoldsRows d L X (xtv m d) 16 16 (c0 L 2) (by decide) (c0_le L 2)) _ ?hhY1_2) $$ Hi
  case hhY1_2 => exact holds_off11 (F := F) m d L 2 _ _ _
  icases Hi with ⟨%Y1_2, %hY1_2, Hi⟩
  -- loop 20
  have hok20 : ScanOK d L k0_t20_loop offs20 lanes Y1_2 := ⟨trips20, offs20_eq, hlanes, fun r col hr => inRange_of_holds (F := F) m hpre hY1_2 r col (Nat.lt_of_lt_of_le hr k0_t20_abs.2.1)⟩
  first
    | sl_for (scanInv d L (bgV (F := F)) Y1_2 (scanRows d L (bgV (F := F)) Y0_2 16 (scanRows d L (bgV (F := F)) X2_2 18 (scanRows d L (hitV (F := F)) X2_2 18 (scanRows d L (hitV (F := F)) X1_2 16 (scanRows d L (hitV (F := F)) X0_2 16 (fun _ => bgV (F := F)))))))) $$ [Hi Hb]
    | (rw [wp_bind]; sl_for (scanInv d L (bgV (F := F)) Y1_2 (scanRows d L (bgV (F := F)) Y0_2 16 (scanRows d L (bgV (F := F)) X2_2 18 (scanRows d L (hitV (F := F)) X2_2 18 (scanRows d L (hitV (F := F)) X1_2 16 (scanRows d L (hitV (F := F)) X0_2 16 (fun _ => bgV (F := F)))))))) $$ [Hi Hb])
  case region => exact fun k acc => scan_step d L k0_t20_loop offs20 inb20 (bgV (F := F)) lanes Y1_2 (scanRows d L (bgV (F := F)) Y0_2 16 (scanRows d L (bgV (F := F)) X2_2 18 (scanRows d L (hitV (F := F)) X2_2 18 (scanRows d L (hitV (F := F)) X1_2 16 (scanRows d L (hitV (F := F)) X0_2 16 (fun _ => bgV (F := F))))))) hok20 k acc
  · unfold scanInv; isplitl [Hi]; · iexact Hi
    rw [scanRows_zero]; iexact Hb
  iintro %acc20 HI
  unfold scanInv
  icases HI with ⟨Hi, Hb⟩
  rw [trips20_eq]
  sl_exec
  ihave Hb := (Entails.of_eq (congrArg (fun f => ((sBW).view.loc (VT d L) ↦{fullShare} f : sProp 𝕄)) (funext (block_cleared d L (hitV (F := F)) (bgV (F := F)) (xtv m d) (c0 L 2) (c0_le L 2) Y0_2 Y1_2 X2_2 hY0_2 hY1_2 hX2_2 (scanRows d L (hitV (F := F)) X2_2 18 (scanRows d L (hitV (F := F)) X1_2 16 (scanRows d L (hitV (F := F)) X0_2 16 (fun _ => bgV (F := F))))) (block_built d L (hitV (F := F)) (bgV (F := F)) (xtv m d) (c0 L 2) (c0_le L 2) X0_2 X1_2 X2_2 hX0_2 hX1_2 hX2_2))))) $$ Hb
  ihave Hi := (abs_sI (F := F) d L (fun X => HoldsRows d L X (xtv m d) 0 16 (c0 L 3) (by decide) (c0_le L 3)) _ ?hhX0_3) $$ Hi
  case hhX0_3 => exact holds_off38 (F := F) m d L 3 _ _ _
  icases Hi with ⟨%X0_3, %hX0_3, Hi⟩
  -- loop 21
  have hok21 : ScanOK d L k0_t21_loop offs21 lanes X0_3 := ⟨trips21, offs21_eq, hlanes, fun r col hr => inRange_of_holds (F := F) m hpre hX0_3 r col (Nat.lt_of_lt_of_le hr k0_t21_abs.2.1)⟩
  first
    | sl_for (scanInv d L (hitV (F := F)) X0_3 (fun _ => bgV (F := F))) $$ [Hi Hb]
    | (rw [wp_bind]; sl_for (scanInv d L (hitV (F := F)) X0_3 (fun _ => bgV (F := F))) $$ [Hi Hb])
  case region => exact fun k acc => scan_step d L k0_t21_loop offs21 inb21 (hitV (F := F)) lanes X0_3 (fun _ => bgV (F := F)) hok21 k acc
  · unfold scanInv; isplitl [Hi]; · iexact Hi
    rw [scanRows_zero]; iexact Hb
  iintro %acc21 HI
  unfold scanInv
  icases HI with ⟨Hi, Hb⟩
  rw [trips21_eq]
  sl_exec
  ihave Hi := (abs_sI (F := F) d L (fun X => HoldsRows d L X (xtv m d) 16 16 (c0 L 3) (by decide) (c0_le L 3)) _ ?hhX1_3) $$ Hi
  case hhX1_3 => exact holds_off11 (F := F) m d L 3 _ _ _
  icases Hi with ⟨%X1_3, %hX1_3, Hi⟩
  -- loop 22
  have hok22 : ScanOK d L k0_t22_loop offs22 lanes X1_3 := ⟨trips22, offs22_eq, hlanes, fun r col hr => inRange_of_holds (F := F) m hpre hX1_3 r col (Nat.lt_of_lt_of_le hr k0_t22_abs.2.1)⟩
  first
    | sl_for (scanInv d L (hitV (F := F)) X1_3 (scanRows d L (hitV (F := F)) X0_3 16 (fun _ => bgV (F := F)))) $$ [Hi Hb]
    | (rw [wp_bind]; sl_for (scanInv d L (hitV (F := F)) X1_3 (scanRows d L (hitV (F := F)) X0_3 16 (fun _ => bgV (F := F)))) $$ [Hi Hb])
  case region => exact fun k acc => scan_step d L k0_t22_loop offs22 inb22 (hitV (F := F)) lanes X1_3 (scanRows d L (hitV (F := F)) X0_3 16 (fun _ => bgV (F := F))) hok22 k acc
  · unfold scanInv; isplitl [Hi]; · iexact Hi
    rw [scanRows_zero]; iexact Hb
  iintro %acc22 HI
  unfold scanInv
  icases HI with ⟨Hi, Hb⟩
  rw [trips22_eq]
  sl_exec
  ihave Hi := (abs_sI (F := F) d L (fun X => HoldsRows d L X (xtv m d) 32 18 (c0 L 3) (by decide) (c0_le L 3)) _ ?hhX2_3) $$ Hi
  case hhX2_3 => exact holds_off20 (F := F) m d L 3 _ _ _
  icases Hi with ⟨%X2_3, %hX2_3, Hi⟩
  -- loop 23
  have hok23 : ScanOK d L k0_t23_loop offs23 lanes X2_3 := ⟨trips23, offs23_eq, hlanes, fun r col hr => inRange_of_holds (F := F) m hpre hX2_3 r col (Nat.lt_of_lt_of_le hr k0_t23_abs.2.1)⟩
  first
    | sl_for (scanInv d L (hitV (F := F)) X2_3 (scanRows d L (hitV (F := F)) X1_3 16 (scanRows d L (hitV (F := F)) X0_3 16 (fun _ => bgV (F := F))))) $$ [Hi Hb]
    | (rw [wp_bind]; sl_for (scanInv d L (hitV (F := F)) X2_3 (scanRows d L (hitV (F := F)) X1_3 16 (scanRows d L (hitV (F := F)) X0_3 16 (fun _ => bgV (F := F))))) $$ [Hi Hb])
  case region => exact fun k acc => scan_step d L k0_t23_loop offs23 inb23 (hitV (F := F)) lanes X2_3 (scanRows d L (hitV (F := F)) X1_3 16 (scanRows d L (hitV (F := F)) X0_3 16 (fun _ => bgV (F := F)))) hok23 k acc
  · unfold scanInv; isplitl [Hi]; · iexact Hi
    rw [scanRows_zero]; iexact Hb
  iintro %acc23 HI
  unfold scanInv
  icases HI with ⟨Hi, Hb⟩
  rw [trips23_eq]
  sl_exec
  -- block 3 written out
  ihave Ho3 := (Entails.of_eq (out_block (F := F) m d L 3 _ _ _ (scanRows d L (hitV (F := F)) X2_3 18 (scanRows d L (hitV (F := F)) X1_3 16 (scanRows d L (hitV (F := F)) X0_3 16 (fun _ => bgV (F := F))))) ?hP3 ?hB3)) $$ Ho3
  case hP3 => rfl
  case hB3 => exact fun j => (block_built d L (hitV (F := F)) (bgV (F := F)) (xtv m d) (c0 L 3) (c0_le L 3) X0_3 X1_3 X2_3 hX0_3 hX1_3 hX2_3 j).trans (outT_block (hitV (F := F)) (bgV (F := F)) (xtv m d) (c0 L 3) (c0_le L 3) j).symm
  rw [wp_ret]
  imodintro
  unfold tdRes
  rw [show (Finset.univ : Finset (Fin 4)) = {0, 1, 2, 3} by decide, SparseCore.bigSep_insert' (by decide), SparseCore.bigSep_insert' (by decide), SparseCore.bigSep_insert' (by decide), bigSep_singleton]
  isplitl [Ht Ho0 Ho1 Ho2 Ho3]
  · isplitl [Ht]; · iapply (Entails.of_eq (pts_tV (F := F) d L _ _)); iexact Ht
    isplitl [Ho0]; · iexact Ho0
    isplitl [Ho1]; · iexact Ho1
    isplitl [Ho2]; · iexact Ho2
    iexact Ho3
  isplitl [Hi Hb Hrest]
  · isplitl [Hi]; · iexists _; iapply (Entails.of_eq (pts_sI (F := F) d L _)); iexact Hi
    isplitl [Hb]; · iexists _; iapply (Entails.of_eq (pts_sB (F := F) d L _)); iexact Hb
    iexact Hrest
  isplitl [Hs0 Hs1 Hs2 Hs3 Hs4 Hs5 Hs6 Hs7 Hs8 Hs9 Hs10 Hs11 Hs12 Hs13 Hs14 Hs15 Hs16 Hs17 Hs18 Hs19 Hs20 Hs21]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hs20]; · iexact Hs20
    iexact Hs21
  iexists _; isplitr
  rotate_left
  · iexact HO
  · ipureintro
    intro p hp
    repeat (rcases Finset.mem_insert.mp hp with h | hp; · exact .inr (h ▸ rfl))
    exact .inl hp

end Cert.Proof.KB

end
-- ==== Proof.BSplit.lean ====
/-
  The transposed result as 128 column blocks, and the thirty-two read shares of the transposed labels.

  The transposed result (1000 x 16384) is cut along its second axis into 128 blocks of 128 columns. The block a subcore
  slices as its block t is the block numbered 8 s + 4 c + t (s the subcore, c the SparseCore): its first column is
  1024 s + 512 c + 128 t. So the 128 blocks are exactly the four blocks of each of the thirty-two subcores, and the whole
  array, held at ONE function, is the separating conjunction of the subcores' blocks held at that function. Likewise the
  thirty-two read tokens of the transposed labels are one per subcore, token 16 c + s.
-/
import proofs.«211736_g82076825026625_cont_sun_c4_101_27_alg».proof.Proof.BCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The column blocks -/

theorem cdiv : 128 ∣ S1000x16384.size 1 := ⟨128, rfl⟩
/-- Column block p of 128: columns 128 p .. 128 p + 127, every row. -/
abbrev colPart (p : Fin 128) : Rect S1000x16384 := Rect.part (s := S1000x16384) (a₀ := 1) cdiv p
abbrev colSet (p : Fin 128) : Finset S1000x16384.Idx := (colPart p).set

theorem blkNo_lt (L : grid0.Coords) (t : Fin 4) : 8 * (L 1).val + 4 * (L 0).val + t.val < 128 := by
  have h0 : (L 0).val < 2 := (L 0).isLt
  have h1 : (L 1).val < 16 := (L 1).isLt
  have h2 := t.isLt
  omega
/-- The number of block t of the subcore at L. -/
def blkNo (L : grid0.Coords) (t : Fin 4) : Fin 128 := ⟨8 * (L 1).val + 4 * (L 0).val + t.val, blkNo_lt L t⟩

theorem unit_congr {s : Shape} {off off' size size' : Fin s.rank → Nat} (ho : off = off') (hs : size = size')
    {inb : ∀ a, off a + size a ≤ s.size a} {inb' : ∀ a, off' a + size' a ≤ s.size a} :
    Rect.unit (s := s) off size inb = Rect.unit (s := s) off' size' inb' := by
  subst ho; subst hs; rfl

/-- The rectangle the body slices is the column block of that number. -/
theorem oRect_eq (L : grid0.Coords) (t : Fin 4) : oRect L t = colPart (blkNo L t) := by
  refine unit_congr ?_ ?_
  · rw [k0_off29_eq]
    funext a
    match a with
    | ⟨0, _⟩ => show 0 = 0 * 1000; rfl
    | ⟨1, _⟩ =>
      show 1024 * (L 1).val + 512 * (L 0).val + 128 * t.val = (8 * (L 1).val + 4 * (L 0).val + t.val) * (16384 / 128)
      omega
  · funext a
    match a with
    | ⟨0, _⟩ => rfl
    | ⟨1, _⟩ => rfl

theorem oBlkSet_eq (L : grid0.Coords) (t : Fin 4) : oBlkSet L t = colSet (blkNo L t) := by
  show ((View.whole (main_v1_scv : Ref sig .scVector)).slice (oRect L t)).set = _
  rw [View.set_slice, oRect_eq]; exact Finset.map_refl

theorem cols_disjoint : ∀ p ∈ (Finset.univ : Finset (Fin 128)), ∀ p' ∈ (Finset.univ : Finset (Fin 128)), p ≠ p' → Disjoint (colSet p) (colSet p') :=
  fun _ _ _ _ h => Rect.part_disjoint cdiv h
theorem cols_cover : (Finset.univ : Finset (Fin 128)).biUnion colSet = Finset.univ := Rect.biUnion_part cdiv

/-- The transposed result whole, at one function, is its 128 column blocks at that function. -/
theorem oPts_cols (d : Dev nD) (f : Buf (Elt F) (oLoc d)) :
    (oLoc d ↦{fullShare} f : sProp 𝕄) = bigSep Finset.univ fun p : Fin 128 => oLoc d ↦[colSet p]{fullShare} f := by
  rw [← pointsTo_biUnion Finset.univ (ℓ := oLoc d) colSet cols_disjoint, cols_cover]; try rfl

/-! ## Numbering by SparseCore, subcore and block -/

/-- The grid coordinates of subcore i of SparseCore c. -/
def LL (c : Fin 2) (i : Fin 16) : grid0.Coords :=
  fun | 0 => c | 1 => i | ⟨_ + 2, h⟩ => absurd h (Nat.not_lt.2 (Nat.le_add_left _ _))

theorem Lof_eq (c : Fin ((K (F := F)).nCore 0)) (i : Fin ((K (F := F)).nSub 0)) :
    Lof (F := F) c i = LL (Fin.cast nCore_zero c) (Fin.cast nSub_zero i) := rfl

/-- Block 8 i + 4 c + t is block t of subcore i of SparseCore c. -/
def blkEquiv : (Fin 2 × Fin 16) × Fin 4 ≃ Fin 128 where
  toFun x := ⟨8 * x.1.2.val + 4 * x.1.1.val + x.2.val, by
    have := x.1.1.isLt; have := x.1.2.isLt; have := x.2.isLt; omega⟩
  invFun p := ((⟨p.val / 4 % 2, Nat.mod_lt _ (by decide)⟩, ⟨p.val / 8, by have := p.isLt; omega⟩), ⟨p.val % 4, Nat.mod_lt _ (by decide)⟩)
  left_inv x := by
    obtain ⟨⟨c, i⟩, t⟩ := x
    have := c.isLt; have := i.isLt; have := t.isLt
    refine Prod.ext (Prod.ext (Fin.ext ?_) (Fin.ext ?_)) (Fin.ext ?_)
    · show (8 * i.val + 4 * c.val + t.val) / 4 % 2 = c.val; omega
    · show (8 * i.val + 4 * c.val + t.val) / 8 = i.val; omega
    · show (8 * i.val + 4 * c.val + t.val) % 4 = t.val; omega
  right_inv p := by
    have := p.isLt
    refine Fin.ext ?_
    show 8 * (p.val / 8) + 4 * (p.val / 4 % 2) + p.val % 4 = p.val
    omega

/-- Token 16 c + i is subcore i of SparseCore c's. -/
def tokEquiv : Fin 2 × Fin 16 ≃ Fin 32 where
  toFun x := ⟨x.1.val * 16 + x.2.val, by have := x.1.isLt; have := x.2.isLt; omega⟩
  invFun k := (⟨k.val / 16, by have := k.isLt; omega⟩, ⟨k.val % 16, Nat.mod_lt _ (by decide)⟩)
  left_inv x := by
    obtain ⟨c, i⟩ := x
    have := c.isLt; have := i.isLt
    refine Prod.ext (Fin.ext ?_) (Fin.ext ?_)
    · show (c.val * 16 + i.val) / 16 = c.val; omega
    · show (c.val * 16 + i.val) % 16 = i.val; omega
  right_inv k := by
    have := k.isLt
    refine Fin.ext ?_
    show k.val / 16 * 16 + k.val % 16 = k.val
    omega

theorem blkNo_LL (c : Fin 2) (i : Fin 16) (t : Fin 4) : blkNo (LL c i) t = blkEquiv ((c, i), t) := rfl
theorem tok_LL (c : Fin 2) (i : Fin 16) : tok (LL c i) = Transfers.shareTok fullShare 32 (tokEquiv (c, i)) := rfl

/-- A family over the call's SparseCores and their subcores, read over the literal index types. -/
theorem bigSep_grid (Φ : Fin 2 → Fin 16 → sProp 𝕄) :
    (bigSep Finset.univ fun c : Fin ((K (F := F)).nCore 0) => bigSep Finset.univ fun i : Fin ((K (F := F)).nSub 0) =>
        Φ (Fin.cast nCore_zero c) (Fin.cast nSub_zero i))
      = bigSep Finset.univ fun c : Fin 2 => bigSep Finset.univ fun i : Fin 16 => Φ c i :=
  bigSep_congr fun _ _ => bigSep_congr fun _ _ => rfl

/-- A family over the 128 blocks, by SparseCore, subcore and block. -/
theorem bigSep_blks (Φ : Fin 128 → sProp 𝕄) :
    (bigSep Finset.univ fun c : Fin 2 => bigSep Finset.univ fun i : Fin 16 => bigSep Finset.univ fun t : Fin 4 => Φ (blkEquiv ((c, i), t)))
      = bigSep Finset.univ Φ := by
  rw [bigSep_univ_equiv blkEquiv Φ, bigSep_univ_prod, bigSep_univ_prod]
/-- A family over the thirty-two tokens, by SparseCore and subcore. -/
theorem bigSep_toks (Φ : Fin 32 → sProp 𝕄) :
    (bigSep Finset.univ fun c : Fin 2 => bigSep Finset.univ fun i : Fin 16 => Φ (tokEquiv (c, i))) = bigSep Finset.univ Φ := by
  rw [bigSep_univ_equiv tokEquiv Φ, bigSep_univ_prod]

/-! ## What the call takes and hands back -/

/-- The subcores' shares — each its read token of the transposed labels (at g) and its four blocks of the transposed
    result (at f) — are the thirty-two tokens and the transposed result whole at f. -/
theorem shares_eq (d : Dev nD) (g : Buf (Elt F) (tLoc d)) (f : Buf (Elt F) (oLoc d)) :
    (bigSep Finset.univ fun c : Fin ((K (F := F)).nCore 0) => bigSep Finset.univ fun i : Fin ((K (F := F)).nSub 0) =>
        (iprop((tLoc d ↦{tok (Lof (F := F) c i)} g) ∗ bigSep Finset.univ fun t : Fin 4 => oLoc d ↦[oBlkSet (Lof (F := F) c i) t]{fullShare} f) : sProp 𝕄))
      = iprop((bigSep Finset.univ fun k : Fin 32 => tLoc d ↦{Transfers.shareTok fullShare 32 k} g) ∗ oLoc d ↦{fullShare} f) := by
  rw [oPts_cols, ← bigSep_blks (F := F) (fun p => (oLoc d ↦[colSet p]{fullShare} f : sProp 𝕄)),
    ← bigSep_toks (F := F) (fun k => (tLoc d ↦{Transfers.shareTok fullShare 32 k} g : sProp 𝕄)),
    ← bigSep_grid (F := F) (fun c i => (tLoc d ↦{Transfers.shareTok fullShare 32 (tokEquiv (c, i))} g : sProp 𝕄)),
    ← bigSep_grid (F := F) (fun c i => bigSep Finset.univ fun t : Fin 4 => (oLoc d ↦[colSet (blkEquiv ((c, i), t))]{fullShare} f : sProp 𝕄)),
    ← bigSep_sep']
  refine bigSep_congr fun c _ => ?_
  rw [← bigSep_sep']
  refine bigSep_congr fun i _ => ?_
  rw [Lof_eq, tok_LL,
    show (fun t : Fin 4 => (oLoc d ↦[oBlkSet (LL (Fin.cast nCore_zero c) (Fin.cast nSub_zero i)) t]{fullShare} f : sProp 𝕄))
        = fun t => oLoc d ↦[colSet (blkEquiv ((Fin.cast nCore_zero c, Fin.cast nSub_zero i), t))]{fullShare} f
      from funext fun t => by rw [oBlkSet_eq, blkNo_LL]]

variable [FloatOps F]
variable (m : (ℓ : Loc nD τ sig) → Buf (Elt F) ℓ)

theorem P_st (d : Dev nD) (c : Fin ((K (F := F)).nCore 0)) :
    (P m).st 0 d c = bigSep Finset.univ fun i : Fin ((K (F := F)).nSub 0) => goRes m d (Lof c i) := rfl
theorem P_dn (d : Dev nD) (c : Fin ((K (F := F)).nCore 0)) :
    (P m).dn 0 d c = bigSep Finset.univ fun i : Fin ((K (F := F)).nSub 0) => tdRes m d (Lof c i) := rfl
theorem P_go (d : Dev nD) (c : Fin ((K (F := F)).nCore 0)) (i : Fin ((K (F := F)).nSub 0)) : (P m).go 0 d c i = goRes m d (Lof c i) := rfl
theorem P_td (d : Dev nD) (c : Fin ((K (F := F)).nCore 0)) (i : Fin ((K (F := F)).nSub 0)) : (P m).td 0 d c i = tdRes m d (Lof c i) := rfl

/-- What the call takes for its SparseCores: the tokens at the transposed labels, the transposed result whole as launched. -/
theorem st0_eq (d : Dev nD) :
    (bigSep Finset.univ fun c : Fin ((K (F := F)).nCore 0) => (P m).st 0 d c)
      = iprop((bigSep Finset.univ fun k : Fin 32 => tLoc d ↦{Transfers.shareTok fullShare 32 k} xtv m d) ∗ oLoc d ↦{fullShare} m (oLoc d)) := by
  rw [← shares_eq]
  refine bigSep_congr fun c _ => ?_
  rw [P_st]
  refine bigSep_congr fun i _ => ?_
  unfold goRes; rfl
/-- What it hands back: the tokens, the transposed result whole at what the kernel computes. -/
theorem dn0_eq (d : Dev nD) :
    (bigSep Finset.univ fun c : Fin ((K (F := F)).nCore 0) => (P m).dn 0 d c)
      = iprop((bigSep Finset.univ fun k : Fin 32 => tLoc d ↦{Transfers.shareTok fullShare 32 k} xtv m d) ∗ oLoc d ↦{fullShare} outv m d) := by
  rw [← shares_eq]
  refine bigSep_congr fun c _ => ?_
  rw [P_dn]
  refine bigSep_congr fun i _ => ?_
  unfold tdRes; rfl

end Cert.Proof.KB

end
-- ==== Proof.BMain.lean ====
/-
  @main on the TensorCore, around the one call.

  @main transposes the labels, starts the two SparseCores and waits for them, and transposes what they wrote. Before the
  call the transposed labels are split into thirty-two read tokens (one per subcore; the remainder stays with @main) and
  the transposed result, whole and as launched, is its 128 column blocks, four per subcore. After the call every block
  holds the one function the kernel computes, so the blocks are the transposed result whole at that function, and the
  last operation leaves its transpose in the result. The labels are never written.
-/
import proofs.«211736_g82076825026625_cont_sun_c4_101_27_alg».proof.Proof.BSplit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## A SparseCore's operands are its subcores' shares -/

theorem vecSplit : (K (F := F)).VecSplit' (P m) 0 := by
  intro d c
  show (bigSep Finset.univ fun i : Fin ((K (F := F)).nSub 0) => goRes m d (Lof c i)) ⊢ |={Set.univ}=> iprop(
      (bigSep Finset.univ fun i : Fin ((K (F := F)).nSub 0) => goRes m d (Lof c i))
      ∗ ((bigSep Finset.univ fun i : Fin ((K (F := F)).nSub 0) => tdRes m d (Lof c i))
          -∗ bigSep Finset.univ fun i : Fin ((K (F := F)).nSub 0) => tdRes m d (Lof c i)))
  iintro H; imodintro
  isplitl [H]; · iexact H
  iintro H; iexact H

/-! ## The launch element: the handshakes' rounds; the counters are not used -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The two host operations -/

abbrev x' : DevRef τ sig := Proc.devRef .tc (main_arg0 : Ref sig .tc)
abbrev t' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The labels transposed; the transposed result transposed. -/
abbrev opT1 : HloOp τ sig (Elt F) :=
  StableHlo.unary main_arg0 main_v0 ((transpose S50x16384 [1, 0] · transposes_S16384x50_S50x16384_1_0) : (⟨S16384x50, .i32⟩ : BufTy).Contents (Elt F) → (⟨S50x16384, .i32⟩ : BufTy).Contents (Elt F))
abbrev opT2 : HloOp τ sig (Elt F) :=
  StableHlo.unary main_v1 main_v2 ((transpose S16384x1000 [1, 0] · transposes_S1000x16384_S16384x1000_1_0) : (⟨S1000x16384, .f32⟩ : BufTy).Contents (Elt F) → (⟨S16384x1000, .f32⟩ : BufTy).Contents (Elt F))

abbrev Sxt : Finset (DevRef τ sig) := {x', t'}
abbrev Sor : Finset (DevRef τ sig) := {o', r'}

theorem held_Sxt (d : Dev nD) (W : Valuation τ sig (Elt F)) :
    (held (T d) Sxt W : sProp 𝕄) = iprop((xLoc d ↦{fullShare} W x') ∗ tLoc d ↦{fullShare} W t') := by
  unfold held Sxt
  rw [SparseCore.bigSep_insert' (by decide), bigSep_singleton]
theorem held_Sor (d : Dev nD) (W : Valuation τ sig (Elt F)) :
    (held (T d) Sor W : sProp 𝕄) = iprop((oLoc d ↦{fullShare} W o') ∗ rLoc d ↦{fullShare} W r') := by
  unfold held Sor
  rw [SparseCore.bigSep_insert' (by decide), bigSep_singleton]

theorem hT1 : (opT1 (F := F)).bufs ⊆ Sxt := show ({x', t'} : Finset (DevRef τ sig)) ⊆ Sxt by decide
theorem hT2 : (opT2 (F := F)).bufs ⊆ Sor := show ({o', r'} : Finset (DevRef τ sig)) ⊆ Sor by decide

/-- The result: the transpose of what the kernel computes. -/
abbrev resv (d : Dev nD) : Buf (Elt F) (rLoc d) :=
  transpose S16384x1000 [1, 0] (outv m d) transposes_S1000x16384_S16384x1000_1_0

/-- The launch valuation; after the call, the transposed result at what the kernel computes. -/
def V0 (d : Dev nD) : Valuation τ sig (Elt F) := fun b => m (d, b)
def V1 (d : Dev nD) : Valuation τ sig (Elt F) := Function.update (V0 m d) o' (outv m d)

theorem V1_o (d : Dev nD) : V1 m d o' = outv m d := Function.update_self _ _ _
theorem V1_r (d : Dev nD) : V1 m d r' = m (rLoc d) := Function.update_of_ne (show r' ≠ o' by decide) _ _

theorem T1_x (d : Dev nD) : (opT1 (F := F)).result (V0 m d) x' = m (xLoc d) :=
  (opT1 (F := F)).result_of_not_mem (V0 m d) (b := x') (show x' ∉ ({t'} : Finset (DevRef τ sig)) by decide)
theorem T1_t (d : Dev nD) : (opT1 (F := F)).result (V0 m d) t' = xtv m d :=
  StableHlo.unary_result main_arg0 main_v0 _ _ _ (V0 m d)
theorem T2_r (d : Dev nD) : (opT2 (F := F)).result (V1 m d) r' = resv m d := by
  rw [show (opT2 (F := F)).result (V1 m d) r' = transpose S16384x1000 [1, 0] (V1 m d o') transposes_S1000x16384_S16384x1000_1_0 from
    StableHlo.unary_result main_v1 main_v2 _ _ _ (V1 m d), V1_o]

theorem held_T1 (d : Dev nD) :
    (held (T d) Sxt ((opT1 (F := F)).result (V0 m d)) : sProp 𝕄) = iprop((xLoc d ↦{fullShare} m (xLoc d)) ∗ tLoc d ↦{fullShare} xtv m d) := by
  rw [held_Sxt, T1_x, T1_t]
theorem held_T2 (d : Dev nD) :
    (held (T d) Sor ((opT2 (F := F)).result (V1 m d)) : sProp 𝕄)
      = iprop((oLoc d ↦{fullShare} (opT2 (F := F)).result (V1 m d) o') ∗ rLoc d ↦{fullShare} resv m d) := by
  rw [held_Sor, T2_r]

/-! ## @main -/

theorem unscopedBufs_eq (d : Dev nD) (W : (b : Ref sig .tc) → Buf (Elt F) ((d.tc : Thread nD τ).loc b)) :
    (unscopedBufs d W : sProp 𝕄)
      = iprop((xLoc d ↦{fullShare} W main_arg0) ∗ (tLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- What @main leaves the claim: the labels as launched, the result at the transpose of what the kernel computes. -/
abbrev FIN (d : Dev nD) : sProp 𝕄 := iprop((xLoc d ↦{fullShare} m (xLoc d)) ∗ rLoc d ↦{fullShare} resv m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ht, Ho, Hr⟩, -, -⟩, -⟩
  -- the labels transposed
  iapply (wp_hlo_within 𝒱 (SparseCore.T d) none Set.univ (op := opT1) (S := Sxt) hT1 (V := V0 m d)) $$ [Hb Hx Ht]
  · isplitl [Hb]; · iexact Hb
    rw [held_Sxt]
    isplitl [Hx]; · iexact Hx
    iexact Ht
  iintro ⟨Hb, Hheld⟩
  ihave Hh := (Entails.of_eq (held_T1 (F := F) m d)) $$ Hheld
  icases Hh with ⟨Hx, Ht⟩
  rw [wp_ret]; imodintro
  -- a read token of the transposed labels per subcore; the remainder stays here
  ihave Htk := (Transfers.pointsTo_toks_split (ℓ := tLoc d) (S := Finset.univ) (f := xtv m d) fullShare 32) $$ Ht
  icases Htk with ⟨-, Htoks⟩
  -- the call: the tokens and the transposed result's blocks to the subcores and back
  iapply ((K (F := F)).wp_run (D (F := F)) 𝒱 (EH := EH) (P := P m) κ d 0) $$ [Hst Htoks Ho Hb Hx Hr]
  isplitr; · iexact Hctx
  isplitl [Hst]; · iexact Hst
  isplitl [Htoks Ho]
  · rw [st0_eq]
    isplitl [Htoks]; · iexact Htoks
    iexact Ho
  iintro ⟨Hst, Hdn⟩
  ihave Hdn' := (Entails.of_eq (dn0_eq m d)) $$ Hdn
  icases Hdn' with ⟨-, Ho⟩
  -- the transposed result transposed
  iapply (wp_hlo_within 𝒱 (SparseCore.T d) none Set.univ (op := opT2) (S := Sor) hT2 (V := V1 m d)) $$ [Hb Ho Hr]
  · isplitl [Hb]; · iexact Hb
    rw [held_Sor, V1_o, V1_r]
    isplitl [Ho]; · iexact Ho
    iexact Hr
  iintro ⟨Hb, Hheld⟩
  ihave Hh := (Entails.of_eq (held_T2 (F := F) m d)) $$ Hheld
  icases Hh with ⟨-, Hr⟩
  rw [wp_ret]; imodintro; imodintro
  isplitl [Hst]; · iexact Hst
  isplitl [Hx]; · iexact Hx
  iexact Hr

/-! ## The final memory -/

def fq (d : Dev nD) (s' : Phys nD τ sig (Elt F)) : Prop := s'.mem.mem (rLoc d) = resv m d ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := rLoc d) (I := Finset.univ) (q := fullShare) (f := resv m d)) $$ [HSI Hr]
  · isplitl [HSI] <;> iassumption
  icases H with %h2
  ipureintro
  have e1 : s'.mem.mem (xLoc d) = m (xLoc d) := funext fun (i : Idx (xLoc d)) => h1 i (Finset.mem_univ i)
  have e2 : s'.mem.mem (rLoc d) = resv m d := funext fun (i : Idx (rLoc d)) => h2 i (Finset.mem_univ i)
  exact ⟨e2, e1⟩

/-- The claim about the final memory: the result is the transpose of what the kernel computes; the labels are unchanged. -/
def QC : PUnit × MemSt nD τ sig (Elt F) → Prop := fun r =>
  ∀ c : Dev nD, r.2.mem (rLoc c) = transpose S16384x1000 [1, 0] (outv m c) transposes_S1000x16384_S16384x1000_1_0 ∧ r.2.mem (xLoc c) = m (xLoc c)

end Cert.Proof.KB

end
-- ==== Proof.BLaunch.lean ====
/-
  The program's run from the subcores' task: every subcore, at its grid coordinates, meets the task's obligation;
  a SparseCore's operands are its subcores' shares; @main deals the tokens and the blocks and reads the result.
-/
import proofs.«211736_g82076825026625_cont_sun_c4_101_27_alg».proof.Proof.BTile
import proofs.«211736_g82076825026625_cont_sun_c4_101_27_alg».proof.Proof.BMain

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The subcores' obligation -/

/-- The body table at a vector subcore: the task at that subcore's grid coordinates, on the whole arrays and its scratch. -/
theorem defs₀_vector (c : Fin τ.nSC) (s : Fin τ.nSub) :
    defs₀ (F := F) (.scVector c s) 0 ()
      = SparseCore.onTile hcore0 hsub0 (fun c s => cc0__body (LL c s)
          tV (Memref.isWhole_whole _) oV (Memref.isWhole_whole _) sI (Memref.isWhole_whole _) sB (Memref.isWhole_whole _)
          cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21) ⟨⟩ c s := rfl

/-- The task leaves no wait of the call's own behind; the obligation allows those too. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- the task owes nothing for a protocol of its own
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hF hpre d (Lof c i) O W hO).trans (wp_mono frame _ _ fun _ => obl_post)

/-! ## The program's run -/

theorem run_main [∀ e, Nonempty (Elt F e)] (hpre : PreOK m) :
    θ_run (Cert.Kernel.defs (F := F)) (Cert.Kernel.threads (F := F)) ⟨m, fun _ => 0, ρ⟩
      (fun r => ∀ c : Dev nD, r.2.mem (rLoc c) = transpose S16384x1000 [1, 0] (outv m c) transposes_S1000x16384_S16384x1000_1_0
        ∧ r.2.mem (xLoc c) = m (xLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.BClaims.lean ====
/-
  The word-level kernel runs to the end and leaves the labels as it found them.

  Under the precondition every label is a class number; the kernel as printed then runs exactly as its idealization
  does — the same launch, the same body over the hit word itself — and writes the labels nowhere.
-/
import proofs.«211736_g82076825026625_cont_sun_c4_101_27_alg».proof.Proof.BLaunch
import proofs.«211736_g82076825026625_cont_sun_c4_101_27_alg».proof.Proof.RefRun

noncomputable section

namespace Cert.Proof.KB

open Cert.Kernel

open Idealize.ShloMosaic Idealize.SL.Sem

/-- The precondition, entry by entry, is what the kernel's run asks of the launch memory. -/
theorem preOK_of_pre (m : (ℓ : Loc nD τ sig) → Buf (Elt Bits) ℓ) (h : Cert.Pre_Kernel m) : PreOK (F := Bits) m :=
  fun d j => Cert.Proof.RefRun.inRange_of_pre (F := Bits) _ (h d) j

/-- The kernel as printed runs to the end and leaves the labels as it found them. -/
theorem frame_k : Cert.frame_Kernel := fun m g hpre =>
  (θ_run Cert.Kernel.defs _ _).mono (fun _ h c => (h c).2) (run_main (F := Bits) m g (preOK_of_pre m hpre))

end Cert.Proof.KB

end
-- ==== Proof.lean ====
/-
  Label-smoothed multi-hot encoding: a SparseCore kernel against its jnp reference.

  For 16384 samples of 50 class labels each (classes 0..999), the reference scatters a one at every (sample, label) pair
  of a 16384 x 1000 array of zeros, scales by the f32 nearest 0.9 and adds the f32 nearest 1e-4. The kernel works on the
  transposed labels: each of its 32 vector subcores owns 512 samples, four blocks of 128; for a block it fills a
  1000 x 128 scratch with the floor value, reads the block's fifty label rows in three pieces and, row by row, stores the
  hit value at (label, sample) by indexed stores of sixteen lanes; the block is copied out, then the same rows are
  stored again with the floor value, which returns the scratch to the floor value everywhere for the next block. The
  result is transposed back.

  On the extended reals the two agree entry by entry: an entry whose class is among the sample's labels holds
  1 * (15099494 / 2^24) + 13743895 / 2^37 = 123708798743 / 2^37 — the value the kernel's one folded word is read as —,
  every other entry 0 * (15099494 / 2^24) + 13743895 / 2^37, the floor word's value. The precondition (labels between 0
  and 999) is what makes every indexed store land inside the scratch, so that the kernel runs to the end at all.

  The modules: SmoothConsts (the literals), HitNamed (the folded word; the one idealization), LibScatterSet /
  LibScatterConst / RefValue / RefRun (the reference, entry by entry, and its run), LibStoreIdxConst / ScanMath (an
  indexed store of one value; one row of labels as eight such stores), KCommon … KClaims (the idealized kernel: what a
  subcore is handed and hands back, one scan trip, a block built and cleared, a subcore's whole task, the launch, the
  value, the two claims about it), BCommon … BClaims (the same run for the kernel as printed).
-/
import proofs.«211736_g82076825026625_cont_sun_c4_101_27_alg».proof.Defs
import proofs.«211736_g82076825026625_cont_sun_c4_101_27_alg».proof.Proof.Gen.Kernel
import proofs.«211736_g82076825026625_cont_sun_c4_101_27_alg».proof.Proof.Gen.Kernel.Skeleton
import proofs.«211736_g82076825026625_cont_sun_c4_101_27_alg».proof.Proof.Gen.KernelIdeal
import proofs.«211736_g82076825026625_cont_sun_c4_101_27_alg».proof.Proof.Gen.KernelIdeal.Skeleton
import proofs.«211736_g82076825026625_cont_sun_c4_101_27_alg».proof.Proof.Gen.ReferenceIdeal
import proofs.«211736_g82076825026625_cont_sun_c4_101_27_alg».proof.Proof.Gen.Pre_input_domain
import proofs.«211736_g82076825026625_cont_sun_c4_101_27_alg».proof.Proof.HitNamed
import proofs.«211736_g82076825026625_cont_sun_c4_101_27_alg».proof.Proof.RefRun
import proofs.«211736_g82076825026625_cont_sun_c4_101_27_alg».proof.Proof.KClaims
import proofs.«211736_g82076825026625_cont_sun_c4_101_27_alg».proof.Proof.BClaims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_input_domain.Gen.facts,
    Cert.Proof.KB.frame_k, Cert.Proof.KI.frame_ki, Cert.Proof.RefRun.frame_ri, Cert.Proof.HitNamed.preserves,
    Cert.Proof.KI.algebraic⟩

end Cert.Proof

end
